-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x50 : Shape := ⟨2, ![4096, 50]⟩
abbrev S100000x128 : Shape := ⟨2, ![100000, 128]⟩
abbrev S128x512 : Shape := ⟨2, ![128, 512]⟩
abbrev S512 : Shape := ⟨1, ![512]⟩
abbrev S512x512 : Shape := ⟨2, ![512, 512]⟩
abbrev S512x128 : Shape := ⟨2, ![512, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S4096x50 : S_.BroadcastsInDim S4096x50 (![] : Fin 0 → Fin S4096x50.rank)
  reducesTo_S4096x50_S_d0_1 : S4096x50.ReducesTo [0, 1] S_

variable [Facts]

def fn_part2 {F : FTy → Type} [FloatOps F] (main_arg0 : IVec S4096x50 32) (main_v33 : IVec S_ 1) : IVec S_ 1 :=
  let main_c_12 : IVec S_ 32 := constantI S_ 32 0#32
  let main_v34 : IVec S4096x50 32 := broadcastInDim S4096x50 ![] bcast_S_S4096x50 main_c_12
  let main_v35 : IVec S4096x50 1 := cmpi .sge main_arg0 main_v34
  let main_c_13 : IVec S_ 32 := constantI S_ 32 99999#32
  let main_v36 : IVec S4096x50 32 := broadcastInDim S4096x50 ![] bcast_S_S4096x50 main_c_13
  let main_v37 : IVec S4096x50 1 := cmpi .sle main_arg0 main_v36
  let main_v38 : IVec S4096x50 1 := andi main_v35 main_v37
  let main_c_14 : IVec S_ 1 := constantI S_ 1 1#1
  let main_v39 : IVec S_ 1 := (fun x v => Host.reduce IntOp.andi x v reducesTo_S4096x50_S_d0_1 h_S_) main_v38 main_c_14
  let main_v40 : IVec S_ 1 := andi main_v33 main_v39
  main_v40

def fn_part1 {F : FTy → Type} [FloatOps F] (main_arg0 : IVec S4096x50 32) (main_arg5 : FVec F S512 .f32) (main_arg6 : FVec F S512x128 .f32) (main_arg7 : FVec F S128 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x128 .f32 := Host.absf main_arg6
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg0 main_v33

def fn {F : FTy → Type} [FloatOps F] (main_arg0 : IVec S4096x50 32) (main_arg1 : FVec F S100000x128 .f32) (main_arg2 : FVec F S128x512 .f32) (main_arg3 : FVec F S512 .f32) (main_arg4 : FVec F S512x512 .f32) (main_arg5 : FVec F S512 .f32) (main_arg6 : FVec F S512x128 .f32) (main_arg7 : FVec F S128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x512 .f32 := Host.absf main_arg2
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg0 main_arg5 main_arg6 main_arg7 main_v13 main_v16
-- ==== Kernel.lean ====
abbrev S4096x50 : Shape := ⟨2, ![4096, 50]⟩
abbrev S100000x128 : Shape := ⟨2, ![100000, 128]⟩
abbrev S128x512 : Shape := ⟨2, ![128, 512]⟩
abbrev S512 : Shape := ⟨1, ![512]⟩
abbrev S512x512 : Shape := ⟨2, ![512, 512]⟩
abbrev S512x128 : Shape := ⟨2, ![512, 128]⟩
abbrev S128 : Shape := ⟨1, ![128]⟩
abbrev S4096x128 : Shape := ⟨2, ![4096, 128]⟩
abbrev S128x50 : Shape := ⟨2, ![128, 50]⟩
abbrev S8x50x128 : Shape := ⟨3, ![8, 50, 128]⟩
abbrev S128x128 : Shape := ⟨2, ![128, 128]⟩
abbrev S8 : Shape := ⟨1, ![8]⟩
abbrev S_ : Shape := ⟨0, ![]⟩
abbrev S1x50x128 : Shape := ⟨3, ![1, 50, 128]⟩
abbrev S50x128 : Shape := ⟨2, ![50, 128]⟩
abbrev S1x50 : Shape := ⟨2, ![1, 50]⟩
abbrev S50 : Shape := ⟨1, ![50]⟩
abbrev S1 : Shape := ⟨1, ![1]⟩
abbrev S16 : Shape := ⟨1, ![16]⟩
abbrev S1x1x16 : Shape := ⟨3, ![1, 1, 16]⟩
abbrev S1x16 : Shape := ⟨2, ![1, 16]⟩
abbrev S1x512 : Shape := ⟨2, ![1, 512]⟩
abbrev S1x128 : Shape := ⟨2, ![1, 128]⟩
abbrev S4096x512 : Shape := ⟨2, ![4096, 512]⟩

abbrev nBuf : Table → Nat
  | .hbm => 16
  | .local .tc .vmem => 8
  | .local .scVector .vmem => 3
  | _ => 0

abbrev bufTy : (tb : Table) → Fin (nBuf tb) → BufTy
  | .hbm, ⟨0, _⟩ => ⟨S4096x50, .i32⟩
  | .hbm, ⟨1, _⟩ => ⟨S100000x128, .f32⟩
  | .hbm, ⟨2, _⟩ => ⟨S128x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x128, .f32⟩
  | .hbm, ⟨7, _⟩ => ⟨S128, .f32⟩
  | .hbm, ⟨8, _⟩ => ⟨S4096x128, .f32⟩
  | .hbm, ⟨9, _⟩ => ⟨S128x512, .bf16⟩
  | .hbm, ⟨10, _⟩ => ⟨S1x512, .f32⟩
  | .hbm, ⟨11, _⟩ => ⟨S512x512, .bf16⟩
  | .hbm, ⟨12, _⟩ => ⟨S1x512, .f32⟩
  | .hbm, ⟨13, _⟩ => ⟨S512x128, .bf16⟩
  | .hbm, ⟨14, _⟩ => ⟨S1x128, .f32⟩
  | .hbm, ⟨15, _⟩ => ⟨S4096x128, .f32⟩
  | .local .tc .vmem, ⟨0, _⟩ => ⟨S4096x128, .f32⟩
  | .local .tc .vmem, ⟨1, _⟩ => ⟨S128x512, .bf16⟩
  | .local .tc .vmem, ⟨2, _⟩ => ⟨S1x512, .f32⟩
  | .local .tc .vmem, ⟨3, _⟩ => ⟨S512x512, .bf16⟩
  | .local .tc .vmem, ⟨4, _⟩ => ⟨S1x512, .f32⟩
  | .local .tc .vmem, ⟨5, _⟩ => ⟨S512x128, .bf16⟩
  | .local .tc .vmem, ⟨6, _⟩ => ⟨S1x128, .f32⟩
  | .local .tc .vmem, ⟨7, _⟩ => ⟨S4096x128, .f32⟩
  | .local .scVector .vmem, ⟨0, _⟩ => ⟨S128x50, .i32⟩
  | .local .scVector .vmem, ⟨1, _⟩ => ⟨S8x50x128, .f32⟩
  | .local .scVector .vmem, ⟨2, _⟩ => ⟨S128x128, .f32⟩
  | _, _ => ⟨S4096x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_arg0_scv : Ref sig .scVector := ⟨.hbm, 0, rfl⟩
abbrev main_arg1_scv : Ref sig .scVector := ⟨.hbm, 1, rfl⟩
abbrev main_v0_scv : Ref sig .scVector := ⟨.hbm, 8, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc1_stg7_0 : Ref sig .tc := ⟨.vmem, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_127_r0 : BitVec 32 := 0#32
  ![v2.toNat, 0]
@[reducible] def k0_t1_loop : Scf.Loop 32 :=
  let c0_i32_58 : BitVec 32 := 0#32
  let c128_i32_59 : BitVec 32 := 128#32
  let v59 : BitVec 32 := Scalar.addi c0_i32_58 c128_i32_59
  let c1_i32_60 : BitVec 32 := 1#32
  ⟨c0_i32_58, v59, c1_i32_60⟩
def k0_off2 (k0_t1 : Fin k0_t1_loop.trips) : Fin 3 → Nat :=
  let c0_i32_58 : BitVec 32 := 0#32
  let c1_i32_60 : BitVec 32 := 1#32
  let arg9 : BitVec 32 := Scf.iv c0_i32_58 c1_i32_60 k0_t1
  let c8_i32 : BitVec 32 := 8#32
  let v117 : BitVec 32 := Scalar.remsi arg9 c8_i32
  let c0_i32_128 : BitVec 32 := 0#32
  let c0_i32_129 : BitVec 32 := 0#32
  ![v117.toNat, 0, 0]
def k0_off3 (k0_t1 : Fin k0_t1_loop.trips) : Fin 1 → Nat :=
  let c0_i32_58 : BitVec 32 := 0#32
  let c1_i32_60 : BitVec 32 := 1#32
  let arg9 : BitVec 32 := Scf.iv c0_i32_58 c1_i32_60 k0_t1
  let c8_i32 : BitVec 32 := 8#32
  let v117 : BitVec 32 := Scalar.remsi arg9 c8_i32
  ![v117.toNat]
@[reducible] def k0_t2_loop : Scf.Loop 32 :=
  let c0_i32_140 : BitVec 32 := 0#32
  let c50_i32 : BitVec 32 := 50#32
  let v133 : BitVec 32 := Scalar.addi c0_i32_140 c50_i32
  let c1_i32_141 : BitVec 32 := 1#32
  ⟨c0_i32_140, v133, c1_i32_141⟩
def k0_off4 (k0_t1 : Fin k0_t1_loop.trips) (k0_t2 : Fin k0_t2_loop.trips) : Fin 3 → Nat :=
  let c0_i32_58 : BitVec 32 := 0#32
  let c1_i32_60 : BitVec 32 := 1#32
  let arg9 : BitVec 32 := Scf.iv c0_i32_58 c1_i32_60 k0_t1
  let c8_i32 : BitVec 32 := 8#32
  let v117 : BitVec 32 := Scalar.remsi arg9 c8_i32
  let v176 : Index := Scalar.indexCast v117
  let c0_i32_140 : BitVec 32 := 0#32
  let c1_i32_141 : BitVec 32 := 1#32
  let arg10 : BitVec 32 := Scf.iv c0_i32_140 c1_i32_141 k0_t2
  let v177 : Index := Scalar.indexCast arg10
  let c0_150 : Index := 0#32
  ![v176.toNat, v177.toNat, 0]
def k0_off5 (k0_t1 : Fin k0_t1_loop.trips) (k0_t2 : Fin k0_t2_loop.trips) : Fin 3 → Nat :=
  let c0_i32_58 : BitVec 32 := 0#32
  let c1_i32_60 : BitVec 32 := 1#32
  let arg9 : BitVec 32 := Scf.iv c0_i32_58 c1_i32_60 k0_t1
  let c8_i32 : BitVec 32 := 8#32
  let v117 : BitVec 32 := Scalar.remsi arg9 c8_i32
  let v181 : Index := Scalar.indexCast v117
  let c0_i32_140 : BitVec 32 := 0#32
  let c1_i32_141 : BitVec 32 := 1#32
  let arg10 : BitVec 32 := Scf.iv c0_i32_140 c1_i32_141 k0_t2
  let v182 : Index := Scalar.indexCast arg10
  let c16_151 : Index := 16#32
  ![v181.toNat, v182.toNat, 16]
def k0_off6 (k0_t1 : Fin k0_t1_loop.trips) (k0_t2 : Fin k0_t2_loop.trips) : Fin 3 → Nat :=
  let c0_i32_58 : BitVec 32 := 0#32
  let c1_i32_60 : BitVec 32 := 1#32
  let arg9 : BitVec 32 := Scf.iv c0_i32_58 c1_i32_60 k0_t1
  let c8_i32 : BitVec 32 := 8#32
  let v117 : BitVec 32 := Scalar.remsi arg9 c8_i32
  let v186 : Index := Scalar.indexCast v117
  let c0_i32_140 : BitVec 32 := 0#32
  let c1_i32_141 : BitVec 32 := 1#32
  let arg10 : BitVec 32 := Scf.iv c0_i32_140 c1_i32_141 k0_t2
  let v187 : Index := Scalar.indexCast arg10
  let c32_152 : Index := 32#32
  ![v186.toNat, v187.toNat, 32]
def k0_off7 (k0_t1 : Fin k0_t1_loop.trips) (k0_t2 : Fin k0_t2_loop.trips) : Fin 3 → Nat :=
  let c0_i32_58 : BitVec 32 := 0#32
  let c1_i32_60 : BitVec 32 := 1#32
  let arg9 : BitVec 32 := Scf.iv c0_i32_58 c1_i32_60 k0_t1
  let c8_i32 : BitVec 32 := 8#32
  let v117 : BitVec 32 := Scalar.remsi arg9 c8_i32
  let v191 : Index := Scalar.indexCast v117
  let c0_i32_140 : BitVec 32 := 0#32
  let c1_i32_141 : BitVec 32 := 1#32
  let arg10 : BitVec 32 := Scf.iv c0_i32_140 c1_i32_141 k0_t2
  let v192 : Index := Scalar.indexCast arg10
  let c48_153 : Index := 48#32
  ![v191.toNat, v192.toNat, 48]
def k0_off8 (k0_t1 : Fin k0_t1_loop.trips) (k0_t2 : Fin k0_t2_loop.trips) : Fin 3 → Nat :=
  let c0_i32_58 : BitVec 32 := 0#32
  let c1_i32_60 : BitVec 32 := 1#32
  let arg9 : BitVec 32 := Scf.iv c0_i32_58 c1_i32_60 k0_t1
  let c8_i32 : BitVec 32 := 8#32
  let v117 : BitVec 32 := Scalar.remsi arg9 c8_i32
  let v196 : Index := Scalar.indexCast v117
  let c0_i32_140 : BitVec 32 := 0#32
  let c1_i32_141 : BitVec 32 := 1#32
  let arg10 : BitVec 32 := Scf.iv c0_i32_140 c1_i32_141 k0_t2
  let v197 : Index := Scalar.indexCast arg10
  let c64_154 : Index := 64#32
  ![v196.toNat, v197.toNat, 64]
def k0_off9 (k0_t1 : Fin k0_t1_loop.trips) (k0_t2 : Fin k0_t2_loop.trips) : Fin 3 → Nat :=
  let c0_i32_58 : BitVec 32 := 0#32
  let c1_i32_60 : BitVec 32 := 1#32
  let arg9 : BitVec 32 := Scf.iv c0_i32_58 c1_i32_60 k0_t1
  let c8_i32 : BitVec 32 := 8#32
  let v117 : BitVec 32 := Scalar.remsi arg9 c8_i32
  let v201 : Index := Scalar.indexCast v117
  let c0_i32_140 : BitVec 32 := 0#32
  let c1_i32_141 : BitVec 32 := 1#32
  let arg10 : BitVec 32 := Scf.iv c0_i32_140 c1_i32_141 k0_t2
  let v202 : Index := Scalar.indexCast arg10
  let c80_155 : Index := 80#32
  ![v201.toNat, v202.toNat, 80]
def k0_off10 (k0_t1 : Fin k0_t1_loop.trips) (k0_t2 : Fin k0_t2_loop.trips) : Fin 3 → Nat :=
  let c0_i32_58 : BitVec 32 := 0#32
  let c1_i32_60 : BitVec 32 := 1#32
  let arg9 : BitVec 32 := Scf.iv c0_i32_58 c1_i32_60 k0_t1
  let c8_i32 : BitVec 32 := 8#32
  let v117 : BitVec 32 := Scalar.remsi arg9 c8_i32
  let v206 : Index := Scalar.indexCast v117
  let c0_i32_140 : BitVec 32 := 0#32
  let c1_i32_141 : BitVec 32 := 1#32
  let arg10 : BitVec 32 := Scf.iv c0_i32_140 c1_i32_141 k0_t2
  let v207 : Index := Scalar.indexCast arg10
  let c96_156 : Index := 96#32
  ![v206.toNat, v207.toNat, 96]
def k0_off11 (k0_t1 : Fin k0_t1_loop.trips) (k0_t2 : Fin k0_t2_loop.trips) : Fin 3 → Nat :=
  let c0_i32_58 : BitVec 32 := 0#32
  let c1_i32_60 : BitVec 32 := 1#32
  let arg9 : BitVec 32 := Scf.iv c0_i32_58 c1_i32_60 k0_t1
  let c8_i32 : BitVec 32 := 8#32
  let v117 : BitVec 32 := Scalar.remsi arg9 c8_i32
  let v211 : Index := Scalar.indexCast v117
  let c0_i32_140 : BitVec 32 := 0#32
  let c1_i32_141 : BitVec 32 := 1#32
  let arg10 : BitVec 32 := Scf.iv c0_i32_140 c1_i32_141 k0_t2
  let v212 : Index := Scalar.indexCast arg10
  let c112_157 : Index := 112#32
  ![v211.toNat, v212.toNat, 112]
def k0_off12 (k0_t1 : Fin k0_t1_loop.trips) : Fin 2 → Nat :=
  let c0_i32_58 : BitVec 32 := 0#32
  let c1_i32_60 : BitVec 32 := 1#32
  let arg9 : BitVec 32 := Scf.iv c0_i32_58 c1_i32_60 k0_t1
  let v135 : Index := Scalar.indexCast arg9
  let c0 : Index := 0#32
  ![v135.toNat, 0]
def k0_off13 (k0_t1 : Fin k0_t1_loop.trips) : Fin 2 → Nat :=
  let c0_i32_58 : BitVec 32 := 0#32
  let c1_i32_60 : BitVec 32 := 1#32
  let arg9 : BitVec 32 := Scf.iv c0_i32_58 c1_i32_60 k0_t1
  let v139 : Index := Scalar.indexCast arg9
  let c16 : Index := 16#32
  ![v139.toNat, 16]
def k0_off14 (k0_t1 : Fin k0_t1_loop.trips) : Fin 2 → Nat :=
  let c0_i32_58 : BitVec 32 := 0#32
  let c1_i32_60 : BitVec 32 := 1#32
  let arg9 : BitVec 32 := Scf.iv c0_i32_58 c1_i32_60 k0_t1
  let v143 : Index := Scalar.indexCast arg9
  let c32 : Index := 32#32
  ![v143.toNat, 32]
def k0_off15 (k0_t1 : Fin k0_t1_loop.trips) : Fin 2 → Nat :=
  let c0_i32_58 : BitVec 32 := 0#32
  let c1_i32_60 : BitVec 32 := 1#32
  let arg9 : BitVec 32 := Scf.iv c0_i32_58 c1_i32_60 k0_t1
  let v147 : Index := Scalar.indexCast arg9
  let c48 : Index := 48#32
  ![v147.toNat, 48]
def k0_off16 (k0_t1 : Fin k0_t1_loop.trips) : Fin 2 → Nat :=
  let c0_i32_58 : BitVec 32 := 0#32
  let c1_i32_60 : BitVec 32 := 1#32
  let arg9 : BitVec 32 := Scf.iv c0_i32_58 c1_i32_60 k0_t1
  let v151 : Index := Scalar.indexCast arg9
  let c64 : Index := 64#32
  ![v151.toNat, 64]
def k0_off17 (k0_t1 : Fin k0_t1_loop.trips) : Fin 2 → Nat :=
  let c0_i32_58 : BitVec 32 := 0#32
  let c1_i32_60 : BitVec 32 := 1#32
  let arg9 : BitVec 32 := Scf.iv c0_i32_58 c1_i32_60 k0_t1
  let v155 : Index := Scalar.indexCast arg9
  let c80 : Index := 80#32
  ![v155.toNat, 80]
def k0_off18 (k0_t1 : Fin k0_t1_loop.trips) : Fin 2 → Nat :=
  let c0_i32_58 : BitVec 32 := 0#32
  let c1_i32_60 : BitVec 32 := 1#32
  let arg9 : BitVec 32 := Scf.iv c0_i32_58 c1_i32_60 k0_t1
  let v159 : Index := Scalar.indexCast arg9
  let c96 : Index := 96#32
  ![v159.toNat, 96]
def k0_off19 (k0_t1 : Fin k0_t1_loop.trips) : Fin 2 → Nat :=
  let c0_i32_58 : BitVec 32 := 0#32
  let c1_i32_60 : BitVec 32 := 1#32
  let arg9 : BitVec 32 := Scf.iv c0_i32_58 c1_i32_60 k0_t1
  let v163 : Index := Scalar.indexCast arg9
  let c112 : Index := 112#32
  ![v163.toNat, 112]
def k0_off20 (k0_t1 : Fin k0_t1_loop.trips) : Fin 2 → Nat :=
  let c0_i32_58 : BitVec 32 := 0#32
  let c1_i32_60 : BitVec 32 := 1#32
  let arg9 : BitVec 32 := Scf.iv c0_i32_58 c1_i32_60 k0_t1
  let c8_i32_143 : BitVec 32 := 8#32
  let v167 : BitVec 32 := Scalar.addi arg9 c8_i32_143
  let c128_i32_144 : BitVec 32 := 128#32
  let v168 : BitVec 32 := Scalar.remsi v167 c128_i32_144
  let c0_i32_147 : BitVec 32 := 0#32
  ![v168.toNat, 0]
def k0_off21 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_126 : BitVec 32 := 128#32
  let v116 : BitVec 32 := Scalar.muli v1 c128_i32_126
  let c0_i32_127_r1 : BitVec 32 := 0#32
  ![v116.toNat, 0]
abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S4096x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S128x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S4096x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S8x50x128_S1x50x128_0_0_0 : ∀ a, (![0, 0, 0] : Fin 3 → Nat) a + S1x50x128.size a ≤ S8x50x128.size a
  squeezes_S1x50x128_S50x128 : S1x50x128.Squeezes S50x128
  inb_S128x50_S1x50_0_0 : ∀ a, (![0, 0] : Fin 2 → Nat) a + S1x50.size a ≤ S128x50.size a
  squeezes_S1x50_S50 : S1x50.Squeezes S50
  inb_S100000x128_S100000x128_0_0 : ∀ a, (![0, 0] : Fin 2 → Nat) a + S100000x128.size a ≤ S100000x128.size a
  inb_S8_S1_0 : ∀ a, (![0] : Fin 1 → Nat) a + S1.size a ≤ S8.size a
  squeezes_S1_S_ : S1.Squeezes S_
  gathers_S100000x128_S50x128 : S100000x128.Gathers 0 S50x128
  inb_S8x50x128_S1x50x128_1_0_0 : ∀ a, (![1, 0, 0] : Fin 3 → Nat) a + S1x50x128.size a ≤ S8x50x128.size a
  inb_S128x50_S1x50_1_0 : ∀ a, (![1, 0] : Fin 2 → Nat) a + S1x50.size a ≤ S128x50.size a
  inb_S8_S1_1 : ∀ a, (![1] : Fin 1 → Nat) a + S1.size a ≤ S8.size a
  inb_S8x50x128_S1x50x128_2_0_0 : ∀ a, (![2, 0, 0] : Fin 3 → Nat) a + S1x50x128.size a ≤ S8x50x128.size a
  inb_S128x50_S1x50_2_0 : ∀ a, (![2, 0] : Fin 2 → Nat) a + S1x50.size a ≤ S128x50.size a
  inb_S8_S1_2 : ∀ a, (![2] : Fin 1 → Nat) a + S1.size a ≤ S8.size a
  inb_S8x50x128_S1x50x128_3_0_0 : ∀ a, (![3, 0, 0] : Fin 3 → Nat) a + S1x50x128.size a ≤ S8x50x128.size a
  inb_S128x50_S1x50_3_0 : ∀ a, (![3, 0] : Fin 2 → Nat) a + S1x50.size a ≤ S128x50.size a
  inb_S8_S1_3 : ∀ a, (![3] : Fin 1 → Nat) a + S1.size a ≤ S8.size a
  inb_S8x50x128_S1x50x128_4_0_0 : ∀ a, (![4, 0, 0] : Fin 3 → Nat) a + S1x50x128.size a ≤ S8x50x128.size a
  inb_S128x50_S1x50_4_0 : ∀ a, (![4, 0] : Fin 2 → Nat) a + S1x50.size a ≤ S128x50.size a
  inb_S8_S1_4 : ∀ a, (![4] : Fin 1 → Nat) a + S1.size a ≤ S8.size a
  inb_S8x50x128_S1x50x128_5_0_0 : ∀ a, (![5, 0, 0] : Fin 3 → Nat) a + S1x50x128.size a ≤ S8x50x128.size a
  inb_S128x50_S1x50_5_0 : ∀ a, (![5, 0] : Fin 2 → Nat) a + S1x50.size a ≤ S128x50.size a
  inb_S8_S1_5 : ∀ a, (![5] : Fin 1 → Nat) a + S1.size a ≤ S8.size a
  inb_S8x50x128_S1x50x128_6_0_0 : ∀ a, (![6, 0, 0] : Fin 3 → Nat) a + S1x50x128.size a ≤ S8x50x128.size a
  inb_S128x50_S1x50_6_0 : ∀ a, (![6, 0] : Fin 2 → Nat) a + S1x50.size a ≤ S128x50.size a
  inb_S8_S1_6 : ∀ a, (![6] : Fin 1 → Nat) a + S1.size a ≤ S8.size a
  inb_S8x50x128_S1x50x128_7_0_0 : ∀ a, (![7, 0, 0] : Fin 3 → Nat) a + S1x50x128.size a ≤ S8x50x128.size a
  inb_S128x50_S1x50_7_0 : ∀ a, (![7, 0] : Fin 2 → Nat) a + S1x50.size a ≤ S128x50.size a
  inb_S8_S1_7 : ∀ a, (![7] : Fin 1 → Nat) a + S1.size a ≤ S8.size a
  h_S1x1x16 : 0 < S1x1x16.numel
  shapeCasts_S1x1x16_S16 : S1x1x16.ShapeCasts S16
  h_S1x16 : 0 < S1x16.numel
  shapeCasts_S1x16_S16 : S1x16.ShapeCasts S16
  shapeCasts_S16_S1x16 : S16.ShapeCasts S1x16
  bitsLt_bf16_f32 : FTy.bits .bf16 < FTy.bits .f32
  shapeCasts_S512_S1x512 : S512.ShapeCasts S1x512
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  dot_S4096x128_S128x512_S4096x512_1_0_0_1_n_n_wf : DotDims.WF S4096x128 S128x512 S4096x512 [1] [0] [0] [1] [] []
  dot_S4096x512_S512x512_S4096x512_1_0_0_1_n_n_wf : DotDims.WF S4096x512 S512x512 S4096x512 [1] [0] [0] [1] [] []
  dot_S4096x512_S512x128_S4096x128_1_0_0_1_n_n_wf : DotDims.WF S4096x512 S512x128 S4096x128 [1] [0] [0] [1] [] []
  hcc0_scratch3 : 0 + S8.numel ≤ 18
  hcc0_scoped0 : 8 + S_.numel ≤ 18
  hcc0_scoped1 : 9 + S_.numel ≤ 18
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S128x50.size a ≤ S4096x50.size a
  k0_t1_ok : k0_t1_loop.OK
  k0_off2_inb : ∀ k0_t1 : Fin k0_t1_loop.trips, ∀ a, (k0_off2 k0_t1) a + S1x50x128.size a ≤ S8x50x128.size a
  k0_off3_inb : ∀ k0_t1 : Fin k0_t1_loop.trips, ∀ a, (k0_off3 k0_t1) a + S1.size a ≤ S8.size a
  k0_t2_ok : k0_t2_loop.OK
  k0_off4_inb : ∀ (k0_t1 : Fin k0_t1_loop.trips) (k0_t2 : Fin k0_t2_loop.trips), ∀ a, (k0_off4 k0_t1 k0_t2) a + S1x1x16.size a ≤ S8x50x128.size a
  k0_off5_inb : ∀ (k0_t1 : Fin k0_t1_loop.trips) (k0_t2 : Fin k0_t2_loop.trips), ∀ a, (k0_off5 k0_t1 k0_t2) a + S1x1x16.size a ≤ S8x50x128.size a
  k0_off6_inb : ∀ (k0_t1 : Fin k0_t1_loop.trips) (k0_t2 : Fin k0_t2_loop.trips), ∀ a, (k0_off6 k0_t1 k0_t2) a + S1x1x16.size a ≤ S8x50x128.size a
  k0_off7_inb : ∀ (k0_t1 : Fin k0_t1_loop.trips) (k0_t2 : Fin k0_t2_loop.trips), ∀ a, (k0_off7 k0_t1 k0_t2) a + S1x1x16.size a ≤ S8x50x128.size a
  k0_off8_inb : ∀ (k0_t1 : Fin k0_t1_loop.trips) (k0_t2 : Fin k0_t2_loop.trips), ∀ a, (k0_off8 k0_t1 k0_t2) a + S1x1x16.size a ≤ S8x50x128.size a
  k0_off9_inb : ∀ (k0_t1 : Fin k0_t1_loop.trips) (k0_t2 : Fin k0_t2_loop.trips), ∀ a, (k0_off9 k0_t1 k0_t2) a + S1x1x16.size a ≤ S8x50x128.size a
  k0_off10_inb : ∀ (k0_t1 : Fin k0_t1_loop.trips) (k0_t2 : Fin k0_t2_loop.trips), ∀ a, (k0_off10 k0_t1 k0_t2) a + S1x1x16.size a ≤ S8x50x128.size a
  k0_off11_inb : ∀ (k0_t1 : Fin k0_t1_loop.trips) (k0_t2 : Fin k0_t2_loop.trips), ∀ a, (k0_off11 k0_t1 k0_t2) a + S1x1x16.size a ≤ S8x50x128.size a
  k0_off12_inb : ∀ k0_t1 : Fin k0_t1_loop.trips, ∀ a, (k0_off12 k0_t1) a + S1x16.size a ≤ S128x128.size a
  k0_off13_inb : ∀ k0_t1 : Fin k0_t1_loop.trips, ∀ a, (k0_off13 k0_t1) a + S1x16.size a ≤ S128x128.size a
  k0_off14_inb : ∀ k0_t1 : Fin k0_t1_loop.trips, ∀ a, (k0_off14 k0_t1) a + S1x16.size a ≤ S128x128.size a
  k0_off15_inb : ∀ k0_t1 : Fin k0_t1_loop.trips, ∀ a, (k0_off15 k0_t1) a + S1x16.size a ≤ S128x128.size a
  k0_off16_inb : ∀ k0_t1 : Fin k0_t1_loop.trips, ∀ a, (k0_off16 k0_t1) a + S1x16.size a ≤ S128x128.size a
  k0_off17_inb : ∀ k0_t1 : Fin k0_t1_loop.trips, ∀ a, (k0_off17 k0_t1) a + S1x16.size a ≤ S128x128.size a
  k0_off18_inb : ∀ k0_t1 : Fin k0_t1_loop.trips, ∀ a, (k0_off18 k0_t1) a + S1x16.size a ≤ S128x128.size a
  k0_off19_inb : ∀ k0_t1 : Fin k0_t1_loop.trips, ∀ a, (k0_off19 k0_t1) a + S1x16.size a ≤ S128x128.size a
  k0_off20_inb : ∀ k0_t1 : Fin k0_t1_loop.trips, ∀ a, (k0_off20 k0_t1) a + S1x50.size a ≤ S128x50.size a
  k0_off21_inb : ∀ i : grid0.Coords, ∀ a, (k0_off21 i) a + S128x128.size a ≤ S4096x128.size a
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S4096x128.size a
  hwx1_0 : ∀ i : grid1.Coords, EltTy.bits .f32 = 32 ∨ (Rect.block (s := S4096x128) S4096x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x512.size a ≤ S128x512.size a
  hwx1_1 : ∀ i : grid1.Coords, EltTy.bits .bf16 = 32 ∨ (Rect.block (s := S128x512) S128x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .bf16 = 32 ∨ (Rect.block (s := S512x512) S512x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x128.size a ≤ S512x128.size a
  hwx1_5 : ∀ i : grid1.Coords, EltTy.bits .bf16 = 32 ∨ (Rect.block (s := S512x128) S512x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 1
  hreads1_7 : ∀ i i' : grid1.Coords, (∀ a, reads1_7 a = true → i a = i' a) → cc1_transform_7 i = cc1_transform_7 i'
  hinb1_7 : ∀ (i : grid1.Coords) a, (cc1_transform_7 i a + 1) * S4096x128.size a ≤ S4096x128.size a
  hwx1_7 : ∀ i : grid1.Coords, EltTy.bits .f32 = 32 ∨ (Rect.block (s := S4096x128) S4096x128.size (cc1_transform_7 i) (hinb1_7 i)).WholeWords (EltTy.packing .f32)

variable [Facts₀]

abbrev cc0_scratch3 : DmaSems sig S8 := SemArray.consecutive 0 S8 hcc0_scratch3
abbrev cc0_scoped0 : DmaSems sig S_ := SemArray.consecutive 8 S_ hcc0_scoped0
abbrev cc0_scoped1 : DmaSems sig S_ := SemArray.consecutive 9 S_ hcc0_scoped1
def dot_S4096x128_S128x512_S4096x512_1_0_0_1_n_n : DotDims S4096x128 S128x512 S4096x512 where
  lhsContracting := [1]
  rhsContracting := [0]
  lhsNonContracting := [0]
  rhsNonContracting := [1]
  lhsBatch := []
  rhsBatch := []
  wf := dot_S4096x128_S128x512_S4096x512_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf

abbrev win1_0 : Pipeline.Window sig grid1 :=
  Pipeline.Window.ofSpec (Memref.whole main_v0) S4096x128.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S128x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S512x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v7) S4096x128.size cc1_transform_7 reads1_7 true false 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S4096x50 : Shape := ⟨2, ![4096, 50]⟩
abbrev S100000x128 : Shape := ⟨2, ![100000, 128]⟩
abbrev S128x512 : Shape := ⟨2, ![128, 512]⟩
abbrev S512 : Shape := ⟨1, ![512]⟩
abbrev S512x512 : Shape := ⟨2, ![512, 512]⟩
abbrev S512x128 : Shape := ⟨2, ![512, 128]⟩
abbrev S128 : Shape := ⟨1, ![128]⟩
abbrev S_ : Shape := ⟨0, ![]⟩
abbrev S4096x50x1 : Shape := ⟨3, ![4096, 50, 1]⟩
abbrev S1 : Shape := ⟨1, ![1]⟩
abbrev S1x1x1 : Shape := ⟨3, ![1, 1, 1]⟩
abbrev S4096x50x128 : Shape := ⟨3, ![4096, 50, 128]⟩
abbrev S4096x128 : Shape := ⟨2, ![4096, 128]⟩
abbrev S4096x512 : Shape := ⟨2, ![4096, 512]⟩
abbrev S1x512 : Shape := ⟨2, ![1, 512]⟩
abbrev S1x128 : Shape := ⟨2, ![1, 128]⟩

abbrev nBuf : Space → Nat
  | .hbm => 47
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S100000x128, .f32⟩
  | .hbm, ⟨2, _⟩ => ⟨S128x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x128, .f32⟩
  | .hbm, ⟨7, _⟩ => ⟨S128, .f32⟩
  | .hbm, ⟨8, _⟩ => ⟨S_, .i32⟩
  | .hbm, ⟨9, _⟩ => ⟨S4096x50, .i32⟩
  | .hbm, ⟨10, _⟩ => ⟨S4096x50, .i1⟩
  | .hbm, ⟨11, _⟩ => ⟨S_, .i32⟩
  | .hbm, ⟨12, _⟩ => ⟨S4096x50, .i32⟩
  | .hbm, ⟨13, _⟩ => ⟨S4096x50, .i32⟩
  | .hbm, ⟨14, _⟩ => ⟨S4096x50, .i32⟩
  | .hbm, ⟨15, _⟩ => ⟨S4096x50x1, .i32⟩
  | .hbm, ⟨16, _⟩ => ⟨S1, .i32⟩
  | .hbm, ⟨17, _⟩ => ⟨S_, .i32⟩
  | .hbm, ⟨18, _⟩ => ⟨S4096x50x1, .i32⟩
  | .hbm, ⟨19, _⟩ => ⟨S4096x50x1, .i1⟩
  | .hbm, ⟨20, _⟩ => ⟨S1x1x1, .i32⟩
  | .hbm, ⟨21, _⟩ => ⟨S4096x50x1, .i32⟩
  | .hbm, ⟨22, _⟩ => ⟨S4096x50x1, .i1⟩
  | .hbm, ⟨23, _⟩ => ⟨S4096x50x1, .i1⟩
  | .hbm, ⟨24, _⟩ => ⟨S_, .i1⟩
  | .hbm, ⟨25, _⟩ => ⟨S4096x50, .i1⟩
  | .hbm, ⟨26, _⟩ => ⟨S4096x50x128, .f32⟩
  | .hbm, ⟨27, _⟩ => ⟨S4096x50x128, .i1⟩
  | .hbm, ⟨28, _⟩ => ⟨S_, .f32⟩
  | .hbm, ⟨29, _⟩ => ⟨S4096x50x128, .f32⟩
  | .hbm, ⟨30, _⟩ => ⟨S4096x50x128, .f32⟩
  | .hbm, ⟨31, _⟩ => ⟨S_, .f32⟩
  | .hbm, ⟨32, _⟩ => ⟨S4096x128, .f32⟩
  | .hbm, ⟨33, _⟩ => ⟨S4096x512, .f32⟩
  | .hbm, ⟨34, _⟩ => ⟨S1x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S1x512, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S4096x128, .f32⟩
  | .hbm, ⟨44, _⟩ => ⟨S1x128, .f32⟩
  | .hbm, ⟨45, _⟩ => ⟨S4096x128, .f32⟩
  | .hbm, ⟨46, _⟩ => ⟨S4096x128, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_cst : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩

abbrev nD : Nat := 1
abbrev τ : Topo := Topo.v7x

variable {F : FTy → Type} [FloatOps F]

class Facts₀ : Prop where
  bcast_S_S4096x50 : S_.BroadcastsInDim S4096x50 (![] : Fin 0 → Fin S4096x50.rank)
  bcast_S4096x50_S4096x50x1_0_1 : S4096x50.BroadcastsInDim S4096x50x1 (![0, 1] : Fin 2 → Fin S4096x50x1.rank)
  bcast_S_S4096x50x1 : S_.BroadcastsInDim S4096x50x1 (![] : Fin 0 → Fin S4096x50x1.rank)
  bcast_S1_S1x1x1_2 : S1.BroadcastsInDim S1x1x1 (![2] : Fin 1 → Fin S1x1x1.rank)
  bcast_S1x1x1_S4096x50x1_0_1_2 : S1x1x1.BroadcastsInDim S4096x50x1 (![0, 1, 2] : Fin 3 → Fin S4096x50x1.rank)
  reducesTo_S4096x50x1_S4096x50_d2 : S4096x50x1.ReducesTo [2] S4096x50
  h_S_ : 0 < S_.numel
  bcast_S4096x50_S4096x50x128_0_1 : S4096x50.BroadcastsInDim S4096x50x128 (![0, 1] : Fin 2 → Fin S4096x50x128.rank)
  bcast_S_S4096x50x128 : S_.BroadcastsInDim S4096x50x128 (![] : Fin 0 → Fin S4096x50x128.rank)
  reducesTo_S4096x50x128_S4096x128_d1 : S4096x50x128.ReducesTo [1] S4096x128
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  gather_S100000x128_S4096x50x1_S4096x50x128_2_0_n_n_0_2_1128_wf : GatherDims.WF S100000x128 S4096x50x1 S4096x50x128 [2] [0] [] [0] [] 2 ![1, 128]
  dot_S4096x128_S128x512_S4096x512_1_0_0_1_n_n_wf : DotDims.WF S4096x128 S128x512 S4096x512 [1] [0] [0] [1] [] []
  dot_S4096x512_S512x512_S4096x512_1_0_0_1_n_n_wf : DotDims.WF S4096x512 S512x512 S4096x512 [1] [0] [0] [1] [] []
  dot_S4096x512_S512x128_S4096x128_1_0_0_1_n_n_wf : DotDims.WF S4096x512 S512x128 S4096x128 [1] [0] [0] [1] [] []

variable [Facts₀]

def gather_S100000x128_S4096x50x1_S4096x50x128_2_0_n_n_0_2_1128 : GatherDims S100000x128 S4096x50x1 S4096x50x128 where
  offsetDims := [2]
  collapsedSliceDims := [0]
  operandBatchingDims := []
  startIndicesBatchingDims := []
  startIndexMap := [0]
  indexVectorDim := 2
  sliceSizes := ![1, 128]
  wf := gather_S100000x128_S4096x50x1_S4096x50x128_2_0_n_n_0_2_1128_wf
def dot_S4096x128_S128x512_S4096x512_1_0_0_1_n_n : DotDims S4096x128 S128x512 S4096x512 where
  lhsContracting := [1]
  rhsContracting := [0]
  lhsNonContracting := [0]
  rhsNonContracting := [1]
  lhsBatch := []
  rhsBatch := []
  wf := dot_S4096x128_S128x512_S4096x512_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf

class Facts : Prop extends Facts₀ where

variable [Facts]
-- ==== Proof.Kernel.Spec.lean ====
/-
  What the kernel computes, as pure functions of the argument arrays, at any float instance.

  The bag. Row r of the result of the first stage is the sum, over the 50 positions j, of row
  idx[r, j] of the table. A tile computes it 16 lanes at a time: for each of the eight lane groups
  k it starts from the zero vector and adds, for j = 0, …, 49 in that order, lanes 16k … 16k+15 of
  the j-th gathered row. `accV g k t` is that accumulator after t additions over a gathered block g
  (50 rows of 128), `rowsOf` the block a row of indices gathers, `bagK` the whole array.

  The layers. The second stage is one function of the bag and the six float arguments: the
  body's arithmetic (three products with a bias added, a hyperbolic tangent after the first two)
  applied to the bag, the weight matrices converted to the narrower float format and the biases
  re-laid as rows: `mlpK`.
-/
import proofs.«205252_g82703890252310_cont_sun_m_328_31_alg».proof.Proof.Gen.Kernel.Skeleton
import Idealize.ShloMosaic.Lib.ValueIdx

noncomputable section

namespace Cert.Kernel.Hand

open Idealize.ShloMosaic Cert.Kernel

variable {F : FTy → Type} [FloatOps F] [Facts]
open Facts₀ Facts

/-- Lanes 16k … 16k+15 of row j of a block of 50 rows, as the 1×1×16 vector a load of them answers. -/
def lanes (g : FVec F S50x128 .f32) (j : Fin 50) (k : Fin 8) : Vec F S1x1x16 .f32 :=
  fun y => g (ValueIdx.ix2 j (⟨16 * k.val + (y 2).val % 16, by have := k.isLt; omega⟩ : Fin 128))

/-- Lane group k's accumulator after t additions: from zero, rows 0, …, t-1 of the block added in order. -/
def accV (g : FVec F S50x128 .f32) (k : Fin 8) : Nat → FVec F S16 .f32
  | 0 => Gen.k0_pay1 (F := F)
  | t + 1 => Gen.k0_pay9 (F := F) (accV g k t) (lanes g (⟨t % 50, Nat.mod_lt _ (by decide)⟩ : Fin 50) k)

/-- The row of the table an index word names (the word read as a natural number, kept inside the table). -/
def rowIx (w : BitVec 32) : Fin 100000 := ⟨w.toNat % 100000, Nat.mod_lt _ (by decide)⟩

/-- The block row r of the indices gathers: row j of it is row idx[r, j] of the table. -/
def rowsOf (idx : IVec S4096x50 32) (tbl : FVec F S100000x128 .f32) (r : Fin 4096) : FVec F S50x128 .f32 :=
  fun y => tbl (ValueIdx.ix2 (rowIx (idx (ValueIdx.ix2 r (⟨(y 0).val % 50, Nat.mod_lt _ (by decide)⟩ : Fin 50))))
    (⟨(y 1).val % 128, Nat.mod_lt _ (by decide)⟩ : Fin 128))

/-- The bag: entry (r, e) is lane e mod 16 of lane group e / 16's accumulator after all 50 additions over row r's block. -/
def bagK (idx : IVec S4096x50 32) (tbl : FVec F S100000x128 .f32) : FVec F S4096x128 .f32 :=
  fun i => accV (rowsOf idx tbl (⟨(i 0).val % 4096, Nat.mod_lt _ (by decide)⟩ : Fin 4096))
    (⟨(i 1).val % 128 / 16, by have := Nat.mod_lt (i 1).val (show 0 < 128 by decide); omega⟩ : Fin 8) 50
    (ValueIdx.ix1 (⟨(i 1).val % 16, Nat.mod_lt _ (by decide)⟩ : Fin 16))

/-- The three layers on the bag x: the body's arithmetic on x, the converted weights and the biases as rows. -/
def mlpK (x : FVec F S4096x128 .f32) (W1 : FVec F S128x512 .f32) (b1 : FVec F S512 .f32) (W2 : FVec F S512x512 .f32)
    (b2 : FVec F S512 .f32) (W3 : FVec F S512x128 .f32) (b3 : FVec F S128 .f32) : FVec F S4096x128 .f32 :=
  Gen.k1_pay1 (F := F) x (truncf .bf16 W1 bitsLt_bf16_f32) (shapeCast S1x512 b1 shapeCasts_S512_S1x512)
    (truncf .bf16 W2 bitsLt_bf16_f32) (shapeCast S1x512 b2 shapeCasts_S512_S1x512)
    (truncf .bf16 W3 bitsLt_bf16_f32) (shapeCast S1x128 b3 shapeCasts_S128_S1x128)

/-- The kernel's result as one function of its eight arguments. -/
def outK (idx : IVec S4096x50 32) (tbl : FVec F S100000x128 .f32) (W1 : FVec F S128x512 .f32) (b1 : FVec F S512 .f32)
    (W2 : FVec F S512x512 .f32) (b2 : FVec F S512 .f32) (W3 : FVec F S512x128 .f32) (b3 : FVec F S128 .f32) : FVec F S4096x128 .f32 :=
  mlpK (bagK idx tbl) W1 b1 W2 b2 W3 b3

end Cert.Kernel.Hand

end
-- ==== Proof.Kernel.Setup.lean ====
/-
  The kernel program as the SparseCore launch theorem sees it, and what its handshakes carry.

  The first stage runs as 32 tasks, one per vector subcore of the two SparseCores. Task w = 2 s + c
  (subcore s of SparseCore c) owns rows 128 w … 128 w + 127: it reads those rows of the index array,
  reads the whole table, and writes those rows of the bag. So the call hands task w its block of the
  index array, a read token of the table (the table's full share cut into 32 tokens and a remainder
  that stays on the TensorCore), and its block of the bag; the task hands the same back with its
  block of the bag holding the bag's rows. Blocks are the 32 equal parts of axis 0.

  The ghost state is a product of three: the launch handshakes' rounds, the rounds of the one
  TensorCore region's staging cells, and the counters of the tiles' own transfers.
-/
import proofs.«205252_g82703890252310_cont_sun_m_328_31_alg».proof.Proof.Kernel.Spec
import proofs.«205252_g82703890252310_cont_sun_m_328_31_alg».proof.Proof.Gen.Kernel.Launch
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-! ## The launch memory, the arrays, the 32 tasks' blocks and tokens -/

variable (m : (ℓ : Loc nD τ sig) → Buf (Elt F) ℓ) (ρ : Dev nD → PrngReg)

abbrev iLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0

abbrev iV : Memref sig .scVector .hbm S4096x50 .i32 := Memref.whole main_arg0_scv
abbrev xV : Memref sig .scVector .hbm S100000x128 .f32 := Memref.whole main_arg1_scv
abbrev oV : Memref sig .scVector .hbm S4096x128 .f32 := Memref.whole main_v0_scv
abbrev sI : Memref sig .scVector .vmem S128x50 .i32 := Memref.whole cc0_scratch0
abbrev sG : Memref sig .scVector .vmem S8x50x128 .f32 := Memref.whole cc0_scratch1
abbrev sA : Memref sig .scVector .vmem S128x128 .f32 := Memref.whole cc0_scratch2

/-- Task w's number from its SparseCore c and vector subcore s: w = 2 s + c. -/
def wOf (c : Fin 2) (s : Fin 16) : Fin 32 := ⟨2 * s.val + c.val, by omega⟩

theorem idiv : 32 ∣ S4096x50.size 0 := ⟨128, rfl⟩
theorem odiv : 32 ∣ S4096x128.size 0 := ⟨128, rfl⟩
/-- Task w's 128 rows of the index array, and of the bag. -/
abbrev iBlk (w : Fin 32) : Rect S4096x50 := Rect.part (s := S4096x50) (a₀ := 0) idiv w
abbrev oBlk (w : Fin 32) : Rect S4096x128 := Rect.part (s := S4096x128) (a₀ := 0) odiv w
abbrev iBlkSet (w : Fin 32) : Finset S4096x50.Idx := ((iV).view.slice (iBlk w)).set
abbrev oBlkSet (w : Fin 32) : Finset S4096x128.Idx := ((oV).view.slice (oBlk w)).set

/-- Task w's read token of the table: the full share's w-th of 32 tokens. -/
abbrev xq (w : Fin 32) : PosShare TreeShare := Transfers.shareTok fullShare 32 w
/-- What stays on the TensorCore of the table's share while the tasks run. -/
abbrev xRest : PosShare TreeShare := Transfers.shareDrop fullShare 32

variable [FloatOps F] [Facts]

/-! ## What the handshakes carry -/

abbrev iPts (d : Dev nD) : sProp 𝕄 := iLoc d ↦{fullShare} m (iLoc d)
abbrev xPts (d : Dev nD) : sProp 𝕄 := xLoc d ↦{fullShare} m (xLoc d)
abbrev oPts (d : Dev nD) (f : Buf (Elt F) (oLoc d)) : sProp 𝕄 := oLoc d ↦{fullShare} f
abbrev iBlkPts (d : Dev nD) (w : Fin 32) : sProp 𝕄 := iLoc d ↦[iBlkSet w]{fullShare} m (iLoc d)
abbrev xTokPts (d : Dev nD) (w : Fin 32) : sProp 𝕄 := xLoc d ↦{xq w} m (xLoc d)
abbrev oBlkPts (d : Dev nD) (w : Fin 32) (f : Buf (Elt F) (oLoc d)) : sProp 𝕄 := oLoc d ↦[oBlkSet w]{fullShare} f

/-- The bag of the launch memory's index array and table, as contents of the bag's array. -/
def bagOf (d : Dev nD) : Buf (Elt F) (oLoc d) := bagK (F := F) (m (iLoc d)) (m (xLoc d))

/-- What task w is handed: its index rows, its token of the table, its rows of the bag at the launch contents. -/
def goRes (d : Dev nD) (w : Fin 32) : sProp 𝕄 := iprop(iBlkPts m d w ∗ xTokPts m d w ∗ oBlkPts d w (m (oLoc d)))
/-- What it hands back: the same, its rows of the bag holding the bag. -/
def tdRes (d : Dev nD) (w : Fin 32) : sProp 𝕄 := iprop(iBlkPts m d w ∗ xTokPts m d w ∗ oBlkPts d w (bagOf m d))

instance goRes_storable (d : Dev nD) (w : Fin 32) : BI.Storable (upEmb : UEmb _ 𝕄) (goRes m d w) := by unfold goRes; infer_instance
instance tdRes_storable (d : Dev nD) (w : Fin 32) : BI.Storable (upEmb : UEmb _ 𝕄) (tdRes m d w) := by unfold tdRes; infer_instance

/-- The one SparseCore call: a SparseCore is handed its sixteen tasks' resources and hands back their results. -/
def P : (K (F := F)).Pay (nD := nD) (Val := Elt F) (Name := ℕ) (U := UU) where
  st := fun q d c => match q with | 0 => bigSep Finset.univ fun s : Fin 16 => goRes m d (wOf (Fin.cast nCore_zero c) s)
  dn := fun q d c => match q with | 0 => bigSep Finset.univ fun s : Fin 16 => tdRes m d (wOf (Fin.cast nCore_zero c) s)
  go := fun q d c i => match q with | 0 => goRes m d (wOf (Fin.cast nCore_zero c) (Fin.cast nSub_zero i))
  td := fun q d c i => match q with | 0 => tdRes m d (wOf (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun s : Fin 16 => goRes m d (wOf (Fin.cast nCore_zero c) s)))
  dn q d c := match q with
    | 0 => (inferInstance : BI.Storable (upEmb : UEmb _ 𝕄) (bigSep Finset.univ fun s : Fin 16 => tdRes m d (wOf (Fin.cast nCore_zero c) s)))
  go q d c i := match q with
    | 0 => (inferInstance : BI.Storable (upEmb : UEmb _ 𝕄) (goRes m d (wOf (Fin.cast nCore_zero c) (Fin.cast nSub_zero i))))
  td q d c i := match q with
    | 0 => (inferInstance : BI.Storable (upEmb : UEmb _ 𝕄) (tdRes m d (wOf (Fin.cast nCore_zero c) (Fin.cast nSub_zero i))))

/-- What the proof asks of the launch memory: every index word names a row of the table. -/
def PreOK : Prop := ∀ (d : Dev nD) (j : S4096x50.Idx), (m (iLoc d) j).toNat < 100000

end Cert.Kernel.Hand

end
-- ==== Proof.Kernel.Split.lean ====
/-
  How the arrays of the first stage divide among its 32 tasks, and come back together.

  The 32 blocks of 128 rows are pairwise disjoint and cover axis 0, so the index array held whole is
  the 32 blocks held one by one, and so is the bag's array; the bag's blocks are all held at ONE
  whole-array function (every task leaves its rows at the bag of the launch memory), so they join to
  the whole array at that function with nothing to choose. The table is read by every task: its full
  share is cut into 32 read tokens and a remainder, and joined back from them. The tasks are numbered
  w = 2 s + c by subcore s and SparseCore c, a bijection of the 2 × 16 pairs with the 32 numbers, so a
  product over SparseCores of products over subcores is one product over tasks.
-/
import proofs.«205252_g82703890252310_cont_sun_m_328_31_alg».proof.Proof.Kernel.Setup

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F] [Facts]

/-! ## The blocks -/

theorem iBlkSet_eq (w : Fin 32) : iBlkSet w = (iBlk w).set := by
  show ((View.whole (main_arg0_scv : Ref sig .scVector)).slice (iBlk w)).set = _
  rw [View.set_slice]; exact Finset.map_refl
theorem oBlkSet_eq (w : Fin 32) : oBlkSet w = (oBlk w).set := by
  show ((View.whole (main_v0_scv : Ref sig .scVector)).slice (oBlk w)).set = _
  rw [View.set_slice]; exact Finset.map_refl

theorem iBlk_disjoint : ∀ i ∈ (Finset.univ : Finset (Fin 32)), ∀ j ∈ (Finset.univ : Finset (Fin 32)), i ≠ j → Disjoint (iBlkSet i) (iBlkSet j) :=
  fun i _ j _ h => by rw [iBlkSet_eq, iBlkSet_eq]; exact Rect.part_disjoint idiv h
theorem oBlk_disjoint : ∀ i ∈ (Finset.univ : Finset (Fin 32)), ∀ j ∈ (Finset.univ : Finset (Fin 32)), i ≠ j → Disjoint (oBlkSet i) (oBlkSet j) :=
  fun i _ j _ h => by rw [oBlkSet_eq, oBlkSet_eq]; exact Rect.part_disjoint odiv h
theorem iBlk_cover : (Finset.univ : Finset (Fin 32)).biUnion iBlkSet = Finset.univ :=
  (Finset.biUnion_congr rfl fun i _ => iBlkSet_eq i).trans (Rect.biUnion_part idiv)
theorem oBlk_cover : (Finset.univ : Finset (Fin 32)).biUnion oBlkSet = Finset.univ :=
  (Finset.biUnion_congr rfl fun i _ => oBlkSet_eq i).trans (Rect.biUnion_part odiv)

/-- The index array held whole is its 32 blocks held one by one; -/
theorem iPts_blocks (d : Dev nD) (f : Buf (Elt F) (iLoc d)) :
    (iLoc d ↦{fullShare} f : sProp 𝕄) = bigSep Finset.univ fun w : Fin 32 => iLoc d ↦[iBlkSet w]{fullShare} f := by
  rw [← pointsTo_biUnion Finset.univ (ℓ := iLoc d) iBlkSet iBlk_disjoint, iBlk_cover]; try rfl
/-- the bag's array likewise, at any one whole-array function. -/
theorem oPts_blocks (d : Dev nD) (f : Buf (Elt F) (oLoc d)) :
    (oLoc d ↦{fullShare} f : sProp 𝕄) = bigSep Finset.univ fun w : Fin 32 => oLoc d ↦[oBlkSet w]{fullShare} f := by
  rw [← pointsTo_biUnion Finset.univ (ℓ := oLoc d) oBlkSet oBlk_disjoint, oBlk_cover]; try rfl

/-! ## The tasks' numbers -/

/-- w = 2 s + c pairs the 2 × 16 places with the 32 tasks. -/
def wEquiv : Fin 2 × Fin 16 ≃ Fin 32 where
  toFun p := wOf p.1 p.2
  invFun w := (⟨w.val % 2, Nat.mod_lt _ (by decide)⟩, ⟨w.val / 2, by have := w.isLt; omega⟩)
  left_inv p := by
    obtain ⟨c, s⟩ := p
    refine Prod.ext (Fin.ext ?_) (Fin.ext ?_)
    · show (2 * s.val + c.val) % 2 = c.val; have := c.isLt; omega
    · show (2 * s.val + c.val) / 2 = s.val; have := c.isLt; omega
  right_inv w := by
    refine Fin.ext ?_
    show 2 * (w.val / 2) + w.val % 2 = w.val; omega

/-- A product over SparseCores of products over subcores is the product over tasks. -/
theorem bigSep_places {M : Type} [URA M] (Φ : Fin 32 → sProp M) :
    (bigSep Finset.univ fun c : Fin 2 => bigSep Finset.univ fun s : Fin 16 => Φ (wOf c s)) = bigSep Finset.univ Φ := by
  rw [← bigSep_univ_prod (fun p : Fin 2 × Fin 16 => Φ (wOf p.1 p.2)), bigSep_univ_equiv wEquiv Φ]; rfl

theorem bigSep_cores {M : Type} [URA M] (Φ : Fin 2 → sProp M) :
    (bigSep Finset.univ fun c : Fin ((K (F := F)).nCore 0) => Φ (Fin.cast nCore_zero c)) = bigSep Finset.univ Φ :=
  bigSep_congr fun _ _ => congrArg Φ (Fin.ext rfl)
theorem bigSep_tasks {M : Type} [URA M] (Φ : Fin 16 → sProp M) :
    (bigSep Finset.univ fun i : Fin ((K (F := F)).nSub 0) => Φ (Fin.cast nSub_zero i)) = bigSep Finset.univ Φ :=
  bigSep_congr fun _ _ => congrArg Φ (Fin.ext rfl)

/-! ## What the call hands over, and what comes back -/

theorem P_st (d : Dev nD) (c : Fin ((K (F := F)).nCore 0)) :
    (P m).st 0 d c = bigSep Finset.univ fun s : Fin 16 => goRes m d (wOf (Fin.cast nCore_zero c) s) := rfl
theorem P_dn (d : Dev nD) (c : Fin ((K (F := F)).nCore 0)) :
    (P m).dn 0 d c = bigSep Finset.univ fun s : Fin 16 => tdRes m d (wOf (Fin.cast nCore_zero c) s) := rfl
theorem P_go (d : Dev nD) (c : Fin ((K (F := F)).nCore 0)) (i : Fin ((K (F := F)).nSub 0)) :
    (P m).go 0 d c i = goRes m d (wOf (Fin.cast nCore_zero c) (Fin.cast nSub_zero i)) := rfl
theorem P_td (d : Dev nD) (c : Fin ((K (F := F)).nCore 0)) (i : Fin ((K (F := F)).nSub 0)) :
    (P m).td 0 d c i = tdRes m d (wOf (Fin.cast nCore_zero c) (Fin.cast nSub_zero i)) := rfl

theorem st_tasks (d : Dev nD) :
    (bigSep Finset.univ fun c : Fin ((K (F := F)).nCore 0) => (P m).st 0 d c) = bigSep Finset.univ fun w : Fin 32 => goRes m d w := by
  rw [bigSep_congr fun c _ => P_st m d c,
    bigSep_cores (F := F) (fun c => bigSep Finset.univ fun s : Fin 16 => goRes m d (wOf c s)), bigSep_places]
theorem dn_tasks (d : Dev nD) :
    (bigSep Finset.univ fun c : Fin ((K (F := F)).nCore 0) => (P m).dn 0 d c) = bigSep Finset.univ fun w : Fin 32 => tdRes m d w := by
  rw [bigSep_congr fun c _ => P_dn m d c,
    bigSep_cores (F := F) (fun c => bigSep Finset.univ fun s : Fin 16 => tdRes m d (wOf c s)), bigSep_places]

/-- The three arrays held whole give every SparseCore its tasks' resources, a remainder of the table's share kept. -/
theorem st_all (d : Dev nD) :
    iprop(iPts m d ∗ xPts m d ∗ oPts d (m (oLoc d)))
      ⊢ iprop((xLoc d ↦{xRest} m (xLoc d)) ∗ bigSep Finset.univ fun c : Fin ((K (F := F)).nCore 0) => (P m).st 0 d c) := by
  rw [st_tasks]
  unfold goRes
  rw [bigSep_sep', bigSep_sep']
  unfold iPts oPts xPts iBlkPts oBlkPts xTokPts
  rw [iPts_blocks, oPts_blocks]
  iintro ⟨Hi, Hx, Ho⟩
  ihave Hx' := (Transfers.pointsTo_toks_split fullShare 32) $$ Hx
  icases Hx' with ⟨Hr, Ht⟩
  isplitl [Hr]; · iexact Hr
  isplitl [Hi]; · iexact Hi
  isplitl [Ht]; · iexact Ht
  iexact Ho

/-- What the SparseCores hand back, with the remainder, is the three arrays held whole, the bag's at the bag. -/
theorem dn_all (d : Dev nD) :
    iprop((xLoc d ↦{xRest} m (xLoc d)) ∗ bigSep Finset.univ fun c : Fin ((K (F := F)).nCore 0) => (P m).dn 0 d c)
      ⊢ iprop(iPts m d ∗ xPts m d ∗ oPts d (bagOf m d)) := by
  rw [dn_tasks]
  unfold tdRes
  rw [bigSep_sep', bigSep_sep']
  unfold iPts oPts xPts iBlkPts oBlkPts xTokPts
  rw [iPts_blocks, oPts_blocks]
  iintro ⟨Hr, Hi, Ht, Ho⟩
  isplitl [Hi]; · iexact Hi
  isplitl [Hr Ht]
  · iapply (Transfers.pointsTo_toks_join fullShare 32)
    isplitl [Hr]; · iexact Hr
    iexact Ht
  iexact Ho

/-- A SparseCore's share of the call is its sixteen tasks' shares, and its results are theirs. -/
theorem vecSplit : (K (F := F)).VecSplit' (P m) 0 := by
  intro d c
  rw [P_st, P_dn, bigSep_congr fun i _ => P_go m d c i, bigSep_congr fun i _ => P_td m d c i,
    bigSep_tasks (F := F) (fun s => goRes m d (wOf (Fin.cast nCore_zero c) s)),
    bigSep_tasks (F := F) (fun s => tdRes m d (wOf (Fin.cast nCore_zero c) s))]
  iintro H; imodintro
  isplitl [H]; · iexact H
  iintro H; iexact H

end Cert.Kernel.Hand

end
-- ==== Proof.Kernel.Views.lean ====
import proofs.«205252_g82703890252310_cont_sun_m_328_31_alg».proof.Proof.Kernel.Setup

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## A task's views, spelt through the printed offset functions -/

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
theorem wL_lt (L : grid0.Coords) : 2 * (L 1).val + (L 0).val < 32 := by
  have h0 : (L 0).val < 2 := (L 0).isLt
  have h1 : (L 1).val < 16 := (L 1).isLt
  omega
/-- The task's number w = 2 s + c. -/
abbrev wL (L : grid0.Coords) : Fin 32 := ⟨2 * (L 1).val + (L 0).val, wL_lt L⟩
theorem wL_eq (L : grid0.Coords) : wL L = wOf (Fin.cast bound_zero (L 0)) (Fin.cast bound_one (L 1)) := Fin.ext rfl

abbrev iRectK (L : grid0.Coords) : Rect S4096x50 := Rect.unit (s := S4096x50) (k0_off1 L) S128x50.size (k0_off1_inb L)
abbrev oRectK (L : grid0.Coords) : Rect S4096x128 := Rect.unit (s := S4096x128) (k0_off21 L) S128x128.size (k0_off21_inb L)
abbrev iBlkK (L : grid0.Coords) : Memref sig .scVector .hbm S128x50 .i32 := (iV).slice (iRectK L) (fun _ => rfl)
abbrev oBlkK (L : grid0.Coords) : Memref sig .scVector .hbm S128x128 .f32 := (oV).slice (oRectK L) (fun _ => rfl)
abbrev xAllK : Memref sig .scVector .hbm S100000x128 .f32 :=
  (xV).slice (Rect.unit (s := S100000x128) ![0, 0] S100000x128.size inb_S100000x128_S100000x128_0_0) (fun _ => rfl)

/-- The rows the task's index copy reads are its block of the 32 equal parts: rows 128 w … 128 w + 127. -/
theorem iRectK_eq : iRectK L = iBlk (wL L) := by
  unfold iRectK iBlk Rect.part Rect.block
  congr 1 <;> funext a
  · rw [k0_off1_eq]
    match a with
    | 0 => simp [Shape.partIx, Shape.partSize]; omega
    | 1 => simp [Shape.partIx, Shape.partSize]
  · match a with
    | 0 => simp [Shape.partSize]
    | 1 => simp [Shape.partSize]
/-- The same for the rows of the bag it writes. -/
theorem oRectK_eq : oRectK L = oBlk (wL L) := by
  unfold oRectK oBlk Rect.part Rect.block
  congr 1 <;> funext a
  · rw [k0_off21_eq]
    match a with
    | 0 => simp [Shape.partIx, Shape.partSize]; omega
    | 1 => simp [Shape.partIx, Shape.partSize]
  · match a with
    | 0 => simp [Shape.partSize]
    | 1 => simp [Shape.partSize]

theorem set_iBlkK : (iBlkK L).view.set = iBlkSet (wL L) := by
  show ((iV).view.slice (iRectK L)).set = ((iV).view.slice (iBlk (wL L))).set
  rw [iRectK_eq]
theorem set_oBlkK : (oBlkK L).view.set = oBlkSet (wL L) := by
  show ((oV).view.slice (oRectK L)).set = ((oV).view.slice (oBlk (wL L))).set
  rw [oRectK_eq]

theorem pts_iBlkK (f : Buf (Elt F) (iLoc d)) :
    ((iBlkK L).view.loc (V d (cV L) (jV L)) ↦[(iBlkK L).view.set]{fullShare} f : sProp 𝕄) = iLoc d ↦[iBlkSet (wL L)]{fullShare} f := by
  rw [set_iBlkK]
theorem pts_oBlkK (f : Buf (Elt F) (oLoc d)) :
    ((oBlkK L).view.loc (V d (cV L) (jV L)) ↦[(oBlkK L).view.set]{fullShare} f : sProp 𝕄) = oLoc d ↦[oBlkSet (wL L)]{fullShare} f := by
  rw [set_oBlkK]
theorem pts_xV (q : PosShare TreeShare) (f : Buf (Elt F) (xLoc d)) :
    ((xV).view.loc (V d (cV L) (jV L)) ↦{q} f : sProp 𝕄) = xLoc d ↦{q} f := rfl

end Tile

end Cert.Kernel.Hand

end
-- ==== Proof.Kernel.Cells.lean ====
import proofs.«205252_g82703890252310_cont_sun_m_328_31_alg».proof.Proof.Kernel.Views

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## A tile's scoped storage: three scratch buffers, ten transfer semaphores

The gather ring has eight slots, each with its own semaphore; the two block copies (the index block in, the
bag block out) have one semaphore each. The ring's semaphores are spelt through their offset in the
semaphore array, as the body slices it, so that one spelling serves a literal slot and a slot computed from
the trip. -/

section Tile

variable (d : Dev nD) (L : grid0.Coords)

theorem ringInb (n : ℕ) (h : n < 8) : ∀ a, (![n] : Fin 1 → Nat) a + S1.size a ≤ S8.size a := by
  intro a; match a with | 0 => show n + 1 ≤ 8; omega

/-- Slot n's semaphore, as the body names it: the n-th of the array of eight. -/
abbrev ringSemAt (off : Fin 1 → Nat) (h : ∀ a, off a + S1.size a ≤ S8.size a) : DmaSem sig :=
  ((cc0_scratch3.slice (Rect.unit (s := S8) off S1.size h)).squeeze S_ squeezes_S1_S_).sem
abbrev ringSem (b : Fin 8) : DmaSem sig := ringSemAt ![b.val] (ringInb b.val b.isLt)

abbrev cellA : GSem nD τ sig := (V d (cV L) (jV L), .dma cc0_scoped0.sem)
abbrev cellB : GSem nD τ sig := (V d (cV L) (jV L), .dma cc0_scoped1.sem)
abbrev ringCell (b : Fin 8) : GSem nD τ sig := (V d (cV L) (jV L), .dma (ringSem b))

theorem ringSem_val (b : Fin 8) : (ringSem b).val = b.val := by
  fin_cases b <;> rfl

theorem ringCell_injective : Function.Injective (ringCell d L) := by
  intro b b' e
  have e' : ringSem b = ringSem b' := SemLoc.dma.inj (Prod.mk.inj e).2
  exact Fin.ext ((ringSem_val b).symm.trans ((congrArg Fin.val e').trans (ringSem_val b')))

/-- The ring's eight cells. -/
def ringCells : Finset (GSem nD τ sig) := Finset.univ.map ⟨ringCell d L, ringCell_injective d L⟩

theorem ringCell_ne_A (b : Fin 8) : ringCell d L b ≠ cellA d L := by
  intro e
  have e' : ringSem b = cc0_scoped0.sem := SemLoc.dma.inj (Prod.mk.inj e).2
  have := congrArg Fin.val e'; rw [ringSem_val] at this
  have h8 : (cc0_scoped0.sem : DmaSem sig).val = 8 := rfl
  omega
theorem ringCell_ne_B (b : Fin 8) : ringCell d L b ≠ cellB d L := by
  intro e
  have e' : ringSem b = cc0_scoped1.sem := SemLoc.dma.inj (Prod.mk.inj e).2
  have := congrArg Fin.val e'; rw [ringSem_val] at this
  have h9 : (cc0_scoped1.sem : DmaSem sig).val = 9 := rfl
  omega
theorem cellB_ne_A : cellB d L ≠ cellA d L := by
  intro e
  have e' : (cc0_scoped1.sem : DmaSem sig) = cc0_scoped0.sem := SemLoc.dma.inj (Prod.mk.inj e).2
  exact absurd e' (by decide)

theorem ringCell_scoped (b : Fin 8) : (ringCell d L b).isScoped = true := by
  fin_cases b <;> rfl

/-- The tile's scoped semaphores at zero: the two copies' cells, the ring's eight, and the rest. -/
theorem ownSems0_V :
    (ownSems0 (V d (cV L) (jV L)) : sProp 𝕄)
      = iprop(semVal (cellA d L) 0 ∗ semVal (cellB d L) 0
          ∗ (bigSep Finset.univ fun b : Fin 8 => semVal (ringCell d L b) 0)
          ∗ bigSep ((((ownCells (V d (cV L) (jV L))).erase (cellA d L)).erase (cellB d L)) \ ringCells d L) fun g => semVal g 0) := by
  unfold SparseCore.Cfg.ownSems0
  rw [SparseCore.bigSep_erase' ((mem_ownCells (g := cellA d L)).mpr ⟨rfl, by
      show (SemLoc.dma cc0_scoped0.sem : SemLoc sig).isScoped .scVector = true; decide⟩),
    SparseCore.bigSep_erase' (Finset.mem_erase.mpr ⟨cellB_ne_A d L, (mem_ownCells (g := cellB d L)).mpr ⟨rfl, by
      show (SemLoc.dma cc0_scoped1.sem : SemLoc sig).isScoped .scVector = true; decide⟩⟩),
    bigSep_sdiff_split (t := ringCells d L) (by
      intro g hg
      obtain ⟨b, -, rfl⟩ := Finset.mem_map.mp hg
      exact Finset.mem_erase.mpr ⟨ringCell_ne_B d L b, Finset.mem_erase.mpr ⟨ringCell_ne_A d L b,
        (mem_ownCells (g := ringCell d L b)).mpr ⟨rfl, ringCell_scoped d L b⟩⟩⟩)]
  unfold ringCells
  rw [bigSep_map]
  rfl

/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

end Tile

end Cert.Kernel.Hand

end
-- ==== Proof.Kernel.Slots.lean ====
/-
  The gather scratch as eight slots, and the index scratch's rows as the gathers' offset lists.

  The gather scratch is an 8×50×128 buffer; the body uses it as eight slots, slot b the 1×50×128
  rectangle at offset (b, 0, 0) viewed as a 50×128 block. A slot's elements are the rectangle's: the
  change of shape keeps the elements, and a rectangle of the whole buffer has its own elements. The
  eight rectangles differ only in their offset along axis 0, one row each, so they are pairwise
  disjoint and cover the buffer: the buffer held whole is held slot by slot, and back. A slot spelt
  through a computed offset vector is the slot of the number the vector's closed form names; the same
  for the 128 rows of the index scratch, each the list of 50 offsets a gather reads.
-/
import proofs.«205252_g82703890252310_cont_sun_m_328_31_alg».proof.Proof.Kernel.Views
import Idealize.ShloMosaic.Lib.Ring

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The slots of the gather scratch -/

/-- The slot at an offset vector: the 1×50×128 rectangle there, viewed as a 50×128 block. -/
abbrev slotAt (off : Fin 3 → Nat) (h : ∀ a, off a + S1x50x128.size a ≤ S8x50x128.size a) : Memref sig .scVector .vmem S50x128 .f32 :=
  ((sG).slice (Rect.unit (s := S8x50x128) off S1x50x128.size h) (fun _ => rfl)).squeeze S50x128 squeezes_S1x50x128_S50x128

theorem slotInb (n : ℕ) (h : n < 8) : ∀ a, (![n, 0, 0] : Fin 3 → Nat) a + S1x50x128.size a ≤ S8x50x128.size a := by
  intro a
  match a with
  | 0 => show n + 1 ≤ 8; omega
  | 1 => show 0 + 50 ≤ 50; omega
  | 2 => show 0 + 128 ≤ 128; omega

/-- Slot b, b below eight. -/
abbrev slotK (b : Fin 8) : Memref sig .scVector .vmem S50x128 .f32 := slotAt ![b.val, 0, 0] (slotInb b.val b.isLt)

/-- A slot's elements are its rectangle's. -/
theorem set_slotAt (off : Fin 3 → Nat) (h : ∀ a, off a + S1x50x128.size a ≤ S8x50x128.size a) :
    (slotAt off h).view.set = (Rect.unit (s := S8x50x128) off S1x50x128.size h).set := by
  show (((sG).view.slice (Rect.unit (s := S8x50x128) off S1x50x128.size h)).reshape S50x128 _).set = _
  rw [View.set_reshape]
  exact View.set_slice_whole cc0_scratch1 _

/-- Equal offset vectors name one slot. -/
theorem slotAt_congr {off off' : Fin 3 → Nat} (e : off = off') (h : ∀ a, off a + S1x50x128.size a ≤ S8x50x128.size a) :
    slotAt off h = slotAt off' (e ▸ h) := by
  subst e; rfl

/-- The slot a trip of the loop names through its computed offsets is slot t mod 8. -/
theorem slotAt_off2 (t : Fin k0_t1_loop.trips) :
    slotAt (k0_off2 t) (k0_off2_inb t) = slotK (⟨t.val % 8, Nat.mod_lt _ (by decide)⟩ : Fin 8) :=
  slotAt_congr (k0_off2_eq t) (k0_off2_inb t)

/-- Slot b's elements, as a set of the scratch's indices. -/
abbrev slotSet (b : Fin 8) : Finset S8x50x128.Idx := (slotK b).view.set

theorem slotSet_eq (b : Fin 8) :
    slotSet b = (Rect.unit (s := S8x50x128) ![b.val, 0, 0] S1x50x128.size (slotInb b.val b.isLt)).set := set_slotAt _ _

/-- The slots' element sets are pairwise disjoint … -/
theorem slots_disjoint (b b' : Fin 8) (hb : b ≠ b') : Disjoint (slotSet b) (slotSet b') := by
  rw [slotSet_eq, slotSet_eq]
  exact Ring.lead_disjoint (s := S8x50x128) (NB := 8) (0 : Fin 3) 1 (fun b : Fin 8 => ![b.val, 0, 0]) S1x50x128.size
    (fun b => slotInb b.val b.isLt) (fun b => (Nat.one_mul _).symm) rfl b b' hb

/-- … and cover the scratch. -/
theorem slots_cover : Finset.univ.biUnion slotSet = Finset.univ := by
  have e : slotSet
      = fun b : Fin 8 => (Rect.unit (s := S8x50x128) ![b.val, 0, 0] S1x50x128.size (slotInb b.val b.isLt)).set :=
    funext slotSet_eq
  rw [e]
  exact Ring.lead_cover (s := S8x50x128) (NB := 8) (0 : Fin 3) 1 (fun b : Fin 8 => ![b.val, 0, 0]) S1x50x128.size
    (fun b => slotInb b.val b.isLt) (fun b => (Nat.one_mul _).symm)
    (fun b a ha => by match a with | 0 => exact absurd rfl ha | 1 => rfl | 2 => rfl) rfl
    (fun a ha => by match a with | 0 => exact absurd rfl ha | 1 => rfl | 2 => rfl) rfl

section Tile

variable (d : Dev nD) (L : grid0.Coords)

/-- A slot lies in the tile's gather scratch. -/
theorem loc_slotAt (off : Fin 3 → Nat) (h : ∀ a, off a + S1x50x128.size a ≤ S8x50x128.size a) :
    (slotAt off h).view.loc (V d (cV L) (jV L)) = (V d (cV L) (jV L)).loc cc0_scratch1 := rfl

/-- The scratch held whole is held slot by slot. -/
theorem slots_split (f : Buf (Elt F) ((V d (cV L) (jV L)).loc cc0_scratch1)) :
    ((V d (cV L) (jV L)).loc cc0_scratch1 ↦{fullShare} f : sProp 𝕄)
      ⊢ bigSep Finset.univ fun b : Fin 8 => (slotK b).view.loc (V d (cV L) (jV L)) ↦[(slotK b).view.set]{fullShare} f := by
  rw [Ring.pointsTo_blocks (Ix := HIx 1) (Name := ℕ) (U := UU) (Lvl := ℕ) (ℓ := (V d (cV L) (jV L)).loc cc0_scratch1)
    slotSet slots_disjoint slots_cover f]

/-- The slots, each at some contents, join to the scratch held whole at some contents. -/
theorem slots_join :
    (bigSep Finset.univ fun b : Fin 8 => iprop(∃ f, (slotK b).view.loc (V d (cV L) (jV L)) ↦[(slotK b).view.set]{fullShare} f) : sProp 𝕄)
      ⊢ iprop(∃ f, (V d (cV L) (jV L)).loc cc0_scratch1 ↦{fullShare} f) := by
  rw [SparseCore.bigSep_erase' (Finset.mem_univ (0 : Fin 8))]
  iintro ⟨⟨%f0, H0⟩, Hrest⟩
  iapply (Ring.pointsTo_blocks_join_exists (Ix := HIx 1) (Name := ℕ) (U := UU) (Lvl := ℕ) (ℓ := (V d (cV L) (jV L)).loc cc0_scratch1)
    slotSet slots_disjoint slots_cover f0)
  irw [SparseCore.bigSep_erase' (Finset.mem_univ (0 : Fin 8))]
  isplitl [H0]
  · iexists f0; iexact H0
  · iexact Hrest

end Tile

/-! ## The rows of the index scratch, as the gathers' offset lists -/

/-- The list at an offset vector: the 1×50 rectangle there, viewed as 50 words. -/
abbrev listAt (off : Fin 2 → Nat) (h : ∀ a, off a + S1x50.size a ≤ S128x50.size a) : Memref sig .scVector .vmem S50 .i32 :=
  ((sI).slice (Rect.unit (s := S128x50) off S1x50.size h) (fun _ => rfl)).squeeze S50 squeezes_S1x50_S50

theorem listInb (n : ℕ) (h : n < 128) : ∀ a, (![n, 0] : Fin 2 → Nat) a + S1x50.size a ≤ S128x50.size a := by
  intro a
  match a with
  | 0 => show n + 1 ≤ 128; omega
  | 1 => show 0 + 50 ≤ 50; omega

/-- Row c's list, c below 128. -/
abbrev listK (c : Fin 128) : Memref sig .scVector .vmem S50 .i32 := listAt ![c.val, 0] (listInb c.val c.isLt)

/-- A list's elements are its rectangle's. -/
theorem set_listAt (off : Fin 2 → Nat) (h : ∀ a, off a + S1x50.size a ≤ S128x50.size a) :
    (listAt off h).view.set = (Rect.unit (s := S128x50) off S1x50.size h).set := by
  show (((sI).view.slice (Rect.unit (s := S128x50) off S1x50.size h)).reshape S50 _).set = _
  rw [View.set_reshape]
  exact View.set_slice_whole cc0_scratch0 _

/-- Equal offset vectors name one list. -/
theorem listAt_congr {off off' : Fin 2 → Nat} (e : off = off') (h : ∀ a, off a + S1x50.size a ≤ S128x50.size a) :
    listAt off h = listAt off' (e ▸ h) := by
  subst e; rfl

/-- The list a trip of the loop names through its computed offsets is row (t + 8) mod 128's. -/
theorem listAt_off20 (t : Fin k0_t1_loop.trips) :
    listAt (k0_off20 t) (k0_off20_inb t) = listK (⟨(t.val + 8) % 128, Nat.mod_lt _ (by decide)⟩ : Fin 128) :=
  listAt_congr (k0_off20_eq t) (k0_off20_inb t)

section TileList

variable (d : Dev nD) (L : grid0.Coords)

/-- A list lies in the tile's index scratch. -/
theorem loc_listAt (off : Fin 2 → Nat) (h : ∀ a, off a + S1x50.size a ≤ S128x50.size a) :
    (listAt off h).view.loc (V d (cV L) (jV L)) = (V d (cV L) (jV L)).loc cc0_scratch0 := rfl

end TileList

end Cert.Kernel.Hand

end
-- ==== Proof.Kernel.SlotFacts.lean ====
/-
  The inner loop's loads lie inside the current slot.

  Each of the eight loads of a trip reads, through the whole gather scratch, the 1×1×16 rectangle at
  (t mod 8, t₂, 16 n), n = 0 … 7: row t₂ of slot t mod 8, lanes 16 n … 16 n + 15. Slot t mod 8 is the
  rectangle of all 50 rows and 128 columns at (t mod 8, 0, 0); since t₂ < 50 and 16 n + 16 ≤ 128, the
  load's rectangle lies inside it, coordinate by coordinate.
-/
import proofs.«205252_g82703890252310_cont_sun_m_328_31_alg».proof.Proof.Kernel.Slots
import Idealize.ShloMosaic.Lib.ValueLayout

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-- A trip of the inner loop is below 50. -/
theorem t2_lt (t2 : Fin k0_t2_loop.trips) : t2.val < 50 := Nat.lt_of_lt_of_le t2.isLt k0_t2_abs.2.1

/-- A 1×1×16 rectangle of the scratch at (b, j, c), j < 50 and c + 16 ≤ 128, lies inside the slot at
    (b, 0, 0). -/
theorem lane_sub_of_eq (o o2 : Fin 3 → Nat) (b j c : Nat) {ho : ∀ a, o a + S1x1x16.size a ≤ S8x50x128.size a}
    {h2 : ∀ a, o2 a + S1x50x128.size a ≤ S8x50x128.size a} (eo : o = ![b, j, c]) (eo2 : o2 = ![b, 0, 0])
    (hj : j < 50) (hc : c + 16 ≤ 128) :
    (sG.access (Rect.unit (s := S8x50x128) o S1x1x16.size ho)).set ⊆ (slotAt o2 h2).view.set := by
  subst eo eo2
  rw [set_slotAt]
  show ((View.whole cc0_scratch1).slice (Rect.unit (s := S8x50x128) ![b, j, c] S1x1x16.size ho)).set ⊆ _
  rw [View.set_slice_whole]
  intro i hi
  rw [Rect.mem_set_unit] at hi ⊢
  intro a
  match a with
  | 0 => exact hi 0
  | 1 =>
    have h := hi 1
    change j ≤ (i 1).val ∧ (i 1).val < j + 1 at h
    show 0 ≤ (i 1).val ∧ (i 1).val < 0 + 50
    omega
  | 2 =>
    have h := hi 2
    change c ≤ (i 2).val ∧ (i 2).val < c + 16 at h
    show 0 ≤ (i 2).val ∧ (i 2).val < 0 + 128
    omega

/-! ## The eight loads of a trip -/

theorem lane4_sub (t : Fin k0_t1_loop.trips) (t2 : Fin k0_t2_loop.trips) :
    (sG.access (Rect.unit (s := S8x50x128) (k0_off4 t t2) S1x1x16.size (k0_off4_inb t t2))).set
      ⊆ (slotAt (k0_off2 t) (k0_off2_inb t)).view.set :=
  lane_sub_of_eq _ _ (t.val % 8) t2.val 0 (k0_off4_eq t t2) (k0_off2_eq t) (t2_lt t2) (by omega)

theorem lane5_sub (t : Fin k0_t1_loop.trips) (t2 : Fin k0_t2_loop.trips) :
    (sG.access (Rect.unit (s := S8x50x128) (k0_off5 t t2) S1x1x16.size (k0_off5_inb t t2))).set
      ⊆ (slotAt (k0_off2 t) (k0_off2_inb t)).view.set :=
  lane_sub_of_eq _ _ (t.val % 8) t2.val 16 (k0_off5_eq t t2) (k0_off2_eq t) (t2_lt t2) (by omega)

theorem lane6_sub (t : Fin k0_t1_loop.trips) (t2 : Fin k0_t2_loop.trips) :
    (sG.access (Rect.unit (s := S8x50x128) (k0_off6 t t2) S1x1x16.size (k0_off6_inb t t2))).set
      ⊆ (slotAt (k0_off2 t) (k0_off2_inb t)).view.set :=
  lane_sub_of_eq _ _ (t.val % 8) t2.val 32 (k0_off6_eq t t2) (k0_off2_eq t) (t2_lt t2) (by omega)

theorem lane7_sub (t : Fin k0_t1_loop.trips) (t2 : Fin k0_t2_loop.trips) :
    (sG.access (Rect.unit (s := S8x50x128) (k0_off7 t t2) S1x1x16.size (k0_off7_inb t t2))).set
      ⊆ (slotAt (k0_off2 t) (k0_off2_inb t)).view.set :=
  lane_sub_of_eq _ _ (t.val % 8) t2.val 48 (k0_off7_eq t t2) (k0_off2_eq t) (t2_lt t2) (by omega)

theorem lane8_sub (t : Fin k0_t1_loop.trips) (t2 : Fin k0_t2_loop.trips) :
    (sG.access (Rect.unit (s := S8x50x128) (k0_off8 t t2) S1x1x16.size (k0_off8_inb t t2))).set
      ⊆ (slotAt (k0_off2 t) (k0_off2_inb t)).view.set :=
  lane_sub_of_eq _ _ (t.val % 8) t2.val 64 (k0_off8_eq t t2) (k0_off2_eq t) (t2_lt t2) (by omega)

theorem lane9_sub (t : Fin k0_t1_loop.trips) (t2 : Fin k0_t2_loop.trips) :
    (sG.access (Rect.unit (s := S8x50x128) (k0_off9 t t2) S1x1x16.size (k0_off9_inb t t2))).set
      ⊆ (slotAt (k0_off2 t) (k0_off2_inb t)).view.set :=
  lane_sub_of_eq _ _ (t.val % 8) t2.val 80 (k0_off9_eq t t2) (k0_off2_eq t) (t2_lt t2) (by omega)

theorem lane10_sub (t : Fin k0_t1_loop.trips) (t2 : Fin k0_t2_loop.trips) :
    (sG.access (Rect.unit (s := S8x50x128) (k0_off10 t t2) S1x1x16.size (k0_off10_inb t t2))).set
      ⊆ (slotAt (k0_off2 t) (k0_off2_inb t)).view.set :=
  lane_sub_of_eq _ _ (t.val % 8) t2.val 96 (k0_off10_eq t t2) (k0_off2_eq t) (t2_lt t2) (by omega)

theorem lane11_sub (t : Fin k0_t1_loop.trips) (t2 : Fin k0_t2_loop.trips) :
    (sG.access (Rect.unit (s := S8x50x128) (k0_off11 t t2) S1x1x16.size (k0_off11_inb t t2))).set
      ⊆ (slotAt (k0_off2 t) (k0_off2_inb t)).view.set :=
  lane_sub_of_eq _ _ (t.val % 8) t2.val 112 (k0_off11_eq t t2) (k0_off2_eq t) (t2_lt t2) (by omega)

/-! ## The whole table as a rectangle of itself -/

/-- The rectangle of the table's own sizes at offset zero has every index: the slice of everything
    goes through every element of the table, whatever the evidence it is formed with. -/
theorem set_xAll (h1 : ∀ a, (![0, 0] : Fin 2 → Nat) a + S100000x128.size a ≤ S100000x128.size a)
    (h2 : ∀ a, (Rect.unit (s := S100000x128) ![0, 0] S100000x128.size h1).stride a = 1) :
    ((xV).slice (Rect.unit (s := S100000x128) ![0, 0] S100000x128.size h1) h2).view.set = Finset.univ := by
  show ((View.whole main_arg1_scv).slice (Rect.unit (s := S100000x128) ![0, 0] S100000x128.size h1)).set = _
  rw [View.set_slice_whole, Finset.eq_univ_iff_forall]
  intro i
  rw [Rect.mem_set_unit]
  intro a
  match a with
  | 0 =>
    have h : (i 0).val < 100000 := (i 0).isLt
    show 0 ≤ (i 0).val ∧ (i 0).val < 0 + 100000
    omega
  | 1 =>
    have h : (i 1).val < 128 := (i 1).isLt
    show 0 ≤ (i 1).val ∧ (i 1).val < 0 + 128
    omega

/-! ## What a load reads off a landed slot

A slot that holds a block g of 50×128 entries (written whole, over whatever it held) holds g (j, e) at
element (b, j, e) of the scratch: the slot's index (j, e) is (0, j, e) of its rectangle, which sits
at (b, 0, 0). The load at (b, j, 16 n) of 1×1×16 entries therefore reads g (j, 16 n + l) at lane l. -/

variable {F : FTy → Type}

theorem lane_read_of_eq (o o2 : Fin 3 → Nat) (b j c : Nat) (n : Fin 8)
    {ho : ∀ a, o a + S1x1x16.size a ≤ S8x50x128.size a} {h2 : ∀ a, o2 a + S1x50x128.size a ≤ S8x50x128.size a}
    (eo : o = ![b, j, c]) (eo2 : o2 = ![b, 0, 0]) (hj : j < 50) (hc : c = 16 * n.val)
    (f0 : (slotAt o2 h2).view.ty.Contents (Elt F)) (g : S50x128.Idx → Elt F .f32) :
    sG.view.readAt (Elt F) (Rect.unit (s := S8x50x128) o S1x1x16.size ho).toLoadRect
        ((slotAt o2 h2).view.writes (Elt F) f0 [⟨Rect.whole S50x128, g⟩])
      = lanes g (⟨j % 50, Nat.mod_lt _ (by decide)⟩ : Fin 50) n := by
  subst eo eo2
  refine funext fun (x : S1x1x16.Idx) => ?_
  have hx0 : (x 0).val = 0 := by have : (x 0).val < 1 := (x 0).isLt; omega
  have hx1 : (x 1).val = 0 := by have : (x 1).val < 1 := (x 1).isLt; omega
  have hx2 : (x 2).val < 16 := (x 2).isLt
  have hn := n.isLt
  have hemb : (Rect.unit (s := S8x50x128) ![b, j, c] S1x1x16.size ho).emb x
      = (slotAt ![b, 0, 0] h2).view.emb (ValueIdx.ix2 (⟨j % 50, Nat.mod_lt _ (by decide)⟩ : Fin 50)
          (⟨16 * n.val + (x 2).val % 16, by omega⟩ : Fin 128)) := by
    show _ = (Rect.unit (s := S8x50x128) ![b, 0, 0] S1x50x128.size h2).emb (Shape.reshapeEquiv _ (ValueIdx.ix2 _ _))
    rw [ValueIdx.reshapeEquiv_ix2_1ab]
    funext a
    apply Fin.ext
    rw [Rect.emb_apply, Rect.emb_apply]
    match a with
    | 0 => show b + 1 * (x 0).val = b + 1 * 0; rw [hx0]
    | 1 => show j + 1 * (x 1).val = 0 + 1 * (j % 50); rw [hx1, Nat.mod_eq_of_lt hj]; omega
    | 2 => show c + 1 * (x 2).val = 0 + 1 * (16 * n.val + (x 2).val % 16); omega
  rw [View.readAt_apply, View.read_apply]
  show _root_.cast _ ((slotAt ![b, 0, 0] h2).view.writes (Elt F) f0 [⟨Rect.whole S50x128, g⟩]
    ((Rect.unit (s := S8x50x128) ![b, j, c] S1x1x16.size ho).emb x)) = _
  rw [hemb, ← View.write_univ_eq_writes_whole, View.writes_nil, View.write_emb_of_mem _ _ (Finset.mem_univ _), cast_cast, cast_eq]
  rfl

theorem lane4_read (t : Fin k0_t1_loop.trips) (k : Fin k0_t2_loop.trips)
    (f0 : (slotAt (k0_off2 t) (k0_off2_inb t)).view.ty.Contents (Elt F)) (pay : S50x128.Idx → Elt F .f32) :
    sG.view.readAt (Elt F) (Rect.unit (s := S8x50x128) (k0_off4 t k) S1x1x16.size (k0_off4_inb t k)).toLoadRect
        ((slotAt (k0_off2 t) (k0_off2_inb t)).view.writes (Elt F) f0 [⟨Rect.whole S50x128, pay⟩])
      = lanes pay (⟨k.val % 50, Nat.mod_lt _ (by decide)⟩ : Fin 50) (⟨0, by decide⟩ : Fin 8) :=
  lane_read_of_eq _ _ (t.val % 8) k.val 0 ⟨0, by decide⟩ (k0_off4_eq t k) (k0_off2_eq t) (t2_lt k) rfl f0 pay

theorem lane5_read (t : Fin k0_t1_loop.trips) (k : Fin k0_t2_loop.trips)
    (f0 : (slotAt (k0_off2 t) (k0_off2_inb t)).view.ty.Contents (Elt F)) (pay : S50x128.Idx → Elt F .f32) :
    sG.view.readAt (Elt F) (Rect.unit (s := S8x50x128) (k0_off5 t k) S1x1x16.size (k0_off5_inb t k)).toLoadRect
        ((slotAt (k0_off2 t) (k0_off2_inb t)).view.writes (Elt F) f0 [⟨Rect.whole S50x128, pay⟩])
      = lanes pay (⟨k.val % 50, Nat.mod_lt _ (by decide)⟩ : Fin 50) (⟨1, by decide⟩ : Fin 8) :=
  lane_read_of_eq _ _ (t.val % 8) k.val 16 ⟨1, by decide⟩ (k0_off5_eq t k) (k0_off2_eq t) (t2_lt k) rfl f0 pay

theorem lane6_read (t : Fin k0_t1_loop.trips) (k : Fin k0_t2_loop.trips)
    (f0 : (slotAt (k0_off2 t) (k0_off2_inb t)).view.ty.Contents (Elt F)) (pay : S50x128.Idx → Elt F .f32) :
    sG.view.readAt (Elt F) (Rect.unit (s := S8x50x128) (k0_off6 t k) S1x1x16.size (k0_off6_inb t k)).toLoadRect
        ((slotAt (k0_off2 t) (k0_off2_inb t)).view.writes (Elt F) f0 [⟨Rect.whole S50x128, pay⟩])
      = lanes pay (⟨k.val % 50, Nat.mod_lt _ (by decide)⟩ : Fin 50) (⟨2, by decide⟩ : Fin 8) :=
  lane_read_of_eq _ _ (t.val % 8) k.val 32 ⟨2, by decide⟩ (k0_off6_eq t k) (k0_off2_eq t) (t2_lt k) rfl f0 pay

theorem lane7_read (t : Fin k0_t1_loop.trips) (k : Fin k0_t2_loop.trips)
    (f0 : (slotAt (k0_off2 t) (k0_off2_inb t)).view.ty.Contents (Elt F)) (pay : S50x128.Idx → Elt F .f32) :
    sG.view.readAt (Elt F) (Rect.unit (s := S8x50x128) (k0_off7 t k) S1x1x16.size (k0_off7_inb t k)).toLoadRect
        ((slotAt (k0_off2 t) (k0_off2_inb t)).view.writes (Elt F) f0 [⟨Rect.whole S50x128, pay⟩])
      = lanes pay (⟨k.val % 50, Nat.mod_lt _ (by decide)⟩ : Fin 50) (⟨3, by decide⟩ : Fin 8) :=
  lane_read_of_eq _ _ (t.val % 8) k.val 48 ⟨3, by decide⟩ (k0_off7_eq t k) (k0_off2_eq t) (t2_lt k) rfl f0 pay

theorem lane8_read (t : Fin k0_t1_loop.trips) (k : Fin k0_t2_loop.trips)
    (f0 : (slotAt (k0_off2 t) (k0_off2_inb t)).view.ty.Contents (Elt F)) (pay : S50x128.Idx → Elt F .f32) :
    sG.view.readAt (Elt F) (Rect.unit (s := S8x50x128) (k0_off8 t k) S1x1x16.size (k0_off8_inb t k)).toLoadRect
        ((slotAt (k0_off2 t) (k0_off2_inb t)).view.writes (Elt F) f0 [⟨Rect.whole S50x128, pay⟩])
      = lanes pay (⟨k.val % 50, Nat.mod_lt _ (by decide)⟩ : Fin 50) (⟨4, by decide⟩ : Fin 8) :=
  lane_read_of_eq _ _ (t.val % 8) k.val 64 ⟨4, by decide⟩ (k0_off8_eq t k) (k0_off2_eq t) (t2_lt k) rfl f0 pay

theorem lane9_read (t : Fin k0_t1_loop.trips) (k : Fin k0_t2_loop.trips)
    (f0 : (slotAt (k0_off2 t) (k0_off2_inb t)).view.ty.Contents (Elt F)) (pay : S50x128.Idx → Elt F .f32) :
    sG.view.readAt (Elt F) (Rect.unit (s := S8x50x128) (k0_off9 t k) S1x1x16.size (k0_off9_inb t k)).toLoadRect
        ((slotAt (k0_off2 t) (k0_off2_inb t)).view.writes (Elt F) f0 [⟨Rect.whole S50x128, pay⟩])
      = lanes pay (⟨k.val % 50, Nat.mod_lt _ (by decide)⟩ : Fin 50) (⟨5, by decide⟩ : Fin 8) :=
  lane_read_of_eq _ _ (t.val % 8) k.val 80 ⟨5, by decide⟩ (k0_off9_eq t k) (k0_off2_eq t) (t2_lt k) rfl f0 pay

theorem lane10_read (t : Fin k0_t1_loop.trips) (k : Fin k0_t2_loop.trips)
    (f0 : (slotAt (k0_off2 t) (k0_off2_inb t)).view.ty.Contents (Elt F)) (pay : S50x128.Idx → Elt F .f32) :
    sG.view.readAt (Elt F) (Rect.unit (s := S8x50x128) (k0_off10 t k) S1x1x16.size (k0_off10_inb t k)).toLoadRect
        ((slotAt (k0_off2 t) (k0_off2_inb t)).view.writes (Elt F) f0 [⟨Rect.whole S50x128, pay⟩])
      = lanes pay (⟨k.val % 50, Nat.mod_lt _ (by decide)⟩ : Fin 50) (⟨6, by decide⟩ : Fin 8) :=
  lane_read_of_eq _ _ (t.val % 8) k.val 96 ⟨6, by decide⟩ (k0_off10_eq t k) (k0_off2_eq t) (t2_lt k) rfl f0 pay

theorem lane11_read (t : Fin k0_t1_loop.trips) (k : Fin k0_t2_loop.trips)
    (f0 : (slotAt (k0_off2 t) (k0_off2_inb t)).view.ty.Contents (Elt F)) (pay : S50x128.Idx → Elt F .f32) :
    sG.view.readAt (Elt F) (Rect.unit (s := S8x50x128) (k0_off11 t k) S1x1x16.size (k0_off11_inb t k)).toLoadRect
        ((slotAt (k0_off2 t) (k0_off2_inb t)).view.writes (Elt F) f0 [⟨Rect.whole S50x128, pay⟩])
      = lanes pay (⟨k.val % 50, Nat.mod_lt _ (by decide)⟩ : Fin 50) (⟨7, by decide⟩ : Fin 8) :=
  lane_read_of_eq _ _ (t.val % 8) k.val 112 ⟨7, by decide⟩ (k0_off11_eq t k) (k0_off2_eq t) (t2_lt k) rfl f0 pay

end Cert.Kernel.Hand

end
-- ==== Proof.Kernel.BodyDefs.lean ====
import proofs.«205252_g82703890252310_cont_sun_m_328_31_alg».proof.Proof.Kernel.Cells
import proofs.«205252_g82703890252310_cont_sun_m_328_31_alg».proof.Proof.Kernel.SlotFacts

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## What a task holds while its ring runs

A task keeps eight gathers in flight, one per slot of its gather scratch, each on the slot's own semaphore.
Chunk c (row c of the task's 128 index rows) is gathered into slot c mod 8: the gather's offsets list is row c
of the index scratch, its source the whole table, and what lands is the block whose row j is row idx[c, j] of
the table. The accumulator scratch's row c is written once chunk c has been summed. -/

section Tile

variable (d : Dev nD) (L : grid0.Coords)
variable [FloatOps F] [Facts]

/-- The eight 16-lane accumulators the inner loop carries. -/
abbrev Acc8 (F : FTy → Type) : Type :=
  FVec F S16 .f32 × FVec F S16 .f32 × FVec F S16 .f32 × FVec F S16 .f32 × FVec F S16 .f32 × FVec F S16 .f32 × FVec F S16 .f32 × FVec F S16 .f32

/-- The index scratch once the task's block of the index array has landed in it (over any prior contents). -/
def sIcOf (fs : Buf (Elt F) ((V d (cV L) (jV L)).loc cc0_scratch0)) : Buf (Elt F) ((V d (cV L) (jV L)).loc cc0_scratch0) :=
  View.write (Elt F) (sI).view fs (ReadAs.same.apply ((iBlkK L).view.read (Elt F) (m (iLoc d)))) Finset.univ

/-- Every word of the index scratch names a row of the table. -/
def ListsOK (sIc : Buf (Elt F) ((V d (cV L) (jV L)).loc cc0_scratch0)) : Prop :=
  ∀ (off : Fin 2 → ℕ) (h : ∀ a, off a + S1x50.size a ≤ S128x50.size a) (x : S50.Idx), ((listAt off h).view.read (Elt F) sIc x).toNat < 100000

/-- What the gather over the list at offsets c lands: row j of it is the table's row named by the list's j-th word. -/
def chunkPay (sIc : Buf (Elt F) ((V d (cV L) (jV L)).loc cc0_scratch0)) (hl : ListsOK (F := F) d L sIc)
    (c : Fin 2 → ℕ) (hc : ∀ a, c a + S1x50.size a ≤ S128x50.size a) : S50x128.Idx → Elt F .f32 :=
  SparseCore.gatherPayload gathers_S100000x128_S50x128 ((xAllK).view.read (Elt F) (m (xLoc d)))
    (SparseCore.rows ((listAt c hc).view.read (Elt F) sIc) rfl (hl c hc))

/-- The inner loop's invariant: the slot held at the landed block g, the accumulators at their values after t₂ rows. -/
def inv2 (t : Fin k0_t1_loop.trips) (g : S50x128.Idx → Elt F .f32) (t2 : Nat) (acc : Acc8 F) : sProp 𝕄 :=
  iprop(((slotAt (k0_off2 t) (k0_off2_inb t)).view.loc (V d (cV L) (jV L)) ↦[(slotAt (k0_off2 t) (k0_off2_inb t)).view.set]{fullShare}
      (slotAt (k0_off2 t) (k0_off2_inb t)).view.writes (Elt F) (slotAt (k0_off2 t) (k0_off2_inb t)).view.junk [⟨Rect.whole S50x128, g⟩])
    ∗ ⌜acc = (accV g 0 t2, accV g 1 t2, accV g 2 t2, accV g 3 t2, accV g 4 t2, accV g 5 t2, accV g 6 t2, accV g 7 t2)⌝)

/-- A gather in flight into the slot at offsets o2 on the semaphore at offset o3, over the list at offsets c: its
    delivery is the slot written with the payload (over whatever it held and older whole-slot pieces), the list's
    row at its share of the index scratch, the table at its share; beside it the rest of that share of the scratch. -/
def slotFl (sIc : Buf (Elt F) ((V d (cV L) (jV L)).loc cc0_scratch0))
    (o2 : Fin 3 → ℕ) (h2 : ∀ a, o2 a + S1x50x128.size a ≤ S8x50x128.size a) (o3 : Fin 1 → ℕ) (h3 : ∀ a, o3 a + S1.size a ≤ S8.size a)
    (c : Fin 2 → ℕ) (hc : ∀ a, c a + S1x50.size a ≤ S128x50.size a) (qs qx : PosShare TreeShare)
    (f0 : Buf (Elt F) ((V d (cV L) (jV L)).loc cc0_scratch1)) (pay : S50x128.Idx → Elt F .f32) (Lold : List (View.Piece (Elt F) S50x128 .f32)) : sProp 𝕄 :=
  iprop(Transfers.Flight countersEmb (V d (cV L) (jV L)) (SemLoc.dma (ringSemAt o3 h3)) (default : HIx 1) 204800
      (iprop((((slotAt o2 h2).view.loc (V d (cV L) (jV L)) ↦[(slotAt o2 h2).view.set]{fullShare}
              (slotAt o2 h2).view.writes (Elt F) f0 (⟨Rect.whole S50x128, pay⟩ :: Lold))
            ∗ ((sI).view.loc (V d (cV L) (jV L)) ↦[(listAt c hc).view.set]{qs} sIc))
          ∗ ((xV).view.loc (V d (cV L) (jV L)) ↦[(xAllK).view.set]{qx} m (xLoc d))))
    ∗ ((sI).view.loc (V d (cV L) (jV L)) ↦[Finset.univ \ (listAt c hc).view.set]{qs} sIc))

/-- Which chunk slot b holds a gather for, before trip t: the chunks t … t+7, chunk c in slot c mod 8, wrapping at 128. -/
def chunkOf (t : ℕ) (b : Fin 8) : ℕ := if b.val < t % 8 then (t - t % 8 + 8 + b.val) % 128 else (t - t % 8 + b.val) % 128

theorem chunkOf_lt (t : ℕ) (b : Fin 8) : chunkOf t b < 128 := by unfold chunkOf; split <;> exact Nat.mod_lt _ (by decide)
theorem chunkOf_zero (b : Fin 8) : chunkOf 0 b = b.val := by unfold chunkOf; have := b.isLt; simp; omega
theorem chunkOf_here (t : ℕ) (ht : t < 128) : chunkOf t ⟨t % 8, Nat.mod_lt _ (by decide)⟩ = t := by unfold chunkOf; simp; omega
theorem chunkOf_next (t : ℕ) : chunkOf (t + 1) ⟨t % 8, Nat.mod_lt _ (by decide)⟩ = (t + 8) % 128 := by unfold chunkOf; simp; split <;> omega
theorem chunkOf_other (t : ℕ) (b : Fin 8) (hb : b.val ≠ t % 8) : chunkOf (t + 1) b = chunkOf t b := by
  unfold chunkOf; have := b.isLt; split <;> split <;> omega
theorem chunkOf_end (b : Fin 8) : chunkOf 128 b = b.val := by unfold chunkOf; have := b.isLt; simp; omega

/-- Rows 0 … t−1 of the accumulator scratch hold their chunks' sums: entry (r, e) is lane e mod 16 of lane group
    e / 16's accumulator after all 50 rows of chunk r's block. -/
def AccOK (sIc : Buf (Elt F) ((V d (cV L) (jV L)).loc cc0_scratch0)) (hl : ListsOK (F := F) d L sIc) (t : ℕ)
    (fa : Buf (Elt F) ((V d (cV L) (jV L)).loc cc0_scratch2)) : Prop :=
  ∀ (r : Fin 128) (e : Fin 128), r.val < t →
    fa (ValueIdx.ix2 r e) = accV (chunkPay (F := F) m d L sIc hl ![r.val, 0] (listInb r.val r.isLt))
      (⟨e.val / 16, by have := e.isLt; omega⟩ : Fin 8) 50 (ValueIdx.ix1 (⟨e.val % 16, Nat.mod_lt _ (by decide)⟩ : Fin 16))

end Tile

end Cert.Kernel.Hand

end
-- ==== Proof.Kernel.WholeWrite.lean ====
/-
  A write of the whole shape shadows every write before it.

  A list of unmasked writes through a view leaves, at each element of the underlying buffer, the
  payload of the newest write that covers it, and the prior contents where none does. When the
  newest write goes through the whole shape it covers every element under the view, and no write
  through the view touches an element outside it: so the buffer is the one the newest write alone
  leaves over the prior contents.
-/
import Idealize.ShloMosaic.Lib.Writes
import Idealize.ShloMosaic.Lib.Exec.Geometry

noncomputable section

namespace Cert.Kernel.Hand

open Idealize.ShloMosaic

/-- Writes through a view whose newest piece is the whole shape leave what that piece alone leaves. -/
theorem writes_whole_cons {sig : RefSig} {κ : Kind} {sp : Space} {S : Shape} {e : EltTy} {Val : EltTy → Type}
    (v : View sig κ sp S e) (f : v.ty.Contents Val) (w : S.Idx → Val e) (Lold : List (View.Piece Val S e)) :
    v.writes Val f (⟨Rect.whole S, w⟩ :: Lold) = v.writes Val f [⟨Rect.whole S, w⟩] := by
  rw [← View.write_univ_eq_writes_whole, ← View.write_univ_eq_writes_whole, View.writes_nil]
  funext i
  by_cases hi : i ∈ v.set
  · obtain ⟨y, -, rfl⟩ := Finset.mem_map.mp hi
    rw [View.write_emb_of_mem _ _ (Finset.mem_univ _), View.write_emb_of_mem _ _ (Finset.mem_univ _)]
  · rw [View.write_of_not_mem _ _ _ (by rwa [View.setOn_univ]), View.write_of_not_mem _ _ _ (by rwa [View.setOn_univ])]
    exact View.writes_apply_of_forall_ne v f Lold fun y hy => hi (hy ▸ v.emb_mem_set y)

/-- On the view's elements a whole-shape write leaves its payload, whatever the buffer held before. -/
theorem writes_whole_base {sig : RefSig} {κ : Kind} {sp : Space} {S : Shape} {e : EltTy} {Val : EltTy → Type}
    (v : View sig κ sp S e) (f g : v.ty.Contents Val) (w : S.Idx → Val e) :
    ∀ i ∈ v.set, v.writes Val f [⟨Rect.whole S, w⟩] i = v.writes Val g [⟨Rect.whole S, w⟩] i := by
  intro i hi
  obtain ⟨y, -, rfl⟩ := Finset.mem_map.mp hi
  rw [← View.write_univ_eq_writes_whole, ← View.write_univ_eq_writes_whole, View.writes_nil, View.writes_nil,
    View.write_emb_of_mem _ _ (Finset.mem_univ _), View.write_emb_of_mem _ _ (Finset.mem_univ _)]

end Cert.Kernel.Hand

end
-- ==== Proof.Kernel.Trip.lean ====
import proofs.«205252_g82703890252310_cont_sun_m_328_31_alg».proof.Proof.Kernel.BodyDefs
import proofs.«205252_g82703890252310_cont_sun_m_328_31_alg».proof.Proof.Kernel.WholeWrite

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## One trip of the ring

Trip t waits for slot t mod 8's gather (chunk t), sums the landed block's 50 rows into the eight lane
accumulators, writes them as row t of the accumulator scratch, and starts the gather of chunk (t + 8) mod 128
into the same slot on the same semaphore. -/

section Tile

variable (d : Dev nD) (L : grid0.Coords)
variable [FloatOps F] [Facts]

/-- The accumulator scratch after trip t's eight stores of the sums a. -/
abbrev accAfter (t : Fin k0_t1_loop.trips) (fa : Buf (Elt F) ((V d (cV L) (jV L)).loc cc0_scratch2)) (g : S50x128.Idx → Elt F .f32) :
    Buf (Elt F) ((V d (cV L) (jV L)).loc cc0_scratch2) :=
  (sA).view.writes (Elt F) fa
      [⟨Rect.unit (s := S128x128) (k0_off19 t) S1x16.size (k0_off19_inb t), k0_pay24 (accV g 7 50)⟩,
        ⟨Rect.unit (s := S128x128) (k0_off18 t) S1x16.size (k0_off18_inb t), k0_pay23 (accV g 6 50)⟩,
        ⟨Rect.unit (s := S128x128) (k0_off17 t) S1x16.size (k0_off17_inb t), k0_pay22 (accV g 5 50)⟩,
        ⟨Rect.unit (s := S128x128) (k0_off16 t) S1x16.size (k0_off16_inb t), k0_pay21 (accV g 4 50)⟩,
        ⟨Rect.unit (s := S128x128) (k0_off15 t) S1x16.size (k0_off15_inb t), k0_pay20 (accV g 3 50)⟩,
        ⟨Rect.unit (s := S128x128) (k0_off14 t) S1x16.size (k0_off14_inb t), k0_pay19 (accV g 2 50)⟩,
        ⟨Rect.unit (s := S128x128) (k0_off13 t) S1x16.size (k0_off13_inb t), k0_pay18 (accV g 1 50)⟩,
        ⟨Rect.unit (s := S128x128) (k0_off12 t) S1x16.size (k0_off12_inb t), k0_pay17 (accV g 0 50)⟩]

set_option maxHeartbeats 8000000 in
theorem trip (t : Fin k0_t1_loop.trips) (O : CellTallies nD τ sig (HIx 1)) (W : Waits sig (HIx 1)) (hO : ∀ g, O g none = 0)
    (sIc : Buf (Elt F) ((V d (cV L) (jV L)).loc cc0_scratch0)) (hl : ListsOK (F := F) d L sIc)
    (c : Fin 2 → ℕ) (hc : ∀ a, c a + S1x50.size a ≤ S128x50.size a) (qs qx : PosShare TreeShare)
    (f0 : Buf (Elt F) ((V d (cV L) (jV L)).loc cc0_scratch1)) (pay : S50x128.Idx → Elt F .f32) (Lold : List (View.Piece (Elt F) S50x128 .f32))
    (fa : Buf (Elt F) ((V d (cV L) (jV L)).loc cc0_scratch2)) :
    iprop(levAts (K (F := F)).L (K (F := F)).lev
        ∗ slotFl (F := F) m d L sIc (k0_off2 t) (k0_off2_inb t) (k0_off3 t) (k0_off3_inb t) c hc qs qx f0 pay Lold
        ∗ ((sA).view.loc (V d (cV L) (jV L)) ↦{fullShare} fa)
        ∗ owes (V d (cV L) (jV L)) O W)
      ⊢ wp frame (wpE (defs₀ (F := F)) 𝒱₀ (V d (cV L) (jV L)) none) Set.univ
          (k0_t1_body L iV (Memref.isWhole_whole _) xV (Memref.isWhole_whole _) oV (Memref.isWhole_whole _)
            sI (Memref.isWhole_whole _) sG (Memref.isWhole_whole _) sA (Memref.isWhole_whole _) cc0_scratch3 cc0_scoped0 cc0_scoped1 t ())
          fun _ => iprop((∃ pay' : S50x128.Idx → Elt F .f32, ⌜pay' = chunkPay (F := F) m d L sIc hl (k0_off20 t) (k0_off20_inb t)⌝
              ∗ slotFl (F := F) m d L sIc (k0_off2 t) (k0_off2_inb t) (k0_off3 t) (k0_off3_inb t) (k0_off20 t) (k0_off20_inb t) qs qx
                  (slotAt (k0_off2 t) (k0_off2_inb t)).view.junk pay' [⟨Rect.whole S50x128, pay⟩])
            ∗ ((sA).view.loc (V d (cV L) (jV L)) ↦{fullShare} accAfter (F := F) d L t fa pay)
            ∗ owes (V d (cV L) (jV L)) O (insert (SemLoc.dma (ringSemAt (k0_off3 t) (k0_off3_inb t)), (default : HIx 1)) W)) := by
  unfold k0_t1_body slotFl
  iintro ⟨#Hlv, ⟨Hfl, Hleft⟩, Ha, HO⟩
  ihave Hmw := (show (levAts (K (F := F)).L (K (F := F)).lev : sProp 𝕄) ⊢ Transfers.MayWaits (V d (cV L) (jV L)) (default : HIx 1) O from
    (K (F := F)).mayWaits_none (thr := V d (cV L) (jV L)) hO) $$ Hlv
  -- the wait: the slot lands, the list's row and the table's share come back
  sl_exec
  icases Hfl_dst with ⟨Hslot, Hlist⟩
  ihave Hsw := (pointsTo_split_subset (ℓ := (sI).view.loc (V d (cV L) (jV L))) (q := qs) (f := sIc) (S := Finset.univ) (Finset.subset_univ (listAt c hc).view.set)).2 $$ [Hlist Hleft]
  · isplitl [Hlist] <;> iassumption
  ihave Hxw := (Entails.of_eq (show (((xV).view.loc (V d (cV L) (jV L)) ↦[(xAllK).view.set]{qx} m (xLoc d)) : sProp 𝕄)
      = ((xV).view.loc (V d (cV L) (jV L)) ↦{qx} m (xLoc d)) from by rw [show (xAllK).view.set = Finset.univ from set_xAll _ _])) $$ Hfl_src
  -- on the slot, what is held is the landed block, whatever lay under it
  ihave Hslot' := (Entails.of_eq (pointsTo_congr (ℓ := (slotAt (k0_off2 t) (k0_off2_inb t)).view.loc (V d (cV L) (jV L))) (q := fullShare)
      (I := (slotAt (k0_off2 t) (k0_off2_inb t)).view.set)
      (f := (slotAt (k0_off2 t) (k0_off2_inb t)).view.writes (Elt F) f0 (⟨Rect.whole S50x128, pay⟩ :: Lold))
      (g := (slotAt (k0_off2 t) (k0_off2_inb t)).view.writes (Elt F) (slotAt (k0_off2 t) (k0_off2_inb t)).view.junk [⟨Rect.whole S50x128, pay⟩])
      (fun i hi => by
        rw [writes_whole_cons]
        exact writes_whole_base (slotAt (k0_off2 t) (k0_off2_inb t)).view f0 (slotAt (k0_off2 t) (k0_off2_inb t)).view.junk pay i hi))) $$ Hslot
  have hin : ∀ (off : Fin 2 → ℕ) (h : ∀ a, off a + S1x50.size a ≤ S128x50.size a) (x : S50.Idx),
      ((listAt off h).view.read (Elt F) sIc x).toNat < 100000 := hl
  -- the 50 rows, summed
  sl_for (inv2 (F := F) d L t pay) $$ [Hslot']
  case region =>
    intro k acc
    unfold inv2
    iintro ⟨Hslot, %hacc⟩
    have hsub4 := lane4_sub t k
    have hsub5 := lane5_sub t k
    have hsub6 := lane6_sub t k
    have hsub7 := lane7_sub t k
    have hsub8 := lane8_sub t k
    have hsub9 := lane9_sub t k
    have hsub10 := lane10_sub t k
    have hsub11 := lane11_sub t k
    sl_exec
    sl_step
    isplitl [Hslot]; · iexact Hslot
    ipureintro
    subst hacc
    refine congrArg₂ Prod.mk (congrArg (k0_pay9 _) (lane4_read t k _ pay)) (congrArg₂ Prod.mk (congrArg (k0_pay9 _) (lane5_read t k _ pay))
      (congrArg₂ Prod.mk (congrArg (k0_pay9 _) (lane6_read t k _ pay)) (congrArg₂ Prod.mk (congrArg (k0_pay9 _) (lane7_read t k _ pay))
      (congrArg₂ Prod.mk (congrArg (k0_pay9 _) (lane8_read t k _ pay)) (congrArg₂ Prod.mk (congrArg (k0_pay9 _) (lane9_read t k _ pay))
      (congrArg₂ Prod.mk (congrArg (k0_pay9 _) (lane10_read t k _ pay)) (congrArg (k0_pay9 _) (lane11_read t k _ pay))))))))
  · unfold inv2
    isplitl [Hslot']; · iexact Hslot'
    ipureintro; rfl
  iintro %acc HI
  unfold inv2
  icases HI with ⟨Hslot, %hacc⟩
  subst hacc
  -- row t of the accumulator scratch, and the next gather
  sl_exec
  sl_step
  isplitl [Hfl Hsw]
  · iexists _
    isplitr
    swap
    · isplitl [Hfl]; · iexact Hfl
      iexact Hsw
    · ipureintro; rfl
  isplitl [Ha]; · iexact Ha
  iexact HO

end Tile

end Cert.Kernel.Hand

end
-- ==== Proof.Kernel.Shares.lean ====
import proofs.«205252_g82703890252310_cont_sun_m_328_31_alg».proof.Proof.Kernel.BodyDefs

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## The eight slots' read shares

The task's token of the table and the full share of its index scratch are each cut into eight: seven tokens and
the remainder. Slot b keeps one of each for as long as the ring runs. -/

section Tile

variable (d : Dev nD) (L : grid0.Coords)

/-- Slot b's share of the index scratch: the remainder for slot 0, token b − 1 for the others. -/
def qsOf (b : Fin 8) : PosShare TreeShare :=
  if h : b.val = 0 then Transfers.shareDrop fullShare 7 else Transfers.shareTok fullShare 7 ⟨b.val - 1, by have := b.isLt; omega⟩
/-- Slot b's share of the task's table token: token b for slots 0 … 6, the remainder for slot 7. -/
def qxOf (b : Fin 8) : PosShare TreeShare :=
  if h : b.val = 7 then Transfers.shareDrop (xq (wL L)) 7 else Transfers.shareTok (xq (wL L)) 7 ⟨b.val, by have := b.isLt; omega⟩

theorem bigSep_fin8 {M : Type} [URA M] (Φ : Fin 8 → sProp M) :
    bigSep (Finset.univ : Finset (Fin 8)) Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide]
  repeat rw [SparseCore.bigSep_insert' (by decide)]
  rw [bigSep_singleton]
theorem bigSep_fin7 {M : Type} [URA M] (Φ : Fin 7 → sProp M) :
    bigSep (Finset.univ : Finset (Fin 7)) Φ = iprop(Φ 0 ∗ Φ 1 ∗ Φ 2 ∗ Φ 3 ∗ Φ 4 ∗ Φ 5 ∗ Φ 6) := by
  rw [show (Finset.univ : Finset (Fin 7)) = {0, 1, 2, 3, 4, 5, 6} by decide]
  repeat rw [SparseCore.bigSep_insert' (by decide)]
  rw [bigSep_singleton]

end Tile

end Cert.Kernel.Hand

end
-- ==== Proof.Kernel.AccFacts.lean ====
/-
  Two facts about the accumulator scratch of a task. One trip of the outer loop stores the eight 16-lane
  accumulators into the eight 16-lane pieces of row t of the scratch, so rows 0 … t hold their chunks' sums once
  rows 0 … t−1 did. And once all 128 rows are done the scratch is the task's 128 rows of the bag.
-/
import proofs.«205252_g82703890252310_cont_sun_m_328_31_alg».proof.Proof.Kernel.BodyDefs
import Idealize.ShloMosaic.Lib.Writes
import Idealize.ShloMosaic.Lib.Pipeline.Value
import Idealize.ShloMosaic.Lib.ValueIdx

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable (m : (ℓ : Loc nD τ sig) → Buf (Elt F) ℓ)

section Tile

variable (d : Dev nD) (L : grid0.Coords)
variable [FloatOps F] [Facts]

/-- The outer loop has at most 128 trips. -/
theorem trip_lt (t : Fin k0_t1_loop.trips) : t.val < 128 := Nat.lt_of_lt_of_le t.isLt k0_t1_abs.2.1

/-- A vector of sixteen laid out as one row of sixteen reads, at (0, j), the vector at j. -/
theorem shapeCast_row (a : FVec F S16 .f32) (x : S1x16.Idx) :
    shapeCast S1x16 a shapeCasts_S16_S1x16 x = a (ValueIdx.ix1 (⟨(x 1).val, (x 1).isLt⟩ : Fin 16)) := by
  refine (shapeCast_addUnit_apply ![16] a shapeCasts_S16_S1x16 x).trans (congrArg a ?_)
  funext a'; match a' with | ⟨0, _⟩ => rfl

/-- Row t of the scratch after the trip, as one function of the column: lane e mod 16 of lane group e / 16's accumulator. -/
def rowG (pay : S50x128.Idx → Elt F .f32) : S128x128.Idx → Elt F .f32 := fun i =>
  accV pay (⟨(i 1).val / 16, by have : (i 1).val < 128 := (i 1).isLt; omega⟩ : Fin 8) 50
    (ValueIdx.ix1 (⟨(i 1).val % 16, Nat.mod_lt _ (by decide)⟩ : Fin 16))

theorem rowG_at (pay : S50x128.Idx → Elt F .f32) (k : Fin 8) (j : Fin 16) (i : S128x128.Idx) (hi : (i 1).val = 16 * k.val + j.val) :
    rowG pay i = accV pay k 50 (ValueIdx.ix1 j) := by
  have hk := k.isLt; have hj := j.isLt
  have h1 : ∀ h, (⟨(i 1).val / 16, h⟩ : Fin 8) = k := fun _ => Fin.ext (by show (i 1).val / 16 = k.val; omega)
  have h2 : ∀ h, (⟨(i 1).val % 16, h⟩ : Fin 16) = j := fun _ => Fin.ext (by show (i 1).val % 16 = j.val; omega)
  unfold rowG; rw [h1, h2]

/-- The eight stores of trip t, newest first: piece k is lanes 16k … 16k+15 of row t. -/
abbrev accPieces (t : Fin k0_t1_loop.trips) (a0 a1 a2 a3 a4 a5 a6 a7 : FVec F S16 .f32) : List (View.Piece (Elt F) S128x128 .f32) :=
  [⟨Rect.unit (s := S128x128) (k0_off19 t) S1x16.size (k0_off19_inb t), k0_pay24 a7⟩,
   ⟨Rect.unit (s := S128x128) (k0_off18 t) S1x16.size (k0_off18_inb t), k0_pay23 a6⟩,
   ⟨Rect.unit (s := S128x128) (k0_off17 t) S1x16.size (k0_off17_inb t), k0_pay22 a5⟩,
   ⟨Rect.unit (s := S128x128) (k0_off16 t) S1x16.size (k0_off16_inb t), k0_pay21 a4⟩,
   ⟨Rect.unit (s := S128x128) (k0_off15 t) S1x16.size (k0_off15_inb t), k0_pay20 a3⟩,
   ⟨Rect.unit (s := S128x128) (k0_off14 t) S1x16.size (k0_off14_inb t), k0_pay19 a2⟩,
   ⟨Rect.unit (s := S128x128) (k0_off13 t) S1x16.size (k0_off13_inb t), k0_pay18 a1⟩,
   ⟨Rect.unit (s := S128x128) (k0_off12 t) S1x16.size (k0_off12_inb t), k0_pay17 a0⟩]

/-- An element of row t in columns c … c+15 is in the piece at offsets (t, c); -/
theorem mem_piece (t : Fin k0_t1_loop.trips) (off : Fin 2 → ℕ) (inb : ∀ a, off a + S1x16.size a ≤ S128x128.size a) (c : ℕ)
    (hoff : off = ![t.val, c]) (i : S128x128.Idx) (hr : (i 0).val = t.val) (he : c ≤ (i 1).val ∧ (i 1).val < c + 16) :
    i ∈ (Rect.unit (s := S128x128) off S1x16.size inb).set := by
  subst hoff; rw [Rect.mem_set_unit]; intro a
  match a with
  | ⟨0, _⟩ => show t.val ≤ (i 0).val ∧ (i 0).val < t.val + 1; omega
  | ⟨1, _⟩ => show c ≤ (i 1).val ∧ (i 1).val < c + 16; exact he

/-- an element of an earlier row is in none. -/
theorem not_mem_piece (t : Fin k0_t1_loop.trips) (off : Fin 2 → ℕ) (inb : ∀ a, off a + S1x16.size a ≤ S128x128.size a) (c : ℕ)
    (hoff : off = ![t.val, c]) (i : S128x128.Idx) (hr : (i 0).val < t.val) :
    i ∉ (Rect.unit (s := S128x128) off S1x16.size inb).set := by
  subst hoff; rw [Rect.mem_set_unit]; intro hm
  have h0 : t.val ≤ (i 0).val := (hm 0).1
  omega

/-- What piece k stores is row t's function on the piece. -/
theorem piece_val (pay : S50x128.Idx → Elt F .f32) (t : Fin k0_t1_loop.trips) (off : Fin 2 → ℕ) (inb : ∀ a, off a + S1x16.size a ≤ S128x128.size a)
    (k : Fin 8) (hoff : off = ![t.val, 16 * k.val]) (x : (Rect.unit (s := S128x128) off S1x16.size inb).shape.Idx) :
    shapeCast S1x16 (accV pay k 50) shapeCasts_S16_S1x16 x = rowG pay ((Rect.unit (s := S128x128) off S1x16.size inb).emb x) := by
  subst hoff
  rw [shapeCast_row]
  refine (rowG_at pay k ⟨(x 1).val, (x 1).isLt⟩ _ ?_).symm
  show 16 * k.val + 1 * (x 1).val = 16 * k.val + (x 1).val
  omega

/-- ONE TRIP'S EIGHT STORES: rows 0 … t hold their chunks' sums once rows 0 … t−1 did and the eight accumulators are
    the sums of chunk t's block. -/
theorem accOK_step (sIc : Buf (Elt F) ((V d (cV L) (jV L)).loc cc0_scratch0)) (hl : ListsOK (F := F) d L sIc) (t : Fin k0_t1_loop.trips)
    (fa : Buf (Elt F) ((V d (cV L) (jV L)).loc cc0_scratch2)) (h : AccOK (F := F) m d L sIc hl t.val fa)
    (pay : S50x128.Idx → Elt F .f32) (hpay : pay = chunkPay (F := F) m d L sIc hl ![t.val, 0] (listInb t.val (trip_lt t))) :
    AccOK (F := F) m d L sIc hl (t.val + 1)
      ((sA).view.writes (Elt F) fa (accPieces t (accV pay 0 50) (accV pay 1 50) (accV pay 2 50) (accV pay 3 50) (accV pay 4 50) (accV pay 5 50) (accV pay 6 50) (accV pay 7 50))) := by
  intro r e hr
  have ht := trip_lt t
  have hread : ∀ g : Buf (Elt F) ((V d (cV L) (jV L)).loc cc0_scratch2), g (ValueIdx.ix2 r e) = (sA).view.read (Elt F) g (ValueIdx.ix2 r e) := fun g => rfl
  by_cases hrt : r.val < t.val
  · refine (hread _).trans ?_
    rw [View.read_writes_apply_of_forall_not_mem]
    · exact h r e hrt
    · intro p hp
      simp only [List.mem_cons, List.mem_nil_iff, _root_.or_false] at hp
      rcases hp with rfl | rfl | rfl | rfl | rfl | rfl | rfl | rfl
      · exact not_mem_piece t _ (k0_off19_inb t) 112 (k0_off19_eq t) _ hrt
      · exact not_mem_piece t _ (k0_off18_inb t) 96 (k0_off18_eq t) _ hrt
      · exact not_mem_piece t _ (k0_off17_inb t) 80 (k0_off17_eq t) _ hrt
      · exact not_mem_piece t _ (k0_off16_inb t) 64 (k0_off16_eq t) _ hrt
      · exact not_mem_piece t _ (k0_off15_inb t) 48 (k0_off15_eq t) _ hrt
      · exact not_mem_piece t _ (k0_off14_inb t) 32 (k0_off14_eq t) _ hrt
      · exact not_mem_piece t _ (k0_off13_inb t) 16 (k0_off13_eq t) _ hrt
      · exact not_mem_piece t _ (k0_off12_inb t) 0 (k0_off12_eq t) _ hrt
  · have hrt' : r.val = t.val := by omega
    have hpr : chunkPay (F := F) m d L sIc hl ![r.val, 0] (listInb r.val r.isLt) = pay := by
      rw [hpay]
      have : ∀ (n : ℕ) (hn : n < 128), n = t.val → chunkPay (F := F) m d L sIc hl ![n, 0] (listInb n hn) = chunkPay (F := F) m d L sIc hl ![t.val, 0] (listInb t.val ht) := by
        intro n hn e'; subst e'; rfl
      exact this r.val r.isLt hrt'
    rw [hpr]
    refine (hread _).trans ?_
    rw [View.read_writes_apply_of_pieces (sA).view fa (rowG pay)]
    · rfl
    · intro p hp x
      simp only [List.mem_cons, List.mem_nil_iff, _root_.or_false] at hp
      rcases hp with rfl | rfl | rfl | rfl | rfl | rfl | rfl | rfl
      · exact piece_val pay t _ (k0_off19_inb t) 7 (k0_off19_eq t) x
      · exact piece_val pay t _ (k0_off18_inb t) 6 (k0_off18_eq t) x
      · exact piece_val pay t _ (k0_off17_inb t) 5 (k0_off17_eq t) x
      · exact piece_val pay t _ (k0_off16_inb t) 4 (k0_off16_eq t) x
      · exact piece_val pay t _ (k0_off15_inb t) 3 (k0_off15_eq t) x
      · exact piece_val pay t _ (k0_off14_inb t) 2 (k0_off14_eq t) x
      · exact piece_val pay t _ (k0_off13_inb t) 1 (k0_off13_eq t) x
      · exact piece_val pay t _ (k0_off12_inb t) 0 (k0_off12_eq t) x
    · have he := e.isLt
      have hq : e.val / 16 < 8 := by omega
      have hi0 : ((ValueIdx.ix2 r e : S128x128.Idx) 0).val = t.val := hrt'
      interval_cases hk : e.val / 16
      · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))),
          mem_piece t _ (k0_off12_inb t) 0 (k0_off12_eq t) _ hi0 (by show 0 ≤ e.val ∧ e.val < 0 + 16; omega)⟩
      · exact ⟨_, List.mem_cons_of_mem _ (List.mem_cons_of_mem _ (List.mem_cons_of_mem _ (List.mem_cons_of_mem _ (List.mem_cons_of_mem _ (List.mem_cons_of_mem _ List.mem_cons_self))))),
          mem_piece t _ (k0_off13_inb t) 16 (k0_off13_eq t) _ hi0 (by show 16 ≤ e.val ∧ e.val < 16 + 16; omega)⟩
      · exact ⟨_, List.mem_cons_of_mem _ (List.mem_cons_of_mem _ (List.mem_cons_of_mem _ (List.mem_cons_of_mem _ (List.mem_cons_of_mem _ List.mem_cons_self)))),
          mem_piece t _ (k0_off14_inb t) 32 (k0_off14_eq t) _ hi0 (by show 32 ≤ e.val ∧ e.val < 32 + 16; omega)⟩
      · exact ⟨_, List.mem_cons_of_mem _ (List.mem_cons_of_mem _ (List.mem_cons_of_mem _ (List.mem_cons_of_mem _ List.mem_cons_self))),
          mem_piece t _ (k0_off15_inb t) 48 (k0_off15_eq t) _ hi0 (by show 48 ≤ e.val ∧ e.val < 48 + 16; omega)⟩
      · exact ⟨_, List.mem_cons_of_mem _ (List.mem_cons_of_mem _ (List.mem_cons_of_mem _ List.mem_cons_self)),
          mem_piece t _ (k0_off16_inb t) 64 (k0_off16_eq t) _ hi0 (by show 64 ≤ e.val ∧ e.val < 64 + 16; omega)⟩
      · exact ⟨_, List.mem_cons_of_mem _ (List.mem_cons_of_mem _ List.mem_cons_self),
          mem_piece t _ (k0_off17_inb t) 80 (k0_off17_eq t) _ hi0 (by show 80 ≤ e.val ∧ e.val < 80 + 16; omega)⟩
      · exact ⟨_, List.mem_cons_of_mem _ List.mem_cons_self,
          mem_piece t _ (k0_off18_inb t) 96 (k0_off18_eq t) _ hi0 (by show 96 ≤ e.val ∧ e.val < 96 + 16; omega)⟩
      · exact ⟨_, List.mem_cons_self,
          mem_piece t _ (k0_off19_inb t) 112 (k0_off19_eq t) _ hi0 (by show 112 ≤ e.val ∧ e.val < 112 + 16; omega)⟩

/-- The bag at row R, column e: lane e mod 16 of lane group e / 16's accumulator over row R's block. -/
theorem bagK_at (idx : IVec S4096x50 32) (tbl : FVec F S100000x128 .f32) (R : Fin 4096) (e : Fin 128) :
    bagK (F := F) idx tbl (ValueIdx.ix2 R e)
      = accV (rowsOf idx tbl R) (⟨e.val / 16, by have := e.isLt; omega⟩ : Fin 8) 50 (ValueIdx.ix1 (⟨e.val % 16, Nat.mod_lt _ (by decide)⟩ : Fin 16)) := by
  have e1 : ∀ h, (⟨R.val % 4096, h⟩ : Fin 4096) = R := fun _ => Fin.ext (Nat.mod_eq_of_lt R.isLt)
  have e2 : ∀ h h', (⟨e.val % 128 / 16, h⟩ : Fin 8) = ⟨e.val / 16, h'⟩ := fun _ _ => Fin.ext (by show e.val % 128 / 16 = e.val / 16; rw [Nat.mod_eq_of_lt e.isLt])
  show accV (rowsOf idx tbl ⟨R.val % 4096, _⟩) ⟨e.val % 128 / 16, _⟩ 50 (ValueIdx.ix1 ⟨e.val % 16, _⟩) = _
  rw [e1, e2]

/-- The task's row r of the bag's 4096. -/
theorem bagRow_lt (r : Fin 128) : 128 * (wL L).val + r.val < 4096 := by have := (wL L).isLt; have := r.isLt; omega

/-- THE LAST COPY'S VALUE: all 128 rows done, the scratch is the task's block of the bag. -/
theorem acc_is_bag (fs : Buf (Elt F) ((V d (cV L) (jV L)).loc cc0_scratch0)) (hl : ListsOK (F := F) d L (sIcOf (F := F) m d L fs))
    (fa : Buf (Elt F) ((V d (cV L) (jV L)).loc cc0_scratch2)) (h : AccOK (F := F) m d L (sIcOf (F := F) m d L fs) hl 128 fa)
    (hcp : ∀ c : Fin 128, chunkPay (F := F) m d L (sIcOf (F := F) m d L fs) hl ![c.val, 0] (listInb c.val c.isLt)
      = rowsOf (m (iLoc d)) (m (xLoc d)) (⟨128 * (wL L).val + c.val, bagRow_lt L c⟩ : Fin 4096))
    (r : Fin 128) (e : Fin 128) :
    fa (ValueIdx.ix2 r e) = bagK (F := F) (m (iLoc d)) (m (xLoc d)) (ValueIdx.ix2 (⟨128 * (wL L).val + r.val, bagRow_lt L r⟩ : Fin 4096) e) := by
  rw [h r e r.isLt, hcp r, bagK_at]

end Tile

end Cert.Kernel.Hand

end
-- ==== Proof.Kernel.PayFacts.lean ====
/-
  The gather's payload is the block of table rows the index array names.

  The index scratch, once the task's block of the index array has landed in it, holds at (c, j) the
  word at (128 w + c, j) of the index array, w the task's number: the block is the 128 rows from row
  128 w. Row c of the scratch, viewed as a list of 50 words, reads word j at (c, j). The gather over
  that list lands, at (j, e), entry e of the table's row named by word j; the whole table is read
  through the rectangle of everything, which reads the table itself. A word below 100000 names the row
  of its own number. So the payload is the block whose row j is row idx[128 w + c, j] of the table.
-/
import proofs.«205252_g82703890252310_cont_sun_m_328_31_alg».proof.Proof.Kernel.BodyDefs
import Idealize.ShloMosaic.Lib.ValueLayout

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## Indices -/

/-- The k-th word of a list of 50, in row-major order, is the word at index k. -/
theorem rowMajor_symm_S50 {n : Nat} (h : n = S50.numel) (k : Fin n) (k' : Fin 50) (hk : k.val = k'.val) :
    S50.rowMajor.symm (k.cast h) = ix1 k' := by
  rw [Equiv.symm_apply_eq]
  apply Fin.ext
  rw [Shape.rowMajor_val_one]
  exact hk

/-- Index j of a list of 50 words, matched with shape 1×50, is (0, j). -/
theorem reshapeEquiv_ix1_1a (h : S50.numel = S1x50.numel) (j : Fin 50) :
    Shape.reshapeEquiv h (ix1 j) = ix2 (⟨0, Nat.one_pos⟩ : Fin 1) j :=
  Shape.reshapeEquiv_eq_of_rowMajor h (by
    rw [Shape.rowMajor_val_two, Shape.rowMajor_val_one]
    show 0 * 50 + j.val = j.val
    omega)

/-- The gather's payload at (j, e): entry e of the source's row named by word j of the list. -/
theorem gatherPayload_apply (hg : S100000x128.Gathers 0 S50x128) (g : S100000x128.Idx → Elt F .f32)
    (idx : S50.Idx → Elt F .i32) (hn : S50.numel = S50x128.size hg.axis') (hin : ∀ x, (idx x).toNat < S100000x128.size hg.axis)
    (j : Fin 50) (e : Fin 128) :
    SparseCore.gatherPayload hg g (SparseCore.rows idx hn hin) (ix2 j e)
      = g (ix2 (⟨(idx (ix1 j)).toNat, hin (ix1 j)⟩ : Fin 100000) e) := by
  unfold SparseCore.gatherPayload
  refine congrArg g (funext fun b => Fin.ext ?_)
  match b with
  | ⟨0, _⟩ =>
    have h0 := congrArg Fin.val (Shape.Gathers.idx_axis hg (SparseCore.rows idx hn hin) (ix2 j e))
    refine h0.trans ?_
    exact congrArg (fun i => (idx i).toNat) (rowMajor_symm_S50 hn.symm _ j rfl)
  | ⟨1, _⟩ =>
    exact Shape.Gathers.idx_of_ne hg _ _ ⟨1, by decide⟩ (by decide)

/-- Row j, column e of the block row r of the index array gathers. -/
theorem rowsOf_at (idx : IVec S4096x50 32) (tbl : FVec F S100000x128 .f32) (r : Fin 4096) (j : Fin 50) (e : Fin 128) :
    rowsOf (F := F) idx tbl r (ix2 j e) = tbl (ix2 (rowIx (idx (ix2 r j))) e) := by
  have hj : (⟨j.val % 50, Nat.mod_lt _ (by decide)⟩ : Fin 50) = j := Fin.ext (Nat.mod_eq_of_lt j.isLt)
  have he : (⟨e.val % 128, Nat.mod_lt _ (by decide)⟩ : Fin 128) = e := Fin.ext (Nat.mod_eq_of_lt e.isLt)
  show tbl (ix2 (rowIx (idx (ix2 r (⟨j.val % 50, _⟩ : Fin 50)))) (⟨e.val % 128, _⟩ : Fin 128)) = _
  rw [hj, he]

variable (m : (ℓ : Loc nD τ sig) → Buf (Elt F) ℓ)

section Tile

variable (d : Dev nD) (L : grid0.Coords)
variable [FloatOps F] [Facts]

theorem rowOfTask_lt (c : Fin 128) : 128 * (wL L).val + c.val < 4096 := by
  have := (wL L).isLt; have := c.isLt; omega

/-- The task's block of the index array reads, at (c, j), the array at (128 w + c, j). -/
theorem read_iBlkK (f : Buf (Elt F) (iLoc d)) (c : Fin 128) (j : Fin 50) :
    (iBlkK L).view.read (Elt F) f (ix2 c j) = f (ix2 (⟨128 * (wL L).val + c.val, rowOfTask_lt L c⟩ : Fin 4096) j) := by
  have hemb : (iRectK L).emb (ix2 c j) = ix2 (⟨128 * (wL L).val + c.val, rowOfTask_lt L c⟩ : Fin 4096) j := by
    funext a
    apply Fin.ext
    rw [Rect.emb_apply]
    show k0_off1 L a + 1 * (ix2 c j a).val = _
    rw [k0_off1_eq]
    match a with
    | ⟨0, _⟩ => show 256 * (L 1).val + 128 * (L 0).val + 1 * c.val = 128 * (2 * (L 1).val + (L 0).val) + c.val; omega
    | ⟨1, _⟩ => show 0 + 1 * j.val = j.val; omega
  rw [View.read_apply]
  show _root_.cast _ (f ((iRectK L).emb (ix2 c j))) = _
  rw [hemb]
  rfl

/-- The index scratch after the block has landed is the block. -/
theorem sIcOf_eq (fs : Buf (Elt F) ((V d (cV L) (jV L)).loc cc0_scratch0)) :
    sIcOf (F := F) m d L fs = (iBlkK L).view.read (Elt F) (m (iLoc d)) :=
  View.write_whole_univ cc0_scratch0 fs _

/-- The list at row c of the index scratch reads, at j, the scratch at (c, j). -/
theorem read_listK (sIc : Buf (Elt F) ((V d (cV L) (jV L)).loc cc0_scratch0)) (c : Fin 128) (j : Fin 50) :
    (listAt ![c.val, 0] (listInb c.val c.isLt)).view.read (Elt F) sIc (ix1 j) = sIc (ix2 c j) := by
  have hemb : (Rect.unit (s := S128x50) ![c.val, 0] S1x50.size (listInb c.val c.isLt)).emb (ix2 (⟨0, Nat.one_pos⟩ : Fin 1) j) = ix2 c j := by
    funext a
    apply Fin.ext
    rw [Rect.emb_apply]
    match a with
    | ⟨0, _⟩ => show c.val + 1 * 0 = c.val; omega
    | ⟨1, _⟩ => show 0 + 1 * j.val = j.val; omega
  rw [View.read_apply]
  show _root_.cast _ (sIc ((Rect.unit (s := S128x50) ![c.val, 0] S1x50.size (listInb c.val c.isLt)).emb (Shape.reshapeEquiv _ (ix1 j)))) = _
  rw [reshapeEquiv_ix1_1a, hemb]
  rfl

/-- The whole table read through the rectangle of everything is the table. -/
theorem read_xAllK (f : Buf (Elt F) (xLoc d)) : (xAllK).view.read (Elt F) f = f :=
  Memref.read_access_unit_zero (Elt F) main_arg1_scv (funext fun a => by match a with | ⟨0, _⟩ => rfl | ⟨1, _⟩ => rfl) _ f

/-- Every word of the landed index scratch names a row of the table, under the range of the index array. -/
theorem listsOK_of_pre (hpre : PreOK m) (fs : Buf (Elt F) ((V d (cV L) (jV L)).loc cc0_scratch0)) :
    ListsOK (F := F) d L (sIcOf m d L fs) := by
  intro off h x
  rw [sIcOf_eq, View.read_apply, View.read_apply]
  exact hpre d _

/-- THE PAYLOAD: the gather over row c of the landed index scratch lands the block row 128 w + c of the index array gathers. -/
theorem chunkPay_eq (fs : Buf (Elt F) ((V d (cV L) (jV L)).loc cc0_scratch0)) (hl : ListsOK (F := F) d L (sIcOf m d L fs)) (c : Fin 128) :
    chunkPay (F := F) m d L (sIcOf m d L fs) hl ![c.val, 0] (listInb c.val c.isLt)
      = rowsOf (F := F) (m (iLoc d)) (m (xLoc d)) (⟨128 * (wL L).val + c.val, rowOfTask_lt L c⟩ : Fin 4096) := by
  funext y
  obtain ⟨j, e, rfl⟩ : ∃ (j : Fin 50) (e : Fin 128), y = ix2 j e := ⟨y 0, y 1, eq_ix2 y⟩
  have hw : (listAt ![c.val, 0] (listInb c.val c.isLt)).view.read (Elt F) (sIcOf m d L fs) (ix1 j)
      = m (iLoc d) (ix2 (⟨128 * (wL L).val + c.val, rowOfTask_lt L c⟩ : Fin 4096) j) := by
    rw [read_listK, sIcOf_eq, read_iBlkK]
  have hlt := hl ![c.val, 0] (listInb c.val c.isLt) (ix1 j)
  unfold chunkPay
  refine (gatherPayload_apply _ _ _ _ _ j e).trans ?_
  rw [rowsOf_at, read_xAllK]
  refine congrArg (fun n : Fin 100000 => m (xLoc d) (ix2 n e)) (Fin.ext ?_)
  show ((listAt ![c.val, 0] (listInb c.val c.isLt)).view.read (Elt F) (sIcOf m d L fs) (ix1 j)).toNat = _
  rw [hw] at hlt ⊢
  exact (Nat.mod_eq_of_lt hlt).symm

end Tile

end Cert.Kernel.Hand

end
-- ==== Proof.Kernel.ShareJoin.lean ====
/-
  The slots' read shares come home. Each of the eight slots held one share of the index scratch and one of the task's
  token of the table; a slot gives its share of the scratch back as its list's row and the rest, and its piece of the
  table on the whole table's element set. Joined, the eight are the scratch at the full share and the table at the
  task's token.
-/
import proofs.«205252_g82703890252310_cont_sun_m_328_31_alg».proof.Proof.Kernel.Shares
import Idealize.ShloMosaic.Lib.Transfers

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Tile

variable (d : Dev nD) (L : grid0.Coords)

/-- A slot's list row and the rest of its share of the index scratch are that share of the whole scratch. -/
theorem list_rejoin (c : Fin 2 → ℕ) (hc : ∀ a, c a + S1x50.size a ≤ S128x50.size a) (q : PosShare TreeShare)
    (f : Buf (Elt F) ((V d (cV L) (jV L)).loc cc0_scratch0)) :
    iprop(((sI).view.loc (V d (cV L) (jV L)) ↦[(listAt c hc).view.set]{q} f) ∗ ((sI).view.loc (V d (cV L) (jV L)) ↦[Finset.univ \ (listAt c hc).view.set]{q} f))
      ⊢ ((sI).view.loc (V d (cV L) (jV L)) ↦{q} f : sProp 𝕄) :=
  (pointsTo_split_subset (Finset.subset_univ _)).2

/-- The whole table's slice is the whole table. -/
theorem xall_whole (q : PosShare TreeShare) (f : Buf (Elt F) (xLoc d)) :
    (((xV).view.loc (V d (cV L) (jV L)) ↦[(xAllK).view.set]{q} f) : sProp 𝕄) = ((xV).view.loc (V d (cV L) (jV L)) ↦{q} f) := by
  rw [show (xAllK).view.set = Finset.univ from set_xAll _ _]

/-- The eight slots' shares of the index scratch are the full share. -/
theorem sI_join (f : Buf (Elt F) ((V d (cV L) (jV L)).loc cc0_scratch0)) :
    (bigSep Finset.univ fun b : Fin 8 => ((sI).view.loc (V d (cV L) (jV L)) ↦{qsOf b} f) : sProp 𝕄)
      ⊢ ((V d (cV L) (jV L)).loc cc0_scratch0 ↦{fullShare} f) := by
  rw [bigSep_fin8]
  refine BIBase.Entails.trans ?_ (Transfers.pointsTo_toks_join (ℓ := (V d (cV L) (jV L)).loc cc0_scratch0) (S := Finset.univ) (f := f) fullShare 7)
  rw [bigSep_fin7]
  show iprop((((V d (cV L) (jV L)).loc cc0_scratch0) ↦{Transfers.shareDrop fullShare 7} f)
      ∗ (((V d (cV L) (jV L)).loc cc0_scratch0) ↦{Transfers.shareTok fullShare 7 0} f)
      ∗ (((V d (cV L) (jV L)).loc cc0_scratch0) ↦{Transfers.shareTok fullShare 7 1} f)
      ∗ (((V d (cV L) (jV L)).loc cc0_scratch0) ↦{Transfers.shareTok fullShare 7 2} f)
      ∗ (((V d (cV L) (jV L)).loc cc0_scratch0) ↦{Transfers.shareTok fullShare 7 3} f)
      ∗ (((V d (cV L) (jV L)).loc cc0_scratch0) ↦{Transfers.shareTok fullShare 7 4} f)
      ∗ (((V d (cV L) (jV L)).loc cc0_scratch0) ↦{Transfers.shareTok fullShare 7 5} f)
      ∗ (((V d (cV L) (jV L)).loc cc0_scratch0) ↦{Transfers.shareTok fullShare 7 6} f)) ⊢ _
  exact BIBase.Entails.rfl

/-- The eight slots' shares of the task's token of the table are the token. -/
theorem x_join (f : Buf (Elt F) (xLoc d)) :
    (bigSep Finset.univ fun b : Fin 8 => ((xV).view.loc (V d (cV L) (jV L)) ↦{qxOf (L := L) b} f) : sProp 𝕄)
      ⊢ (xLoc d ↦{xq (wL L)} f) := by
  rw [bigSep_fin8]
  refine BIBase.Entails.trans ?_ (Transfers.pointsTo_toks_join (ℓ := xLoc d) (S := Finset.univ) (f := f) (xq (wL L)) 7)
  rw [bigSep_fin7]
  show iprop(((xLoc d) ↦{Transfers.shareTok (xq (wL L)) 7 0} f)
      ∗ ((xLoc d) ↦{Transfers.shareTok (xq (wL L)) 7 1} f)
      ∗ ((xLoc d) ↦{Transfers.shareTok (xq (wL L)) 7 2} f)
      ∗ ((xLoc d) ↦{Transfers.shareTok (xq (wL L)) 7 3} f)
      ∗ ((xLoc d) ↦{Transfers.shareTok (xq (wL L)) 7 4} f)
      ∗ ((xLoc d) ↦{Transfers.shareTok (xq (wL L)) 7 5} f)
      ∗ ((xLoc d) ↦{Transfers.shareTok (xq (wL L)) 7 6} f)
      ∗ ((xLoc d) ↦{Transfers.shareDrop (xq (wL L)) 7} f)) ⊢ _
  iintro ⟨H0, H1, H2, H3, H4, H5, H6, H7⟩
  isplitl [H7]; · iexact H7
  isplitl [H0]; · iexact H0
  isplitl [H1]; · iexact H1
  isplitl [H2]; · iexact H2
  isplitl [H3]; · iexact H3
  isplitl [H4]; · iexact H4
  isplitl [H5]; · iexact H5
  iexact H6

end Tile

end Cert.Kernel.Hand

end
-- ==== Proof.Kernel.OutFacts.lean ====
/-
  The task's block of the bag after the copy-out. The copy writes the accumulator scratch, whole, through the
  task's 128 rows of the bag's array: element (r, e) of the block is the array's (128 w + r, e), w the task's number.
  So if the payload at (r, e) is the bag at (128 w + r, e), the array holds the bag on every element of the block.
-/
import proofs.«205252_g82703890252310_cont_sun_m_328_31_alg».proof.Proof.Kernel.AccFacts
import proofs.«205252_g82703890252310_cont_sun_m_328_31_alg».proof.Proof.Kernel.PayFacts
import Idealize.ShloMosaic.Lib.Exec.Geometry

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

variable (m : (ℓ : Loc nD τ sig) → Buf (Elt F) ℓ)

section Tile

variable (d : Dev nD) (L : grid0.Coords)
variable [FloatOps F] [Facts]

/-- Element (r, e) of the task's block of the bag's array is the array's (128 w + r, e). -/
theorem emb_oBlkK (r e : Fin 128) :
    (oBlkK L).view.emb (ix2 r e) = ix2 (⟨128 * (wL L).val + r.val, bagRow_lt L r⟩ : Fin 4096) e := by
  show (oRectK L).emb (ix2 r e) = _
  funext a
  apply Fin.ext
  rw [Rect.emb_apply]
  show k0_off21 L a + 1 * (ix2 r e a).val = _
  rw [k0_off21_eq]
  match a with
  | ⟨0, _⟩ => show 256 * (L 1).val + 128 * (L 0).val + 1 * r.val = 128 * (2 * (L 1).val + (L 0).val) + r.val; omega
  | ⟨1, _⟩ => show 0 + 1 * e.val = e.val; omega

/-- THE BAG'S BLOCK: a whole write of a payload that is the bag on the task's rows leaves the bag on the block. -/
theorem out_block (fo : Buf (Elt F) (oLoc d)) (pay : S128x128.Idx → Elt F .f32)
    (hpay : ∀ (r e : Fin 128), pay (ix2 r e) = bagK (F := F) (m (iLoc d)) (m (xLoc d)) (ix2 (⟨128 * (wL L).val + r.val, bagRow_lt L r⟩ : Fin 4096) e)) :
    ∀ i ∈ (oBlkK L).view.set, (oBlkK L).view.writes (Elt F) fo [⟨Rect.whole S128x128, pay⟩] i = bagOf (F := F) m d i := by
  intro i hi
  obtain ⟨y, -, rfl⟩ := Finset.mem_map.mp hi
  rw [← View.write_univ_eq_writes_whole, View.writes_nil, View.write_emb_of_mem _ _ (Finset.mem_univ _)]
  obtain ⟨r, e, rfl⟩ : ∃ (r e : Fin 128), y = ix2 r e := ⟨y 0, y 1, eq_ix2 y⟩
  show pay (ix2 r e) = bagOf (F := F) m d ((oBlkK L).view.emb (ix2 r e))
  rw [emb_oBlkK, hpay]
  rfl

/-- THE COPY-OUT of the accumulator scratch with all 128 rows done leaves the bag on the task's block. -/
theorem out_block_of_acc (fo : Buf (Elt F) (oLoc d)) (fs : Buf (Elt F) ((V d (cV L) (jV L)).loc cc0_scratch0))
    (hl : ListsOK (F := F) d L (sIcOf (F := F) m d L fs)) (fa2 : Buf (Elt F) ((V d (cV L) (jV L)).loc cc0_scratch2))
    (h : AccOK (F := F) m d L (sIcOf (F := F) m d L fs) hl 128 fa2) :
    ∀ i ∈ (oBlkK L).view.set,
      (oBlkK L).view.writes (Elt F) fo [⟨Rect.whole S128x128, ReadAs.same.apply ((sA).view.read (Elt F) fa2)⟩] i = bagOf (F := F) m d i :=
  out_block m d L fo _ fun r e =>
    acc_is_bag m d L fs hl fa2 h (fun c => chunkPay_eq m d L fs hl c) r e

end Tile

end Cert.Kernel.Hand

end
-- ==== Proof.Kernel.Core.lean ====
/-
  A task of the first stage, from the pieces it is handed to the pieces it hands back.

  The task copies its 128 rows of the index array into its index scratch, starts the gathers of chunks 0 … 7 into
  the eight slots of its gather scratch, and then runs 128 trips: trip t waits for chunk t in slot t mod 8, sums
  the landed block's 50 rows, writes the sums as row t of the accumulator scratch and starts the gather of chunk
  (t + 8) mod 128 into the same slot. After the last trip the eight extra gathers (chunks 0 … 7 again) are waited
  for and the accumulator scratch is copied out as the task's rows of the bag. Each slot keeps, for the whole
  run, its own read share of the index scratch and of the table, so the eight gathers in flight never contend;
  the invariant of the ring is one assertion per slot, "a gather of the chunk this slot now holds is in flight",
  beside "rows 0 … t − 1 of the accumulator scratch hold their chunks' sums".
-/
import proofs.«205252_g82703890252310_cont_sun_m_328_31_alg».proof.Proof.Kernel.Trip
import proofs.«205252_g82703890252310_cont_sun_m_328_31_alg».proof.Proof.Kernel.Shares
import proofs.«205252_g82703890252310_cont_sun_m_328_31_alg».proof.Proof.Kernel.AccFacts
import proofs.«205252_g82703890252310_cont_sun_m_328_31_alg».proof.Proof.Kernel.PayFacts
import proofs.«205252_g82703890252310_cont_sun_m_328_31_alg».proof.Proof.Kernel.ShareJoin
import proofs.«205252_g82703890252310_cont_sun_m_328_31_alg».proof.Proof.Kernel.OutFacts

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## The ring over the 128 chunks -/

section Tile

variable (d : Dev nD) (L : grid0.Coords)
variable [FloatOps F] [Facts]

/-- The per-slot assertion depends on its offsets only through their values. -/
theorem slotFl_congr (sIc : Buf (Elt F) ((V d (cV L) (jV L)).loc cc0_scratch0))
    {o2 o2' : Fin 3 → ℕ} {h2 : ∀ a, o2 a + S1x50x128.size a ≤ S8x50x128.size a} {h2' : ∀ a, o2' a + S1x50x128.size a ≤ S8x50x128.size a}
    {o3 o3' : Fin 1 → ℕ} {h3 : ∀ a, o3 a + S1.size a ≤ S8.size a} {h3' : ∀ a, o3' a + S1.size a ≤ S8.size a}
    {c c' : Fin 2 → ℕ} {hc : ∀ a, c a + S1x50.size a ≤ S128x50.size a} {hc' : ∀ a, c' a + S1x50.size a ≤ S128x50.size a}
    (e2 : o2 = o2') (e3 : o3 = o3') (ec : c = c') (qs qx : PosShare TreeShare)
    (f0 : Buf (Elt F) ((V d (cV L) (jV L)).loc cc0_scratch1)) (pay : S50x128.Idx → Elt F .f32) (Lold : List (View.Piece (Elt F) S50x128 .f32)) :
    slotFl (F := F) m d L sIc o2 h2 o3 h3 c hc qs qx f0 pay Lold = slotFl (F := F) m d L sIc o2' h2' o3' h3' c' hc' qs qx f0 pay Lold := by
  subst e2; subst e3; subst ec; rfl

/-- A chunk's payload depends on its list's offsets only through their values. -/
theorem chunkPay_congr (sIc : Buf (Elt F) ((V d (cV L) (jV L)).loc cc0_scratch0)) (hl : ListsOK (F := F) d L sIc)
    {c c' : Fin 2 → ℕ} {hc : ∀ a, c a + S1x50.size a ≤ S128x50.size a} {hc' : ∀ a, c' a + S1x50.size a ≤ S128x50.size a} (e : c = c') :
    chunkPay (F := F) m d L sIc hl c hc = chunkPay (F := F) m d L sIc hl c' hc' := by
  subst e; rfl

/-- Slot b with a gather in flight for chunk n, landing that chunk's block. -/
def slotOf (sIc : Buf (Elt F) ((V d (cV L) (jV L)).loc cc0_scratch0)) (hl : ListsOK (F := F) d L sIc) (b : Fin 8) (n : ℕ) (hn : n < 128) : sProp 𝕄 :=
  iprop(∃ (f0 : Buf (Elt F) ((V d (cV L) (jV L)).loc cc0_scratch1)) (pay : S50x128.Idx → Elt F .f32) (Lold : List (View.Piece (Elt F) S50x128 .f32)),
    ⌜pay = chunkPay (F := F) m d L sIc hl ![n, 0] (listInb n hn)⌝
    ∗ slotFl (F := F) m d L sIc ![b.val, 0, 0] (slotInb b.val b.isLt) ![b.val] (ringInb b.val b.isLt)
        ![n, 0] (listInb n hn) (qsOf b) (qxOf (L := L) b) f0 pay Lold)

theorem slotOf_eq (sIc : Buf (Elt F) ((V d (cV L) (jV L)).loc cc0_scratch0)) (hl : ListsOK (F := F) d L sIc) (b : Fin 8) (n : ℕ) (hn : n < 128) :
    slotOf (F := F) m d L sIc hl b n hn
      = iprop(∃ (f0 : Buf (Elt F) ((V d (cV L) (jV L)).loc cc0_scratch1)) (pay : S50x128.Idx → Elt F .f32) (Lold : List (View.Piece (Elt F) S50x128 .f32)),
          ⌜pay = chunkPay (F := F) m d L sIc hl ![n, 0] (listInb n hn)⌝
          ∗ slotFl (F := F) m d L sIc ![b.val, 0, 0] (slotInb b.val b.isLt) ![b.val] (ringInb b.val b.isLt)
              ![n, 0] (listInb n hn) (qsOf b) (qxOf (L := L) b) f0 pay Lold) := rfl

theorem slotOf_congr (sIc : Buf (Elt F) ((V d (cV L) (jV L)).loc cc0_scratch0)) (hl : ListsOK (F := F) d L sIc) (b : Fin 8) {n n' : ℕ} {hn : n < 128} {hn' : n' < 128}
    (e : n = n') : slotOf (F := F) m d L sIc hl b n hn = slotOf (F := F) m d L sIc hl b n' hn' := by
  subst e; rfl

theorem slotFl_eq (sIc : Buf (Elt F) ((V d (cV L) (jV L)).loc cc0_scratch0))
    (o2 : Fin 3 → ℕ) (h2 : ∀ a, o2 a + S1x50x128.size a ≤ S8x50x128.size a) (o3 : Fin 1 → ℕ) (h3 : ∀ a, o3 a + S1.size a ≤ S8.size a)
    (c : Fin 2 → ℕ) (hc : ∀ a, c a + S1x50.size a ≤ S128x50.size a) (qs qx : PosShare TreeShare)
    (f0 : Buf (Elt F) ((V d (cV L) (jV L)).loc cc0_scratch1)) (pay : S50x128.Idx → Elt F .f32) (Lold : List (View.Piece (Elt F) S50x128 .f32)) :
    slotFl (F := F) m d L sIc o2 h2 o3 h3 c hc qs qx f0 pay Lold
      = iprop(Transfers.Flight countersEmb (V d (cV L) (jV L)) (SemLoc.dma (ringSemAt o3 h3)) (default : HIx 1) 204800
          (iprop((((slotAt o2 h2).view.loc (V d (cV L) (jV L)) ↦[(slotAt o2 h2).view.set]{fullShare}
                  (slotAt o2 h2).view.writes (Elt F) f0 (⟨Rect.whole S50x128, pay⟩ :: Lold))
                ∗ ((sI).view.loc (V d (cV L) (jV L)) ↦[(listAt c hc).view.set]{qs} sIc))
              ∗ ((xV).view.loc (V d (cV L) (jV L)) ↦[(xAllK).view.set]{qx} m (xLoc d))))
        ∗ ((sI).view.loc (V d (cV L) (jV L)) ↦[Finset.univ \ (listAt c hc).view.set]{qs} sIc)) := rfl

/-- Before trip t slot b is in flight for the chunk it then holds. -/
abbrev slotAtTrip (sIc : Buf (Elt F) ((V d (cV L) (jV L)).loc cc0_scratch0)) (hl : ListsOK (F := F) d L sIc) (t : ℕ) (b : Fin 8) : sProp 𝕄 :=
  slotOf (F := F) m d L sIc hl b (chunkOf t b) (chunkOf_lt t b)

/-- Before trip t: rows 0 … t−1 of the accumulator scratch done; every slot in flight for its chunk; the thread's
    debt unchanged, its recorded waits beyond the launch's all at the kernel's own index. -/
def inv1 (O : CellTallies nD τ sig (HIx 1)) (W : Waits sig (HIx 1)) (sIc : Buf (Elt F) ((V d (cV L) (jV L)).loc cc0_scratch0)) (hl : ListsOK (F := F) d L sIc)
    (t : ℕ) (_ : PUnit) : sProp 𝕄 :=
  iprop(levAts (K (F := F)).L (K (F := F)).lev
    ∗ (∃ fa, ((sA).view.loc (V d (cV L) (jV L)) ↦{fullShare} fa) ∗ ⌜AccOK (F := F) m d L sIc hl t fa⌝)
    ∗ (bigSep Finset.univ fun b : Fin 8 => slotAtTrip (F := F) m d L sIc hl t b)
    ∗ ∃ W', ⌜∀ p ∈ W', p ∈ W ∨ p.2 = none⌝ ∗ owes (V d (cV L) (jV L)) O W')

set_option maxHeartbeats 16000000 in
/-- The task from its pieces to its pieces: the index block copied in, the eight gathers started, the 128 trips of the
    ring, the eight extra gathers drained, the accumulator scratch copied out as the task's rows of the bag. -/
theorem tile_core (hF : (K (F := F)).Facts) (hpre : PreOK m)
    (O : CellTallies nD τ sig (HIx 1)) (W : Waits sig (HIx 1)) (hO : ∀ g, O g none = 0)
    (fo : Buf (Elt F) (oLoc d)) (fs : Buf (Elt F) ((V d (cV L) (jV L)).loc cc0_scratch0))
    (fg : Buf (Elt F) ((V d (cV L) (jV L)).loc cc0_scratch1)) (fa : Buf (Elt F) ((V d (cV L) (jV L)).loc cc0_scratch2)) :
    (iprop(levAts (K (F := F)).L (K (F := F)).lev
        ∗ (iLoc d ↦[iBlkSet (wL L)]{fullShare} m (iLoc d))
        ∗ (xLoc d ↦{xq (wL L)} m (xLoc d))
        ∗ (oLoc d ↦[oBlkSet (wL L)]{fullShare} fo)
        ∗ ((V d (cV L) (jV L)).loc cc0_scratch0 ↦{fullShare} fs)
        ∗ ((V d (cV L) (jV L)).loc cc0_scratch1 ↦{fullShare} fg)
        ∗ ((V d (cV L) (jV L)).loc cc0_scratch2 ↦{fullShare} fa)
        ∗ semVal (cellA d L) 0 ∗ semVal (cellB d L) 0
        ∗ (bigSep Finset.univ fun b : Fin 8 => semVal (ringCell d L b) 0)
        ∗ owes (V d (cV L) (jV L)) O W) : sProp 𝕄)
      ⊢ wp frame (wpE (defs₀ (F := F)) 𝒱₀ (V d (cV L) (jV L)) none) Set.univ
          (cc0_body L iV (Memref.isWhole_whole _) xV (Memref.isWhole_whole _) oV (Memref.isWhole_whole _)
            sI (Memref.isWhole_whole _) sG (Memref.isWhole_whole _) sA (Memref.isWhole_whole _) cc0_scratch3 cc0_scoped0 cc0_scoped1)
          fun _ => iprop((iLoc d ↦[iBlkSet (wL L)]{fullShare} m (iLoc d)) ∗ (xLoc d ↦{xq (wL L)} m (xLoc d)) ∗ (oLoc d ↦[oBlkSet (wL L)]{fullShare} bagOf m d)
            ∗ (∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f)
            ∗ semVal (cellA d L) 0 ∗ semVal (cellB d L) 0 ∗ (bigSep Finset.univ fun b : Fin 8 => semVal (ringCell d L b) 0)
            ∗ ∃ W', ⌜∀ p ∈ W', p ∈ W ∨ p.2 = none⌝ ∗ owes (V d (cV L) (jV L)) O W') := by
  have hl0 : ∀ fs, ListsOK (F := F) d L (sIcOf (F := F) m d L fs) := fun fs => listsOK_of_pre (F := F) m d L hpre fs
  have hstep : ∀ (sIc) (hl : ListsOK (F := F) d L sIc) (t : Fin k0_t1_loop.trips) (fa) (h : AccOK (F := F) m d L sIc hl t.val fa) (pay)
      (hpay : pay = chunkPay (F := F) m d L sIc hl ![t.val, 0] (listInb t.val (lt_of_lt_of_le t.isLt k0_t1_abs.2.1))),
      AccOK (F := F) m d L sIc hl (t.val + 1) (accAfter (F := F) d L t fa pay) :=
    fun sIc hl t fa h pay hpay => accOK_step (F := F) m d L sIc hl t fa h pay hpay
  simp only [cc0_body_eq_skeleton]; unfold cc0_body_skel
  rw [bigSep_fin8]
  iintro ⟨#Hlv, Hi, Hx, Ho, Hs, Hg, Ha, HsemA, HsemB, ⟨Hc0, Hc1, Hc2, Hc3, Hc4, Hc5, Hc6, Hc7⟩, HO⟩
  ihave Hmw := (show (levAts (K (F := F)).L (K (F := F)).lev : sProp 𝕄) ⊢ Transfers.MayWaits (V d (cV L) (jV L)) (default : HIx 1) O from
    (K (F := F)).mayWaits_none (thr := V d (cV L) (jV L)) hO) $$ Hlv
  ihave Hi' := (Entails.of_eq (pts_iBlkK (F := F) d L _).symm) $$ Hi
  ihave Ho' := (Entails.of_eq (pts_oBlkK (F := F) d L _).symm) $$ Ho
  ihave Hx' := (Entails.of_eq (pts_xV (F := F) d L _ _).symm) $$ Hx
  ihave Hs' := (Entails.of_eq (show ((sI).view.loc (V d (cV L) (jV L)) ↦{fullShare} fs : sProp 𝕄) = (V d (cV L) (jV L)).loc cc0_scratch0 ↦{fullShare} fs from rfl).symm) $$ Hs
  ihave Ha' := (Entails.of_eq (show ((sA).view.loc (V d (cV L) (jV L)) ↦{fullShare} fa : sProp 𝕄) = (V d (cV L) (jV L)).loc cc0_scratch2 ↦{fullShare} fa from rfl).symm) $$ Ha
  -- the index block in
  sl_exec
  have hl : ListsOK (F := F) d L (sIcOf (F := F) m d L fs) := hl0 fs
  have hin : ∀ (off : Fin 2 → ℕ) (h : ∀ a, off a + S1x50.size a ≤ S128x50.size a) (x : S50.Idx),
      ((listAt off h).view.read (Elt F) (View.write (Elt F) (sI).view fs (tile_core.sl.dma0 m d L) Finset.univ) x).toNat < 100000 := hl
  -- eight read shares of the table, eight of the index scratch, the eight slots
  ihave Hxs := (Transfers.pointsTo_toks_split (xq (wL L)) 7) $$ Hx'
  icases Hxs with ⟨Hx7, Hxs⟩
  ihave Hxs' := (Entails.of_eq (bigSep_fin7 _)) $$ Hxs
  icases Hxs' with ⟨Hx0, Hx1, Hx2, Hx3, Hx4, Hx5, Hx6⟩
  ihave Hss := (Transfers.pointsTo_toks_split fullShare 7) $$ Hs'
  icases Hss with ⟨Hs7, Hss⟩
  ihave Hss' := (Entails.of_eq (bigSep_fin7 _)) $$ Hss
  icases Hss' with ⟨Hs0, Hs1, Hs2, Hs3, Hs4, Hs5, Hs6⟩
  ihave Hgs := (slots_split (F := F) d L fg) $$ Hg
  ihave Hgs' := (Entails.of_eq (bigSep_fin8 _)) $$ Hgs
  icases Hgs' with ⟨Hg0, Hg1, Hg2, Hg3, Hg4, Hg5, Hg6, Hg7⟩
  sl_exec
  sl_for (inv1 (F := F) m d L O (insert (SemLoc.dma cc0_scoped0.sem, (default : HIx 1)) W) (sIcOf (F := F) m d L fs) hl) $$ [Ha' HO Hc0 Hc1 Hc2 Hc3 Hc4 Hc5 Hc6 Hc7 Hs7 Hs0 Hs1 Hs2 Hs3 Hs4 Hs5 Hs6]
  case region =>
    intro k _
    have hk : k.val < 128 := lt_of_lt_of_le k.isLt k0_t1_abs.2.1
    unfold inv1
    iintro ⟨#Hlv, ⟨%fa1, Ha, %hacc⟩, Hslots, %W', %hW', HO⟩
    -- slot k mod 8 apart from the other seven
    ihave Hsl := (Entails.of_eq (SparseCore.bigSep_erase' (Finset.mem_univ (⟨k.val % 8, Nat.mod_lt _ (by decide)⟩ : Fin 8)))) $$ Hslots
    icases Hsl with ⟨Hb, Hrest⟩
    ihave Hb1 := (Entails.of_eq (slotOf_eq (F := F) m d L _ hl _ _ _)) $$ Hb
    icases Hb1 with ⟨%f0, %pay, %Lold, %hpay, Hb2⟩
    -- spelt through the trip's own offsets
    ihave Hb3 := (Entails.of_eq (slotFl_congr (F := F) m d L _ (k0_off2_eq k).symm (k0_off3_eq k).symm rfl _ _ f0 pay Lold)) $$ Hb2
    iapply (wp_wand_r frame _ _)
    isplitl [Hb3 Ha HO]
    · iapply (trip (F := F) m d L k O W' hO _ hl ![chunkOf k.val ⟨k.val % 8, Nat.mod_lt _ (by decide)⟩, 0] (listInb _ (chunkOf_lt _ _)) _ _ f0 pay Lold fa1)
      isplitr; · iexact Hlv
      isplitl [Hb3]; · iexact Hb3
      isplitl [Ha]; · iexact Ha
      iexact HO
    iintro %_ ⟨⟨%pay', %hpay', Hb'⟩, Ha, HO⟩
    isplitr; · iexact Hlv
    isplitl [Ha]
    · iexists _; isplitl [Ha]; · iexact Ha
      ipureintro
      exact hstep _ hl k fa1 hacc pay (hpay.trans (chunkPay_congr (F := F) m d L _ hl (by rw [chunkOf_here k.val hk])))
    isplitl [Hb' Hrest]
    · rw [SparseCore.bigSep_erase' (Finset.mem_univ (⟨k.val % 8, Nat.mod_lt _ (by decide)⟩ : Fin 8))]
      isplitl [Hb']
      · -- the slot, now in flight for chunk (k + 8) mod 128
        iapply (Entails.of_eq (slotOf_congr (F := F) m d L _ hl _ (chunkOf_next k.val)).symm)
        iapply (Entails.of_eq (slotOf_eq (F := F) m d L _ hl _ _ (Nat.mod_lt _ (by decide))).symm)
        iexists _, pay', _
        isplitr
        swap
        · iapply (Entails.of_eq (slotFl_congr (F := F) m d L _ (k0_off2_eq k) (k0_off3_eq k) (k0_off20_eq k) _ _ _ pay' _))
          iexact Hb'
        · ipureintro; exact hpay'.trans (chunkPay_congr (F := F) m d L _ hl (k0_off20_eq k))
      · -- the other seven hold the chunks they held
        iapply (Entails.of_eq (bigSep_congr fun b hb =>
          slotOf_congr (F := F) m d L _ hl b (chunkOf_other k.val b (fun e => (Finset.mem_erase.mp hb).1 (Fin.ext e))).symm))
        iexact Hrest
    · iexists (insert (SemLoc.dma (ringSemAt (k0_off3 k) (k0_off3_inb k)), (default : HIx 1)) W'); isplitr
      · ipureintro; intro p hp; rcases Finset.mem_insert.mp hp with hp | hp
        · exact .inr (by subst hp; rfl)
        · exact hW' p hp
      · iexact HO
  · unfold inv1
    isplitr; · iexact Hlv
    isplitl [Ha']
    · iexists _; isplitl [Ha']; · iexact Ha'
      ipureintro; intro r e hr; exact absurd hr (Nat.not_lt_zero _)
    isplitr [HO]
    · rw [bigSep_fin8]
      isplitl [Hc0 Hs7]
      · iapply (Entails.of_eq (slotOf_eq (F := F) m d L _ hl _ _ _).symm)
        iexists _, _, _
        isplitr
        swap
        · iapply (Entails.of_eq (slotFl_eq (F := F) m d L _ _ _ _ _ _ _ _ _ _ _ _).symm)
          isplitl [Hc0]; · iexact Hc0
          iexact Hs7
        · ipureintro; rfl
      isplitl [Hc1 Hs0]
      · iapply (Entails.of_eq (slotOf_eq (F := F) m d L _ hl _ _ _).symm)
        iexists _, _, _
        isplitr
        swap
        · iapply (Entails.of_eq (slotFl_eq (F := F) m d L _ _ _ _ _ _ _ _ _ _ _ _).symm)
          isplitl [Hc1]; · iexact Hc1
          iexact Hs0
        · ipureintro; rfl
      isplitl [Hc2 Hs1]
      · iapply (Entails.of_eq (slotOf_eq (F := F) m d L _ hl _ _ _).symm)
        iexists _, _, _
        isplitr
        swap
        · iapply (Entails.of_eq (slotFl_eq (F := F) m d L _ _ _ _ _ _ _ _ _ _ _ _).symm)
          isplitl [Hc2]; · iexact Hc2
          iexact Hs1
        · ipureintro; rfl
      isplitl [Hc3 Hs2]
      · iapply (Entails.of_eq (slotOf_eq (F := F) m d L _ hl _ _ _).symm)
        iexists _, _, _
        isplitr
        swap
        · iapply (Entails.of_eq (slotFl_eq (F := F) m d L _ _ _ _ _ _ _ _ _ _ _ _).symm)
          isplitl [Hc3]; · iexact Hc3
          iexact Hs2
        · ipureintro; rfl
      isplitl [Hc4 Hs3]
      · iapply (Entails.of_eq (slotOf_eq (F := F) m d L _ hl _ _ _).symm)
        iexists _, _, _
        isplitr
        swap
        · iapply (Entails.of_eq (slotFl_eq (F := F) m d L _ _ _ _ _ _ _ _ _ _ _ _).symm)
          isplitl [Hc4]; · iexact Hc4
          iexact Hs3
        · ipureintro; rfl
      isplitl [Hc5 Hs4]
      · iapply (Entails.of_eq (slotOf_eq (F := F) m d L _ hl _ _ _).symm)
        iexists _, _, _
        isplitr
        swap
        · iapply (Entails.of_eq (slotFl_eq (F := F) m d L _ _ _ _ _ _ _ _ _ _ _ _).symm)
          isplitl [Hc5]; · iexact Hc5
          iexact Hs4
        · ipureintro; rfl
      isplitl [Hc6 Hs5]
      · iapply (Entails.of_eq (slotOf_eq (F := F) m d L _ hl _ _ _).symm)
        iexists _, _, _
        isplitr
        swap
        · iapply (Entails.of_eq (slotFl_eq (F := F) m d L _ _ _ _ _ _ _ _ _ _ _ _).symm)
          isplitl [Hc6]; · iexact Hc6
          iexact Hs5
        · ipureintro; rfl
      · iapply (Entails.of_eq (slotOf_eq (F := F) m d L _ hl _ _ _).symm)
        iexists _, _, _
        isplitr
        swap
        · iapply (Entails.of_eq (slotFl_eq (F := F) m d L _ _ _ _ _ _ _ _ _ _ _ _).symm)
          isplitl [Hc7]; · iexact Hc7
          iexact Hs6
        · ipureintro; rfl
    · iexists _; isplitr
      · ipureintro; intro p hp; exact .inl hp
      · iexact HO
  iintro %_ HI
  unfold inv1
  icases HI with ⟨-, ⟨%fa2, Ha, %hacc⟩, Hslots, %W', %hW', HO⟩
  ihave Hs8 := (Entails.of_eq (bigSep_fin8 _)) $$ Hslots
  icases Hs8 with ⟨S0, S1, S2, S3, S4, S5, S6, S7⟩
  ihave T0 := (Entails.of_eq (slotOf_eq (F := F) m d L _ hl _ _ _)) $$ S0
  icases T0 with ⟨%f0_0, %p_0, %L_0, %hp_0, U0⟩
  ihave V0 := (Entails.of_eq ((slotFl_congr (F := F) m d L _ (h2' := slotInb 0 (by decide)) (hc' := listInb _ (chunkOf_lt _ _)) (h3' := ringInb 0 (by decide))
    (show (![(0 : Fin 8).val, 0, 0] : Fin 3 → ℕ) = ![0, 0, 0] from rfl) (show (![(0 : Fin 8).val] : Fin 1 → ℕ) = ![0] from rfl) rfl _ _ _ _ _).trans
    (slotFl_eq (F := F) m d L _ _ _ _ _ _ _ _ _ _ _ _))) $$ U0
  icases V0 with ⟨Hc0, Hl0⟩
  ihave T1 := (Entails.of_eq (slotOf_eq (F := F) m d L _ hl _ _ _)) $$ S1
  icases T1 with ⟨%f0_1, %p_1, %L_1, %hp_1, U1⟩
  ihave V1 := (Entails.of_eq ((slotFl_congr (F := F) m d L _ (h2' := slotInb 1 (by decide)) (hc' := listInb _ (chunkOf_lt _ _)) (h3' := ringInb 1 (by decide))
    (show (![(1 : Fin 8).val, 0, 0] : Fin 3 → ℕ) = ![1, 0, 0] from rfl) (show (![(1 : Fin 8).val] : Fin 1 → ℕ) = ![1] from rfl) rfl _ _ _ _ _).trans
    (slotFl_eq (F := F) m d L _ _ _ _ _ _ _ _ _ _ _ _))) $$ U1
  icases V1 with ⟨Hc1, Hl1⟩
  ihave T2 := (Entails.of_eq (slotOf_eq (F := F) m d L _ hl _ _ _)) $$ S2
  icases T2 with ⟨%f0_2, %p_2, %L_2, %hp_2, U2⟩
  ihave V2 := (Entails.of_eq ((slotFl_congr (F := F) m d L _ (h2' := slotInb 2 (by decide)) (hc' := listInb _ (chunkOf_lt _ _)) (h3' := ringInb 2 (by decide))
    (show (![(2 : Fin 8).val, 0, 0] : Fin 3 → ℕ) = ![2, 0, 0] from rfl) (show (![(2 : Fin 8).val] : Fin 1 → ℕ) = ![2] from rfl) rfl _ _ _ _ _).trans
    (slotFl_eq (F := F) m d L _ _ _ _ _ _ _ _ _ _ _ _))) $$ U2
  icases V2 with ⟨Hc2, Hl2⟩
  ihave T3 := (Entails.of_eq (slotOf_eq (F := F) m d L _ hl _ _ _)) $$ S3
  icases T3 with ⟨%f0_3, %p_3, %L_3, %hp_3, U3⟩
  ihave V3 := (Entails.of_eq ((slotFl_congr (F := F) m d L _ (h2' := slotInb 3 (by decide)) (hc' := listInb _ (chunkOf_lt _ _)) (h3' := ringInb 3 (by decide))
    (show (![(3 : Fin 8).val, 0, 0] : Fin 3 → ℕ) = ![3, 0, 0] from rfl) (show (![(3 : Fin 8).val] : Fin 1 → ℕ) = ![3] from rfl) rfl _ _ _ _ _).trans
    (slotFl_eq (F := F) m d L _ _ _ _ _ _ _ _ _ _ _ _))) $$ U3
  icases V3 with ⟨Hc3, Hl3⟩
  ihave T4 := (Entails.of_eq (slotOf_eq (F := F) m d L _ hl _ _ _)) $$ S4
  icases T4 with ⟨%f0_4, %p_4, %L_4, %hp_4, U4⟩
  ihave V4 := (Entails.of_eq ((slotFl_congr (F := F) m d L _ (h2' := slotInb 4 (by decide)) (hc' := listInb _ (chunkOf_lt _ _)) (h3' := ringInb 4 (by decide))
    (show (![(4 : Fin 8).val, 0, 0] : Fin 3 → ℕ) = ![4, 0, 0] from rfl) (show (![(4 : Fin 8).val] : Fin 1 → ℕ) = ![4] from rfl) rfl _ _ _ _ _).trans
    (slotFl_eq (F := F) m d L _ _ _ _ _ _ _ _ _ _ _ _))) $$ U4
  icases V4 with ⟨Hc4, Hl4⟩
  ihave T5 := (Entails.of_eq (slotOf_eq (F := F) m d L _ hl _ _ _)) $$ S5
  icases T5 with ⟨%f0_5, %p_5, %L_5, %hp_5, U5⟩
  ihave V5 := (Entails.of_eq ((slotFl_congr (F := F) m d L _ (h2' := slotInb 5 (by decide)) (hc' := listInb _ (chunkOf_lt _ _)) (h3' := ringInb 5 (by decide))
    (show (![(5 : Fin 8).val, 0, 0] : Fin 3 → ℕ) = ![5, 0, 0] from rfl) (show (![(5 : Fin 8).val] : Fin 1 → ℕ) = ![5] from rfl) rfl _ _ _ _ _).trans
    (slotFl_eq (F := F) m d L _ _ _ _ _ _ _ _ _ _ _ _))) $$ U5
  icases V5 with ⟨Hc5, Hl5⟩
  ihave T6 := (Entails.of_eq (slotOf_eq (F := F) m d L _ hl _ _ _)) $$ S6
  icases T6 with ⟨%f0_6, %p_6, %L_6, %hp_6, U6⟩
  ihave V6 := (Entails.of_eq ((slotFl_congr (F := F) m d L _ (h2' := slotInb 6 (by decide)) (hc' := listInb _ (chunkOf_lt _ _)) (h3' := ringInb 6 (by decide))
    (show (![(6 : Fin 8).val, 0, 0] : Fin 3 → ℕ) = ![6, 0, 0] from rfl) (show (![(6 : Fin 8).val] : Fin 1 → ℕ) = ![6] from rfl) rfl _ _ _ _ _).trans
    (slotFl_eq (F := F) m d L _ _ _ _ _ _ _ _ _ _ _ _))) $$ U6
  icases V6 with ⟨Hc6, Hl6⟩
  ihave T7 := (Entails.of_eq (slotOf_eq (F := F) m d L _ hl _ _ _)) $$ S7
  icases T7 with ⟨%f0_7, %p_7, %L_7, %hp_7, U7⟩
  ihave V7 := (Entails.of_eq ((slotFl_congr (F := F) m d L _ (h2' := slotInb 7 (by decide)) (hc' := listInb _ (chunkOf_lt _ _)) (h3' := ringInb 7 (by decide))
    (show (![(7 : Fin 8).val, 0, 0] : Fin 3 → ℕ) = ![7, 0, 0] from rfl) (show (![(7 : Fin 8).val] : Fin 1 → ℕ) = ![7] from rfl) rfl _ _ _ _ _).trans
    (slotFl_eq (F := F) m d L _ _ _ _ _ _ _ _ _ _ _ _))) $$ U7
  icases V7 with ⟨Hc7, Hl7⟩
  -- the eight extra gathers drained, the accumulator scratch out to the bag
  sl_exec
  sl_step
  -- the leftovers on empty sets are of no use
  icases Hx0 with -
  icases Hg0 with -
  icases Hx1 with -
  icases Hg1 with -
  icases Hx2 with -
  icases Hg2 with -
  icases Hx3 with -
  icases Hg3 with -
  icases Hx4 with -
  icases Hg4 with -
  icases Hx5 with -
  icases Hg5 with -
  icases Hx6 with -
  icases Hg6 with -
  icases Hx7 with -
  icases Hg7 with -
  -- each slot gives back its scratch piece and its list's row
  icases Hc0_dst with ⟨Hd0, Hr0⟩
  icases Hc1_dst with ⟨Hd1, Hr1⟩
  icases Hc2_dst with ⟨Hd2, Hr2⟩
  icases Hc3_dst with ⟨Hd3, Hr3⟩
  icases Hc4_dst with ⟨Hd4, Hr4⟩
  icases Hc5_dst with ⟨Hd5, Hr5⟩
  icases Hc6_dst with ⟨Hd6, Hr6⟩
  icases Hc7_dst with ⟨Hd7, Hr7⟩
  -- each slot's share of the index scratch, whole again
  ihave Hq0 := (list_rejoin (F := F) d L _ _ _ _) $$ [Hr0 Hl0]
  · isplitl [Hr0] <;> iassumption
  ihave Hq1 := (list_rejoin (F := F) d L _ _ _ _) $$ [Hr1 Hl1]
  · isplitl [Hr1] <;> iassumption
  ihave Hq2 := (list_rejoin (F := F) d L _ _ _ _) $$ [Hr2 Hl2]
  · isplitl [Hr2] <;> iassumption
  ihave Hq3 := (list_rejoin (F := F) d L _ _ _ _) $$ [Hr3 Hl3]
  · isplitl [Hr3] <;> iassumption
  ihave Hq4 := (list_rejoin (F := F) d L _ _ _ _) $$ [Hr4 Hl4]
  · isplitl [Hr4] <;> iassumption
  ihave Hq5 := (list_rejoin (F := F) d L _ _ _ _) $$ [Hr5 Hl5]
  · isplitl [Hr5] <;> iassumption
  ihave Hq6 := (list_rejoin (F := F) d L _ _ _ _) $$ [Hr6 Hl6]
  · isplitl [Hr6] <;> iassumption
  ihave Hq7 := (list_rejoin (F := F) d L _ _ _ _) $$ [Hr7 Hl7]
  · isplitl [Hr7] <;> iassumption
  -- each slot's share of the table, on every index again
  ihave Hy0 := (Entails.of_eq (xall_whole (F := F) d L _ _)) $$ Hc0_src
  ihave Hy1 := (Entails.of_eq (xall_whole (F := F) d L _ _)) $$ Hc1_src
  ihave Hy2 := (Entails.of_eq (xall_whole (F := F) d L _ _)) $$ Hc2_src
  ihave Hy3 := (Entails.of_eq (xall_whole (F := F) d L _ _)) $$ Hc3_src
  ihave Hy4 := (Entails.of_eq (xall_whole (F := F) d L _ _)) $$ Hc4_src
  ihave Hy5 := (Entails.of_eq (xall_whole (F := F) d L _ _)) $$ Hc5_src
  ihave Hy6 := (Entails.of_eq (xall_whole (F := F) d L _ _)) $$ Hc6_src
  ihave Hy7 := (Entails.of_eq (xall_whole (F := F) d L _ _)) $$ Hc7_src
  have h128 : Scf.trips k0_t1_loop.lb k0_t1_loop.ub k0_t1_loop.st = 128 := by decide
  isplitl [Hi']; · iapply (Entails.of_eq (pts_iBlkK (F := F) d L _)); iexact Hi'
  isplitl [Hy0 Hy1 Hy2 Hy3 Hy4 Hy5 Hy6 Hy7]
  · iapply (x_join (F := F) d L _)
    rw [bigSep_fin8]
    isplitl [Hy0]; · iexact Hy0
    isplitl [Hy1]; · iexact Hy1
    isplitl [Hy2]; · iexact Hy2
    isplitl [Hy3]; · iexact Hy3
    isplitl [Hy4]; · iexact Hy4
    isplitl [Hy5]; · iexact Hy5
    isplitl [Hy6]; · iexact Hy6
    iexact Hy7
  isplitl [Ho']
  · iapply (Entails.of_eq (pts_oBlkK (F := F) d L _))
    iapply (Entails.of_eq (pointsTo_congr (out_block_of_acc (F := F) m d L fo fs hl fa2 (h128 ▸ hacc))))
    iexact Ho'
  isplitl [Hq0 Hq1 Hq2 Hq3 Hq4 Hq5 Hq6 Hq7]
  · iexists _
    iapply (sI_join (F := F) d L _)
    rw [bigSep_fin8]
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    iexact Hq7
  isplitl [Hd0 Hd1 Hd2 Hd3 Hd4 Hd5 Hd6 Hd7]
  · iapply (slots_join (F := F) d L)
    rw [bigSep_fin8]
    isplitl [Hd0]; · (iexists _; iexact Hd0)
    isplitl [Hd1]; · (iexists _; iexact Hd1)
    isplitl [Hd2]; · (iexists _; iexact Hd2)
    isplitl [Hd3]; · (iexists _; iexact Hd3)
    isplitl [Hd4]; · (iexists _; iexact Hd4)
    isplitl [Hd5]; · (iexists _; iexact Hd5)
    isplitl [Hd6]; · (iexists _; iexact Hd6)
    (iexists _; iexact Hd7)
  isplitl [Ha]; · iexists _; iexact Ha
  isplitl [HsemA]; · iexact HsemA
  isplitl [HsemB]; · iexact HsemB
  isplitl [Hc0 Hc1 Hc2 Hc3 Hc4 Hc5 Hc6 Hc7]
  · first | rw [bigSep_fin8] | skip
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    iexact Hc7
  iexists _; isplitr
  swap; · iexact HO
  ipureintro; intro p hp
  rcases Finset.mem_insert.mp hp with hp | hp; · exact .inr (by subst hp; rfl)
  rcases Finset.mem_insert.mp hp with hp | hp; · exact .inr (by subst hp; rfl)
  rcases Finset.mem_insert.mp hp with hp | hp; · exact .inr (by subst hp; rfl)
  rcases Finset.mem_insert.mp hp with hp | hp; · exact .inr (by subst hp; rfl)
  rcases Finset.mem_insert.mp hp with hp | hp; · exact .inr (by subst hp; rfl)
  rcases Finset.mem_insert.mp hp with hp | hp; · exact .inr (by subst hp; rfl)
  rcases Finset.mem_insert.mp hp with hp | hp; · exact .inr (by subst hp; rfl)
  rcases Finset.mem_insert.mp hp with hp | hp; · exact .inr (by subst hp; rfl)
  rcases Finset.mem_insert.mp hp with hp | hp; · exact .inr (by subst hp; rfl)
  rcases hW' p hp with h | h
  · rcases Finset.mem_insert.mp h with h | h
    · exact .inr (by subst h; rfl)
    · exact .inl h
  · exact .inr h

end Tile

end Cert.Kernel.Hand

end
-- ==== Proof.Kernel.Body.lean ====
/-
  From the task's run to the launch theorem's obligation for a tile.

  The launch theorem hands a tile what the call's handshake carries (its rows of the index array,
  its token of the table, its rows of the bag), its scoped buffers at some contents and its scoped
  semaphores at zero. The tile's scoped buffers are its three scratch buffers and the rest; its
  scoped semaphores the two block copies' cells, the ring's eight and the rest. The task's run uses
  the three scratch buffers and the ten cells and leaves the rest untouched: framed around the run,
  the rest goes back as it came, and the scratch buffers and cells go back at some contents and at
  zero.
-/
import proofs.«205252_g82703890252310_cont_sun_m_328_31_alg».proof.Proof.Kernel.Cells
import proofs.«205252_g82703890252310_cont_sun_m_328_31_alg».proof.Proof.Kernel.Core

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F] [Facts]

section Tile

variable (d : Dev nD) (L : grid0.Coords)

/-- The tile's obligation at a task, from the task's run: the leftover scoped buffers and semaphores framed. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ goRes m d (wL L) ∗ scopedBufs (V d (cV L) (jV L)) ∗ scopedSems0 (V d (cV L) (jV L)) ∗ owes (V d (cV L) (jV L)) O W : sProp 𝕄)
      ⊢ wp frame (wpE (defs₀ (F := F)) 𝒱₀ (V d (cV L) (jV L)) none) Set.univ
          (cc0_body L iV (Memref.isWhole_whole _) xV (Memref.isWhole_whole _) oV (Memref.isWhole_whole _) sI (Memref.isWhole_whole _) sG (Memref.isWhole_whole _) sA (Memref.isWhole_whole _) cc0_scratch3 cc0_scoped0 cc0_scoped1)
          fun _ => iprop(tdRes m d (wL L) ∗ scopedBufs (V d (cV L) (jV L)) ∗ scopedSems0 (V d (cV L) (jV L)) ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold goRes tdRes
  iintro ⟨Hlv, -, ⟨Hi, Hx, Ho⟩, ⟨⟨%fs, Hs⟩, ⟨%fg, Hg⟩, ⟨%fa, Ha⟩, Hbufs⟩, ⟨HsA, HsB, Hring, Hsems⟩, HO⟩
  ihave Hwp := (tile_core m d L hF hpre O W hO (m (oLoc d)) fs fg fa) $$ [Hlv Hi Hx Ho Hs Hg Ha HsA HsB Hring HO]
  · isplitl [Hlv]; · iexact Hlv
    isplitl [Hi]; · iexact Hi
    isplitl [Hx]; · iexact Hx
    isplitl [Ho]; · iexact Ho
    isplitl [Hs]; · iexact Hs
    isplitl [Hg]; · iexact Hg
    isplitl [Ha]; · iexact Ha
    isplitl [HsA]; · iexact HsA
    isplitl [HsB]; · iexact HsB
    isplitl [Hring]; · iexact Hring
    iexact HO
  iapply (wp_wand_r frame _ _)
  isplitl [Hwp]; · iexact Hwp
  iintro %_ ⟨Hi, Hx, Ho, Hs, Hg, Ha, HsA, HsB, Hring, HW⟩
  isplitl [Hi Hx Ho]
  · isplitl [Hi]; · iexact Hi
    isplitl [Hx]; · iexact Hx
    iexact Ho
  isplitl [Hs Hg Ha Hbufs]
  · isplitl [Hs]; · iexact Hs
    isplitl [Hg]; · iexact Hg
    isplitl [Ha]; · iexact Ha
    iexact Hbufs
  isplitl [HsA HsB Hring Hsems]
  · isplitl [HsA]; · iexact HsA
    isplitl [HsB]; · iexact HsB
    isplitl [Hring]; · iexact Hring
    iexact Hsems
  iexact HW

end Tile

/-! ## The launch theorem's obligation for the tiles -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_body (coordsV c s)
          iV (Memref.isWhole_whole _) xV (Memref.isWhole_whole _) oV (Memref.isWhole_whole _)
          sI (Memref.isWhole_whole _) sG (Memref.isWhole_whole _) sA (Memref.isWhole_whole _) cc0_scratch3 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

end Cert.Kernel.Hand

end
-- ==== Proof.Kernel.TcBody.lean ====
/-
  The TensorCore kernel's body, once: on whole staging buffers holding the seven operands, the three-layer
  perceptron's body loads each operand whole, and stores, whole, the one pure term of those loads that the
  generated skeleton names; the operands' buffers are left as they were.
-/
import proofs.«205252_g82703890252310_cont_sun_m_328_31_alg».proof.Proof.Gen.Kernel.Launch
import proofs.«205252_g82703890252310_cont_sun_m_328_31_alg».proof.Proof.Gen.Kernel.Skeleton
import proofs.«205252_g82703890252310_cont_sun_m_328_31_alg».proof.Proof.Gen.Kernel.Points
import Idealize.ShloMosaic.Lib.SparseCore.Launch
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {UU : Type} [URA UU]

local notation "𝕄" => MT nD τ sig (HIx 1) (Elt F) ℕ UU ℕ

/-! ## The body's accesses: every one the whole buffer -/

abbrev rA : Rect S4096x128 := Rect.unit (s := S4096x128) ![0, 0] S4096x128.size inb_S4096x128_S4096x128_0_0
abbrev rW1 : Rect S128x512 := Rect.unit (s := S128x512) ![0, 0] S128x512.size inb_S128x512_S128x512_0_0
abbrev rB : Rect S1x512 := Rect.unit (s := S1x512) ![0, 0] S1x512.size inb_S1x512_S1x512_0_0
abbrev rW2 : Rect S512x512 := Rect.unit (s := S512x512) ![0, 0] S512x512.size inb_S512x512_S512x512_0_0
abbrev rW3 : Rect S512x128 := Rect.unit (s := S512x128) ![0, 0] S512x128.size inb_S512x128_S512x128_0_0
abbrev rB3 : Rect S1x128 := Rect.unit (s := S1x128) ![0, 0] S1x128.size inb_S1x128_S1x128_0_0

/-- What the body leaves in the output's buffer: its one store, of the payload of the seven loads. -/
def outTc [∀ e, Nonempty (Elt F e)] (x0 : Vec F S4096x128 .f32) (x1 : Vec F S128x512 .bf16) (x2 : Vec F S1x512 .f32) (x3 : Vec F S512x512 .bf16)
    (x4 : Vec F S1x512 .f32) (x5 : Vec F S512x128 .bf16) (x6 : Vec F S1x128 .f32) : Vec F S4096x128 .f32 :=
  View.canon [⟨rA, k1_pay1 (View.ld x0 rA) (View.ld x1 rW1) (View.ld x2 rB) (View.ld x3 rW2) (View.ld x4 rB) (View.ld x5 rW3) (View.ld x6 rB3)⟩]

/-- Every access being of the whole buffer, that is the payload of the buffers' contents. -/
theorem outTc_eq [∀ e, Nonempty (Elt F e)] (x0 : Vec F S4096x128 .f32) (x1 : Vec F S128x512 .bf16) (x2 : Vec F S1x512 .f32) (x3 : Vec F S512x512 .bf16)
    (x4 : Vec F S1x512 .f32) (x5 : Vec F S512x128 .bf16) (x6 : Vec F S1x128 .f32) :
    outTc x0 x1 x2 x3 x4 x5 x6 = k1_pay1 x0 x1 x2 x3 x4 x5 x6 := by
  have z2 : (![0, 0] : Fin 2 → Nat) = fun _ => 0 := by funext a; fin_cases a <;> rfl
  unfold outTc
  rw [View.canon_unit_zero z2, View.ld_unit_zero z2, View.ld_unit_zero z2, View.ld_unit_zero z2, View.ld_unit_zero z2,
    View.ld_unit_zero z2, View.ld_unit_zero z2, View.ld_unit_zero z2]

/-- The store covers the buffer. -/
theorem coverTc (p0 : Vec F S4096x128 .f32) (y : S4096x128.Idx) :
    ∃ pc ∈ ([⟨rA, p0⟩] : List (View.Piece (Elt F) S4096x128 .f32)), y ∈ pc.1.set :=
  ⟨_, List.mem_singleton_self _, View.mem_set_unit_zero (by funext a; fin_cases a <;> rfl) inb_S4096x128_S4096x128_0_0 y⟩

/-! ## The body's triple -/

set_option maxHeartbeats 1000000 in
/-- The body on whole staging memrefs, the seven operands' at contents `x0 … x6` and the output's at anything, runs to
    the continuation holding the operands' as they were and the output's at `outTc` of them. -/
theorem sound_kernel [∀ e, Nonempty (Elt F e)] (c : Dev nD) (E : Set ℕ) (i : grid1.Coords)
    (arg1 : Memref sig .tc .vmem S4096x128 .f32) (harg1 : arg1.IsWhole) (arg2 : Memref sig .tc .vmem S128x512 .bf16) (harg2 : arg2.IsWhole)
    (arg3 : Memref sig .tc .vmem S1x512 .f32) (harg3 : arg3.IsWhole) (arg4 : Memref sig .tc .vmem S512x512 .bf16) (harg4 : arg4.IsWhole)
    (arg5 : Memref sig .tc .vmem S1x512 .f32) (harg5 : arg5.IsWhole) (arg6 : Memref sig .tc .vmem S512x128 .bf16) (harg6 : arg6.IsWhole)
    (arg7 : Memref sig .tc .vmem S1x128 .f32) (harg7 : arg7.IsWhole) (arg8 : Memref sig .tc .vmem S4096x128 .f32) (harg8 : arg8.IsWhole)
    (x0 : Vec F S4096x128 .f32) (x1 : Vec F S128x512 .bf16) (x2 : Vec F S1x512 .f32) (x3 : Vec F S512x512 .bf16)
    (x4 : Vec F S1x512 .f32) (x5 : Vec F S512x128 .bf16) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (outTc x0 x1 x2 x3 x4 x5 x6)) -∗ K ⟨⟩))
      ⊢ wp frame (wpE (defs₀ (F := F)) Variants.none c none) E
          (cc1__mlp_body i arg1 harg1 arg2 harg2 arg3 harg3 arg4 harg4 arg5 harg5 arg6 harg6 arg7 harg7 arg8 harg8) K := by
  simp only [cc1__mlp_body_eq_skeleton]; unfold cc1__mlp_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (coverTc _)

end Cert.Kernel.Hand

end
-- ==== Proof.Kernel.TcTail.lean ====
/-
  The TensorCore's part of @main after the SparseCore call: six host operations convert the multilayer perceptron's
  weights to bf16 and give its biases a leading unit axis; then ONE TensorCore kernel region, a pipeline of a single
  grid point whose eight windows are each one whole-array block, runs the perceptron's body on the bag and the
  converted operands and writes its result back. From the sixteen unscoped arrays held whole, the region boundary, the
  pipeline's launch ghost state and what the TensorCore holds of the handshakes after call 0, the tail runs to the
  arrays held whole again: the eight arguments as they were, the result at the perceptron of the bag and the arguments.
-/
import proofs.«205252_g82703890252310_cont_sun_m_328_31_alg».proof.Proof.Kernel.Setup
import proofs.«205252_g82703890252310_cont_sun_m_328_31_alg».proof.Proof.Kernel.TcBody
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Pipeline.Value
import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (held held_split held_sdiff_result wp_hlo_within)

variable {F : FTy → Type} [FloatOps F] [∀ e, Nonempty (Elt F e)]
variable {U₁ : Type} [URA U₁]

local notation "𝕄₁" => MT nD τ sig (HIx 1) (Elt F) ℕ U₁ ℕ

/-! ## @main after the SparseCore call -/

/-- The six host operations, in order. -/
abbrev hostOps : List (HloOp τ sig (Elt F)) :=
  [ StableHlo.unary main_arg2 main_v1 ((truncf .bf16 · bitsLt_bf16_f32) : (⟨S128x512, .f32⟩ : BufTy).Contents (Elt F) → (⟨S128x512, .bf16⟩ : BufTy).Contents (Elt F)),
    StableHlo.reshape main_arg3 main_v2 rfl shapeCasts_S512_S1x512,
    StableHlo.unary main_arg4 main_v3 ((truncf .bf16 · bitsLt_bf16_f32) : (⟨S512x512, .f32⟩ : BufTy).Contents (Elt F) → (⟨S512x512, .bf16⟩ : BufTy).Contents (Elt F)),
    StableHlo.reshape main_arg5 main_v4 rfl shapeCasts_S512_S1x512,
    StableHlo.unary main_arg6 main_v5 ((truncf .bf16 · bitsLt_bf16_f32) : (⟨S512x128, .f32⟩ : BufTy).Contents (Elt F) → (⟨S512x128, .bf16⟩ : BufTy).Contents (Elt F)),
    StableHlo.reshape main_arg7 main_v6 rfl shapeCasts_S128_S1x128 ]

/-- The kernel region as a program of the pipelines' signature: the call, then the return. -/
abbrev regionProg : Prog (TpuEff nD τ sig (Elt F) (ΛP (F := F)) .tc) PUnit :=
  .op (.customCall (Pipeline.entry 0) ()) fun _ => .ret ⟨⟩

/-- @main's lines after the SparseCore call: the host operations, the region, the return. -/
def tail (d : Dev nD) : Prog (TpuEff nD τ sig (Elt F) (SparseCore.Sig (ΛP (F := F)) 1) .tc) PUnit :=
  StableHlo.seq hostOps >>= fun _ => SparseCore.liftProg regionProg

/-- @main is the SparseCore call and then the tail. -/
theorem main_eq_tail (d : Dev nD) : main (F := F) d = ((K (F := F)).run d 0 >>= fun _ => tail d) := rfl

/-! ## The TensorCore's arrays -/

/-- The TensorCore's unscoped references, as device buffers: the sixteen arrays of @main. -/
def TCBUFS : Finset (DevRef τ sig) := (StableHlo.tcRefs τ sig).filter fun b => ¬ b.isScoped

/-- The sixteen, listed. -/
theorem TCBUFS_eq : (TCBUFS : Finset (DevRef τ sig)) = {Proc.devRef .tc main_arg0, Proc.devRef .tc main_arg1, Proc.devRef .tc main_arg2, Proc.devRef .tc main_arg3,
    Proc.devRef .tc main_arg4, Proc.devRef .tc main_arg5, Proc.devRef .tc main_arg6, Proc.devRef .tc main_arg7, Proc.devRef .tc main_v0, Proc.devRef .tc main_v1,
    Proc.devRef .tc main_v2, Proc.devRef .tc main_v3, Proc.devRef .tc main_v4, Proc.devRef .tc main_v5, Proc.devRef .tc main_v6, Proc.devRef .tc main_v7} := by decide

omit [FloatOps F] [∀ e, Nonempty (Elt F e)] in
/-- A core's unscoped buffers at a valuation are that set held at it. -/
theorem unscopedBufs_held (d : Dev nD) (W : Valuation τ sig (Elt F)) :
    (unscopedBufs d (fun b => W b) : sProp 𝕄₁) = held (T d) TCBUFS W := by
  unfold unscopedBufs StableHlo.held TCBUFS StableHlo.tcRefs
  rw [Finset.filter_map, bigSep_map]
  rfl

omit [∀ e, Nonempty (Elt F e)] in
/-- A host operation names unscoped arrays only. -/
theorem sub_TCBUFS (op : HloOp τ sig (Elt F)) (h : op.bufs ⊆ StableHlo.tcRefs τ sig) : op.bufs ⊆ TCBUFS := fun b hb =>
  Finset.mem_filter.mpr ⟨h hb, fun h' => Bool.false_ne_true ((op.no_scoped b hb).symm.trans h')⟩

omit [∀ e, Nonempty (Elt F e)] in
theorem hostOps_sub : ∀ op ∈ (hostOps (F := F)), op.bufs ⊆ TCBUFS := by
  intro op hop
  simp only [List.mem_cons, List.mem_nil_iff, or_false] at hop
  rcases hop with rfl | rfl | rfl | rfl | rfl | rfl
  · exact sub_TCBUFS _ (StableHlo.unary_bufs_sub ..)
  · exact sub_TCBUFS _ (StableHlo.reshape_bufs_sub ..)
  · exact sub_TCBUFS _ (StableHlo.unary_bufs_sub ..)
  · exact sub_TCBUFS _ (StableHlo.reshape_bufs_sub ..)
  · exact sub_TCBUFS _ (StableHlo.unary_bufs_sub ..)
  · exact sub_TCBUFS _ (StableHlo.reshape_bufs_sub ..)

omit [∀ e, Nonempty (Elt F e)] in
theorem hostOps_fresh : ∀ op ∈ (hostOps (F := F)), op.fresh = ∅ := by
  intro _ h; (repeat (cases h with | head => rfl | tail _ h => ?_)); exact nomatch h

/-! ## The arrays when the region is entered -/

section Host

variable (V : Valuation τ sig (Elt F))

/-- The arrays after the six host operations. -/
abbrev W6 : Valuation τ sig (Elt F) := StableHlo.after hostOps V

omit [∀ e, Nonempty (Elt F e)] in
theorem W6_v1 : W6 V (Proc.devRef .tc main_v1) = truncf .bf16 (V (Proc.devRef .tc main_arg2)) bitsLt_bf16_f32 := by after_results
omit [∀ e, Nonempty (Elt F e)] in
theorem W6_v3 : W6 V (Proc.devRef .tc main_v3) = truncf .bf16 (V (Proc.devRef .tc main_arg4)) bitsLt_bf16_f32 := by after_results
omit [∀ e, Nonempty (Elt F e)] in
theorem W6_v5 : W6 V (Proc.devRef .tc main_v5) = truncf .bf16 (V (Proc.devRef .tc main_arg6)) bitsLt_bf16_f32 := by after_results
omit [∀ e, Nonempty (Elt F e)] in
theorem W6_v2 : W6 V (Proc.devRef .tc main_v2) = shapeCast S1x512 (V (Proc.devRef .tc main_arg3)) shapeCasts_S512_S1x512 := by after_results; rfl
omit [∀ e, Nonempty (Elt F e)] in
theorem W6_v4 : W6 V (Proc.devRef .tc main_v4) = shapeCast S1x512 (V (Proc.devRef .tc main_arg5)) shapeCasts_S512_S1x512 := by after_results; rfl
omit [∀ e, Nonempty (Elt F e)] in
theorem W6_v6 : W6 V (Proc.devRef .tc main_v6) = shapeCast S1x128 (V (Proc.devRef .tc main_arg7)) shapeCasts_S128_S1x128 := by after_results; rfl
omit [∀ e, Nonempty (Elt F e)] in
theorem W6_v0 : W6 V (Proc.devRef .tc main_v0) = V (Proc.devRef .tc main_v0) := by after_results
omit [∀ e, Nonempty (Elt F e)] in
theorem W6_arg0 : W6 V (Proc.devRef .tc main_arg0) = V (Proc.devRef .tc main_arg0) := by after_results
omit [∀ e, Nonempty (Elt F e)] in
theorem W6_arg1 : W6 V (Proc.devRef .tc main_arg1) = V (Proc.devRef .tc main_arg1) := by after_results
omit [∀ e, Nonempty (Elt F e)] in
theorem W6_arg2 : W6 V (Proc.devRef .tc main_arg2) = V (Proc.devRef .tc main_arg2) := by after_results
omit [∀ e, Nonempty (Elt F e)] in
theorem W6_arg3 : W6 V (Proc.devRef .tc main_arg3) = V (Proc.devRef .tc main_arg3) := by after_results
omit [∀ e, Nonempty (Elt F e)] in
theorem W6_arg4 : W6 V (Proc.devRef .tc main_arg4) = V (Proc.devRef .tc main_arg4) := by after_results
omit [∀ e, Nonempty (Elt F e)] in
theorem W6_arg5 : W6 V (Proc.devRef .tc main_arg5) = V (Proc.devRef .tc main_arg5) := by after_results
omit [∀ e, Nonempty (Elt F e)] in
theorem W6_arg6 : W6 V (Proc.devRef .tc main_arg6) = V (Proc.devRef .tc main_arg6) := by after_results
omit [∀ e, Nonempty (Elt F e)] in
theorem W6_arg7 : W6 V (Proc.devRef .tc main_arg7) = V (Proc.devRef .tc main_arg7) := by after_results

end Host

/-! ## The pipeline's launch ghost state -/

/-- The prefetched tables' admissible contents: no table. -/
abbrev adm : (p : Fin 1) → (pcfgs (F := F) p).Adm := fun p => (cfgs p).toPCfg_adm

/-- What the launch deals core `d` for the one pipeline's staging cells: their launch ghost state and the duty tokens of
    the transfers its loop issues. -/
def G1 (Ep : Emb (URounds (GSem nD τ sig) Unit) 𝕄₁) (d : Dev nD) : sProp 𝕄₁ :=
  iprop(Pipeline.cellsGhost cfgs Ep 0 d ∗ Pipeline.toksInit cfgs Ep 0 d)

omit [FloatOps F] [∀ e, Nonempty (Elt F e)] in
/-- The rounds library's launch element at the staging cells and the loop's transfers funds it on every core. -/
theorem fund (Ep : Emb (URounds (GSem nD τ sig) Unit) 𝕄₁) :
    BI.own (Ep (initOf (Pipeline.cells cfgs cellOf_inj) (Pipeline.launchToks cfgs cellOf_inj)))
      ⊢ iprop(|==> bigSep Finset.univ fun d : Dev nD => G1 Ep d) := by
  refine (Pipeline.fund_ghost cfgs Ep cellOf_inj).trans (BI.bupd_mono ?_)
  unfold G1
  rw [bigSep_sep']
  refine BI.sep_mono (Entails.of_eq (bigSep_congr fun d _ => ?_)) (Entails.of_eq (bigSep_congr fun d _ => ?_))
  · rw [show (Finset.univ : Finset (Fin 1)) = {0} from rfl, bigSep_singleton]
  · rw [show (Finset.univ : Finset (Fin 1)) = {0} from rfl, bigSep_singleton]

/-! ## The region's proof data -/

section Region

variable (W : Valuation τ sig (Elt F))

/-- Core `c`'s TensorCore buffers when the region is entered. -/
abbrev VR (c : Dev nD) (b : Ref sig .tc) : Buf (Elt F) ((c : Thread nD τ).loc b) := W b

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (VR W c (Pipeline.arrRef spec1 w))

/-- The pairs a TensorCore's waits may have recorded: those at most at the level every handshake of call 0 sits at or below. -/
def recB (c : Dev nD) : Set (SemLoc sig × HIx 1) := {p | (K (F := F)).lev ((T c), p.1) p.2 ≤ 8}

/-- The proof data of the one pipeline on core `c`: the arrays as the region finds them; after the body each input's
    buffer at its block and the output's at the body's result of the input blocks; the invariant the scoped rest,
    untouched; nothing owed; full shares. -/
def dats (_ : Fin 1) (c : Dev nD) : Dat τ (Elt F) (HIx 1) ℕ U₁ ℕ cfg1 c where
  A w := VR W c (Pipeline.arrRef spec1 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => outTc (iblk W c 0 t) (iblk W c 1 t) (iblk W c 2 t) (iblk W c 3 t) (iblk W c 4 t) (iblk W c 5 t) (iblk W c 6 t)
  Φ _ := Pipeline.scopedRest (Ix := HIx 1) (Name := ℕ) (U := U₁) (Lvl := ℕ) (Val := Elt F) spec1 c
  q _ := fullShare
  owed _ := 0
  recorded _ := recB (F := F) c

theorem A_eq (c : Dev nD) (w : Fin cfg1.W) : (dats (U₁ := U₁) W 0 c).A w = VR W c (Pipeline.arrRef spec1 w) := by
  dsimp only [dats]

theorem after1_0 (c : Dev nD) (t : Fin cfg1.N) : (dats (U₁ := U₁) W 0 c).after 0 t = iblk W c 0 t := by dsimp only [dats]
theorem after1_1 (c : Dev nD) (t : Fin cfg1.N) : (dats (U₁ := U₁) W 0 c).after 1 t = iblk W c 1 t := by dsimp only [dats]
theorem after1_2 (c : Dev nD) (t : Fin cfg1.N) : (dats (U₁ := U₁) W 0 c).after 2 t = iblk W c 2 t := by dsimp only [dats]
theorem after1_3 (c : Dev nD) (t : Fin cfg1.N) : (dats (U₁ := U₁) W 0 c).after 3 t = iblk W c 3 t := by dsimp only [dats]
theorem after1_4 (c : Dev nD) (t : Fin cfg1.N) : (dats (U₁ := U₁) W 0 c).after 4 t = iblk W c 4 t := by dsimp only [dats]
theorem after1_5 (c : Dev nD) (t : Fin cfg1.N) : (dats (U₁ := U₁) W 0 c).after 5 t = iblk W c 5 t := by dsimp only [dats]
theorem after1_6 (c : Dev nD) (t : Fin cfg1.N) : (dats (U₁ := U₁) W 0 c).after 6 t = iblk W c 6 t := by dsimp only [dats]
theorem after1_7 (c : Dev nD) (t : Fin cfg1.N) : (dats (U₁ := U₁) W 0 c).after 7 t
    = outTc (iblk W c 0 t) (iblk W c 1 t) (iblk W c 2 t) (iblk W c 3 t) (iblk W c 4 t) (iblk W c 5 t) (iblk W c 6 t) := by dsimp only [dats]

/-- Each input's staging buffer, fetched at the point, holds its block when the body runs. -/
theorem before1_0 (c : Dev nD) (t : Fin cfg1.N) (d) : (dats (U₁ := U₁) W 0 c).before 0 t d = iblk W c 0 t := by
  unfold Dat.before; rw [if_pos (fetch1_0 t)]; rfl
theorem before1_1 (c : Dev nD) (t : Fin cfg1.N) (d) : (dats (U₁ := U₁) W 0 c).before 1 t d = iblk W c 1 t := by
  unfold Dat.before; rw [if_pos (fetch1_1 t)]; rfl
theorem before1_2 (c : Dev nD) (t : Fin cfg1.N) (d) : (dats (U₁ := U₁) W 0 c).before 2 t d = iblk W c 2 t := by
  unfold Dat.before; rw [if_pos (fetch1_2 t)]; rfl
theorem before1_3 (c : Dev nD) (t : Fin cfg1.N) (d) : (dats (U₁ := U₁) W 0 c).before 3 t d = iblk W c 3 t := by
  unfold Dat.before; rw [if_pos (fetch1_3 t)]; rfl
theorem before1_4 (c : Dev nD) (t : Fin cfg1.N) (d) : (dats (U₁ := U₁) W 0 c).before 4 t d = iblk W c 4 t := by
  unfold Dat.before; rw [if_pos (fetch1_4 t)]; rfl
theorem before1_5 (c : Dev nD) (t : Fin cfg1.N) (d) : (dats (U₁ := U₁) W 0 c).before 5 t d = iblk W c 5 t := by
  unfold Dat.before; rw [if_pos (fetch1_5 t)]; rfl
theorem before1_6 (c : Dev nD) (t : Fin cfg1.N) (d) : (dats (U₁ := U₁) W 0 c).before 6 t d = iblk W c 6 t := by
  unfold Dat.before; rw [if_pos (fetch1_6 t)]; rfl

/-! ## The body obligation -/

/-- What the body is called with at point `t`, the windows one by one, -/
def bodyPre (c : Dev nD) (t : Fin cfg1.N) : sProp 𝕄₁ :=
  iprop((dats (U₁ := U₁) W 0 c).Φ t.castSucc ∗ (dats (U₁ := U₁) W 0 c).owesAt none t.castSucc
    ∗ (∃ d, owns (c : Thread nD τ) (st1_0 t) fullShare ((dats (U₁ := U₁) W 0 c).before 0 t d))
    ∗ (∃ d, owns (c : Thread nD τ) (st1_1 t) fullShare ((dats (U₁ := U₁) W 0 c).before 1 t d))
    ∗ (∃ d, owns (c : Thread nD τ) (st1_2 t) fullShare ((dats (U₁ := U₁) W 0 c).before 2 t d))
    ∗ (∃ d, owns (c : Thread nD τ) (st1_3 t) fullShare ((dats (U₁ := U₁) W 0 c).before 3 t d))
    ∗ (∃ d, owns (c : Thread nD τ) (st1_4 t) fullShare ((dats (U₁ := U₁) W 0 c).before 4 t d))
    ∗ (∃ d, owns (c : Thread nD τ) (st1_5 t) fullShare ((dats (U₁ := U₁) W 0 c).before 5 t d))
    ∗ (∃ d, owns (c : Thread nD τ) (st1_6 t) fullShare ((dats (U₁ := U₁) W 0 c).before 6 t d))
    ∗ (∃ d, owns (c : Thread nD τ) (st1_7 t) fullShare ((dats (U₁ := U₁) W 0 c).before 7 t d)))

/-- and what it returns. -/
def bodyPost (c : Dev nD) (t : Fin cfg1.N) : sProp 𝕄₁ :=
  iprop((dats (U₁ := U₁) W 0 c).Φ t.succ ∗ (dats (U₁ := U₁) W 0 c).owesAt none t.succ
    ∗ owns (c : Thread nD τ) (st1_0 t) fullShare ((dats (U₁ := U₁) W 0 c).after 0 t)
    ∗ owns (c : Thread nD τ) (st1_1 t) fullShare ((dats (U₁ := U₁) W 0 c).after 1 t)
    ∗ owns (c : Thread nD τ) (st1_2 t) fullShare ((dats (U₁ := U₁) W 0 c).after 2 t)
    ∗ owns (c : Thread nD τ) (st1_3 t) fullShare ((dats (U₁ := U₁) W 0 c).after 3 t)
    ∗ owns (c : Thread nD τ) (st1_4 t) fullShare ((dats (U₁ := U₁) W 0 c).after 4 t)
    ∗ owns (c : Thread nD τ) (st1_5 t) fullShare ((dats (U₁ := U₁) W 0 c).after 5 t)
    ∗ owns (c : Thread nD τ) (st1_6 t) fullShare ((dats (U₁ := U₁) W 0 c).after 6 t)
    ∗ owns (c : Thread nD τ) (st1_7 t) fullShare ((dats (U₁ := U₁) W 0 c).after 7 t))

/-- The body at any point: the inputs' buffers hold their blocks, so the body's triple applies; the invariant and the
    core's debts pass through unread. -/
theorem sound_body (c : Dev nD) (t : Fin cfg1.N) :
    bodyPre (U₁ := U₁) W c t ⊢ wp frame (wpE (defs₀ (F := F)) Variants.none c none) Set.univ (bodyAt1 t) (fun _ => bodyPost (U₁ := U₁) W c t) := by
  unfold bodyPre bodyPost bodyAt1
  simp only [before1_0, before1_1, before1_2, before1_3, before1_4, before1_5, before1_6]
  rw [show (dats (U₁ := U₁) W 0 c).Φ t.succ = (dats (U₁ := U₁) W 0 c).Φ t.castSucc from rfl,
    show (dats (U₁ := U₁) W 0 c).owesAt none t.succ = (dats (U₁ := U₁) W 0 c).owesAt none t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk W c 0 t) (iblk W c 1 t) (iblk W c 2 t) (iblk W c 3 t) (iblk W c 4 t) (iblk W c 5 t) (iblk W c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (U₁ := U₁) W 0 c) (defs₀ (F := F)) Variants.none (none : HIx 1) Set.univ := fun t => by
  rw [bigSep_W1, bigSep_W1]
  exact sound_body W c t

end Region

/-! ## What the region leaves: the output array as one function of the arrays it found -/

section Value

variable (W : Valuation τ sig (Elt F))

/-- The one grid point's block index is zero, on every window. -/
theorem idx1 : ∀ t : Fin cfg1.N, win1_0.index t = ![0, 0] ∧ win1_1.index t = ![0, 0] ∧ win1_2.index t = ![0, 0] ∧ win1_3.index t = ![0, 0]
    ∧ win1_4.index t = ![0, 0] ∧ win1_5.index t = ![0, 0] ∧ win1_6.index t = ![0, 0] ∧ win1_7.index t = ![0, 0] :=
  (by decide +kernel : ∀ t : Fin grid1.N, win1_0.index t = ![0, 0] ∧ win1_1.index t = ![0, 0] ∧ win1_2.index t = ![0, 0] ∧ win1_3.index t = ![0, 0]
    ∧ win1_4.index t = ![0, 0] ∧ win1_5.index t = ![0, 0] ∧ win1_6.index t = ![0, 0] ∧ win1_7.index t = ![0, 0])

/-- A block at block index zero that is the whole array reads the array. -/
theorem iblk1_0 (c : Dev nD) (t : Fin cfg1.N) : iblk W c 0 t = VR W c main_v0 := by
  funext j
  show VR W c main_v0 (((cfg1.win 0).blk t).view.emb j) = VR W c main_v0 j
  refine congrArg _ ?_
  have h := (idx1 t).1
  funext a; apply Fin.ext
  match a with
  | ⟨0, _⟩ => show win1_0.index t (0 : Fin 2) * 4096 + 1 * (j 0).val = (j 0).val; rw [h]; show 0 * 4096 + 1 * (j 0).val = (j 0).val; omega
  | ⟨1, _⟩ => show win1_0.index t (1 : Fin 2) * 128 + 1 * (j 1).val = (j 1).val; rw [h]; show 0 * 128 + 1 * (j 1).val = (j 1).val; omega
theorem iblk1_1 (c : Dev nD) (t : Fin cfg1.N) : iblk W c 1 t = VR W c main_v1 := by
  funext j
  show VR W c main_v1 (((cfg1.win 1).blk t).view.emb j) = VR W c main_v1 j
  refine congrArg _ ?_
  have h := (idx1 t).2.1
  funext a; apply Fin.ext
  match a with
  | ⟨0, _⟩ => show win1_1.index t (0 : Fin 2) * 128 + 1 * (j 0).val = (j 0).val; rw [h]; show 0 * 128 + 1 * (j 0).val = (j 0).val; omega
  | ⟨1, _⟩ => show win1_1.index t (1 : Fin 2) * 512 + 1 * (j 1).val = (j 1).val; rw [h]; show 0 * 512 + 1 * (j 1).val = (j 1).val; omega
theorem iblk1_2 (c : Dev nD) (t : Fin cfg1.N) : iblk W c 2 t = VR W c main_v2 := by
  funext j
  show VR W c main_v2 (((cfg1.win 2).blk t).view.emb j) = VR W c main_v2 j
  refine congrArg _ ?_
  have h := (idx1 t).2.2.1
  funext a; apply Fin.ext
  match a with
  | ⟨0, _⟩ => show win1_2.index t (0 : Fin 2) * 1 + 1 * (j 0).val = (j 0).val; rw [h]; show 0 * 1 + 1 * (j 0).val = (j 0).val; omega
  | ⟨1, _⟩ => show win1_2.index t (1 : Fin 2) * 512 + 1 * (j 1).val = (j 1).val; rw [h]; show 0 * 512 + 1 * (j 1).val = (j 1).val; omega
theorem iblk1_3 (c : Dev nD) (t : Fin cfg1.N) : iblk W c 3 t = VR W c main_v3 := by
  funext j
  show VR W c main_v3 (((cfg1.win 3).blk t).view.emb j) = VR W c main_v3 j
  refine congrArg _ ?_
  have h := (idx1 t).2.2.2.1
  funext a; apply Fin.ext
  match a with
  | ⟨0, _⟩ => show win1_3.index t (0 : Fin 2) * 512 + 1 * (j 0).val = (j 0).val; rw [h]; show 0 * 512 + 1 * (j 0).val = (j 0).val; omega
  | ⟨1, _⟩ => show win1_3.index t (1 : Fin 2) * 512 + 1 * (j 1).val = (j 1).val; rw [h]; show 0 * 512 + 1 * (j 1).val = (j 1).val; omega
theorem iblk1_4 (c : Dev nD) (t : Fin cfg1.N) : iblk W c 4 t = VR W c main_v4 := by
  funext j
  show VR W c main_v4 (((cfg1.win 4).blk t).view.emb j) = VR W c main_v4 j
  refine congrArg _ ?_
  have h := (idx1 t).2.2.2.2.1
  funext a; apply Fin.ext
  match a with
  | ⟨0, _⟩ => show win1_4.index t (0 : Fin 2) * 1 + 1 * (j 0).val = (j 0).val; rw [h]; show 0 * 1 + 1 * (j 0).val = (j 0).val; omega
  | ⟨1, _⟩ => show win1_4.index t (1 : Fin 2) * 512 + 1 * (j 1).val = (j 1).val; rw [h]; show 0 * 512 + 1 * (j 1).val = (j 1).val; omega
theorem iblk1_5 (c : Dev nD) (t : Fin cfg1.N) : iblk W c 5 t = VR W c main_v5 := by
  funext j
  show VR W c main_v5 (((cfg1.win 5).blk t).view.emb j) = VR W c main_v5 j
  refine congrArg _ ?_
  have h := (idx1 t).2.2.2.2.2.1
  funext a; apply Fin.ext
  match a with
  | ⟨0, _⟩ => show win1_5.index t (0 : Fin 2) * 512 + 1 * (j 0).val = (j 0).val; rw [h]; show 0 * 512 + 1 * (j 0).val = (j 0).val; omega
  | ⟨1, _⟩ => show win1_5.index t (1 : Fin 2) * 128 + 1 * (j 1).val = (j 1).val; rw [h]; show 0 * 128 + 1 * (j 1).val = (j 1).val; omega
theorem iblk1_6 (c : Dev nD) (t : Fin cfg1.N) : iblk W c 6 t = VR W c main_v6 := by
  funext j
  show VR W c main_v6 (((cfg1.win 6).blk t).view.emb j) = VR W c main_v6 j
  refine congrArg _ ?_
  have h := (idx1 t).2.2.2.2.2.2.1
  funext a; apply Fin.ext
  match a with
  | ⟨0, _⟩ => show win1_6.index t (0 : Fin 2) * 1 + 1 * (j 0).val = (j 0).val; rw [h]; show 0 * 1 + 1 * (j 0).val = (j 0).val; omega
  | ⟨1, _⟩ => show win1_6.index t (1 : Fin 2) * 128 + 1 * (j 1).val = (j 1).val; rw [h]; show 0 * 128 + 1 * (j 1).val = (j 1).val; omega

/-- The perceptron's body on the arrays the region finds: what the output array ends holding. -/
def G7 (c : Dev nD) : Buf (Elt F) ((c : Thread nD τ).loc main_v7) :=
  k1_pay1 (VR W c main_v0) (VR W c main_v1) (VR W c main_v2) (VR W c main_v3) (VR W c main_v4) (VR W c main_v5) (VR W c main_v6)

/-- What the point writes back is the output array's one block of that. -/
theorem flushed1_7 (c : Dev nD) (t : Fin cfg1.N) :
    (dats (U₁ := U₁) W 0 c).flushed 7 t = ((cfg1.win 7).blk t).view.read (Elt F) (G7 W c) := by
  show (cfg1.win 7).cut (grid1.coords t) ((dats (U₁ := U₁) W 0 c).after 7 t) = _
  rw [after1_7, outTc_eq, iblk1_0, iblk1_1, iblk1_2, iblk1_3, iblk1_4, iblk1_5, iblk1_6]
  funext j
  show G7 W c j = G7 W c (((cfg1.win 7).blk t).view.emb j)
  refine congrArg _ ?_
  have h := (idx1 t).2.2.2.2.2.2.2
  funext a; apply Fin.ext
  match a with
  | ⟨0, _⟩ => show (j 0).val = win1_7.index t (0 : Fin 2) * 4096 + 1 * (j 0).val; rw [h]; show (j 0).val = 0 * 4096 + 1 * (j 0).val; omega
  | ⟨1, _⟩ => show (j 1).val = win1_7.index t (1 : Fin 2) * 128 + 1 * (j 1).val; rw [h]; show (j 1).val = 0 * 128 + 1 * (j 1).val; omega

/-- Every index of the output array is in the one point's block. -/
theorem cover1_7 (i : S4096x128.Idx) : ∃ t : Fin cfg1.N, (cfg1.win 7).flush t = true ∧ i ∈ ((cfg1.win 7).blk t).view.set := by
  refine ⟨t1_0, flush1_7 t1_0, ?_⟩
  show i ∈ ((View.whole main_v7).slice (win1_7.rect t1_0)).set
  rw [View.set_slice_whole, Rect.mem_set_unit]
  have h := (idx1 t1_0).2.2.2.2.2.2.2
  intro a
  match a with
  | ⟨0, _⟩ => show win1_7.index t1_0 (0 : Fin 2) * 4096 ≤ (i 0).val ∧ (i 0).val < win1_7.index t1_0 (0 : Fin 2) * 4096 + 4096; rw [h]; have hi : (i 0).val < 4096 := (i 0).isLt; show 0 * 4096 ≤ (i 0).val ∧ (i 0).val < 0 * 4096 + 4096; omega
  | ⟨1, _⟩ => show win1_7.index t1_0 (1 : Fin 2) * 128 ≤ (i 1).val ∧ (i 1).val < win1_7.index t1_0 (1 : Fin 2) * 128 + 128; rw [h]; have hi : (i 1).val < 128 := (i 1).isLt; show 0 * 128 ≤ (i 1).val ∧ (i 1).val < 0 * 128 + 128; omega

/-- THE OUTPUT ARRAY after the region. -/
theorem final1_7 (c : Dev nD) : (dats (U₁ := U₁) W 0 c).arrAt 7 cfg1.N = G7 W c :=
  (dats (U₁ := U₁) W 0 c).arrAt_eq_of_cover 7 _ (fun t _ => flushed1_7 W c t) (fun i => cover1_7 i)

end Value

/-! ## The region as the library's record -/

section Seg

variable (W : Valuation τ sig (Elt F))

/-- The perceptron's body on the arrays of a valuation. -/
def Gout : (Proc.devRef (τ := τ) .tc main_v7).ty.Contents (Elt F) :=
  k1_pay1 (W (Proc.devRef .tc main_v0)) (W (Proc.devRef .tc main_v1)) (W (Proc.devRef .tc main_v2)) (W (Proc.devRef .tc main_v3))
    (W (Proc.devRef .tc main_v4)) (W (Proc.devRef .tc main_v5)) (W (Proc.devRef .tc main_v6))

/-- The arrays after the region: the output array at the perceptron's body of the arrays the region found, the rest as
    they were. -/
def Wout : Valuation τ sig (Elt F) := Function.update W (Proc.devRef .tc main_v7) (Gout W)

omit [∀ e, Nonempty (Elt F e)] in
theorem Wout_v7 : Wout W (Proc.devRef .tc main_v7) = Gout W := Function.update_self _ _ _
omit [∀ e, Nonempty (Elt F e)] in
theorem Wout_ne {b : Ref sig .tc} (h : b ≠ main_v7) : Wout W (Proc.devRef .tc b) = W (Proc.devRef .tc b) :=
  Function.update_of_ne (StableHlo.devRef_ne_of_ne h) _ _

/-- What rides beside the arrays through the region: the core owing nothing, its recorded pairs at most at level 8. -/
abbrev Rw (c : Dev nD) : sProp 𝕄₁ :=
  iprop(∃ Wt, ⌜(K (F := F)).WBelow (T c) Wt 8⌝ ∗ owes (T c) (0 : CellTallies nD τ sig (HIx 1)) Wt)

/-- Each window's array after the region, as the library computes it, is the valuation after the region at it. -/
theorem arrAt_eq (c : Dev nD) (w : Fin cfg1.W) :
    (dats (U₁ := U₁) W 0 c).arrAt w cfg1.N = VR (Wout W) c (Pipeline.arrRef spec1 w) := by
  match w with
  | ⟨0, _⟩ => exact ((dats (U₁ := U₁) W 0 c).arrAt_in 0 rfl _).trans ((A_eq W c 0).trans (Wout_ne W (b := main_v0) (by decide)).symm)
  | ⟨1, _⟩ => exact ((dats (U₁ := U₁) W 0 c).arrAt_in 1 rfl _).trans ((A_eq W c 1).trans (Wout_ne W (b := main_v1) (by decide)).symm)
  | ⟨2, _⟩ => exact ((dats (U₁ := U₁) W 0 c).arrAt_in 2 rfl _).trans ((A_eq W c 2).trans (Wout_ne W (b := main_v2) (by decide)).symm)
  | ⟨3, _⟩ => exact ((dats (U₁ := U₁) W 0 c).arrAt_in 3 rfl _).trans ((A_eq W c 3).trans (Wout_ne W (b := main_v3) (by decide)).symm)
  | ⟨4, _⟩ => exact ((dats (U₁ := U₁) W 0 c).arrAt_in 4 rfl _).trans ((A_eq W c 4).trans (Wout_ne W (b := main_v4) (by decide)).symm)
  | ⟨5, _⟩ => exact ((dats (U₁ := U₁) W 0 c).arrAt_in 5 rfl _).trans ((A_eq W c 5).trans (Wout_ne W (b := main_v5) (by decide)).symm)
  | ⟨6, _⟩ => exact ((dats (U₁ := U₁) W 0 c).arrAt_in 6 rfl _).trans ((A_eq W c 6).trans (Wout_ne W (b := main_v6) (by decide)).symm)
  | ⟨7, _⟩ => exact (final1_7 W c).trans (Wout_v7 W).symm

omit [∀ e, Nonempty (Elt F e)] in
/-- The arrays no window stages are the same before and after. -/
theorem unscopedRest_out (c : Dev nD) :
    (Pipeline.unscopedRest (Ix := HIx 1) (Name := ℕ) (U := U₁) (Lvl := ℕ) spec1 c (VR W c) : sProp 𝕄₁)
      = Pipeline.unscopedRest (Ix := HIx 1) (Name := ℕ) (U := U₁) (Lvl := ℕ) spec1 c (VR (Wout W) c) := by
  unfold Pipeline.unscopedRest
  refine bigSep_congr fun b hb => ?_
  have hne : b ≠ main_v7 := fun e => (Finset.mem_sdiff.mp hb).2 (e ▸ Finset.mem_image_of_mem (Pipeline.arrRef spec1) (Finset.mem_univ (7 : Fin 8)))
  rw [show VR (Wout W) c b = VR W c b from Wout_ne W hne]

set_option backward.isDefEq.respectTransparency.types false in
/-- THE REGION: the library's launch layout, no semaphore of the kernel's own, the body obligation; entered from the unscoped
    arrays held whole — the windows' eight into the pipeline, the eight arguments bypassing —, left with them held whole
    again, the output array at the body's result. -/
def reg1 : Pipeline.RegionSeg (pcfgs (F := F)) adm (dats (U₁ := U₁) W) (none : HIx 1) defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := (body_obligation W c).loose
  hwaits := Pipeline.hwaits_of_owed_zero _ _ _ _ (K (F := F)).L (K (F := F)).lev 0 fun _ _ => rfl
  pre c := iprop(unscopedBufs c (VR W c) ∗ Rw c)
  post c := iprop(unscopedBufs c (VR (Wout W) c) ∗ Rw c)
  X _ := iprop(emp)
  Y _ := iprop(emp)
  Z c := Pipeline.unscopedRest (Ix := HIx 1) (Name := ℕ) (U := U₁) (Lvl := ℕ) spec1 c (VR W c)
  hentry c := by
    have hsplit := Pipeline.arrays_of_unscopedBufs (pcfgs (F := F)) adm (dats (U₁ := U₁) W) launch1.win launch1.arr_whole c
      ((dats (U₁ := U₁) W 0 c).share_full fun _ => rfl) (VR W c) fun _ => rfl
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wt, %hW, HO⟩; iexists Wt; isplitr; · ipureintro; exact fun p hp => Or.inl (hW p hp)
      iexact HO
    isplitr; · iempintro
    iexact Hr
  hin c := by
    show iprop(_ ∗ _ ∗ Pipeline.scopedRest (Ix := HIx 1) (Name := ℕ) (U := U₁) (Lvl := ℕ) (Val := Elt F) spec1 c)
      ⊢ Pipeline.scopedRest (Ix := HIx 1) (Name := ℕ) (U := U₁) (Lvl := ℕ) (Val := Elt F) spec1 c
    iintro ⟨-, -, Hr⟩; iexact Hr
  hout c := by
    rw [Pipeline.ownSems0_none]
    show Pipeline.scopedRest (Ix := HIx 1) (Name := ℕ) (U := U₁) (Lvl := ℕ) (Val := Elt F) spec1 c
      ⊢ iprop(emp ∗ emp ∗ Pipeline.scopedRest (Ix := HIx 1) (Name := ℕ) (U := U₁) (Lvl := ℕ) (Val := Elt F) spec1 c)
    iintro Hr
    isplitr; · iempintro
    isplitr; · iempintro
    iexact Hr
  hexit c := by
    have hA : ((dats (U₁ := U₁) W 0 c).arrays ((dats (U₁ := U₁) W 0 c).arrAt · cfg1.N) : sProp 𝕄₁)
        = bigSep Finset.univ fun w : Fin cfg1.W => (((c : Thread nD τ).loc (Pipeline.arrRef spec1 w)) ↦{fullShare} VR (Wout W) c (Pipeline.arrRef spec1 w) : sProp 𝕄₁) := by
      rw [Pipeline.arrays_eq (Pipeline.pin (pcfgs (F := F)) adm) (dats (U₁ := U₁) W) 0 c launch1.arr_whole ((dats (U₁ := U₁) W 0 c).share_full fun _ => rfl)]
      exact bigSep_congr fun w _ => by rw [arrAt_eq W c w]
    rw [Pipeline.unscopedBufs_split (Pipeline.pin (pcfgs (F := F)) adm) 0 launch1.win.arr_unscoped launch1.win.arr_inj c (VR (Wout W) c),
      ← unscopedRest_out W c]
    iintro ⟨Ha, HO, -, HZ⟩
    ihave Ha' := (Entails.of_eq hA) $$ Ha
    imodintro
    isplitr [HO]
    · isplitl [Ha']
      · iexact Ha'
      · iexact HZ
    · unfold Pipeline.Dat.owesAt Pipeline.owesWithin
      icases HO with ⟨%Wt, %hW, HO⟩; iexists Wt; isplitr
      · ipureintro; intro p hp
        rcases hW hp with h | ⟨w, s, rfl⟩
        · exact h
        · show (K (F := F)).lev _ none ≤ 8; rw [(K (F := F)).lev_none]; exact Nat.zero_le _
      iexact HO

theorem reg1_pre (c : Dev nD) : (reg1 (U₁ := U₁) W).pre c = iprop(unscopedBufs c (VR W c) ∗ Rw c) := rfl
theorem reg1_post (c : Dev nD) : (reg1 (U₁ := U₁) W).post c = iprop(unscopedBufs c (VR (Wout W) c) ∗ Rw c) := rfl

end Seg

/-! ## The tail -/

/-- The arrays after the tail: after the six host operations and then the region. -/
def Vfin (V : Valuation τ sig (Elt F)) : Valuation τ sig (Elt F) := Wout (W6 V)

section Fin

variable (V : Valuation τ sig (Elt F))

omit [∀ e, Nonempty (Elt F e)] in
/-- The result: the perceptron of the bag and the float arguments. -/
theorem Vfin_v7 : Vfin V (Proc.devRef .tc main_v7)
    = mlpK (V (Proc.devRef .tc main_v0)) (V (Proc.devRef .tc main_arg2)) (V (Proc.devRef .tc main_arg3)) (V (Proc.devRef .tc main_arg4))
        (V (Proc.devRef .tc main_arg5)) (V (Proc.devRef .tc main_arg6)) (V (Proc.devRef .tc main_arg7)) := by
  unfold Vfin; rw [Wout_v7]; unfold Gout mlpK
  rw [W6_v0, W6_v1, W6_v2, W6_v3, W6_v4, W6_v5, W6_v6]

omit [∀ e, Nonempty (Elt F e)] in
theorem Vfin_v0 : Vfin V (Proc.devRef .tc main_v0) = V (Proc.devRef .tc main_v0) := (Wout_ne _ (by decide)).trans (W6_v0 V)
omit [∀ e, Nonempty (Elt F e)] in
theorem Vfin_arg0 : Vfin V (Proc.devRef .tc main_arg0) = V (Proc.devRef .tc main_arg0) := (Wout_ne _ (by decide)).trans (W6_arg0 V)
omit [∀ e, Nonempty (Elt F e)] in
theorem Vfin_arg1 : Vfin V (Proc.devRef .tc main_arg1) = V (Proc.devRef .tc main_arg1) := (Wout_ne _ (by decide)).trans (W6_arg1 V)
omit [∀ e, Nonempty (Elt F e)] in
theorem Vfin_arg2 : Vfin V (Proc.devRef .tc main_arg2) = V (Proc.devRef .tc main_arg2) := (Wout_ne _ (by decide)).trans (W6_arg2 V)
omit [∀ e, Nonempty (Elt F e)] in
theorem Vfin_arg3 : Vfin V (Proc.devRef .tc main_arg3) = V (Proc.devRef .tc main_arg3) := (Wout_ne _ (by decide)).trans (W6_arg3 V)
omit [∀ e, Nonempty (Elt F e)] in
theorem Vfin_arg4 : Vfin V (Proc.devRef .tc main_arg4) = V (Proc.devRef .tc main_arg4) := (Wout_ne _ (by decide)).trans (W6_arg4 V)
omit [∀ e, Nonempty (Elt F e)] in
theorem Vfin_arg5 : Vfin V (Proc.devRef .tc main_arg5) = V (Proc.devRef .tc main_arg5) := (Wout_ne _ (by decide)).trans (W6_arg5 V)
omit [∀ e, Nonempty (Elt F e)] in
theorem Vfin_arg6 : Vfin V (Proc.devRef .tc main_arg6) = V (Proc.devRef .tc main_arg6) := (Wout_ne _ (by decide)).trans (W6_arg6 V)
omit [∀ e, Nonempty (Elt F e)] in
theorem Vfin_arg7 : Vfin V (Proc.devRef .tc main_arg7) = V (Proc.devRef .tc main_arg7) := (Wout_ne _ (by decide)).trans (W6_arg7 V)

end Fin

omit [∀ e, Nonempty (Elt F e)] in
/-- After call 0 the TensorCore owes nothing: what it holds of the handshakes is that beside the rest. -/
theorem tcSt_one (Eh : Emb (URounds (GSem nD τ sig) ℕ) 𝕄₁) (d : Dev nD) :
    ∃ Rst : sProp 𝕄₁, (K (F := F)).tcSt Eh d 1 = iprop(Rw d ∗ Rst) :=
  ⟨_, by unfold SparseCore.Cfg.tcSt; rw [(K (F := F)).Otc_end d (le_refl 1)]⟩

set_option backward.isDefEq.respectTransparency.types false in
/-- THE TAIL on device `d`'s TensorCore: the host operations over the sixteen arrays held whole, then the region entered
    from what they left, the staging cells' invariants allocated from the launch ghost state; the TensorCore owes nothing
    after call 0 and every wait of the region is at the index below every handshake, so what it holds of the
    handshakes comes back unchanged. -/
theorem tc_tail (Eh : Emb (URounds (GSem nD τ sig) ℕ) 𝕄₁) (Ep : Emb (URounds (GSem nD τ sig) Unit) 𝕄₁) [Ep.LandsIn (upEmb : UEmb _ 𝕄₁)]
    (P : (K (F := F)).Pay (nD := nD) (Val := Elt F) (Name := ℕ) (U := U₁)) (κ : GSem nD τ sig → ℕ) (d : Dev nD) (V : Valuation τ sig (Elt F)) :
    iprop((K (F := F)).ctx Eh P κ ∗ boundary (T d) ∗ held (T d) TCBUFS V ∗ (K (F := F)).tcSt Eh d 1 ∗ G1 Ep d)
      ⊢ wp frame (wpE ((K (F := F)).defs (D (F := F))) 𝒱 (SparseCore.T d) none) Set.univ (tail d)
          fun _ => iprop((K (F := F)).tcSt Eh d 1 ∗ held (T d) TCBUFS (Vfin V)) := by
  obtain ⟨Rst, hR⟩ := tcSt_one (F := F) Eh d
  rw [hR]
  unfold tail G1
  iintro ⟨#Hctx, Hb, Hheld, ⟨HO, Hrest⟩, Hg, Ht⟩
  ihave Hla := ((K (F := F)).ctx_levAts (EH := Eh) (P := P) κ) $$ Hctx
  iapply (StableHlo.wp_seq 𝒱 none Set.univ d TCBUFS _ hostOps hostOps_sub hostOps_fresh V) $$ [Hb Hheld]
  · isplitl [Hb]; · iexact Hb
    iexact Hheld
  iintro ⟨Hb, Hheld⟩
  iapply ((K (F := F)).wp_liftProg (D (F := F)) 𝒱 (T d) Set.univ none regionProg _)
  iapply (Pipeline.RegionSeg.wp (pcfgs (F := F)) adm (dats (U₁ := U₁) (W6 V)) (none : HIx 1) cellOf_inj Ep defs₀ 𝒱₀ (K (F := F)).L (K (F := F)).lev
    (reg1 (U₁ := U₁) (W6 V)) d none (fun _ h => nomatch h) (fun _ => .ret ⟨⟩) _)
  rw [reg1_pre, reg1_post]
  isplitl [Hrest]
  · iintro ⟨Hb, Hub, HO⟩
    rw [wp_ret]; imodintro
    isplitl [HO Hrest]
    · isplitl [HO]; · iexact HO
      iexact Hrest
    · iapply (Entails.of_eq (unscopedBufs_held (F := F) (U₁ := U₁) d (Vfin V))); iexact Hub
  isplitl [Hb]; · iexact Hb
  isplitl [Hheld HO]
  · isplitl [Hheld]
    · iapply (Entails.of_eq (unscopedBufs_held (F := F) (U₁ := U₁) d (W6 V)).symm); iexact Hheld
    · iexact HO
  isplitr; · iexact Hla
  isplitl [Hg]; · iexact Hg
  iexact Ht

end Cert.Kernel.Hand

end
-- ==== Proof.PreRange.lean ====
/-
  The precondition decoded into the range of the index words.

  The printed precondition is a conjunction, by `and` on one-bit words, of nine whole-array tests;
  the last of them says that every word w of the index array satisfies 0 ≤ w and w ≤ 99999, both read
  signed. A conjunction that is 1 has every conjunct 1; a reduction by `and` over all axes that is 1
  met only 1s; and a comparison word that is 1 says the comparison holds of the integers its operands
  are read as. So every index word, read signed, lies in [0, 99999], and therefore, read unsigned, is
  below 100000.
-/
import proofs.«205252_g82703890252310_cont_sun_m_328_31_alg».proof.Pre_input_domain
import Idealize.ShloMosaic.Lib.ReduceAll
import Idealize.ShloMosaic.Lib.ValueIdx

noncomputable section

namespace Cert.Bridge

open Idealize.ShloMosaic Cert.Pre_input_domain

/-- The shape of a scalar has one index. -/
instance subsingleton_scalar_idx : Subsingleton S_.Idx := ⟨fun a b => funext fun d => d.elim0⟩

/-- The last conjunct: if the second part of the precondition is 1, every index word is in range. -/
theorem range_of_part2 {F : FTy → Type} [FloatOps F] [Facts] (a0 : IVec S4096x50 32) (v : IVec S_ 1)
    (h : fn_part2 (F := F) a0 v ValueIdx.ix0 = 1#1) : ∀ i, 0 ≤ (a0 i).toInt ∧ (a0 i).toInt ≤ 99999 := by
  intro i
  unfold fn_part2 at h
  obtain ⟨-, hall⟩ := IntOp.andi_eq_one.1 h
  have hi := Host.reduce_andi_all _ _ _ _ _ hall i
  obtain ⟨hge, hle⟩ := IntOp.andi_eq_one.1 hi
  have h0 : (0#32 : BitVec 32).toInt = 0 := by decide
  have h9 : (99999#32 : BitVec 32).toInt = 99999 := by decide
  have hge' := IntOp.cmpi_sge.1 hge
  have hle' := IntOp.cmpi_sle.1 hle
  exact ⟨h0 ▸ hge', h9 ▸ hle'⟩

/-- The whole precondition is its second part applied to the index array and the conjunction of the
    tests before it. -/
theorem fn_eq_part2 {F : FTy → Type} [FloatOps F] [Facts] (a0 : IVec S4096x50 32) (a1 : FVec F S100000x128 .f32)
    (a2 : FVec F S128x512 .f32) (a3 : FVec F S512 .f32) (a4 : FVec F S512x512 .f32) (a5 : FVec F S512 .f32)
    (a6 : FVec F S512x128 .f32) (a7 : FVec F S128 .f32) :
    ∃ v : IVec S_ 1, fn (F := F) a0 a1 a2 a3 a4 a5 a6 a7 = fn_part2 (F := F) a0 v := ⟨_, rfl⟩

/-- Under the precondition every index word, read signed, lies in [0, 99999]. -/
theorem range_of_pre {F : FTy → Type} [FloatOps F] [Facts] (a0 : IVec S4096x50 32) (a1 : FVec F S100000x128 .f32)
    (a2 : FVec F S128x512 .f32) (a3 : FVec F S512 .f32) (a4 : FVec F S512x512 .f32) (a5 : FVec F S512 .f32)
    (a6 : FVec F S512x128 .f32) (a7 : FVec F S128 .f32)
    (h : fn (F := F) a0 a1 a2 a3 a4 a5 a6 a7 = fun _ => 1#1) : ∀ i, 0 ≤ (a0 i).toInt ∧ (a0 i).toInt ≤ 99999 := by
  obtain ⟨v, e⟩ := fn_eq_part2 (F := F) a0 a1 a2 a3 a4 a5 a6 a7
  rw [e] at h
  exact range_of_part2 (F := F) a0 v (congrFun h ValueIdx.ix0)

/-- A 32-bit word that, read signed, lies in [0, 99999] is, read unsigned, below 100000. -/
theorem toNat_lt_of_range (w : BitVec 32) (h : 0 ≤ w.toInt ∧ w.toInt ≤ 99999) : w.toNat < 100000 := by
  obtain ⟨h0, h9⟩ := h
  have hw := w.isLt
  rw [BitVec.toInt_eq_toNat_cond] at h0 h9
  split at h0 <;> omega

/-- Under the precondition every index word, read unsigned, is below 100000. -/
theorem toNat_lt_of_pre {F : FTy → Type} [FloatOps F] [Facts] (a0 : IVec S4096x50 32) (a1 : FVec F S100000x128 .f32)
    (a2 : FVec F S128x512 .f32) (a3 : FVec F S512 .f32) (a4 : FVec F S512x512 .f32) (a5 : FVec F S512 .f32)
    (a6 : FVec F S512x128 .f32) (a7 : FVec F S128 .f32)
    (h : fn (F := F) a0 a1 a2 a3 a4 a5 a6 a7 = fun _ => 1#1) : ∀ i, (a0 i).toNat < 100000 :=
  fun i => toNat_lt_of_range _ (range_of_pre (F := F) a0 a1 a2 a3 a4 a5 a6 a7 h i)

end Cert.Bridge

end
-- ==== Proof.Kernel.Launch.lean ====
/-
  The kernel program's run: the launch theorem applied.

  The launch element of the ghost state is a triple: the handshakes' rounds, the rounds of the one
  TensorCore region's staging cells, and the unit of the tiles' transfer counters. Owning the triple is
  owning each of the first two through its embedding; the second funds the region's cells; the calls'
  own payloads are empty.

  @main on the TensorCore holds its sixteen arrays. For the SparseCore call it takes out the index
  array, the table and the bag's array, hands every SparseCore its tasks' blocks and tokens (a remainder
  of the table's share stays behind), and gets them back with the bag's array holding the bag; with the
  remainder they are the three arrays whole again. The sixteen arrays, the bag's now at the bag, go
  through the rest of @main, which leaves the result array at the three layers of the bag and every
  argument as it was. The final memory agrees with what is held, array by array: the result is the
  kernel's function of the eight arguments, and the arguments are the launch memory's.
-/
import proofs.«205252_g82703890252310_cont_sun_m_328_31_alg».proof.Proof.Kernel.Split
import proofs.«205252_g82703890252310_cont_sun_m_328_31_alg».proof.Proof.Kernel.Body
import proofs.«205252_g82703890252310_cont_sun_m_328_31_alg».proof.Proof.Kernel.TcTail
import proofs.«205252_g82703890252310_cont_sun_m_328_31_alg».proof.Proof.PreRange

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F] [Facts] [∀ e, Nonempty (Elt F e)]

/-! ## The launch element -/

def u₀ : UU :=
  (initOf (K (F := F)).hsCells (K (F := F)).hsToks,
    (initOf (Pipeline.cells cfgs Gen.cellOf_inj) (Pipeline.launchToks cfgs Gen.cellOf_inj), 1))

/-- Owning the triple is owning the handshakes' rounds and the region's cells' rounds, each through its embedding. -/
theorem ownU_split (a : UH) (b : UP) (c : Counters) : (ownU (a, (b, c)) : sProp 𝕄) ⊢ iprop(BI.own (EH a) ∗ BI.own (EP b)) := by
  iintro H
  ihave H := (ownU_pair a (b, c)) $$ H
  icases H with ⟨Ha, Hbc⟩
  ihave Hbc := (own_pair_emb (embR : Emb (UP × Counters) 𝕄) b c) $$ Hbc
  icases Hbc with ⟨Hb, -⟩
  isplitl [Ha]; · iexact Ha
  iexact Hb

theorem bigSep_emp' {I : Type} (s : Finset I) : (bigSep s fun _ => iprop(emp)) = (iprop(emp) : sProp 𝕄) := bigSep_emp_const s

/-- The launch element: the handshakes' rounds, the region's cells funded for every device, nothing for the calls. -/
theorem hu₀ : (ownU (u₀ (F := F)) : sProp 𝕄)
    ⊢ |={Set.univ}=> iprop(BI.own (EH (initOf (K (F := F)).hsCells (K (F := F)).hsToks)) ∗ (bigSep Finset.univ fun d : Dev nD => G1 EP d)
        ∗ bigSep Finset.univ fun thr : Thread nD τ => bigSep Finset.univ fun q : Fin 1 => (P m).x q thr) := by
  unfold u₀
  iintro Hu
  ihave H := (ownU_split _ _ _) $$ Hu
  icases H with ⟨HH, HP⟩
  imod (fund EP) $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The TensorCore's arrays around the call -/

abbrev aLoc (d : Dev nD) (b : Ref sig .tc) : Loc nD τ sig := (SparseCore.T d).loc b

abbrev i' : DevRef τ sig := Proc.devRef .tc (main_arg0 : Ref sig .tc)
abbrev x' : DevRef τ sig := Proc.devRef .tc (main_arg1 : Ref sig .tc)
abbrev o' : DevRef τ sig := Proc.devRef .tc (main_v0 : Ref sig .tc)
/-- The three arrays the SparseCore call works on. -/
abbrev T3 : Finset (DevRef τ sig) := {i', x', o'}

theorem held_T3 (d : Dev nD) (W : Valuation τ sig (Elt F)) :
    (held (T d) T3 W : sProp 𝕄) = iprop((iLoc d ↦{fullShare} W i') ∗ (xLoc d ↦{fullShare} W x') ∗ oLoc d ↦{fullShare} W o') := by
  unfold held T3
  rw [SparseCore.bigSep_insert' (by decide), SparseCore.bigSep_insert' (by decide), bigSep_singleton]

theorem T3_sub : T3 ⊆ TCBUFS := by decide

/-- The launch valuation; after the call, the bag's array at the bag. -/
def V0 (d : Dev nD) : Valuation τ sig (Elt F) := fun b => m (d, b)
def V1 (d : Dev nD) : Valuation τ sig (Elt F) := Function.update (V0 m d) o' (bagOf m d)

theorem unscoped_held (d : Dev nD) : (unscopedBufs d (fun b => m ((SparseCore.T d).loc b)) : sProp 𝕄) = held (T d) TCBUFS (V0 m d) :=
  unscopedBufs_held d (V0 m d)

theorem V1_o (d : Dev nD) : V1 m d o' = bagOf m d := Function.update_self _ _ _
theorem V1_ne (d : Dev nD) (b : DevRef τ sig) (h : b ≠ o') : V1 m d b = m (d, b) := Function.update_of_ne h _ _

theorem held_rest (d : Dev nD) : (held (T d) (TCBUFS \ T3) (V1 m d) : sProp 𝕄) = held (T d) (TCBUFS \ T3) (V0 m d) :=
  held_congr (T d) fun b hb => V1_ne m d b fun e => (Finset.mem_sdiff.mp hb).2 (e ▸ (by decide : o' ∈ T3))

/-! ## @main on the TensorCore -/

/-- What @main leaves: its sixteen arrays at what the rest of @main makes of the arrays after the call. -/
def FIN (d : Dev nD) : sProp 𝕄 := held (T d) TCBUFS (Vfin (V1 m d))

theorem hmain (κ : GSem nD τ sig → ℕ) (d : Dev nD) :
    iprop((K (F := F)).ctx EH (P m) κ ∗ (K (F := F)).tcSt EH d 0 ∗ (K (F := F)).tcRes m ρ d ∗ G1 EP d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, held_sub_split (T d) (T3_sub) (V0 m d), held_T3, main_eq_tail, wp_bind]
  iintro ⟨#Hctx, Hst, ⟨Hb, ⟨⟨Hi, Hx, Ho⟩, Hrest⟩, -, -⟩, HG⟩
  -- the call: every SparseCore its tasks' blocks and tokens; a remainder of the table's share stays here
  ihave Hs := (st_all m d) $$ [Hi Hx Ho]
  · isplitl [Hi]; · iexact Hi
    isplitl [Hx]; · iexact Hx
    iexact Ho
  icases Hs with ⟨Hxr, Hs⟩
  iapply ((K (F := F)).wp_run (D (F := F)) 𝒱 (EH := EH) (P := P m) κ d 0) $$ [Hst Hs Hxr Hb Hrest HG]
  isplitr; · iexact Hctx
  isplitl [Hst]; · iexact Hst
  isplitl [Hs]; · iexact Hs
  iintro ⟨Hst, Hdn⟩
  ihave Hd := (dn_all m d) $$ [Hxr Hdn]
  · isplitl [Hxr]; · iexact Hxr
    iexact Hdn
  icases Hd with ⟨Hi, Hx, Ho⟩
  -- the rest of @main, from the sixteen arrays with the bag's at the bag
  unfold FIN
  iapply (tc_tail EH EP (P m) κ d (V1 m d))
  isplitr; · iexact Hctx
  isplitl [Hb]; · iexact Hb
  isplitl [Hi Hx Ho Hrest]
  · rw [held_sub_split (T d) (T3_sub) (V1 m d), held_T3, held_rest, V1_o, V1_ne m d i' (by decide), V1_ne m d x' (by decide)]
    isplitr [Hrest]
    · isplitl [Hi]; · iexact Hi
      isplitl [Hx]; · iexact Hx
      iexact Ho
    · iexact Hrest
  isplitl [Hst]; · iexact Hst
  iexact HG

/-! ## What the final memory says -/

/-- An array held whole is what the memory holds there. -/
theorem pts_agree (ℓ : Loc nD τ sig) (f : Buf (Elt F) ℓ) (s' : Phys nD τ sig (Elt F)) :
    iprop((ℓ ↦{fullShare} f) ∗ SI s') ⊢ (⌜s'.mem.mem ℓ = f⌝ : sProp 𝕄) := by
  iintro ⟨Hb, HSI⟩
  ihave H := (SI_pointsTo_agree (st := s') (ℓ := ℓ) (I := Finset.univ) (q := fullShare) (f := f)) $$ [HSI Hb]
  · isplitl [HSI] <;> iassumption
  icases H with %h
  ipureintro; exact funext fun i => h i (Finset.mem_univ i)

/-- So is each array of a set that is held. -/
theorem held_agree (d : Dev nD) (Sx : Finset (DevRef τ sig)) (W : Valuation τ sig (Elt F)) (s' : Phys nD τ sig (Elt F))
    (b : DevRef τ sig) (hb : b ∈ Sx) : iprop(held (T d) Sx W ∗ SI s') ⊢ (⌜s'.mem.mem (d, b) = W b⌝ : sProp 𝕄) :=
  (BI.sep_mono_l (bigSep_elim (Φ := fun b : DevRef τ sig => (((d, b) : Loc nD τ sig) ↦{fullShare} W b : sProp 𝕄)) hb)).trans
    (pts_agree (d, b) (W b) s')

/-- The claim of one device's final memory: the result is the kernel's function of the arguments, the arguments are the launch memory's. -/
def fq (d : Dev nD) (s' : Phys nD τ sig (Elt F)) : Prop :=
  s'.mem.mem (aLoc d main_v7) = outK (F := F) (m (aLoc d main_arg0)) (m (aLoc d main_arg1)) (m (aLoc d main_arg2)) (m (aLoc d main_arg3))
      (m (aLoc d main_arg4)) (m (aLoc d main_arg5)) (m (aLoc d main_arg6)) (m (aLoc d main_arg7))
    ∧ s'.mem.mem (aLoc d main_arg0) = m (aLoc d main_arg0) ∧ s'.mem.mem (aLoc d main_arg1) = m (aLoc d main_arg1)
    ∧ s'.mem.mem (aLoc d main_arg2) = m (aLoc d main_arg2) ∧ s'.mem.mem (aLoc d main_arg3) = m (aLoc d main_arg3)
    ∧ s'.mem.mem (aLoc d main_arg4) = m (aLoc d main_arg4) ∧ s'.mem.mem (aLoc d main_arg5) = m (aLoc d main_arg5)
    ∧ s'.mem.mem (aLoc d main_arg6) = m (aLoc d main_arg6) ∧ s'.mem.mem (aLoc d main_arg7) = m (aLoc d main_arg7)

/-- The result array after the rest of @main: the three layers of the bag, that is the kernel's function. -/
theorem val_v7 (d : Dev nD) : Vfin (V1 m d) (Proc.devRef .tc (main_v7 : Ref sig .tc))
    = outK (F := F) (m (aLoc d main_arg0)) (m (aLoc d main_arg1)) (m (aLoc d main_arg2)) (m (aLoc d main_arg3))
      (m (aLoc d main_arg4)) (m (aLoc d main_arg5)) (m (aLoc d main_arg6)) (m (aLoc d main_arg7)) := by
  rw [Vfin_v7, V1_o, V1_ne m d _ (by decide), V1_ne m d _ (by decide), V1_ne m d _ (by decide), V1_ne m d _ (by decide),
    V1_ne m d _ (by decide), V1_ne m d _ (by decide)]
  rfl

theorem hfin (d : Dev nD) (s' : Phys nD τ sig (Elt F)) : iprop(FIN m d ∗ SI s') ⊢ (⌜fq m d s'⌝ : sProp 𝕄) := by
  unfold FIN
  have hm : ∀ b ∈ TCBUFS, iprop(held (T d) TCBUFS (Vfin (V1 m d)) ∗ SI s') ⊢ (⌜s'.mem.mem (d, b) = Vfin (V1 m d) b⌝ : sProp 𝕄) :=
    fun b hb => held_agree d TCBUFS (Vfin (V1 m d)) s' b hb
  have mem : ∀ b ∈ ({Proc.devRef .tc (main_arg0 : Ref sig .tc), Proc.devRef .tc (main_arg1 : Ref sig .tc), Proc.devRef .tc (main_arg2 : Ref sig .tc),
      Proc.devRef .tc (main_arg3 : Ref sig .tc), Proc.devRef .tc (main_arg4 : Ref sig .tc), Proc.devRef .tc (main_arg5 : Ref sig .tc),
      Proc.devRef .tc (main_arg6 : Ref sig .tc), Proc.devRef .tc (main_arg7 : Ref sig .tc), Proc.devRef .tc (main_v7 : Ref sig .tc)} : Finset (DevRef τ sig)),
      b ∈ TCBUFS := by decide
  iintro H
  ihave H := (persistent_entails_right (hm _ (mem (Proc.devRef .tc (main_v7 : Ref sig .tc)) (by decide)))) $$ H
  icases H with ⟨%h7, H⟩
  ihave H := (persistent_entails_right (hm _ (mem (Proc.devRef .tc (main_arg0 : Ref sig .tc)) (by decide)))) $$ H
  icases H with ⟨%a0, H⟩
  ihave H := (persistent_entails_right (hm _ (mem (Proc.devRef .tc (main_arg1 : Ref sig .tc)) (by decide)))) $$ H
  icases H with ⟨%a1, H⟩
  ihave H := (persistent_entails_right (hm _ (mem (Proc.devRef .tc (main_arg2 : Ref sig .tc)) (by decide)))) $$ H
  icases H with ⟨%a2, H⟩
  ihave H := (persistent_entails_right (hm _ (mem (Proc.devRef .tc (main_arg3 : Ref sig .tc)) (by decide)))) $$ H
  icases H with ⟨%a3, H⟩
  ihave H := (persistent_entails_right (hm _ (mem (Proc.devRef .tc (main_arg4 : Ref sig .tc)) (by decide)))) $$ H
  icases H with ⟨%a4, H⟩
  ihave H := (persistent_entails_right (hm _ (mem (Proc.devRef .tc (main_arg5 : Ref sig .tc)) (by decide)))) $$ H
  icases H with ⟨%a5, H⟩
  ihave H := (persistent_entails_right (hm _ (mem (Proc.devRef .tc (main_arg6 : Ref sig .tc)) (by decide)))) $$ H
  icases H with ⟨%a6, H⟩
  ihave H := (persistent_entails_right (hm _ (mem (Proc.devRef .tc (main_arg7 : Ref sig .tc)) (by decide)))) $$ H
  icases H with ⟨%a7, -⟩
  ipureintro
  exact ⟨h7.trans (val_v7 m d),
    a0.trans ((Vfin_arg0 _).trans (V1_ne m d _ (by decide))), a1.trans ((Vfin_arg1 _).trans (V1_ne m d _ (by decide))),
    a2.trans ((Vfin_arg2 _).trans (V1_ne m d _ (by decide))), a3.trans ((Vfin_arg3 _).trans (V1_ne m d _ (by decide))),
    a4.trans ((Vfin_arg4 _).trans (V1_ne m d _ (by decide))), a5.trans ((Vfin_arg5 _).trans (V1_ne m d _ (by decide))),
    a6.trans ((Vfin_arg6 _).trans (V1_ne m d _ (by decide))), a7.trans ((Vfin_arg7 _).trans (V1_ne m d _ (by decide)))⟩

/-! ## The program's run -/

/-- On every device the result array ends at the kernel's function of the launch memory's arguments, and the arguments as launched. -/
def QC : PUnit × MemSt nD τ sig (Elt F) → Prop := fun r => ∀ c : Dev nD,
  r.2.mem (aLoc c main_v7) = outK (F := F) (m (aLoc c main_arg0)) (m (aLoc c main_arg1)) (m (aLoc c main_arg2)) (m (aLoc c main_arg3))
      (m (aLoc c main_arg4)) (m (aLoc c main_arg5)) (m (aLoc c main_arg6)) (m (aLoc c main_arg7))
    ∧ r.2.mem (aLoc c main_arg0) = m (aLoc c main_arg0) ∧ r.2.mem (aLoc c main_arg1) = m (aLoc c main_arg1)
    ∧ r.2.mem (aLoc c main_arg2) = m (aLoc c main_arg2) ∧ r.2.mem (aLoc c main_arg3) = m (aLoc c main_arg3)
    ∧ r.2.mem (aLoc c main_arg4) = m (aLoc c main_arg4) ∧ r.2.mem (aLoc c main_arg5) = m (aLoc c main_arg5)
    ∧ r.2.mem (aLoc c main_arg6) = m (aLoc c main_arg6) ∧ r.2.mem (aLoc c main_arg7) = m (aLoc c main_arg7)

theorem run_main (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (G1 EP) (FIN m) (u₀ (F := F)) (sep_elim_left.trans (hu₀ m)) (hmain m ρ) (fq m) (hfin m) (QC m) (fun _ h => h)

/-- The precondition, all ones on every device, gives what the proof asks of the launch memory: every index word names a row of the table. -/
theorem ok_of_pre [Cert.Pre_input_domain.Facts]
    (h : ∀ c : Dev nD, Cert.Pre_input_domain.fn (F := F) (m (aLoc c main_arg0)) (m (aLoc c main_arg1)) (m (aLoc c main_arg2)) (m (aLoc c main_arg3))
      (m (aLoc c main_arg4)) (m (aLoc c main_arg5)) (m (aLoc c main_arg6)) (m (aLoc c main_arg7)) = fun _ => 1#1) : PreOK m :=
  fun d j => Cert.Bridge.toNat_lt_of_pre (F := F) _ _ _ _ _ _ _ _ (h d) j

end Cert.Kernel.Hand

end
-- ==== Proof.KernelIdeal.Spec.lean ====
/-
  What the kernel computes, as pure functions of the argument arrays, at any float instance.

  The bag. Row r of the result of the first stage is the sum, over the 50 positions j, of row
  idx[r, j] of the table. A tile computes it 16 lanes at a time: for each of the eight lane groups
  k it starts from the zero vector and adds, for j = 0, …, 49 in that order, lanes 16k … 16k+15 of
  the j-th gathered row. `accV g k t` is that accumulator after t additions over a gathered block g
  (50 rows of 128), `rowsOf` the block a row of indices gathers, `bagK` the whole array.

  The layers. The second stage is one function of the bag and the six float arguments: the
  body's arithmetic (three products with a bias added, a hyperbolic tangent after the first two)
  applied to the bag, the weight matrices converted to the narrower float format and the biases
  re-laid as rows: `mlpK`.
-/
import proofs.«205252_g82703890252310_cont_sun_m_328_31_alg».proof.Proof.Gen.KernelIdeal.Skeleton
import Idealize.ShloMosaic.Lib.ValueIdx

noncomputable section

namespace Cert.KernelIdeal.Hand

open Idealize.ShloMosaic Cert.KernelIdeal

variable {F : FTy → Type} [FloatOps F] [Facts]
open Facts₀ Facts

/-- Lanes 16k … 16k+15 of row j of a block of 50 rows, as the 1×1×16 vector a load of them answers. -/
def lanes (g : FVec F S50x128 .f32) (j : Fin 50) (k : Fin 8) : Vec F S1x1x16 .f32 :=
  fun y => g (ValueIdx.ix2 j (⟨16 * k.val + (y 2).val % 16, by have := k.isLt; omega⟩ : Fin 128))

/-- Lane group k's accumulator after t additions: from zero, rows 0, …, t-1 of the block added in order. -/
def accV (g : FVec F S50x128 .f32) (k : Fin 8) : Nat → FVec F S16 .f32
  | 0 => Gen.k0_pay1 (F := F)
  | t + 1 => Gen.k0_pay9 (F := F) (accV g k t) (lanes g (⟨t % 50, Nat.mod_lt _ (by decide)⟩ : Fin 50) k)

/-- The row of the table an index word names (the word read as a natural number, kept inside the table). -/
def rowIx (w : BitVec 32) : Fin 100000 := ⟨w.toNat % 100000, Nat.mod_lt _ (by decide)⟩

/-- The block row r of the indices gathers: row j of it is row idx[r, j] of the table. -/
def rowsOf (idx : IVec S4096x50 32) (tbl : FVec F S100000x128 .f32) (r : Fin 4096) : FVec F S50x128 .f32 :=
  fun y => tbl (ValueIdx.ix2 (rowIx (idx (ValueIdx.ix2 r (⟨(y 0).val % 50, Nat.mod_lt _ (by decide)⟩ : Fin 50))))
    (⟨(y 1).val % 128, Nat.mod_lt _ (by decide)⟩ : Fin 128))

/-- The bag: entry (r, e) is lane e mod 16 of lane group e / 16's accumulator after all 50 additions over row r's block. -/
def bagK (idx : IVec S4096x50 32) (tbl : FVec F S100000x128 .f32) : FVec F S4096x128 .f32 :=
  fun i => accV (rowsOf idx tbl (⟨(i 0).val % 4096, Nat.mod_lt _ (by decide)⟩ : Fin 4096))
    (⟨(i 1).val % 128 / 16, by have := Nat.mod_lt (i 1).val (show 0 < 128 by decide); omega⟩ : Fin 8) 50
    (ValueIdx.ix1 (⟨(i 1).val % 16, Nat.mod_lt _ (by decide)⟩ : Fin 16))

/-- The three layers on the bag x: the body's arithmetic on x, the converted weights and the biases as rows. -/
def mlpK (x : FVec F S4096x128 .f32) (W1 : FVec F S128x512 .f32) (b1 : FVec F S512 .f32) (W2 : FVec F S512x512 .f32)
    (b2 : FVec F S512 .f32) (W3 : FVec F S512x128 .f32) (b3 : FVec F S128 .f32) : FVec F S4096x128 .f32 :=
  Gen.k1_pay1 (F := F) x (truncf .bf16 W1 bitsLt_bf16_f32) (shapeCast S1x512 b1 shapeCasts_S512_S1x512)
    (truncf .bf16 W2 bitsLt_bf16_f32) (shapeCast S1x512 b2 shapeCasts_S512_S1x512)
    (truncf .bf16 W3 bitsLt_bf16_f32) (shapeCast S1x128 b3 shapeCasts_S128_S1x128)

/-- The kernel's result as one function of its eight arguments. -/
def outK (idx : IVec S4096x50 32) (tbl : FVec F S100000x128 .f32) (W1 : FVec F S128x512 .f32) (b1 : FVec F S512 .f32)
    (W2 : FVec F S512x512 .f32) (b2 : FVec F S512 .f32) (W3 : FVec F S512x128 .f32) (b3 : FVec F S128 .f32) : FVec F S4096x128 .f32 :=
  mlpK (bagK idx tbl) W1 b1 W2 b2 W3 b3

end Cert.KernelIdeal.Hand

end
-- ==== Proof.KernelIdeal.Setup.lean ====
/-
  The kernel program as the SparseCore launch theorem sees it, and what its handshakes carry.

  The first stage runs as 32 tasks, one per vector subcore of the two SparseCores. Task w = 2 s + c
  (subcore s of SparseCore c) owns rows 128 w … 128 w + 127: it reads those rows of the index array,
  reads the whole table, and writes those rows of the bag. So the call hands task w its block of the
  index array, a read token of the table (the table's full share cut into 32 tokens and a remainder
  that stays on the TensorCore), and its block of the bag; the task hands the same back with its
  block of the bag holding the bag's rows. Blocks are the 32 equal parts of axis 0.

  The ghost state is a product of three: the launch handshakes' rounds, the rounds of the one
  TensorCore region's staging cells, and the counters of the tiles' own transfers.
-/
import proofs.«205252_g82703890252310_cont_sun_m_328_31_alg».proof.Proof.KernelIdeal.Spec
import proofs.«205252_g82703890252310_cont_sun_m_328_31_alg».proof.Proof.Gen.KernelIdeal.Launch
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-! ## The launch memory, the arrays, the 32 tasks' blocks and tokens -/

variable (m : (ℓ : Loc nD τ sig) → Buf (Elt F) ℓ) (ρ : Dev nD → PrngReg)

abbrev iLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0

abbrev iV : Memref sig .scVector .hbm S4096x50 .i32 := Memref.whole main_arg0_scv
abbrev xV : Memref sig .scVector .hbm S100000x128 .f32 := Memref.whole main_arg1_scv
abbrev oV : Memref sig .scVector .hbm S4096x128 .f32 := Memref.whole main_v0_scv
abbrev sI : Memref sig .scVector .vmem S128x50 .i32 := Memref.whole cc0_scratch0
abbrev sG : Memref sig .scVector .vmem S8x50x128 .f32 := Memref.whole cc0_scratch1
abbrev sA : Memref sig .scVector .vmem S128x128 .f32 := Memref.whole cc0_scratch2

/-- Task w's number from its SparseCore c and vector subcore s: w = 2 s + c. -/
def wOf (c : Fin 2) (s : Fin 16) : Fin 32 := ⟨2 * s.val + c.val, by omega⟩

theorem idiv : 32 ∣ S4096x50.size 0 := ⟨128, rfl⟩
theorem odiv : 32 ∣ S4096x128.size 0 := ⟨128, rfl⟩
/-- Task w's 128 rows of the index array, and of the bag. -/
abbrev iBlk (w : Fin 32) : Rect S4096x50 := Rect.part (s := S4096x50) (a₀ := 0) idiv w
abbrev oBlk (w : Fin 32) : Rect S4096x128 := Rect.part (s := S4096x128) (a₀ := 0) odiv w
abbrev iBlkSet (w : Fin 32) : Finset S4096x50.Idx := ((iV).view.slice (iBlk w)).set
abbrev oBlkSet (w : Fin 32) : Finset S4096x128.Idx := ((oV).view.slice (oBlk w)).set

/-- Task w's read token of the table: the full share's w-th of 32 tokens. -/
abbrev xq (w : Fin 32) : PosShare TreeShare := Transfers.shareTok fullShare 32 w
/-- What stays on the TensorCore of the table's share while the tasks run. -/
abbrev xRest : PosShare TreeShare := Transfers.shareDrop fullShare 32

variable [FloatOps F] [Facts]

/-! ## What the handshakes carry -/

abbrev iPts (d : Dev nD) : sProp 𝕄 := iLoc d ↦{fullShare} m (iLoc d)
abbrev xPts (d : Dev nD) : sProp 𝕄 := xLoc d ↦{fullShare} m (xLoc d)
abbrev oPts (d : Dev nD) (f : Buf (Elt F) (oLoc d)) : sProp 𝕄 := oLoc d ↦{fullShare} f
abbrev iBlkPts (d : Dev nD) (w : Fin 32) : sProp 𝕄 := iLoc d ↦[iBlkSet w]{fullShare} m (iLoc d)
abbrev xTokPts (d : Dev nD) (w : Fin 32) : sProp 𝕄 := xLoc d ↦{xq w} m (xLoc d)
abbrev oBlkPts (d : Dev nD) (w : Fin 32) (f : Buf (Elt F) (oLoc d)) : sProp 𝕄 := oLoc d ↦[oBlkSet w]{fullShare} f

/-- The bag of the launch memory's index array and table, as contents of the bag's array. -/
def bagOf (d : Dev nD) : Buf (Elt F) (oLoc d) := bagK (F := F) (m (iLoc d)) (m (xLoc d))

/-- What task w is handed: its index rows, its token of the table, its rows of the bag at the launch contents. -/
def goRes (d : Dev nD) (w : Fin 32) : sProp 𝕄 := iprop(iBlkPts m d w ∗ xTokPts m d w ∗ oBlkPts d w (m (oLoc d)))
/-- What it hands back: the same, its rows of the bag holding the bag. -/
def tdRes (d : Dev nD) (w : Fin 32) : sProp 𝕄 := iprop(iBlkPts m d w ∗ xTokPts m d w ∗ oBlkPts d w (bagOf m d))

instance goRes_storable (d : Dev nD) (w : Fin 32) : BI.Storable (upEmb : UEmb _ 𝕄) (goRes m d w) := by unfold goRes; infer_instance
instance tdRes_storable (d : Dev nD) (w : Fin 32) : BI.Storable (upEmb : UEmb _ 𝕄) (tdRes m d w) := by unfold tdRes; infer_instance

/-- The one SparseCore call: a SparseCore is handed its sixteen tasks' resources and hands back their results. -/
def P : (K (F := F)).Pay (nD := nD) (Val := Elt F) (Name := ℕ) (U := UU) where
  st := fun q d c => match q with | 0 => bigSep Finset.univ fun s : Fin 16 => goRes m d (wOf (Fin.cast nCore_zero c) s)
  dn := fun q d c => match q with | 0 => bigSep Finset.univ fun s : Fin 16 => tdRes m d (wOf (Fin.cast nCore_zero c) s)
  go := fun q d c i => match q with | 0 => goRes m d (wOf (Fin.cast nCore_zero c) (Fin.cast nSub_zero i))
  td := fun q d c i => match q with | 0 => tdRes m d (wOf (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun s : Fin 16 => goRes m d (wOf (Fin.cast nCore_zero c) s)))
  dn q d c := match q with
    | 0 => (inferInstance : BI.Storable (upEmb : UEmb _ 𝕄) (bigSep Finset.univ fun s : Fin 16 => tdRes m d (wOf (Fin.cast nCore_zero c) s)))
  go q d c i := match q with
    | 0 => (inferInstance : BI.Storable (upEmb : UEmb _ 𝕄) (goRes m d (wOf (Fin.cast nCore_zero c) (Fin.cast nSub_zero i))))
  td q d c i := match q with
    | 0 => (inferInstance : BI.Storable (upEmb : UEmb _ 𝕄) (tdRes m d (wOf (Fin.cast nCore_zero c) (Fin.cast nSub_zero i))))

/-- What the proof asks of the launch memory: every index word names a row of the table. -/
def PreOK : Prop := ∀ (d : Dev nD) (j : S4096x50.Idx), (m (iLoc d) j).toNat < 100000

end Cert.KernelIdeal.Hand

end
-- ==== Proof.KernelIdeal.Split.lean ====
/-
  How the arrays of the first stage divide among its 32 tasks, and come back together.

  The 32 blocks of 128 rows are pairwise disjoint and cover axis 0, so the index array held whole is
  the 32 blocks held one by one, and so is the bag's array; the bag's blocks are all held at ONE
  whole-array function (every task leaves its rows at the bag of the launch memory), so they join to
  the whole array at that function with nothing to choose. The table is read by every task: its full
  share is cut into 32 read tokens and a remainder, and joined back from them. The tasks are numbered
  w = 2 s + c by subcore s and SparseCore c, a bijection of the 2 × 16 pairs with the 32 numbers, so a
  product over SparseCores of products over subcores is one product over tasks.
-/
import proofs.«205252_g82703890252310_cont_sun_m_328_31_alg».proof.Proof.KernelIdeal.Setup

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F] [Facts]

/-! ## The blocks -/

theorem iBlkSet_eq (w : Fin 32) : iBlkSet w = (iBlk w).set := by
  show ((View.whole (main_arg0_scv : Ref sig .scVector)).slice (iBlk w)).set = _
  rw [View.set_slice]; exact Finset.map_refl
theorem oBlkSet_eq (w : Fin 32) : oBlkSet w = (oBlk w).set := by
  show ((View.whole (main_v0_scv : Ref sig .scVector)).slice (oBlk w)).set = _
  rw [View.set_slice]; exact Finset.map_refl

theorem iBlk_disjoint : ∀ i ∈ (Finset.univ : Finset (Fin 32)), ∀ j ∈ (Finset.univ : Finset (Fin 32)), i ≠ j → Disjoint (iBlkSet i) (iBlkSet j) :=
  fun i _ j _ h => by rw [iBlkSet_eq, iBlkSet_eq]; exact Rect.part_disjoint idiv h
theorem oBlk_disjoint : ∀ i ∈ (Finset.univ : Finset (Fin 32)), ∀ j ∈ (Finset.univ : Finset (Fin 32)), i ≠ j → Disjoint (oBlkSet i) (oBlkSet j) :=
  fun i _ j _ h => by rw [oBlkSet_eq, oBlkSet_eq]; exact Rect.part_disjoint odiv h
theorem iBlk_cover : (Finset.univ : Finset (Fin 32)).biUnion iBlkSet = Finset.univ :=
  (Finset.biUnion_congr rfl fun i _ => iBlkSet_eq i).trans (Rect.biUnion_part idiv)
theorem oBlk_cover : (Finset.univ : Finset (Fin 32)).biUnion oBlkSet = Finset.univ :=
  (Finset.biUnion_congr rfl fun i _ => oBlkSet_eq i).trans (Rect.biUnion_part odiv)

/-- The index array held whole is its 32 blocks held one by one; -/
theorem iPts_blocks (d : Dev nD) (f : Buf (Elt F) (iLoc d)) :
    (iLoc d ↦{fullShare} f : sProp 𝕄) = bigSep Finset.univ fun w : Fin 32 => iLoc d ↦[iBlkSet w]{fullShare} f := by
  rw [← pointsTo_biUnion Finset.univ (ℓ := iLoc d) iBlkSet iBlk_disjoint, iBlk_cover]; try rfl
/-- the bag's array likewise, at any one whole-array function. -/
theorem oPts_blocks (d : Dev nD) (f : Buf (Elt F) (oLoc d)) :
    (oLoc d ↦{fullShare} f : sProp 𝕄) = bigSep Finset.univ fun w : Fin 32 => oLoc d ↦[oBlkSet w]{fullShare} f := by
  rw [← pointsTo_biUnion Finset.univ (ℓ := oLoc d) oBlkSet oBlk_disjoint, oBlk_cover]; try rfl

/-! ## The tasks' numbers -/

/-- w = 2 s + c pairs the 2 × 16 places with the 32 tasks. -/
def wEquiv : Fin 2 × Fin 16 ≃ Fin 32 where
  toFun p := wOf p.1 p.2
  invFun w := (⟨w.val % 2, Nat.mod_lt _ (by decide)⟩, ⟨w.val / 2, by have := w.isLt; omega⟩)
  left_inv p := by
    obtain ⟨c, s⟩ := p
    refine Prod.ext (Fin.ext ?_) (Fin.ext ?_)
    · show (2 * s.val + c.val) % 2 = c.val; have := c.isLt; omega
    · show (2 * s.val + c.val) / 2 = s.val; have := c.isLt; omega
  right_inv w := by
    refine Fin.ext ?_
    show 2 * (w.val / 2) + w.val % 2 = w.val; omega

/-- A product over SparseCores of products over subcores is the product over tasks. -/
theorem bigSep_places {M : Type} [URA M] (Φ : Fin 32 → sProp M) :
    (bigSep Finset.univ fun c : Fin 2 => bigSep Finset.univ fun s : Fin 16 => Φ (wOf c s)) = bigSep Finset.univ Φ := by
  rw [← bigSep_univ_prod (fun p : Fin 2 × Fin 16 => Φ (wOf p.1 p.2)), bigSep_univ_equiv wEquiv Φ]; rfl

theorem bigSep_cores {M : Type} [URA M] (Φ : Fin 2 → sProp M) :
    (bigSep Finset.univ fun c : Fin ((K (F := F)).nCore 0) => Φ (Fin.cast nCore_zero c)) = bigSep Finset.univ Φ :=
  bigSep_congr fun _ _ => congrArg Φ (Fin.ext rfl)
theorem bigSep_tasks {M : Type} [URA M] (Φ : Fin 16 → sProp M) :
    (bigSep Finset.univ fun i : Fin ((K (F := F)).nSub 0) => Φ (Fin.cast nSub_zero i)) = bigSep Finset.univ Φ :=
  bigSep_congr fun _ _ => congrArg Φ (Fin.ext rfl)

/-! ## What the call hands over, and what comes back -/

theorem P_st (d : Dev nD) (c : Fin ((K (F := F)).nCore 0)) :
    (P m).st 0 d c = bigSep Finset.univ fun s : Fin 16 => goRes m d (wOf (Fin.cast nCore_zero c) s) := rfl
theorem P_dn (d : Dev nD) (c : Fin ((K (F := F)).nCore 0)) :
    (P m).dn 0 d c = bigSep Finset.univ fun s : Fin 16 => tdRes m d (wOf (Fin.cast nCore_zero c) s) := rfl
theorem P_go (d : Dev nD) (c : Fin ((K (F := F)).nCore 0)) (i : Fin ((K (F := F)).nSub 0)) :
    (P m).go 0 d c i = goRes m d (wOf (Fin.cast nCore_zero c) (Fin.cast nSub_zero i)) := rfl
theorem P_td (d : Dev nD) (c : Fin ((K (F := F)).nCore 0)) (i : Fin ((K (F := F)).nSub 0)) :
    (P m).td 0 d c i = tdRes m d (wOf (Fin.cast nCore_zero c) (Fin.cast nSub_zero i)) := rfl

theorem st_tasks (d : Dev nD) :
    (bigSep Finset.univ fun c : Fin ((K (F := F)).nCore 0) => (P m).st 0 d c) = bigSep Finset.univ fun w : Fin 32 => goRes m d w := by
  rw [bigSep_congr fun c _ => P_st m d c,
    bigSep_cores (F := F) (fun c => bigSep Finset.univ fun s : Fin 16 => goRes m d (wOf c s)), bigSep_places]
theorem dn_tasks (d : Dev nD) :
    (bigSep Finset.univ fun c : Fin ((K (F := F)).nCore 0) => (P m).dn 0 d c) = bigSep Finset.univ fun w : Fin 32 => tdRes m d w := by
  rw [bigSep_congr fun c _ => P_dn m d c,
    bigSep_cores (F := F) (fun c => bigSep Finset.univ fun s : Fin 16 => tdRes m d (wOf c s)), bigSep_places]

/-- The three arrays held whole give every SparseCore its tasks' resources, a remainder of the table's share kept. -/
theorem st_all (d : Dev nD) :
    iprop(iPts m d ∗ xPts m d ∗ oPts d (m (oLoc d)))
      ⊢ iprop((xLoc d ↦{xRest} m (xLoc d)) ∗ bigSep Finset.univ fun c : Fin ((K (F := F)).nCore 0) => (P m).st 0 d c) := by
  rw [st_tasks]
  unfold goRes
  rw [bigSep_sep', bigSep_sep']
  unfold iPts oPts xPts iBlkPts oBlkPts xTokPts
  rw [iPts_blocks, oPts_blocks]
  iintro ⟨Hi, Hx, Ho⟩
  ihave Hx' := (Transfers.pointsTo_toks_split fullShare 32) $$ Hx
  icases Hx' with ⟨Hr, Ht⟩
  isplitl [Hr]; · iexact Hr
  isplitl [Hi]; · iexact Hi
  isplitl [Ht]; · iexact Ht
  iexact Ho

/-- What the SparseCores hand back, with the remainder, is the three arrays held whole, the bag's at the bag. -/
theorem dn_all (d : Dev nD) :
    iprop((xLoc d ↦{xRest} m (xLoc d)) ∗ bigSep Finset.univ fun c : Fin ((K (F := F)).nCore 0) => (P m).dn 0 d c)
      ⊢ iprop(iPts m d ∗ xPts m d ∗ oPts d (bagOf m d)) := by
  rw [dn_tasks]
  unfold tdRes
  rw [bigSep_sep', bigSep_sep']
  unfold iPts oPts xPts iBlkPts oBlkPts xTokPts
  rw [iPts_blocks, oPts_blocks]
  iintro ⟨Hr, Hi, Ht, Ho⟩
  isplitl [Hi]; · iexact Hi
  isplitl [Hr Ht]
  · iapply (Transfers.pointsTo_toks_join fullShare 32)
    isplitl [Hr]; · iexact Hr
    iexact Ht
  iexact Ho

/-- A SparseCore's share of the call is its sixteen tasks' shares, and its results are theirs. -/
theorem vecSplit : (K (F := F)).VecSplit' (P m) 0 := by
  intro d c
  rw [P_st, P_dn, bigSep_congr fun i _ => P_go m d c i, bigSep_congr fun i _ => P_td m d c i,
    bigSep_tasks (F := F) (fun s => goRes m d (wOf (Fin.cast nCore_zero c) s)),
    bigSep_tasks (F := F) (fun s => tdRes m d (wOf (Fin.cast nCore_zero c) s))]
  iintro H; imodintro
  isplitl [H]; · iexact H
  iintro H; iexact H

end Cert.KernelIdeal.Hand

end
-- ==== Proof.KernelIdeal.Views.lean ====
import proofs.«205252_g82703890252310_cont_sun_m_328_31_alg».proof.Proof.KernelIdeal.Setup

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## A task's views, spelt through the printed offset functions -/

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
theorem wL_lt (L : grid0.Coords) : 2 * (L 1).val + (L 0).val < 32 := by
  have h0 : (L 0).val < 2 := (L 0).isLt
  have h1 : (L 1).val < 16 := (L 1).isLt
  omega
/-- The task's number w = 2 s + c. -/
abbrev wL (L : grid0.Coords) : Fin 32 := ⟨2 * (L 1).val + (L 0).val, wL_lt L⟩
theorem wL_eq (L : grid0.Coords) : wL L = wOf (Fin.cast bound_zero (L 0)) (Fin.cast bound_one (L 1)) := Fin.ext rfl

abbrev iRectK (L : grid0.Coords) : Rect S4096x50 := Rect.unit (s := S4096x50) (k0_off1 L) S128x50.size (k0_off1_inb L)
abbrev oRectK (L : grid0.Coords) : Rect S4096x128 := Rect.unit (s := S4096x128) (k0_off21 L) S128x128.size (k0_off21_inb L)
abbrev iBlkK (L : grid0.Coords) : Memref sig .scVector .hbm S128x50 .i32 := (iV).slice (iRectK L) (fun _ => rfl)
abbrev oBlkK (L : grid0.Coords) : Memref sig .scVector .hbm S128x128 .f32 := (oV).slice (oRectK L) (fun _ => rfl)
abbrev xAllK : Memref sig .scVector .hbm S100000x128 .f32 :=
  (xV).slice (Rect.unit (s := S100000x128) ![0, 0] S100000x128.size inb_S100000x128_S100000x128_0_0) (fun _ => rfl)

/-- The rows the task's index copy reads are its block of the 32 equal parts: rows 128 w … 128 w + 127. -/
theorem iRectK_eq : iRectK L = iBlk (wL L) := by
  unfold iRectK iBlk Rect.part Rect.block
  congr 1 <;> funext a
  · rw [k0_off1_eq]
    match a with
    | 0 => simp [Shape.partIx, Shape.partSize]; omega
    | 1 => simp [Shape.partIx, Shape.partSize]
  · match a with
    | 0 => simp [Shape.partSize]
    | 1 => simp [Shape.partSize]
/-- The same for the rows of the bag it writes. -/
theorem oRectK_eq : oRectK L = oBlk (wL L) := by
  unfold oRectK oBlk Rect.part Rect.block
  congr 1 <;> funext a
  · rw [k0_off21_eq]
    match a with
    | 0 => simp [Shape.partIx, Shape.partSize]; omega
    | 1 => simp [Shape.partIx, Shape.partSize]
  · match a with
    | 0 => simp [Shape.partSize]
    | 1 => simp [Shape.partSize]

theorem set_iBlkK : (iBlkK L).view.set = iBlkSet (wL L) := by
  show ((iV).view.slice (iRectK L)).set = ((iV).view.slice (iBlk (wL L))).set
  rw [iRectK_eq]
theorem set_oBlkK : (oBlkK L).view.set = oBlkSet (wL L) := by
  show ((oV).view.slice (oRectK L)).set = ((oV).view.slice (oBlk (wL L))).set
  rw [oRectK_eq]

theorem pts_iBlkK (f : Buf (Elt F) (iLoc d)) :
    ((iBlkK L).view.loc (V d (cV L) (jV L)) ↦[(iBlkK L).view.set]{fullShare} f : sProp 𝕄) = iLoc d ↦[iBlkSet (wL L)]{fullShare} f := by
  rw [set_iBlkK]
theorem pts_oBlkK (f : Buf (Elt F) (oLoc d)) :
    ((oBlkK L).view.loc (V d (cV L) (jV L)) ↦[(oBlkK L).view.set]{fullShare} f : sProp 𝕄) = oLoc d ↦[oBlkSet (wL L)]{fullShare} f := by
  rw [set_oBlkK]
theorem pts_xV (q : PosShare TreeShare) (f : Buf (Elt F) (xLoc d)) :
    ((xV).view.loc (V d (cV L) (jV L)) ↦{q} f : sProp 𝕄) = xLoc d ↦{q} f := rfl

end Tile

end Cert.KernelIdeal.Hand

end
-- ==== Proof.KernelIdeal.Cells.lean ====
import proofs.«205252_g82703890252310_cont_sun_m_328_31_alg».proof.Proof.KernelIdeal.Views

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## A tile's scoped storage: three scratch buffers, ten transfer semaphores

The gather ring has eight slots, each with its own semaphore; the two block copies (the index block in, the
bag block out) have one semaphore each. The ring's semaphores are spelt through their offset in the
semaphore array, as the body slices it, so that one spelling serves a literal slot and a slot computed from
the trip. -/

section Tile

variable (d : Dev nD) (L : grid0.Coords)

theorem ringInb (n : ℕ) (h : n < 8) : ∀ a, (![n] : Fin 1 → Nat) a + S1.size a ≤ S8.size a := by
  intro a; match a with | 0 => show n + 1 ≤ 8; omega

/-- Slot n's semaphore, as the body names it: the n-th of the array of eight. -/
abbrev ringSemAt (off : Fin 1 → Nat) (h : ∀ a, off a + S1.size a ≤ S8.size a) : DmaSem sig :=
  ((cc0_scratch3.slice (Rect.unit (s := S8) off S1.size h)).squeeze S_ squeezes_S1_S_).sem
abbrev ringSem (b : Fin 8) : DmaSem sig := ringSemAt ![b.val] (ringInb b.val b.isLt)

abbrev cellA : GSem nD τ sig := (V d (cV L) (jV L), .dma cc0_scoped0.sem)
abbrev cellB : GSem nD τ sig := (V d (cV L) (jV L), .dma cc0_scoped1.sem)
abbrev ringCell (b : Fin 8) : GSem nD τ sig := (V d (cV L) (jV L), .dma (ringSem b))

theorem ringSem_val (b : Fin 8) : (ringSem b).val = b.val := by
  fin_cases b <;> rfl

theorem ringCell_injective : Function.Injective (ringCell d L) := by
  intro b b' e
  have e' : ringSem b = ringSem b' := SemLoc.dma.inj (Prod.mk.inj e).2
  exact Fin.ext ((ringSem_val b).symm.trans ((congrArg Fin.val e').trans (ringSem_val b')))

/-- The ring's eight cells. -/
def ringCells : Finset (GSem nD τ sig) := Finset.univ.map ⟨ringCell d L, ringCell_injective d L⟩

theorem ringCell_ne_A (b : Fin 8) : ringCell d L b ≠ cellA d L := by
  intro e
  have e' : ringSem b = cc0_scoped0.sem := SemLoc.dma.inj (Prod.mk.inj e).2
  have := congrArg Fin.val e'; rw [ringSem_val] at this
  have h8 : (cc0_scoped0.sem : DmaSem sig).val = 8 := rfl
  omega
theorem ringCell_ne_B (b : Fin 8) : ringCell d L b ≠ cellB d L := by
  intro e
  have e' : ringSem b = cc0_scoped1.sem := SemLoc.dma.inj (Prod.mk.inj e).2
  have := congrArg Fin.val e'; rw [ringSem_val] at this
  have h9 : (cc0_scoped1.sem : DmaSem sig).val = 9 := rfl
  omega
theorem cellB_ne_A : cellB d L ≠ cellA d L := by
  intro e
  have e' : (cc0_scoped1.sem : DmaSem sig) = cc0_scoped0.sem := SemLoc.dma.inj (Prod.mk.inj e).2
  exact absurd e' (by decide)

theorem ringCell_scoped (b : Fin 8) : (ringCell d L b).isScoped = true := by
  fin_cases b <;> rfl

/-- The tile's scoped semaphores at zero: the two copies' cells, the ring's eight, and the rest. -/
theorem ownSems0_V :
    (ownSems0 (V d (cV L) (jV L)) : sProp 𝕄)
      = iprop(semVal (cellA d L) 0 ∗ semVal (cellB d L) 0
          ∗ (bigSep Finset.univ fun b : Fin 8 => semVal (ringCell d L b) 0)
          ∗ bigSep ((((ownCells (V d (cV L) (jV L))).erase (cellA d L)).erase (cellB d L)) \ ringCells d L) fun g => semVal g 0) := by
  unfold SparseCore.Cfg.ownSems0
  rw [SparseCore.bigSep_erase' ((mem_ownCells (g := cellA d L)).mpr ⟨rfl, by
      show (SemLoc.dma cc0_scoped0.sem : SemLoc sig).isScoped .scVector = true; decide⟩),
    SparseCore.bigSep_erase' (Finset.mem_erase.mpr ⟨cellB_ne_A d L, (mem_ownCells (g := cellB d L)).mpr ⟨rfl, by
      show (SemLoc.dma cc0_scoped1.sem : SemLoc sig).isScoped .scVector = true; decide⟩⟩),
    bigSep_sdiff_split (t := ringCells d L) (by
      intro g hg
      obtain ⟨b, -, rfl⟩ := Finset.mem_map.mp hg
      exact Finset.mem_erase.mpr ⟨ringCell_ne_B d L b, Finset.mem_erase.mpr ⟨ringCell_ne_A d L b,
        (mem_ownCells (g := ringCell d L b)).mpr ⟨rfl, ringCell_scoped d L b⟩⟩⟩)]
  unfold ringCells
  rw [bigSep_map]
  rfl

/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

end Tile

end Cert.KernelIdeal.Hand

end
-- ==== Proof.KernelIdeal.Slots.lean ====
/-
  The gather scratch as eight slots, and the index scratch's rows as the gathers' offset lists.

  The gather scratch is an 8×50×128 buffer; the body uses it as eight slots, slot b the 1×50×128
  rectangle at offset (b, 0, 0) viewed as a 50×128 block. A slot's elements are the rectangle's: the
  change of shape keeps the elements, and a rectangle of the whole buffer has its own elements. The
  eight rectangles differ only in their offset along axis 0, one row each, so they are pairwise
  disjoint and cover the buffer: the buffer held whole is held slot by slot, and back. A slot spelt
  through a computed offset vector is the slot of the number the vector's closed form names; the same
  for the 128 rows of the index scratch, each the list of 50 offsets a gather reads.
-/
import proofs.«205252_g82703890252310_cont_sun_m_328_31_alg».proof.Proof.KernelIdeal.Views
import Idealize.ShloMosaic.Lib.Ring

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The slots of the gather scratch -/

/-- The slot at an offset vector: the 1×50×128 rectangle there, viewed as a 50×128 block. -/
abbrev slotAt (off : Fin 3 → Nat) (h : ∀ a, off a + S1x50x128.size a ≤ S8x50x128.size a) : Memref sig .scVector .vmem S50x128 .f32 :=
  ((sG).slice (Rect.unit (s := S8x50x128) off S1x50x128.size h) (fun _ => rfl)).squeeze S50x128 squeezes_S1x50x128_S50x128

theorem slotInb (n : ℕ) (h : n < 8) : ∀ a, (![n, 0, 0] : Fin 3 → Nat) a + S1x50x128.size a ≤ S8x50x128.size a := by
  intro a
  match a with
  | 0 => show n + 1 ≤ 8; omega
  | 1 => show 0 + 50 ≤ 50; omega
  | 2 => show 0 + 128 ≤ 128; omega

/-- Slot b, b below eight. -/
abbrev slotK (b : Fin 8) : Memref sig .scVector .vmem S50x128 .f32 := slotAt ![b.val, 0, 0] (slotInb b.val b.isLt)

/-- A slot's elements are its rectangle's. -/
theorem set_slotAt (off : Fin 3 → Nat) (h : ∀ a, off a + S1x50x128.size a ≤ S8x50x128.size a) :
    (slotAt off h).view.set = (Rect.unit (s := S8x50x128) off S1x50x128.size h).set := by
  show (((sG).view.slice (Rect.unit (s := S8x50x128) off S1x50x128.size h)).reshape S50x128 _).set = _
  rw [View.set_reshape]
  exact View.set_slice_whole cc0_scratch1 _

/-- Equal offset vectors name one slot. -/
theorem slotAt_congr {off off' : Fin 3 → Nat} (e : off = off') (h : ∀ a, off a + S1x50x128.size a ≤ S8x50x128.size a) :
    slotAt off h = slotAt off' (e ▸ h) := by
  subst e; rfl

/-- The slot a trip of the loop names through its computed offsets is slot t mod 8. -/
theorem slotAt_off2 (t : Fin k0_t1_loop.trips) :
    slotAt (k0_off2 t) (k0_off2_inb t) = slotK (⟨t.val % 8, Nat.mod_lt _ (by decide)⟩ : Fin 8) :=
  slotAt_congr (k0_off2_eq t) (k0_off2_inb t)

/-- Slot b's elements, as a set of the scratch's indices. -/
abbrev slotSet (b : Fin 8) : Finset S8x50x128.Idx := (slotK b).view.set

theorem slotSet_eq (b : Fin 8) :
    slotSet b = (Rect.unit (s := S8x50x128) ![b.val, 0, 0] S1x50x128.size (slotInb b.val b.isLt)).set := set_slotAt _ _

/-- The slots' element sets are pairwise disjoint … -/
theorem slots_disjoint (b b' : Fin 8) (hb : b ≠ b') : Disjoint (slotSet b) (slotSet b') := by
  rw [slotSet_eq, slotSet_eq]
  exact Ring.lead_disjoint (s := S8x50x128) (NB := 8) (0 : Fin 3) 1 (fun b : Fin 8 => ![b.val, 0, 0]) S1x50x128.size
    (fun b => slotInb b.val b.isLt) (fun b => (Nat.one_mul _).symm) rfl b b' hb

/-- … and cover the scratch. -/
theorem slots_cover : Finset.univ.biUnion slotSet = Finset.univ := by
  have e : slotSet
      = fun b : Fin 8 => (Rect.unit (s := S8x50x128) ![b.val, 0, 0] S1x50x128.size (slotInb b.val b.isLt)).set :=
    funext slotSet_eq
  rw [e]
  exact Ring.lead_cover (s := S8x50x128) (NB := 8) (0 : Fin 3) 1 (fun b : Fin 8 => ![b.val, 0, 0]) S1x50x128.size
    (fun b => slotInb b.val b.isLt) (fun b => (Nat.one_mul _).symm)
    (fun b a ha => by match a with | 0 => exact absurd rfl ha | 1 => rfl | 2 => rfl) rfl
    (fun a ha => by match a with | 0 => exact absurd rfl ha | 1 => rfl | 2 => rfl) rfl

section Tile

variable (d : Dev nD) (L : grid0.Coords)

/-- A slot lies in the tile's gather scratch. -/
theorem loc_slotAt (off : Fin 3 → Nat) (h : ∀ a, off a + S1x50x128.size a ≤ S8x50x128.size a) :
    (slotAt off h).view.loc (V d (cV L) (jV L)) = (V d (cV L) (jV L)).loc cc0_scratch1 := rfl

/-- The scratch held whole is held slot by slot. -/
theorem slots_split (f : Buf (Elt F) ((V d (cV L) (jV L)).loc cc0_scratch1)) :
    ((V d (cV L) (jV L)).loc cc0_scratch1 ↦{fullShare} f : sProp 𝕄)
      ⊢ bigSep Finset.univ fun b : Fin 8 => (slotK b).view.loc (V d (cV L) (jV L)) ↦[(slotK b).view.set]{fullShare} f := by
  rw [Ring.pointsTo_blocks (Ix := HIx 1) (Name := ℕ) (U := UU) (Lvl := ℕ) (ℓ := (V d (cV L) (jV L)).loc cc0_scratch1)
    slotSet slots_disjoint slots_cover f]

/-- The slots, each at some contents, join to the scratch held whole at some contents. -/
theorem slots_join :
    (bigSep Finset.univ fun b : Fin 8 => iprop(∃ f, (slotK b).view.loc (V d (cV L) (jV L)) ↦[(slotK b).view.set]{fullShare} f) : sProp 𝕄)
      ⊢ iprop(∃ f, (V d (cV L) (jV L)).loc cc0_scratch1 ↦{fullShare} f) := by
  rw [SparseCore.bigSep_erase' (Finset.mem_univ (0 : Fin 8))]
  iintro ⟨⟨%f0, H0⟩, Hrest⟩
  iapply (Ring.pointsTo_blocks_join_exists (Ix := HIx 1) (Name := ℕ) (U := UU) (Lvl := ℕ) (ℓ := (V d (cV L) (jV L)).loc cc0_scratch1)
    slotSet slots_disjoint slots_cover f0)
  irw [SparseCore.bigSep_erase' (Finset.mem_univ (0 : Fin 8))]
  isplitl [H0]
  · iexists f0; iexact H0
  · iexact Hrest

end Tile

/-! ## The rows of the index scratch, as the gathers' offset lists -/

/-- The list at an offset vector: the 1×50 rectangle there, viewed as 50 words. -/
abbrev listAt (off : Fin 2 → Nat) (h : ∀ a, off a + S1x50.size a ≤ S128x50.size a) : Memref sig .scVector .vmem S50 .i32 :=
  ((sI).slice (Rect.unit (s := S128x50) off S1x50.size h) (fun _ => rfl)).squeeze S50 squeezes_S1x50_S50

theorem listInb (n : ℕ) (h : n < 128) : ∀ a, (![n, 0] : Fin 2 → Nat) a + S1x50.size a ≤ S128x50.size a := by
  intro a
  match a with
  | 0 => show n + 1 ≤ 128; omega
  | 1 => show 0 + 50 ≤ 50; omega

/-- Row c's list, c below 128. -/
abbrev listK (c : Fin 128) : Memref sig .scVector .vmem S50 .i32 := listAt ![c.val, 0] (listInb c.val c.isLt)

/-- A list's elements are its rectangle's. -/
theorem set_listAt (off : Fin 2 → Nat) (h : ∀ a, off a + S1x50.size a ≤ S128x50.size a) :
    (listAt off h).view.set = (Rect.unit (s := S128x50) off S1x50.size h).set := by
  show (((sI).view.slice (Rect.unit (s := S128x50) off S1x50.size h)).reshape S50 _).set = _
  rw [View.set_reshape]
  exact View.set_slice_whole cc0_scratch0 _

/-- Equal offset vectors name one list. -/
theorem listAt_congr {off off' : Fin 2 → Nat} (e : off = off') (h : ∀ a, off a + S1x50.size a ≤ S128x50.size a) :
    listAt off h = listAt off' (e ▸ h) := by
  subst e; rfl

/-- The list a trip of the loop names through its computed offsets is row (t + 8) mod 128's. -/
theorem listAt_off20 (t : Fin k0_t1_loop.trips) :
    listAt (k0_off20 t) (k0_off20_inb t) = listK (⟨(t.val + 8) % 128, Nat.mod_lt _ (by decide)⟩ : Fin 128) :=
  listAt_congr (k0_off20_eq t) (k0_off20_inb t)

section TileList

variable (d : Dev nD) (L : grid0.Coords)

/-- A list lies in the tile's index scratch. -/
theorem loc_listAt (off : Fin 2 → Nat) (h : ∀ a, off a + S1x50.size a ≤ S128x50.size a) :
    (listAt off h).view.loc (V d (cV L) (jV L)) = (V d (cV L) (jV L)).loc cc0_scratch0 := rfl

end TileList

end Cert.KernelIdeal.Hand

end
-- ==== Proof.KernelIdeal.SlotFacts.lean ====
/-
  The inner loop's loads lie inside the current slot.

  Each of the eight loads of a trip reads, through the whole gather scratch, the 1×1×16 rectangle at
  (t mod 8, t₂, 16 n), n = 0 … 7: row t₂ of slot t mod 8, lanes 16 n … 16 n + 15. Slot t mod 8 is the
  rectangle of all 50 rows and 128 columns at (t mod 8, 0, 0); since t₂ < 50 and 16 n + 16 ≤ 128, the
  load's rectangle lies inside it, coordinate by coordinate.
-/
import proofs.«205252_g82703890252310_cont_sun_m_328_31_alg».proof.Proof.KernelIdeal.Slots
import Idealize.ShloMosaic.Lib.ValueLayout

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-- A trip of the inner loop is below 50. -/
theorem t2_lt (t2 : Fin k0_t2_loop.trips) : t2.val < 50 := Nat.lt_of_lt_of_le t2.isLt k0_t2_abs.2.1

/-- A 1×1×16 rectangle of the scratch at (b, j, c), j < 50 and c + 16 ≤ 128, lies inside the slot at
    (b, 0, 0). -/
theorem lane_sub_of_eq (o o2 : Fin 3 → Nat) (b j c : Nat) {ho : ∀ a, o a + S1x1x16.size a ≤ S8x50x128.size a}
    {h2 : ∀ a, o2 a + S1x50x128.size a ≤ S8x50x128.size a} (eo : o = ![b, j, c]) (eo2 : o2 = ![b, 0, 0])
    (hj : j < 50) (hc : c + 16 ≤ 128) :
    (sG.access (Rect.unit (s := S8x50x128) o S1x1x16.size ho)).set ⊆ (slotAt o2 h2).view.set := by
  subst eo eo2
  rw [set_slotAt]
  show ((View.whole cc0_scratch1).slice (Rect.unit (s := S8x50x128) ![b, j, c] S1x1x16.size ho)).set ⊆ _
  rw [View.set_slice_whole]
  intro i hi
  rw [Rect.mem_set_unit] at hi ⊢
  intro a
  match a with
  | 0 => exact hi 0
  | 1 =>
    have h := hi 1
    change j ≤ (i 1).val ∧ (i 1).val < j + 1 at h
    show 0 ≤ (i 1).val ∧ (i 1).val < 0 + 50
    omega
  | 2 =>
    have h := hi 2
    change c ≤ (i 2).val ∧ (i 2).val < c + 16 at h
    show 0 ≤ (i 2).val ∧ (i 2).val < 0 + 128
    omega

/-! ## The eight loads of a trip -/

theorem lane4_sub (t : Fin k0_t1_loop.trips) (t2 : Fin k0_t2_loop.trips) :
    (sG.access (Rect.unit (s := S8x50x128) (k0_off4 t t2) S1x1x16.size (k0_off4_inb t t2))).set
      ⊆ (slotAt (k0_off2 t) (k0_off2_inb t)).view.set :=
  lane_sub_of_eq _ _ (t.val % 8) t2.val 0 (k0_off4_eq t t2) (k0_off2_eq t) (t2_lt t2) (by omega)

theorem lane5_sub (t : Fin k0_t1_loop.trips) (t2 : Fin k0_t2_loop.trips) :
    (sG.access (Rect.unit (s := S8x50x128) (k0_off5 t t2) S1x1x16.size (k0_off5_inb t t2))).set
      ⊆ (slotAt (k0_off2 t) (k0_off2_inb t)).view.set :=
  lane_sub_of_eq _ _ (t.val % 8) t2.val 16 (k0_off5_eq t t2) (k0_off2_eq t) (t2_lt t2) (by omega)

theorem lane6_sub (t : Fin k0_t1_loop.trips) (t2 : Fin k0_t2_loop.trips) :
    (sG.access (Rect.unit (s := S8x50x128) (k0_off6 t t2) S1x1x16.size (k0_off6_inb t t2))).set
      ⊆ (slotAt (k0_off2 t) (k0_off2_inb t)).view.set :=
  lane_sub_of_eq _ _ (t.val % 8) t2.val 32 (k0_off6_eq t t2) (k0_off2_eq t) (t2_lt t2) (by omega)

theorem lane7_sub (t : Fin k0_t1_loop.trips) (t2 : Fin k0_t2_loop.trips) :
    (sG.access (Rect.unit (s := S8x50x128) (k0_off7 t t2) S1x1x16.size (k0_off7_inb t t2))).set
      ⊆ (slotAt (k0_off2 t) (k0_off2_inb t)).view.set :=
  lane_sub_of_eq _ _ (t.val % 8) t2.val 48 (k0_off7_eq t t2) (k0_off2_eq t) (t2_lt t2) (by omega)

theorem lane8_sub (t : Fin k0_t1_loop.trips) (t2 : Fin k0_t2_loop.trips) :
    (sG.access (Rect.unit (s := S8x50x128) (k0_off8 t t2) S1x1x16.size (k0_off8_inb t t2))).set
      ⊆ (slotAt (k0_off2 t) (k0_off2_inb t)).view.set :=
  lane_sub_of_eq _ _ (t.val % 8) t2.val 64 (k0_off8_eq t t2) (k0_off2_eq t) (t2_lt t2) (by omega)

theorem lane9_sub (t : Fin k0_t1_loop.trips) (t2 : Fin k0_t2_loop.trips) :
    (sG.access (Rect.unit (s := S8x50x128) (k0_off9 t t2) S1x1x16.size (k0_off9_inb t t2))).set
      ⊆ (slotAt (k0_off2 t) (k0_off2_inb t)).view.set :=
  lane_sub_of_eq _ _ (t.val % 8) t2.val 80 (k0_off9_eq t t2) (k0_off2_eq t) (t2_lt t2) (by omega)

theorem lane10_sub (t : Fin k0_t1_loop.trips) (t2 : Fin k0_t2_loop.trips) :
    (sG.access (Rect.unit (s := S8x50x128) (k0_off10 t t2) S1x1x16.size (k0_off10_inb t t2))).set
      ⊆ (slotAt (k0_off2 t) (k0_off2_inb t)).view.set :=
  lane_sub_of_eq _ _ (t.val % 8) t2.val 96 (k0_off10_eq t t2) (k0_off2_eq t) (t2_lt t2) (by omega)

theorem lane11_sub (t : Fin k0_t1_loop.trips) (t2 : Fin k0_t2_loop.trips) :
    (sG.access (Rect.unit (s := S8x50x128) (k0_off11 t t2) S1x1x16.size (k0_off11_inb t t2))).set
      ⊆ (slotAt (k0_off2 t) (k0_off2_inb t)).view.set :=
  lane_sub_of_eq _ _ (t.val % 8) t2.val 112 (k0_off11_eq t t2) (k0_off2_eq t) (t2_lt t2) (by omega)

/-! ## The whole table as a rectangle of itself -/

/-- The rectangle of the table's own sizes at offset zero has every index: the slice of everything
    goes through every element of the table, whatever the evidence it is formed with. -/
theorem set_xAll (h1 : ∀ a, (![0, 0] : Fin 2 → Nat) a + S100000x128.size a ≤ S100000x128.size a)
    (h2 : ∀ a, (Rect.unit (s := S100000x128) ![0, 0] S100000x128.size h1).stride a = 1) :
    ((xV).slice (Rect.unit (s := S100000x128) ![0, 0] S100000x128.size h1) h2).view.set = Finset.univ := by
  show ((View.whole main_arg1_scv).slice (Rect.unit (s := S100000x128) ![0, 0] S100000x128.size h1)).set = _
  rw [View.set_slice_whole, Finset.eq_univ_iff_forall]
  intro i
  rw [Rect.mem_set_unit]
  intro a
  match a with
  | 0 =>
    have h : (i 0).val < 100000 := (i 0).isLt
    show 0 ≤ (i 0).val ∧ (i 0).val < 0 + 100000
    omega
  | 1 =>
    have h : (i 1).val < 128 := (i 1).isLt
    show 0 ≤ (i 1).val ∧ (i 1).val < 0 + 128
    omega

/-! ## What a load reads off a landed slot

A slot that holds a block g of 50×128 entries (written whole, over whatever it held) holds g (j, e) at
element (b, j, e) of the scratch: the slot's index (j, e) is (0, j, e) of its rectangle, which sits
at (b, 0, 0). The load at (b, j, 16 n) of 1×1×16 entries therefore reads g (j, 16 n + l) at lane l. -/

variable {F : FTy → Type}

theorem lane_read_of_eq (o o2 : Fin 3 → Nat) (b j c : Nat) (n : Fin 8)
    {ho : ∀ a, o a + S1x1x16.size a ≤ S8x50x128.size a} {h2 : ∀ a, o2 a + S1x50x128.size a ≤ S8x50x128.size a}
    (eo : o = ![b, j, c]) (eo2 : o2 = ![b, 0, 0]) (hj : j < 50) (hc : c = 16 * n.val)
    (f0 : (slotAt o2 h2).view.ty.Contents (Elt F)) (g : S50x128.Idx → Elt F .f32) :
    sG.view.readAt (Elt F) (Rect.unit (s := S8x50x128) o S1x1x16.size ho).toLoadRect
        ((slotAt o2 h2).view.writes (Elt F) f0 [⟨Rect.whole S50x128, g⟩])
      = lanes g (⟨j % 50, Nat.mod_lt _ (by decide)⟩ : Fin 50) n := by
  subst eo eo2
  refine funext fun (x : S1x1x16.Idx) => ?_
  have hx0 : (x 0).val = 0 := by have : (x 0).val < 1 := (x 0).isLt; omega
  have hx1 : (x 1).val = 0 := by have : (x 1).val < 1 := (x 1).isLt; omega
  have hx2 : (x 2).val < 16 := (x 2).isLt
  have hn := n.isLt
  have hemb : (Rect.unit (s := S8x50x128) ![b, j, c] S1x1x16.size ho).emb x
      = (slotAt ![b, 0, 0] h2).view.emb (ValueIdx.ix2 (⟨j % 50, Nat.mod_lt _ (by decide)⟩ : Fin 50)
          (⟨16 * n.val + (x 2).val % 16, by omega⟩ : Fin 128)) := by
    show _ = (Rect.unit (s := S8x50x128) ![b, 0, 0] S1x50x128.size h2).emb (Shape.reshapeEquiv _ (ValueIdx.ix2 _ _))
    rw [ValueIdx.reshapeEquiv_ix2_1ab]
    funext a
    apply Fin.ext
    rw [Rect.emb_apply, Rect.emb_apply]
    match a with
    | 0 => show b + 1 * (x 0).val = b + 1 * 0; rw [hx0]
    | 1 => show j + 1 * (x 1).val = 0 + 1 * (j % 50); rw [hx1, Nat.mod_eq_of_lt hj]; omega
    | 2 => show c + 1 * (x 2).val = 0 + 1 * (16 * n.val + (x 2).val % 16); omega
  rw [View.readAt_apply, View.read_apply]
  show _root_.cast _ ((slotAt ![b, 0, 0] h2).view.writes (Elt F) f0 [⟨Rect.whole S50x128, g⟩]
    ((Rect.unit (s := S8x50x128) ![b, j, c] S1x1x16.size ho).emb x)) = _
  rw [hemb, ← View.write_univ_eq_writes_whole, View.writes_nil, View.write_emb_of_mem _ _ (Finset.mem_univ _), cast_cast, cast_eq]
  rfl

theorem lane4_read (t : Fin k0_t1_loop.trips) (k : Fin k0_t2_loop.trips)
    (f0 : (slotAt (k0_off2 t) (k0_off2_inb t)).view.ty.Contents (Elt F)) (pay : S50x128.Idx → Elt F .f32) :
    sG.view.readAt (Elt F) (Rect.unit (s := S8x50x128) (k0_off4 t k) S1x1x16.size (k0_off4_inb t k)).toLoadRect
        ((slotAt (k0_off2 t) (k0_off2_inb t)).view.writes (Elt F) f0 [⟨Rect.whole S50x128, pay⟩])
      = lanes pay (⟨k.val % 50, Nat.mod_lt _ (by decide)⟩ : Fin 50) (⟨0, by decide⟩ : Fin 8) :=
  lane_read_of_eq _ _ (t.val % 8) k.val 0 ⟨0, by decide⟩ (k0_off4_eq t k) (k0_off2_eq t) (t2_lt k) rfl f0 pay

theorem lane5_read (t : Fin k0_t1_loop.trips) (k : Fin k0_t2_loop.trips)
    (f0 : (slotAt (k0_off2 t) (k0_off2_inb t)).view.ty.Contents (Elt F)) (pay : S50x128.Idx → Elt F .f32) :
    sG.view.readAt (Elt F) (Rect.unit (s := S8x50x128) (k0_off5 t k) S1x1x16.size (k0_off5_inb t k)).toLoadRect
        ((slotAt (k0_off2 t) (k0_off2_inb t)).view.writes (Elt F) f0 [⟨Rect.whole S50x128, pay⟩])
      = lanes pay (⟨k.val % 50, Nat.mod_lt _ (by decide)⟩ : Fin 50) (⟨1, by decide⟩ : Fin 8) :=
  lane_read_of_eq _ _ (t.val % 8) k.val 16 ⟨1, by decide⟩ (k0_off5_eq t k) (k0_off2_eq t) (t2_lt k) rfl f0 pay

theorem lane6_read (t : Fin k0_t1_loop.trips) (k : Fin k0_t2_loop.trips)
    (f0 : (slotAt (k0_off2 t) (k0_off2_inb t)).view.ty.Contents (Elt F)) (pay : S50x128.Idx → Elt F .f32) :
    sG.view.readAt (Elt F) (Rect.unit (s := S8x50x128) (k0_off6 t k) S1x1x16.size (k0_off6_inb t k)).toLoadRect
        ((slotAt (k0_off2 t) (k0_off2_inb t)).view.writes (Elt F) f0 [⟨Rect.whole S50x128, pay⟩])
      = lanes pay (⟨k.val % 50, Nat.mod_lt _ (by decide)⟩ : Fin 50) (⟨2, by decide⟩ : Fin 8) :=
  lane_read_of_eq _ _ (t.val % 8) k.val 32 ⟨2, by decide⟩ (k0_off6_eq t k) (k0_off2_eq t) (t2_lt k) rfl f0 pay

theorem lane7_read (t : Fin k0_t1_loop.trips) (k : Fin k0_t2_loop.trips)
    (f0 : (slotAt (k0_off2 t) (k0_off2_inb t)).view.ty.Contents (Elt F)) (pay : S50x128.Idx → Elt F .f32) :
    sG.view.readAt (Elt F) (Rect.unit (s := S8x50x128) (k0_off7 t k) S1x1x16.size (k0_off7_inb t k)).toLoadRect
        ((slotAt (k0_off2 t) (k0_off2_inb t)).view.writes (Elt F) f0 [⟨Rect.whole S50x128, pay⟩])
      = lanes pay (⟨k.val % 50, Nat.mod_lt _ (by decide)⟩ : Fin 50) (⟨3, by decide⟩ : Fin 8) :=
  lane_read_of_eq _ _ (t.val % 8) k.val 48 ⟨3, by decide⟩ (k0_off7_eq t k) (k0_off2_eq t) (t2_lt k) rfl f0 pay

theorem lane8_read (t : Fin k0_t1_loop.trips) (k : Fin k0_t2_loop.trips)
    (f0 : (slotAt (k0_off2 t) (k0_off2_inb t)).view.ty.Contents (Elt F)) (pay : S50x128.Idx → Elt F .f32) :
    sG.view.readAt (Elt F) (Rect.unit (s := S8x50x128) (k0_off8 t k) S1x1x16.size (k0_off8_inb t k)).toLoadRect
        ((slotAt (k0_off2 t) (k0_off2_inb t)).view.writes (Elt F) f0 [⟨Rect.whole S50x128, pay⟩])
      = lanes pay (⟨k.val % 50, Nat.mod_lt _ (by decide)⟩ : Fin 50) (⟨4, by decide⟩ : Fin 8) :=
  lane_read_of_eq _ _ (t.val % 8) k.val 64 ⟨4, by decide⟩ (k0_off8_eq t k) (k0_off2_eq t) (t2_lt k) rfl f0 pay

theorem lane9_read (t : Fin k0_t1_loop.trips) (k : Fin k0_t2_loop.trips)
    (f0 : (slotAt (k0_off2 t) (k0_off2_inb t)).view.ty.Contents (Elt F)) (pay : S50x128.Idx → Elt F .f32) :
    sG.view.readAt (Elt F) (Rect.unit (s := S8x50x128) (k0_off9 t k) S1x1x16.size (k0_off9_inb t k)).toLoadRect
        ((slotAt (k0_off2 t) (k0_off2_inb t)).view.writes (Elt F) f0 [⟨Rect.whole S50x128, pay⟩])
      = lanes pay (⟨k.val % 50, Nat.mod_lt _ (by decide)⟩ : Fin 50) (⟨5, by decide⟩ : Fin 8) :=
  lane_read_of_eq _ _ (t.val % 8) k.val 80 ⟨5, by decide⟩ (k0_off9_eq t k) (k0_off2_eq t) (t2_lt k) rfl f0 pay

theorem lane10_read (t : Fin k0_t1_loop.trips) (k : Fin k0_t2_loop.trips)
    (f0 : (slotAt (k0_off2 t) (k0_off2_inb t)).view.ty.Contents (Elt F)) (pay : S50x128.Idx → Elt F .f32) :
    sG.view.readAt (Elt F) (Rect.unit (s := S8x50x128) (k0_off10 t k) S1x1x16.size (k0_off10_inb t k)).toLoadRect
        ((slotAt (k0_off2 t) (k0_off2_inb t)).view.writes (Elt F) f0 [⟨Rect.whole S50x128, pay⟩])
      = lanes pay (⟨k.val % 50, Nat.mod_lt _ (by decide)⟩ : Fin 50) (⟨6, by decide⟩ : Fin 8) :=
  lane_read_of_eq _ _ (t.val % 8) k.val 96 ⟨6, by decide⟩ (k0_off10_eq t k) (k0_off2_eq t) (t2_lt k) rfl f0 pay

theorem lane11_read (t : Fin k0_t1_loop.trips) (k : Fin k0_t2_loop.trips)
    (f0 : (slotAt (k0_off2 t) (k0_off2_inb t)).view.ty.Contents (Elt F)) (pay : S50x128.Idx → Elt F .f32) :
    sG.view.readAt (Elt F) (Rect.unit (s := S8x50x128) (k0_off11 t k) S1x1x16.size (k0_off11_inb t k)).toLoadRect
        ((slotAt (k0_off2 t) (k0_off2_inb t)).view.writes (Elt F) f0 [⟨Rect.whole S50x128, pay⟩])
      = lanes pay (⟨k.val % 50, Nat.mod_lt _ (by decide)⟩ : Fin 50) (⟨7, by decide⟩ : Fin 8) :=
  lane_read_of_eq _ _ (t.val % 8) k.val 112 ⟨7, by decide⟩ (k0_off11_eq t k) (k0_off2_eq t) (t2_lt k) rfl f0 pay

end Cert.KernelIdeal.Hand

end
-- ==== Proof.KernelIdeal.BodyDefs.lean ====
import proofs.«205252_g82703890252310_cont_sun_m_328_31_alg».proof.Proof.KernelIdeal.Cells
import proofs.«205252_g82703890252310_cont_sun_m_328_31_alg».proof.Proof.KernelIdeal.SlotFacts

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## What a task holds while its ring runs

A task keeps eight gathers in flight, one per slot of its gather scratch, each on the slot's own semaphore.
Chunk c (row c of the task's 128 index rows) is gathered into slot c mod 8: the gather's offsets list is row c
of the index scratch, its source the whole table, and what lands is the block whose row j is row idx[c, j] of
the table. The accumulator scratch's row c is written once chunk c has been summed. -/

section Tile

variable (d : Dev nD) (L : grid0.Coords)
variable [FloatOps F] [Facts]

/-- The eight 16-lane accumulators the inner loop carries. -/
abbrev Acc8 (F : FTy → Type) : Type :=
  FVec F S16 .f32 × FVec F S16 .f32 × FVec F S16 .f32 × FVec F S16 .f32 × FVec F S16 .f32 × FVec F S16 .f32 × FVec F S16 .f32 × FVec F S16 .f32

/-- The index scratch once the task's block of the index array has landed in it (over any prior contents). -/
def sIcOf (fs : Buf (Elt F) ((V d (cV L) (jV L)).loc cc0_scratch0)) : Buf (Elt F) ((V d (cV L) (jV L)).loc cc0_scratch0) :=
  View.write (Elt F) (sI).view fs (ReadAs.same.apply ((iBlkK L).view.read (Elt F) (m (iLoc d)))) Finset.univ

/-- Every word of the index scratch names a row of the table. -/
def ListsOK (sIc : Buf (Elt F) ((V d (cV L) (jV L)).loc cc0_scratch0)) : Prop :=
  ∀ (off : Fin 2 → ℕ) (h : ∀ a, off a + S1x50.size a ≤ S128x50.size a) (x : S50.Idx), ((listAt off h).view.read (Elt F) sIc x).toNat < 100000

/-- What the gather over the list at offsets c lands: row j of it is the table's row named by the list's j-th word. -/
def chunkPay (sIc : Buf (Elt F) ((V d (cV L) (jV L)).loc cc0_scratch0)) (hl : ListsOK (F := F) d L sIc)
    (c : Fin 2 → ℕ) (hc : ∀ a, c a + S1x50.size a ≤ S128x50.size a) : S50x128.Idx → Elt F .f32 :=
  SparseCore.gatherPayload gathers_S100000x128_S50x128 ((xAllK).view.read (Elt F) (m (xLoc d)))
    (SparseCore.rows ((listAt c hc).view.read (Elt F) sIc) rfl (hl c hc))

/-- The inner loop's invariant: the slot held at the landed block g, the accumulators at their values after t₂ rows. -/
def inv2 (t : Fin k0_t1_loop.trips) (g : S50x128.Idx → Elt F .f32) (t2 : Nat) (acc : Acc8 F) : sProp 𝕄 :=
  iprop(((slotAt (k0_off2 t) (k0_off2_inb t)).view.loc (V d (cV L) (jV L)) ↦[(slotAt (k0_off2 t) (k0_off2_inb t)).view.set]{fullShare}
      (slotAt (k0_off2 t) (k0_off2_inb t)).view.writes (Elt F) (slotAt (k0_off2 t) (k0_off2_inb t)).view.junk [⟨Rect.whole S50x128, g⟩])
    ∗ ⌜acc = (accV g 0 t2, accV g 1 t2, accV g 2 t2, accV g 3 t2, accV g 4 t2, accV g 5 t2, accV g 6 t2, accV g 7 t2)⌝)

/-- A gather in flight into the slot at offsets o2 on the semaphore at offset o3, over the list at offsets c: its
    delivery is the slot written with the payload (over whatever it held and older whole-slot pieces), the list's
    row at its share of the index scratch, the table at its share; beside it the rest of that share of the scratch. -/
def slotFl (sIc : Buf (Elt F) ((V d (cV L) (jV L)).loc cc0_scratch0))
    (o2 : Fin 3 → ℕ) (h2 : ∀ a, o2 a + S1x50x128.size a ≤ S8x50x128.size a) (o3 : Fin 1 → ℕ) (h3 : ∀ a, o3 a + S1.size a ≤ S8.size a)
    (c : Fin 2 → ℕ) (hc : ∀ a, c a + S1x50.size a ≤ S128x50.size a) (qs qx : PosShare TreeShare)
    (f0 : Buf (Elt F) ((V d (cV L) (jV L)).loc cc0_scratch1)) (pay : S50x128.Idx → Elt F .f32) (Lold : List (View.Piece (Elt F) S50x128 .f32)) : sProp 𝕄 :=
  iprop(Transfers.Flight countersEmb (V d (cV L) (jV L)) (SemLoc.dma (ringSemAt o3 h3)) (default : HIx 1) 204800
      (iprop((((slotAt o2 h2).view.loc (V d (cV L) (jV L)) ↦[(slotAt o2 h2).view.set]{fullShare}
              (slotAt o2 h2).view.writes (Elt F) f0 (⟨Rect.whole S50x128, pay⟩ :: Lold))
            ∗ ((sI).view.loc (V d (cV L) (jV L)) ↦[(listAt c hc).view.set]{qs} sIc))
          ∗ ((xV).view.loc (V d (cV L) (jV L)) ↦[(xAllK).view.set]{qx} m (xLoc d))))
    ∗ ((sI).view.loc (V d (cV L) (jV L)) ↦[Finset.univ \ (listAt c hc).view.set]{qs} sIc))

/-- Which chunk slot b holds a gather for, before trip t: the chunks t … t+7, chunk c in slot c mod 8, wrapping at 128. -/
def chunkOf (t : ℕ) (b : Fin 8) : ℕ := if b.val < t % 8 then (t - t % 8 + 8 + b.val) % 128 else (t - t % 8 + b.val) % 128

theorem chunkOf_lt (t : ℕ) (b : Fin 8) : chunkOf t b < 128 := by unfold chunkOf; split <;> exact Nat.mod_lt _ (by decide)
theorem chunkOf_zero (b : Fin 8) : chunkOf 0 b = b.val := by unfold chunkOf; have := b.isLt; simp; omega
theorem chunkOf_here (t : ℕ) (ht : t < 128) : chunkOf t ⟨t % 8, Nat.mod_lt _ (by decide)⟩ = t := by unfold chunkOf; simp; omega
theorem chunkOf_next (t : ℕ) : chunkOf (t + 1) ⟨t % 8, Nat.mod_lt _ (by decide)⟩ = (t + 8) % 128 := by unfold chunkOf; simp; split <;> omega
theorem chunkOf_other (t : ℕ) (b : Fin 8) (hb : b.val ≠ t % 8) : chunkOf (t + 1) b = chunkOf t b := by
  unfold chunkOf; have := b.isLt; split <;> split <;> omega
theorem chunkOf_end (b : Fin 8) : chunkOf 128 b = b.val := by unfold chunkOf; have := b.isLt; simp; omega

/-- Rows 0 … t−1 of the accumulator scratch hold their chunks' sums: entry (r, e) is lane e mod 16 of lane group
    e / 16's accumulator after all 50 rows of chunk r's block. -/
def AccOK (sIc : Buf (Elt F) ((V d (cV L) (jV L)).loc cc0_scratch0)) (hl : ListsOK (F := F) d L sIc) (t : ℕ)
    (fa : Buf (Elt F) ((V d (cV L) (jV L)).loc cc0_scratch2)) : Prop :=
  ∀ (r : Fin 128) (e : Fin 128), r.val < t →
    fa (ValueIdx.ix2 r e) = accV (chunkPay (F := F) m d L sIc hl ![r.val, 0] (listInb r.val r.isLt))
      (⟨e.val / 16, by have := e.isLt; omega⟩ : Fin 8) 50 (ValueIdx.ix1 (⟨e.val % 16, Nat.mod_lt _ (by decide)⟩ : Fin 16))

end Tile

end Cert.KernelIdeal.Hand

end
-- ==== Proof.KernelIdeal.WholeWrite.lean ====
/-
  A write of the whole shape shadows every write before it.

  A list of unmasked writes through a view leaves, at each element of the underlying buffer, the
  payload of the newest write that covers it, and the prior contents where none does. When the
  newest write goes through the whole shape it covers every element under the view, and no write
  through the view touches an element outside it: so the buffer is the one the newest write alone
  leaves over the prior contents.
-/
import Idealize.ShloMosaic.Lib.Writes
import Idealize.ShloMosaic.Lib.Exec.Geometry

noncomputable section

namespace Cert.KernelIdeal.Hand

open Idealize.ShloMosaic

/-- Writes through a view whose newest piece is the whole shape leave what that piece alone leaves. -/
theorem writes_whole_cons {sig : RefSig} {κ : Kind} {sp : Space} {S : Shape} {e : EltTy} {Val : EltTy → Type}
    (v : View sig κ sp S e) (f : v.ty.Contents Val) (w : S.Idx → Val e) (Lold : List (View.Piece Val S e)) :
    v.writes Val f (⟨Rect.whole S, w⟩ :: Lold) = v.writes Val f [⟨Rect.whole S, w⟩] := by
  rw [← View.write_univ_eq_writes_whole, ← View.write_univ_eq_writes_whole, View.writes_nil]
  funext i
  by_cases hi : i ∈ v.set
  · obtain ⟨y, -, rfl⟩ := Finset.mem_map.mp hi
    rw [View.write_emb_of_mem _ _ (Finset.mem_univ _), View.write_emb_of_mem _ _ (Finset.mem_univ _)]
  · rw [View.write_of_not_mem _ _ _ (by rwa [View.setOn_univ]), View.write_of_not_mem _ _ _ (by rwa [View.setOn_univ])]
    exact View.writes_apply_of_forall_ne v f Lold fun y hy => hi (hy ▸ v.emb_mem_set y)

/-- On the view's elements a whole-shape write leaves its payload, whatever the buffer held before. -/
theorem writes_whole_base {sig : RefSig} {κ : Kind} {sp : Space} {S : Shape} {e : EltTy} {Val : EltTy → Type}
    (v : View sig κ sp S e) (f g : v.ty.Contents Val) (w : S.Idx → Val e) :
    ∀ i ∈ v.set, v.writes Val f [⟨Rect.whole S, w⟩] i = v.writes Val g [⟨Rect.whole S, w⟩] i := by
  intro i hi
  obtain ⟨y, -, rfl⟩ := Finset.mem_map.mp hi
  rw [← View.write_univ_eq_writes_whole, ← View.write_univ_eq_writes_whole, View.writes_nil, View.writes_nil,
    View.write_emb_of_mem _ _ (Finset.mem_univ _), View.write_emb_of_mem _ _ (Finset.mem_univ _)]

end Cert.KernelIdeal.Hand

end
-- ==== Proof.KernelIdeal.Trip.lean ====
import proofs.«205252_g82703890252310_cont_sun_m_328_31_alg».proof.Proof.KernelIdeal.BodyDefs
import proofs.«205252_g82703890252310_cont_sun_m_328_31_alg».proof.Proof.KernelIdeal.WholeWrite

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## One trip of the ring

Trip t waits for slot t mod 8's gather (chunk t), sums the landed block's 50 rows into the eight lane
accumulators, writes them as row t of the accumulator scratch, and starts the gather of chunk (t + 8) mod 128
into the same slot on the same semaphore. -/

section Tile

variable (d : Dev nD) (L : grid0.Coords)
variable [FloatOps F] [Facts]

/-- The accumulator scratch after trip t's eight stores of the sums a. -/
abbrev accAfter (t : Fin k0_t1_loop.trips) (fa : Buf (Elt F) ((V d (cV L) (jV L)).loc cc0_scratch2)) (g : S50x128.Idx → Elt F .f32) :
    Buf (Elt F) ((V d (cV L) (jV L)).loc cc0_scratch2) :=
  (sA).view.writes (Elt F) fa
      [⟨Rect.unit (s := S128x128) (k0_off19 t) S1x16.size (k0_off19_inb t), k0_pay24 (accV g 7 50)⟩,
        ⟨Rect.unit (s := S128x128) (k0_off18 t) S1x16.size (k0_off18_inb t), k0_pay23 (accV g 6 50)⟩,
        ⟨Rect.unit (s := S128x128) (k0_off17 t) S1x16.size (k0_off17_inb t), k0_pay22 (accV g 5 50)⟩,
        ⟨Rect.unit (s := S128x128) (k0_off16 t) S1x16.size (k0_off16_inb t), k0_pay21 (accV g 4 50)⟩,
        ⟨Rect.unit (s := S128x128) (k0_off15 t) S1x16.size (k0_off15_inb t), k0_pay20 (accV g 3 50)⟩,
        ⟨Rect.unit (s := S128x128) (k0_off14 t) S1x16.size (k0_off14_inb t), k0_pay19 (accV g 2 50)⟩,
        ⟨Rect.unit (s := S128x128) (k0_off13 t) S1x16.size (k0_off13_inb t), k0_pay18 (accV g 1 50)⟩,
        ⟨Rect.unit (s := S128x128) (k0_off12 t) S1x16.size (k0_off12_inb t), k0_pay17 (accV g 0 50)⟩]

set_option maxHeartbeats 8000000 in
theorem trip (t : Fin k0_t1_loop.trips) (O : CellTallies nD τ sig (HIx 1)) (W : Waits sig (HIx 1)) (hO : ∀ g, O g none = 0)
    (sIc : Buf (Elt F) ((V d (cV L) (jV L)).loc cc0_scratch0)) (hl : ListsOK (F := F) d L sIc)
    (c : Fin 2 → ℕ) (hc : ∀ a, c a + S1x50.size a ≤ S128x50.size a) (qs qx : PosShare TreeShare)
    (f0 : Buf (Elt F) ((V d (cV L) (jV L)).loc cc0_scratch1)) (pay : S50x128.Idx → Elt F .f32) (Lold : List (View.Piece (Elt F) S50x128 .f32))
    (fa : Buf (Elt F) ((V d (cV L) (jV L)).loc cc0_scratch2)) :
    iprop(levAts (K (F := F)).L (K (F := F)).lev
        ∗ slotFl (F := F) m d L sIc (k0_off2 t) (k0_off2_inb t) (k0_off3 t) (k0_off3_inb t) c hc qs qx f0 pay Lold
        ∗ ((sA).view.loc (V d (cV L) (jV L)) ↦{fullShare} fa)
        ∗ owes (V d (cV L) (jV L)) O W)
      ⊢ wp frame (wpE (defs₀ (F := F)) 𝒱₀ (V d (cV L) (jV L)) none) Set.univ
          (k0_t1_body L iV (Memref.isWhole_whole _) xV (Memref.isWhole_whole _) oV (Memref.isWhole_whole _)
            sI (Memref.isWhole_whole _) sG (Memref.isWhole_whole _) sA (Memref.isWhole_whole _) cc0_scratch3 cc0_scoped0 cc0_scoped1 t ())
          fun _ => iprop((∃ pay' : S50x128.Idx → Elt F .f32, ⌜pay' = chunkPay (F := F) m d L sIc hl (k0_off20 t) (k0_off20_inb t)⌝
              ∗ slotFl (F := F) m d L sIc (k0_off2 t) (k0_off2_inb t) (k0_off3 t) (k0_off3_inb t) (k0_off20 t) (k0_off20_inb t) qs qx
                  (slotAt (k0_off2 t) (k0_off2_inb t)).view.junk pay' [⟨Rect.whole S50x128, pay⟩])
            ∗ ((sA).view.loc (V d (cV L) (jV L)) ↦{fullShare} accAfter (F := F) d L t fa pay)
            ∗ owes (V d (cV L) (jV L)) O (insert (SemLoc.dma (ringSemAt (k0_off3 t) (k0_off3_inb t)), (default : HIx 1)) W)) := by
  unfold k0_t1_body slotFl
  iintro ⟨#Hlv, ⟨Hfl, Hleft⟩, Ha, HO⟩
  ihave Hmw := (show (levAts (K (F := F)).L (K (F := F)).lev : sProp 𝕄) ⊢ Transfers.MayWaits (V d (cV L) (jV L)) (default : HIx 1) O from
    (K (F := F)).mayWaits_none (thr := V d (cV L) (jV L)) hO) $$ Hlv
  -- the wait: the slot lands, the list's row and the table's share come back
  sl_exec
  icases Hfl_dst with ⟨Hslot, Hlist⟩
  ihave Hsw := (pointsTo_split_subset (ℓ := (sI).view.loc (V d (cV L) (jV L))) (q := qs) (f := sIc) (S := Finset.univ) (Finset.subset_univ (listAt c hc).view.set)).2 $$ [Hlist Hleft]
  · isplitl [Hlist] <;> iassumption
  ihave Hxw := (Entails.of_eq (show (((xV).view.loc (V d (cV L) (jV L)) ↦[(xAllK).view.set]{qx} m (xLoc d)) : sProp 𝕄)
      = ((xV).view.loc (V d (cV L) (jV L)) ↦{qx} m (xLoc d)) from by rw [show (xAllK).view.set = Finset.univ from set_xAll _ _])) $$ Hfl_src
  -- on the slot, what is held is the landed block, whatever lay under it
  ihave Hslot' := (Entails.of_eq (pointsTo_congr (ℓ := (slotAt (k0_off2 t) (k0_off2_inb t)).view.loc (V d (cV L) (jV L))) (q := fullShare)
      (I := (slotAt (k0_off2 t) (k0_off2_inb t)).view.set)
      (f := (slotAt (k0_off2 t) (k0_off2_inb t)).view.writes (Elt F) f0 (⟨Rect.whole S50x128, pay⟩ :: Lold))
      (g := (slotAt (k0_off2 t) (k0_off2_inb t)).view.writes (Elt F) (slotAt (k0_off2 t) (k0_off2_inb t)).view.junk [⟨Rect.whole S50x128, pay⟩])
      (fun i hi => by
        rw [writes_whole_cons]
        exact writes_whole_base (slotAt (k0_off2 t) (k0_off2_inb t)).view f0 (slotAt (k0_off2 t) (k0_off2_inb t)).view.junk pay i hi))) $$ Hslot
  have hin : ∀ (off : Fin 2 → ℕ) (h : ∀ a, off a + S1x50.size a ≤ S128x50.size a) (x : S50.Idx),
      ((listAt off h).view.read (Elt F) sIc x).toNat < 100000 := hl
  -- the 50 rows, summed
  sl_for (inv2 (F := F) d L t pay) $$ [Hslot']
  case region =>
    intro k acc
    unfold inv2
    iintro ⟨Hslot, %hacc⟩
    have hsub4 := lane4_sub t k
    have hsub5 := lane5_sub t k
    have hsub6 := lane6_sub t k
    have hsub7 := lane7_sub t k
    have hsub8 := lane8_sub t k
    have hsub9 := lane9_sub t k
    have hsub10 := lane10_sub t k
    have hsub11 := lane11_sub t k
    sl_exec
    sl_step
    isplitl [Hslot]; · iexact Hslot
    ipureintro
    subst hacc
    refine congrArg₂ Prod.mk (congrArg (k0_pay9 _) (lane4_read t k _ pay)) (congrArg₂ Prod.mk (congrArg (k0_pay9 _) (lane5_read t k _ pay))
      (congrArg₂ Prod.mk (congrArg (k0_pay9 _) (lane6_read t k _ pay)) (congrArg₂ Prod.mk (congrArg (k0_pay9 _) (lane7_read t k _ pay))
      (congrArg₂ Prod.mk (congrArg (k0_pay9 _) (lane8_read t k _ pay)) (congrArg₂ Prod.mk (congrArg (k0_pay9 _) (lane9_read t k _ pay))
      (congrArg₂ Prod.mk (congrArg (k0_pay9 _) (lane10_read t k _ pay)) (congrArg (k0_pay9 _) (lane11_read t k _ pay))))))))
  · unfold inv2
    isplitl [Hslot']; · iexact Hslot'
    ipureintro; rfl
  iintro %acc HI
  unfold inv2
  icases HI with ⟨Hslot, %hacc⟩
  subst hacc
  -- row t of the accumulator scratch, and the next gather
  sl_exec
  sl_step
  isplitl [Hfl Hsw]
  · iexists _
    isplitr
    swap
    · isplitl [Hfl]; · iexact Hfl
      iexact Hsw
    · ipureintro; rfl
  isplitl [Ha]; · iexact Ha
  iexact HO

end Tile

end Cert.KernelIdeal.Hand

end
-- ==== Proof.KernelIdeal.Shares.lean ====
import proofs.«205252_g82703890252310_cont_sun_m_328_31_alg».proof.Proof.KernelIdeal.BodyDefs

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## The eight slots' read shares

The task's token of the table and the full share of its index scratch are each cut into eight: seven tokens and
the remainder. Slot b keeps one of each for as long as the ring runs. -/

section Tile

variable (d : Dev nD) (L : grid0.Coords)

/-- Slot b's share of the index scratch: the remainder for slot 0, token b − 1 for the others. -/
def qsOf (b : Fin 8) : PosShare TreeShare :=
  if h : b.val = 0 then Transfers.shareDrop fullShare 7 else Transfers.shareTok fullShare 7 ⟨b.val - 1, by have := b.isLt; omega⟩
/-- Slot b's share of the task's table token: token b for slots 0 … 6, the remainder for slot 7. -/
def qxOf (b : Fin 8) : PosShare TreeShare :=
  if h : b.val = 7 then Transfers.shareDrop (xq (wL L)) 7 else Transfers.shareTok (xq (wL L)) 7 ⟨b.val, by have := b.isLt; omega⟩

theorem bigSep_fin8 {M : Type} [URA M] (Φ : Fin 8 → sProp M) :
    bigSep (Finset.univ : Finset (Fin 8)) Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide]
  repeat rw [SparseCore.bigSep_insert' (by decide)]
  rw [bigSep_singleton]
theorem bigSep_fin7 {M : Type} [URA M] (Φ : Fin 7 → sProp M) :
    bigSep (Finset.univ : Finset (Fin 7)) Φ = iprop(Φ 0 ∗ Φ 1 ∗ Φ 2 ∗ Φ 3 ∗ Φ 4 ∗ Φ 5 ∗ Φ 6) := by
  rw [show (Finset.univ : Finset (Fin 7)) = {0, 1, 2, 3, 4, 5, 6} by decide]
  repeat rw [SparseCore.bigSep_insert' (by decide)]
  rw [bigSep_singleton]

end Tile

end Cert.KernelIdeal.Hand

end
-- ==== Proof.KernelIdeal.AccFacts.lean ====
/-
  Two facts about the accumulator scratch of a task. One trip of the outer loop stores the eight 16-lane
  accumulators into the eight 16-lane pieces of row t of the scratch, so rows 0 … t hold their chunks' sums once
  rows 0 … t−1 did. And once all 128 rows are done the scratch is the task's 128 rows of the bag.
-/
import proofs.«205252_g82703890252310_cont_sun_m_328_31_alg».proof.Proof.KernelIdeal.BodyDefs
import Idealize.ShloMosaic.Lib.Writes
import Idealize.ShloMosaic.Lib.Pipeline.Value
import Idealize.ShloMosaic.Lib.ValueIdx

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable (m : (ℓ : Loc nD τ sig) → Buf (Elt F) ℓ)

section Tile

variable (d : Dev nD) (L : grid0.Coords)
variable [FloatOps F] [Facts]

/-- The outer loop has at most 128 trips. -/
theorem trip_lt (t : Fin k0_t1_loop.trips) : t.val < 128 := Nat.lt_of_lt_of_le t.isLt k0_t1_abs.2.1

/-- A vector of sixteen laid out as one row of sixteen reads, at (0, j), the vector at j. -/
theorem shapeCast_row (a : FVec F S16 .f32) (x : S1x16.Idx) :
    shapeCast S1x16 a shapeCasts_S16_S1x16 x = a (ValueIdx.ix1 (⟨(x 1).val, (x 1).isLt⟩ : Fin 16)) := by
  refine (shapeCast_addUnit_apply ![16] a shapeCasts_S16_S1x16 x).trans (congrArg a ?_)
  funext a'; match a' with | ⟨0, _⟩ => rfl

/-- Row t of the scratch after the trip, as one function of the column: lane e mod 16 of lane group e / 16's accumulator. -/
def rowG (pay : S50x128.Idx → Elt F .f32) : S128x128.Idx → Elt F .f32 := fun i =>
  accV pay (⟨(i 1).val / 16, by have : (i 1).val < 128 := (i 1).isLt; omega⟩ : Fin 8) 50
    (ValueIdx.ix1 (⟨(i 1).val % 16, Nat.mod_lt _ (by decide)⟩ : Fin 16))

theorem rowG_at (pay : S50x128.Idx → Elt F .f32) (k : Fin 8) (j : Fin 16) (i : S128x128.Idx) (hi : (i 1).val = 16 * k.val + j.val) :
    rowG pay i = accV pay k 50 (ValueIdx.ix1 j) := by
  have hk := k.isLt; have hj := j.isLt
  have h1 : ∀ h, (⟨(i 1).val / 16, h⟩ : Fin 8) = k := fun _ => Fin.ext (by show (i 1).val / 16 = k.val; omega)
  have h2 : ∀ h, (⟨(i 1).val % 16, h⟩ : Fin 16) = j := fun _ => Fin.ext (by show (i 1).val % 16 = j.val; omega)
  unfold rowG; rw [h1, h2]

/-- The eight stores of trip t, newest first: piece k is lanes 16k … 16k+15 of row t. -/
abbrev accPieces (t : Fin k0_t1_loop.trips) (a0 a1 a2 a3 a4 a5 a6 a7 : FVec F S16 .f32) : List (View.Piece (Elt F) S128x128 .f32) :=
  [⟨Rect.unit (s := S128x128) (k0_off19 t) S1x16.size (k0_off19_inb t), k0_pay24 a7⟩,
   ⟨Rect.unit (s := S128x128) (k0_off18 t) S1x16.size (k0_off18_inb t), k0_pay23 a6⟩,
   ⟨Rect.unit (s := S128x128) (k0_off17 t) S1x16.size (k0_off17_inb t), k0_pay22 a5⟩,
   ⟨Rect.unit (s := S128x128) (k0_off16 t) S1x16.size (k0_off16_inb t), k0_pay21 a4⟩,
   ⟨Rect.unit (s := S128x128) (k0_off15 t) S1x16.size (k0_off15_inb t), k0_pay20 a3⟩,
   ⟨Rect.unit (s := S128x128) (k0_off14 t) S1x16.size (k0_off14_inb t), k0_pay19 a2⟩,
   ⟨Rect.unit (s := S128x128) (k0_off13 t) S1x16.size (k0_off13_inb t), k0_pay18 a1⟩,
   ⟨Rect.unit (s := S128x128) (k0_off12 t) S1x16.size (k0_off12_inb t), k0_pay17 a0⟩]

/-- An element of row t in columns c … c+15 is in the piece at offsets (t, c); -/
theorem mem_piece (t : Fin k0_t1_loop.trips) (off : Fin 2 → ℕ) (inb : ∀ a, off a + S1x16.size a ≤ S128x128.size a) (c : ℕ)
    (hoff : off = ![t.val, c]) (i : S128x128.Idx) (hr : (i 0).val = t.val) (he : c ≤ (i 1).val ∧ (i 1).val < c + 16) :
    i ∈ (Rect.unit (s := S128x128) off S1x16.size inb).set := by
  subst hoff; rw [Rect.mem_set_unit]; intro a
  match a with
  | ⟨0, _⟩ => show t.val ≤ (i 0).val ∧ (i 0).val < t.val + 1; omega
  | ⟨1, _⟩ => show c ≤ (i 1).val ∧ (i 1).val < c + 16; exact he

/-- an element of an earlier row is in none. -/
theorem not_mem_piece (t : Fin k0_t1_loop.trips) (off : Fin 2 → ℕ) (inb : ∀ a, off a + S1x16.size a ≤ S128x128.size a) (c : ℕ)
    (hoff : off = ![t.val, c]) (i : S128x128.Idx) (hr : (i 0).val < t.val) :
    i ∉ (Rect.unit (s := S128x128) off S1x16.size inb).set := by
  subst hoff; rw [Rect.mem_set_unit]; intro hm
  have h0 : t.val ≤ (i 0).val := (hm 0).1
  omega

/-- What piece k stores is row t's function on the piece. -/
theorem piece_val (pay : S50x128.Idx → Elt F .f32) (t : Fin k0_t1_loop.trips) (off : Fin 2 → ℕ) (inb : ∀ a, off a + S1x16.size a ≤ S128x128.size a)
    (k : Fin 8) (hoff : off = ![t.val, 16 * k.val]) (x : (Rect.unit (s := S128x128) off S1x16.size inb).shape.Idx) :
    shapeCast S1x16 (accV pay k 50) shapeCasts_S16_S1x16 x = rowG pay ((Rect.unit (s := S128x128) off S1x16.size inb).emb x) := by
  subst hoff
  rw [shapeCast_row]
  refine (rowG_at pay k ⟨(x 1).val, (x 1).isLt⟩ _ ?_).symm
  show 16 * k.val + 1 * (x 1).val = 16 * k.val + (x 1).val
  omega

/-- ONE TRIP'S EIGHT STORES: rows 0 … t hold their chunks' sums once rows 0 … t−1 did and the eight accumulators are
    the sums of chunk t's block. -/
theorem accOK_step (sIc : Buf (Elt F) ((V d (cV L) (jV L)).loc cc0_scratch0)) (hl : ListsOK (F := F) d L sIc) (t : Fin k0_t1_loop.trips)
    (fa : Buf (Elt F) ((V d (cV L) (jV L)).loc cc0_scratch2)) (h : AccOK (F := F) m d L sIc hl t.val fa)
    (pay : S50x128.Idx → Elt F .f32) (hpay : pay = chunkPay (F := F) m d L sIc hl ![t.val, 0] (listInb t.val (trip_lt t))) :
    AccOK (F := F) m d L sIc hl (t.val + 1)
      ((sA).view.writes (Elt F) fa (accPieces t (accV pay 0 50) (accV pay 1 50) (accV pay 2 50) (accV pay 3 50) (accV pay 4 50) (accV pay 5 50) (accV pay 6 50) (accV pay 7 50))) := by
  intro r e hr
  have ht := trip_lt t
  have hread : ∀ g : Buf (Elt F) ((V d (cV L) (jV L)).loc cc0_scratch2), g (ValueIdx.ix2 r e) = (sA).view.read (Elt F) g (ValueIdx.ix2 r e) := fun g => rfl
  by_cases hrt : r.val < t.val
  · refine (hread _).trans ?_
    rw [View.read_writes_apply_of_forall_not_mem]
    · exact h r e hrt
    · intro p hp
      simp only [List.mem_cons, List.mem_nil_iff, _root_.or_false] at hp
      rcases hp with rfl | rfl | rfl | rfl | rfl | rfl | rfl | rfl
      · exact not_mem_piece t _ (k0_off19_inb t) 112 (k0_off19_eq t) _ hrt
      · exact not_mem_piece t _ (k0_off18_inb t) 96 (k0_off18_eq t) _ hrt
      · exact not_mem_piece t _ (k0_off17_inb t) 80 (k0_off17_eq t) _ hrt
      · exact not_mem_piece t _ (k0_off16_inb t) 64 (k0_off16_eq t) _ hrt
      · exact not_mem_piece t _ (k0_off15_inb t) 48 (k0_off15_eq t) _ hrt
      · exact not_mem_piece t _ (k0_off14_inb t) 32 (k0_off14_eq t) _ hrt
      · exact not_mem_piece t _ (k0_off13_inb t) 16 (k0_off13_eq t) _ hrt
      · exact not_mem_piece t _ (k0_off12_inb t) 0 (k0_off12_eq t) _ hrt
  · have hrt' : r.val = t.val := by omega
    have hpr : chunkPay (F := F) m d L sIc hl ![r.val, 0] (listInb r.val r.isLt) = pay := by
      rw [hpay]
      have : ∀ (n : ℕ) (hn : n < 128), n = t.val → chunkPay (F := F) m d L sIc hl ![n, 0] (listInb n hn) = chunkPay (F := F) m d L sIc hl ![t.val, 0] (listInb t.val ht) := by
        intro n hn e'; subst e'; rfl
      exact this r.val r.isLt hrt'
    rw [hpr]
    refine (hread _).trans ?_
    rw [View.read_writes_apply_of_pieces (sA).view fa (rowG pay)]
    · rfl
    · intro p hp x
      simp only [List.mem_cons, List.mem_nil_iff, _root_.or_false] at hp
      rcases hp with rfl | rfl | rfl | rfl | rfl | rfl | rfl | rfl
      · exact piece_val pay t _ (k0_off19_inb t) 7 (k0_off19_eq t) x
      · exact piece_val pay t _ (k0_off18_inb t) 6 (k0_off18_eq t) x
      · exact piece_val pay t _ (k0_off17_inb t) 5 (k0_off17_eq t) x
      · exact piece_val pay t _ (k0_off16_inb t) 4 (k0_off16_eq t) x
      · exact piece_val pay t _ (k0_off15_inb t) 3 (k0_off15_eq t) x
      · exact piece_val pay t _ (k0_off14_inb t) 2 (k0_off14_eq t) x
      · exact piece_val pay t _ (k0_off13_inb t) 1 (k0_off13_eq t) x
      · exact piece_val pay t _ (k0_off12_inb t) 0 (k0_off12_eq t) x
    · have he := e.isLt
      have hq : e.val / 16 < 8 := by omega
      have hi0 : ((ValueIdx.ix2 r e : S128x128.Idx) 0).val = t.val := hrt'
      interval_cases hk : e.val / 16
      · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))),
          mem_piece t _ (k0_off12_inb t) 0 (k0_off12_eq t) _ hi0 (by show 0 ≤ e.val ∧ e.val < 0 + 16; omega)⟩
      · exact ⟨_, List.mem_cons_of_mem _ (List.mem_cons_of_mem _ (List.mem_cons_of_mem _ (List.mem_cons_of_mem _ (List.mem_cons_of_mem _ (List.mem_cons_of_mem _ List.mem_cons_self))))),
          mem_piece t _ (k0_off13_inb t) 16 (k0_off13_eq t) _ hi0 (by show 16 ≤ e.val ∧ e.val < 16 + 16; omega)⟩
      · exact ⟨_, List.mem_cons_of_mem _ (List.mem_cons_of_mem _ (List.mem_cons_of_mem _ (List.mem_cons_of_mem _ (List.mem_cons_of_mem _ List.mem_cons_self)))),
          mem_piece t _ (k0_off14_inb t) 32 (k0_off14_eq t) _ hi0 (by show 32 ≤ e.val ∧ e.val < 32 + 16; omega)⟩
      · exact ⟨_, List.mem_cons_of_mem _ (List.mem_cons_of_mem _ (List.mem_cons_of_mem _ (List.mem_cons_of_mem _ List.mem_cons_self))),
          mem_piece t _ (k0_off15_inb t) 48 (k0_off15_eq t) _ hi0 (by show 48 ≤ e.val ∧ e.val < 48 + 16; omega)⟩
      · exact ⟨_, List.mem_cons_of_mem _ (List.mem_cons_of_mem _ (List.mem_cons_of_mem _ List.mem_cons_self)),
          mem_piece t _ (k0_off16_inb t) 64 (k0_off16_eq t) _ hi0 (by show 64 ≤ e.val ∧ e.val < 64 + 16; omega)⟩
      · exact ⟨_, List.mem_cons_of_mem _ (List.mem_cons_of_mem _ List.mem_cons_self),
          mem_piece t _ (k0_off17_inb t) 80 (k0_off17_eq t) _ hi0 (by show 80 ≤ e.val ∧ e.val < 80 + 16; omega)⟩
      · exact ⟨_, List.mem_cons_of_mem _ List.mem_cons_self,
          mem_piece t _ (k0_off18_inb t) 96 (k0_off18_eq t) _ hi0 (by show 96 ≤ e.val ∧ e.val < 96 + 16; omega)⟩
      · exact ⟨_, List.mem_cons_self,
          mem_piece t _ (k0_off19_inb t) 112 (k0_off19_eq t) _ hi0 (by show 112 ≤ e.val ∧ e.val < 112 + 16; omega)⟩

/-- The bag at row R, column e: lane e mod 16 of lane group e / 16's accumulator over row R's block. -/
theorem bagK_at (idx : IVec S4096x50 32) (tbl : FVec F S100000x128 .f32) (R : Fin 4096) (e : Fin 128) :
    bagK (F := F) idx tbl (ValueIdx.ix2 R e)
      = accV (rowsOf idx tbl R) (⟨e.val / 16, by have := e.isLt; omega⟩ : Fin 8) 50 (ValueIdx.ix1 (⟨e.val % 16, Nat.mod_lt _ (by decide)⟩ : Fin 16)) := by
  have e1 : ∀ h, (⟨R.val % 4096, h⟩ : Fin 4096) = R := fun _ => Fin.ext (Nat.mod_eq_of_lt R.isLt)
  have e2 : ∀ h h', (⟨e.val % 128 / 16, h⟩ : Fin 8) = ⟨e.val / 16, h'⟩ := fun _ _ => Fin.ext (by show e.val % 128 / 16 = e.val / 16; rw [Nat.mod_eq_of_lt e.isLt])
  show accV (rowsOf idx tbl ⟨R.val % 4096, _⟩) ⟨e.val % 128 / 16, _⟩ 50 (ValueIdx.ix1 ⟨e.val % 16, _⟩) = _
  rw [e1, e2]

/-- The task's row r of the bag's 4096. -/
theorem bagRow_lt (r : Fin 128) : 128 * (wL L).val + r.val < 4096 := by have := (wL L).isLt; have := r.isLt; omega

/-- THE LAST COPY'S VALUE: all 128 rows done, the scratch is the task's block of the bag. -/
theorem acc_is_bag (fs : Buf (Elt F) ((V d (cV L) (jV L)).loc cc0_scratch0)) (hl : ListsOK (F := F) d L (sIcOf (F := F) m d L fs))
    (fa : Buf (Elt F) ((V d (cV L) (jV L)).loc cc0_scratch2)) (h : AccOK (F := F) m d L (sIcOf (F := F) m d L fs) hl 128 fa)
    (hcp : ∀ c : Fin 128, chunkPay (F := F) m d L (sIcOf (F := F) m d L fs) hl ![c.val, 0] (listInb c.val c.isLt)
      = rowsOf (m (iLoc d)) (m (xLoc d)) (⟨128 * (wL L).val + c.val, bagRow_lt L c⟩ : Fin 4096))
    (r : Fin 128) (e : Fin 128) :
    fa (ValueIdx.ix2 r e) = bagK (F := F) (m (iLoc d)) (m (xLoc d)) (ValueIdx.ix2 (⟨128 * (wL L).val + r.val, bagRow_lt L r⟩ : Fin 4096) e) := by
  rw [h r e r.isLt, hcp r, bagK_at]

end Tile

end Cert.KernelIdeal.Hand

end
-- ==== Proof.KernelIdeal.PayFacts.lean ====
/-
  The gather's payload is the block of table rows the index array names.

  The index scratch, once the task's block of the index array has landed in it, holds at (c, j) the
  word at (128 w + c, j) of the index array, w the task's number: the block is the 128 rows from row
  128 w. Row c of the scratch, viewed as a list of 50 words, reads word j at (c, j). The gather over
  that list lands, at (j, e), entry e of the table's row named by word j; the whole table is read
  through the rectangle of everything, which reads the table itself. A word below 100000 names the row
  of its own number. So the payload is the block whose row j is row idx[128 w + c, j] of the table.
-/
import proofs.«205252_g82703890252310_cont_sun_m_328_31_alg».proof.Proof.KernelIdeal.BodyDefs
import Idealize.ShloMosaic.Lib.ValueLayout

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## Indices -/

/-- The k-th word of a list of 50, in row-major order, is the word at index k. -/
theorem rowMajor_symm_S50 {n : Nat} (h : n = S50.numel) (k : Fin n) (k' : Fin 50) (hk : k.val = k'.val) :
    S50.rowMajor.symm (k.cast h) = ix1 k' := by
  rw [Equiv.symm_apply_eq]
  apply Fin.ext
  rw [Shape.rowMajor_val_one]
  exact hk

/-- Index j of a list of 50 words, matched with shape 1×50, is (0, j). -/
theorem reshapeEquiv_ix1_1a (h : S50.numel = S1x50.numel) (j : Fin 50) :
    Shape.reshapeEquiv h (ix1 j) = ix2 (⟨0, Nat.one_pos⟩ : Fin 1) j :=
  Shape.reshapeEquiv_eq_of_rowMajor h (by
    rw [Shape.rowMajor_val_two, Shape.rowMajor_val_one]
    show 0 * 50 + j.val = j.val
    omega)

/-- The gather's payload at (j, e): entry e of the source's row named by word j of the list. -/
theorem gatherPayload_apply (hg : S100000x128.Gathers 0 S50x128) (g : S100000x128.Idx → Elt F .f32)
    (idx : S50.Idx → Elt F .i32) (hn : S50.numel = S50x128.size hg.axis') (hin : ∀ x, (idx x).toNat < S100000x128.size hg.axis)
    (j : Fin 50) (e : Fin 128) :
    SparseCore.gatherPayload hg g (SparseCore.rows idx hn hin) (ix2 j e)
      = g (ix2 (⟨(idx (ix1 j)).toNat, hin (ix1 j)⟩ : Fin 100000) e) := by
  unfold SparseCore.gatherPayload
  refine congrArg g (funext fun b => Fin.ext ?_)
  match b with
  | ⟨0, _⟩ =>
    have h0 := congrArg Fin.val (Shape.Gathers.idx_axis hg (SparseCore.rows idx hn hin) (ix2 j e))
    refine h0.trans ?_
    exact congrArg (fun i => (idx i).toNat) (rowMajor_symm_S50 hn.symm _ j rfl)
  | ⟨1, _⟩ =>
    exact Shape.Gathers.idx_of_ne hg _ _ ⟨1, by decide⟩ (by decide)

/-- Row j, column e of the block row r of the index array gathers. -/
theorem rowsOf_at (idx : IVec S4096x50 32) (tbl : FVec F S100000x128 .f32) (r : Fin 4096) (j : Fin 50) (e : Fin 128) :
    rowsOf (F := F) idx tbl r (ix2 j e) = tbl (ix2 (rowIx (idx (ix2 r j))) e) := by
  have hj : (⟨j.val % 50, Nat.mod_lt _ (by decide)⟩ : Fin 50) = j := Fin.ext (Nat.mod_eq_of_lt j.isLt)
  have he : (⟨e.val % 128, Nat.mod_lt _ (by decide)⟩ : Fin 128) = e := Fin.ext (Nat.mod_eq_of_lt e.isLt)
  show tbl (ix2 (rowIx (idx (ix2 r (⟨j.val % 50, _⟩ : Fin 50)))) (⟨e.val % 128, _⟩ : Fin 128)) = _
  rw [hj, he]

variable (m : (ℓ : Loc nD τ sig) → Buf (Elt F) ℓ)

section Tile

variable (d : Dev nD) (L : grid0.Coords)
variable [FloatOps F] [Facts]

theorem rowOfTask_lt (c : Fin 128) : 128 * (wL L).val + c.val < 4096 := by
  have := (wL L).isLt; have := c.isLt; omega

/-- The task's block of the index array reads, at (c, j), the array at (128 w + c, j). -/
theorem read_iBlkK (f : Buf (Elt F) (iLoc d)) (c : Fin 128) (j : Fin 50) :
    (iBlkK L).view.read (Elt F) f (ix2 c j) = f (ix2 (⟨128 * (wL L).val + c.val, rowOfTask_lt L c⟩ : Fin 4096) j) := by
  have hemb : (iRectK L).emb (ix2 c j) = ix2 (⟨128 * (wL L).val + c.val, rowOfTask_lt L c⟩ : Fin 4096) j := by
    funext a
    apply Fin.ext
    rw [Rect.emb_apply]
    show k0_off1 L a + 1 * (ix2 c j a).val = _
    rw [k0_off1_eq]
    match a with
    | ⟨0, _⟩ => show 256 * (L 1).val + 128 * (L 0).val + 1 * c.val = 128 * (2 * (L 1).val + (L 0).val) + c.val; omega
    | ⟨1, _⟩ => show 0 + 1 * j.val = j.val; omega
  rw [View.read_apply]
  show _root_.cast _ (f ((iRectK L).emb (ix2 c j))) = _
  rw [hemb]
  rfl

/-- The index scratch after the block has landed is the block. -/
theorem sIcOf_eq (fs : Buf (Elt F) ((V d (cV L) (jV L)).loc cc0_scratch0)) :
    sIcOf (F := F) m d L fs = (iBlkK L).view.read (Elt F) (m (iLoc d)) :=
  View.write_whole_univ cc0_scratch0 fs _

/-- The list at row c of the index scratch reads, at j, the scratch at (c, j). -/
theorem read_listK (sIc : Buf (Elt F) ((V d (cV L) (jV L)).loc cc0_scratch0)) (c : Fin 128) (j : Fin 50) :
    (listAt ![c.val, 0] (listInb c.val c.isLt)).view.read (Elt F) sIc (ix1 j) = sIc (ix2 c j) := by
  have hemb : (Rect.unit (s := S128x50) ![c.val, 0] S1x50.size (listInb c.val c.isLt)).emb (ix2 (⟨0, Nat.one_pos⟩ : Fin 1) j) = ix2 c j := by
    funext a
    apply Fin.ext
    rw [Rect.emb_apply]
    match a with
    | ⟨0, _⟩ => show c.val + 1 * 0 = c.val; omega
    | ⟨1, _⟩ => show 0 + 1 * j.val = j.val; omega
  rw [View.read_apply]
  show _root_.cast _ (sIc ((Rect.unit (s := S128x50) ![c.val, 0] S1x50.size (listInb c.val c.isLt)).emb (Shape.reshapeEquiv _ (ix1 j)))) = _
  rw [reshapeEquiv_ix1_1a, hemb]
  rfl

/-- The whole table read through the rectangle of everything is the table. -/
theorem read_xAllK (f : Buf (Elt F) (xLoc d)) : (xAllK).view.read (Elt F) f = f :=
  Memref.read_access_unit_zero (Elt F) main_arg1_scv (funext fun a => by match a with | ⟨0, _⟩ => rfl | ⟨1, _⟩ => rfl) _ f

/-- Every word of the landed index scratch names a row of the table, under the range of the index array. -/
theorem listsOK_of_pre (hpre : PreOK m) (fs : Buf (Elt F) ((V d (cV L) (jV L)).loc cc0_scratch0)) :
    ListsOK (F := F) d L (sIcOf m d L fs) := by
  intro off h x
  rw [sIcOf_eq, View.read_apply, View.read_apply]
  exact hpre d _

/-- THE PAYLOAD: the gather over row c of the landed index scratch lands the block row 128 w + c of the index array gathers. -/
theorem chunkPay_eq (fs : Buf (Elt F) ((V d (cV L) (jV L)).loc cc0_scratch0)) (hl : ListsOK (F := F) d L (sIcOf m d L fs)) (c : Fin 128) :
    chunkPay (F := F) m d L (sIcOf m d L fs) hl ![c.val, 0] (listInb c.val c.isLt)
      = rowsOf (F := F) (m (iLoc d)) (m (xLoc d)) (⟨128 * (wL L).val + c.val, rowOfTask_lt L c⟩ : Fin 4096) := by
  funext y
  obtain ⟨j, e, rfl⟩ : ∃ (j : Fin 50) (e : Fin 128), y = ix2 j e := ⟨y 0, y 1, eq_ix2 y⟩
  have hw : (listAt ![c.val, 0] (listInb c.val c.isLt)).view.read (Elt F) (sIcOf m d L fs) (ix1 j)
      = m (iLoc d) (ix2 (⟨128 * (wL L).val + c.val, rowOfTask_lt L c⟩ : Fin 4096) j) := by
    rw [read_listK, sIcOf_eq, read_iBlkK]
  have hlt := hl ![c.val, 0] (listInb c.val c.isLt) (ix1 j)
  unfold chunkPay
  refine (gatherPayload_apply _ _ _ _ _ j e).trans ?_
  rw [rowsOf_at, read_xAllK]
  refine congrArg (fun n : Fin 100000 => m (xLoc d) (ix2 n e)) (Fin.ext ?_)
  show ((listAt ![c.val, 0] (listInb c.val c.isLt)).view.read (Elt F) (sIcOf m d L fs) (ix1 j)).toNat = _
  rw [hw] at hlt ⊢
  exact (Nat.mod_eq_of_lt hlt).symm

end Tile

end Cert.KernelIdeal.Hand

end
-- ==== Proof.KernelIdeal.ShareJoin.lean ====
/-
  The slots' read shares come home. Each of the eight slots held one share of the index scratch and one of the task's
  token of the table; a slot gives its share of the scratch back as its list's row and the rest, and its piece of the
  table on the whole table's element set. Joined, the eight are the scratch at the full share and the table at the
  task's token.
-/
import proofs.«205252_g82703890252310_cont_sun_m_328_31_alg».proof.Proof.KernelIdeal.Shares
import Idealize.ShloMosaic.Lib.Transfers

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Tile

variable (d : Dev nD) (L : grid0.Coords)

/-- A slot's list row and the rest of its share of the index scratch are that share of the whole scratch. -/
theorem list_rejoin (c : Fin 2 → ℕ) (hc : ∀ a, c a + S1x50.size a ≤ S128x50.size a) (q : PosShare TreeShare)
    (f : Buf (Elt F) ((V d (cV L) (jV L)).loc cc0_scratch0)) :
    iprop(((sI).view.loc (V d (cV L) (jV L)) ↦[(listAt c hc).view.set]{q} f) ∗ ((sI).view.loc (V d (cV L) (jV L)) ↦[Finset.univ \ (listAt c hc).view.set]{q} f))
      ⊢ ((sI).view.loc (V d (cV L) (jV L)) ↦{q} f : sProp 𝕄) :=
  (pointsTo_split_subset (Finset.subset_univ _)).2

/-- The whole table's slice is the whole table. -/
theorem xall_whole (q : PosShare TreeShare) (f : Buf (Elt F) (xLoc d)) :
    (((xV).view.loc (V d (cV L) (jV L)) ↦[(xAllK).view.set]{q} f) : sProp 𝕄) = ((xV).view.loc (V d (cV L) (jV L)) ↦{q} f) := by
  rw [show (xAllK).view.set = Finset.univ from set_xAll _ _]

/-- The eight slots' shares of the index scratch are the full share. -/
theorem sI_join (f : Buf (Elt F) ((V d (cV L) (jV L)).loc cc0_scratch0)) :
    (bigSep Finset.univ fun b : Fin 8 => ((sI).view.loc (V d (cV L) (jV L)) ↦{qsOf b} f) : sProp 𝕄)
      ⊢ ((V d (cV L) (jV L)).loc cc0_scratch0 ↦{fullShare} f) := by
  rw [bigSep_fin8]
  refine BIBase.Entails.trans ?_ (Transfers.pointsTo_toks_join (ℓ := (V d (cV L) (jV L)).loc cc0_scratch0) (S := Finset.univ) (f := f) fullShare 7)
  rw [bigSep_fin7]
  show iprop((((V d (cV L) (jV L)).loc cc0_scratch0) ↦{Transfers.shareDrop fullShare 7} f)
      ∗ (((V d (cV L) (jV L)).loc cc0_scratch0) ↦{Transfers.shareTok fullShare 7 0} f)
      ∗ (((V d (cV L) (jV L)).loc cc0_scratch0) ↦{Transfers.shareTok fullShare 7 1} f)
      ∗ (((V d (cV L) (jV L)).loc cc0_scratch0) ↦{Transfers.shareTok fullShare 7 2} f)
      ∗ (((V d (cV L) (jV L)).loc cc0_scratch0) ↦{Transfers.shareTok fullShare 7 3} f)
      ∗ (((V d (cV L) (jV L)).loc cc0_scratch0) ↦{Transfers.shareTok fullShare 7 4} f)
      ∗ (((V d (cV L) (jV L)).loc cc0_scratch0) ↦{Transfers.shareTok fullShare 7 5} f)
      ∗ (((V d (cV L) (jV L)).loc cc0_scratch0) ↦{Transfers.shareTok fullShare 7 6} f)) ⊢ _
  exact BIBase.Entails.rfl

/-- The eight slots' shares of the task's token of the table are the token. -/
theorem x_join (f : Buf (Elt F) (xLoc d)) :
    (bigSep Finset.univ fun b : Fin 8 => ((xV).view.loc (V d (cV L) (jV L)) ↦{qxOf (L := L) b} f) : sProp 𝕄)
      ⊢ (xLoc d ↦{xq (wL L)} f) := by
  rw [bigSep_fin8]
  refine BIBase.Entails.trans ?_ (Transfers.pointsTo_toks_join (ℓ := xLoc d) (S := Finset.univ) (f := f) (xq (wL L)) 7)
  rw [bigSep_fin7]
  show iprop(((xLoc d) ↦{Transfers.shareTok (xq (wL L)) 7 0} f)
      ∗ ((xLoc d) ↦{Transfers.shareTok (xq (wL L)) 7 1} f)
      ∗ ((xLoc d) ↦{Transfers.shareTok (xq (wL L)) 7 2} f)
      ∗ ((xLoc d) ↦{Transfers.shareTok (xq (wL L)) 7 3} f)
      ∗ ((xLoc d) ↦{Transfers.shareTok (xq (wL L)) 7 4} f)
      ∗ ((xLoc d) ↦{Transfers.shareTok (xq (wL L)) 7 5} f)
      ∗ ((xLoc d) ↦{Transfers.shareTok (xq (wL L)) 7 6} f)
      ∗ ((xLoc d) ↦{Transfers.shareDrop (xq (wL L)) 7} f)) ⊢ _
  iintro ⟨H0, H1, H2, H3, H4, H5, H6, H7⟩
  isplitl [H7]; · iexact H7
  isplitl [H0]; · iexact H0
  isplitl [H1]; · iexact H1
  isplitl [H2]; · iexact H2
  isplitl [H3]; · iexact H3
  isplitl [H4]; · iexact H4
  isplitl [H5]; · iexact H5
  iexact H6

end Tile

end Cert.KernelIdeal.Hand

end
-- ==== Proof.KernelIdeal.OutFacts.lean ====
/-
  The task's block of the bag after the copy-out. The copy writes the accumulator scratch, whole, through the
  task's 128 rows of the bag's array: element (r, e) of the block is the array's (128 w + r, e), w the task's number.
  So if the payload at (r, e) is the bag at (128 w + r, e), the array holds the bag on every element of the block.
-/
import proofs.«205252_g82703890252310_cont_sun_m_328_31_alg».proof.Proof.KernelIdeal.AccFacts
import proofs.«205252_g82703890252310_cont_sun_m_328_31_alg».proof.Proof.KernelIdeal.PayFacts
import Idealize.ShloMosaic.Lib.Exec.Geometry

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

variable (m : (ℓ : Loc nD τ sig) → Buf (Elt F) ℓ)

section Tile

variable (d : Dev nD) (L : grid0.Coords)
variable [FloatOps F] [Facts]

/-- Element (r, e) of the task's block of the bag's array is the array's (128 w + r, e). -/
theorem emb_oBlkK (r e : Fin 128) :
    (oBlkK L).view.emb (ix2 r e) = ix2 (⟨128 * (wL L).val + r.val, bagRow_lt L r⟩ : Fin 4096) e := by
  show (oRectK L).emb (ix2 r e) = _
  funext a
  apply Fin.ext
  rw [Rect.emb_apply]
  show k0_off21 L a + 1 * (ix2 r e a).val = _
  rw [k0_off21_eq]
  match a with
  | ⟨0, _⟩ => show 256 * (L 1).val + 128 * (L 0).val + 1 * r.val = 128 * (2 * (L 1).val + (L 0).val) + r.val; omega
  | ⟨1, _⟩ => show 0 + 1 * e.val = e.val; omega

/-- THE BAG'S BLOCK: a whole write of a payload that is the bag on the task's rows leaves the bag on the block. -/
theorem out_block (fo : Buf (Elt F) (oLoc d)) (pay : S128x128.Idx → Elt F .f32)
    (hpay : ∀ (r e : Fin 128), pay (ix2 r e) = bagK (F := F) (m (iLoc d)) (m (xLoc d)) (ix2 (⟨128 * (wL L).val + r.val, bagRow_lt L r⟩ : Fin 4096) e)) :
    ∀ i ∈ (oBlkK L).view.set, (oBlkK L).view.writes (Elt F) fo [⟨Rect.whole S128x128, pay⟩] i = bagOf (F := F) m d i := by
  intro i hi
  obtain ⟨y, -, rfl⟩ := Finset.mem_map.mp hi
  rw [← View.write_univ_eq_writes_whole, View.writes_nil, View.write_emb_of_mem _ _ (Finset.mem_univ _)]
  obtain ⟨r, e, rfl⟩ : ∃ (r e : Fin 128), y = ix2 r e := ⟨y 0, y 1, eq_ix2 y⟩
  show pay (ix2 r e) = bagOf (F := F) m d ((oBlkK L).view.emb (ix2 r e))
  rw [emb_oBlkK, hpay]
  rfl

/-- THE COPY-OUT of the accumulator scratch with all 128 rows done leaves the bag on the task's block. -/
theorem out_block_of_acc (fo : Buf (Elt F) (oLoc d)) (fs : Buf (Elt F) ((V d (cV L) (jV L)).loc cc0_scratch0))
    (hl : ListsOK (F := F) d L (sIcOf (F := F) m d L fs)) (fa2 : Buf (Elt F) ((V d (cV L) (jV L)).loc cc0_scratch2))
    (h : AccOK (F := F) m d L (sIcOf (F := F) m d L fs) hl 128 fa2) :
    ∀ i ∈ (oBlkK L).view.set,
      (oBlkK L).view.writes (Elt F) fo [⟨Rect.whole S128x128, ReadAs.same.apply ((sA).view.read (Elt F) fa2)⟩] i = bagOf (F := F) m d i :=
  out_block m d L fo _ fun r e =>
    acc_is_bag m d L fs hl fa2 h (fun c => chunkPay_eq m d L fs hl c) r e

end Tile

end Cert.KernelIdeal.Hand

end
-- ==== Proof.KernelIdeal.Core.lean ====
/-
  A task of the first stage, from the pieces it is handed to the pieces it hands back.

  The task copies its 128 rows of the index array into its index scratch, starts the gathers of chunks 0 … 7 into
  the eight slots of its gather scratch, and then runs 128 trips: trip t waits for chunk t in slot t mod 8, sums
  the landed block's 50 rows, writes the sums as row t of the accumulator scratch and starts the gather of chunk
  (t + 8) mod 128 into the same slot. After the last trip the eight extra gathers (chunks 0 … 7 again) are waited
  for and the accumulator scratch is copied out as the task's rows of the bag. Each slot keeps, for the whole
  run, its own read share of the index scratch and of the table, so the eight gathers in flight never contend;
  the invariant of the ring is one assertion per slot, "a gather of the chunk this slot now holds is in flight",
  beside "rows 0 … t − 1 of the accumulator scratch hold their chunks' sums".
-/
import proofs.«205252_g82703890252310_cont_sun_m_328_31_alg».proof.Proof.KernelIdeal.Trip
import proofs.«205252_g82703890252310_cont_sun_m_328_31_alg».proof.Proof.KernelIdeal.Shares
import proofs.«205252_g82703890252310_cont_sun_m_328_31_alg».proof.Proof.KernelIdeal.AccFacts
import proofs.«205252_g82703890252310_cont_sun_m_328_31_alg».proof.Proof.KernelIdeal.PayFacts
import proofs.«205252_g82703890252310_cont_sun_m_328_31_alg».proof.Proof.KernelIdeal.ShareJoin
import proofs.«205252_g82703890252310_cont_sun_m_328_31_alg».proof.Proof.KernelIdeal.OutFacts

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## The ring over the 128 chunks -/

section Tile

variable (d : Dev nD) (L : grid0.Coords)
variable [FloatOps F] [Facts]

/-- The per-slot assertion depends on its offsets only through their values. -/
theorem slotFl_congr (sIc : Buf (Elt F) ((V d (cV L) (jV L)).loc cc0_scratch0))
    {o2 o2' : Fin 3 → ℕ} {h2 : ∀ a, o2 a + S1x50x128.size a ≤ S8x50x128.size a} {h2' : ∀ a, o2' a + S1x50x128.size a ≤ S8x50x128.size a}
    {o3 o3' : Fin 1 → ℕ} {h3 : ∀ a, o3 a + S1.size a ≤ S8.size a} {h3' : ∀ a, o3' a + S1.size a ≤ S8.size a}
    {c c' : Fin 2 → ℕ} {hc : ∀ a, c a + S1x50.size a ≤ S128x50.size a} {hc' : ∀ a, c' a + S1x50.size a ≤ S128x50.size a}
    (e2 : o2 = o2') (e3 : o3 = o3') (ec : c = c') (qs qx : PosShare TreeShare)
    (f0 : Buf (Elt F) ((V d (cV L) (jV L)).loc cc0_scratch1)) (pay : S50x128.Idx → Elt F .f32) (Lold : List (View.Piece (Elt F) S50x128 .f32)) :
    slotFl (F := F) m d L sIc o2 h2 o3 h3 c hc qs qx f0 pay Lold = slotFl (F := F) m d L sIc o2' h2' o3' h3' c' hc' qs qx f0 pay Lold := by
  subst e2; subst e3; subst ec; rfl

/-- A chunk's payload depends on its list's offsets only through their values. -/
theorem chunkPay_congr (sIc : Buf (Elt F) ((V d (cV L) (jV L)).loc cc0_scratch0)) (hl : ListsOK (F := F) d L sIc)
    {c c' : Fin 2 → ℕ} {hc : ∀ a, c a + S1x50.size a ≤ S128x50.size a} {hc' : ∀ a, c' a + S1x50.size a ≤ S128x50.size a} (e : c = c') :
    chunkPay (F := F) m d L sIc hl c hc = chunkPay (F := F) m d L sIc hl c' hc' := by
  subst e; rfl

/-- Slot b with a gather in flight for chunk n, landing that chunk's block. -/
def slotOf (sIc : Buf (Elt F) ((V d (cV L) (jV L)).loc cc0_scratch0)) (hl : ListsOK (F := F) d L sIc) (b : Fin 8) (n : ℕ) (hn : n < 128) : sProp 𝕄 :=
  iprop(∃ (f0 : Buf (Elt F) ((V d (cV L) (jV L)).loc cc0_scratch1)) (pay : S50x128.Idx → Elt F .f32) (Lold : List (View.Piece (Elt F) S50x128 .f32)),
    ⌜pay = chunkPay (F := F) m d L sIc hl ![n, 0] (listInb n hn)⌝
    ∗ slotFl (F := F) m d L sIc ![b.val, 0, 0] (slotInb b.val b.isLt) ![b.val] (ringInb b.val b.isLt)
        ![n, 0] (listInb n hn) (qsOf b) (qxOf (L := L) b) f0 pay Lold)

theorem slotOf_eq (sIc : Buf (Elt F) ((V d (cV L) (jV L)).loc cc0_scratch0)) (hl : ListsOK (F := F) d L sIc) (b : Fin 8) (n : ℕ) (hn : n < 128) :
    slotOf (F := F) m d L sIc hl b n hn
      = iprop(∃ (f0 : Buf (Elt F) ((V d (cV L) (jV L)).loc cc0_scratch1)) (pay : S50x128.Idx → Elt F .f32) (Lold : List (View.Piece (Elt F) S50x128 .f32)),
          ⌜pay = chunkPay (F := F) m d L sIc hl ![n, 0] (listInb n hn)⌝
          ∗ slotFl (F := F) m d L sIc ![b.val, 0, 0] (slotInb b.val b.isLt) ![b.val] (ringInb b.val b.isLt)
              ![n, 0] (listInb n hn) (qsOf b) (qxOf (L := L) b) f0 pay Lold) := rfl

theorem slotOf_congr (sIc : Buf (Elt F) ((V d (cV L) (jV L)).loc cc0_scratch0)) (hl : ListsOK (F := F) d L sIc) (b : Fin 8) {n n' : ℕ} {hn : n < 128} {hn' : n' < 128}
    (e : n = n') : slotOf (F := F) m d L sIc hl b n hn = slotOf (F := F) m d L sIc hl b n' hn' := by
  subst e; rfl

theorem slotFl_eq (sIc : Buf (Elt F) ((V d (cV L) (jV L)).loc cc0_scratch0))
    (o2 : Fin 3 → ℕ) (h2 : ∀ a, o2 a + S1x50x128.size a ≤ S8x50x128.size a) (o3 : Fin 1 → ℕ) (h3 : ∀ a, o3 a + S1.size a ≤ S8.size a)
    (c : Fin 2 → ℕ) (hc : ∀ a, c a + S1x50.size a ≤ S128x50.size a) (qs qx : PosShare TreeShare)
    (f0 : Buf (Elt F) ((V d (cV L) (jV L)).loc cc0_scratch1)) (pay : S50x128.Idx → Elt F .f32) (Lold : List (View.Piece (Elt F) S50x128 .f32)) :
    slotFl (F := F) m d L sIc o2 h2 o3 h3 c hc qs qx f0 pay Lold
      = iprop(Transfers.Flight countersEmb (V d (cV L) (jV L)) (SemLoc.dma (ringSemAt o3 h3)) (default : HIx 1) 204800
          (iprop((((slotAt o2 h2).view.loc (V d (cV L) (jV L)) ↦[(slotAt o2 h2).view.set]{fullShare}
                  (slotAt o2 h2).view.writes (Elt F) f0 (⟨Rect.whole S50x128, pay⟩ :: Lold))
                ∗ ((sI).view.loc (V d (cV L) (jV L)) ↦[(listAt c hc).view.set]{qs} sIc))
              ∗ ((xV).view.loc (V d (cV L) (jV L)) ↦[(xAllK).view.set]{qx} m (xLoc d))))
        ∗ ((sI).view.loc (V d (cV L) (jV L)) ↦[Finset.univ \ (listAt c hc).view.set]{qs} sIc)) := rfl

/-- Before trip t slot b is in flight for the chunk it then holds. -/
abbrev slotAtTrip (sIc : Buf (Elt F) ((V d (cV L) (jV L)).loc cc0_scratch0)) (hl : ListsOK (F := F) d L sIc) (t : ℕ) (b : Fin 8) : sProp 𝕄 :=
  slotOf (F := F) m d L sIc hl b (chunkOf t b) (chunkOf_lt t b)

/-- Before trip t: rows 0 … t−1 of the accumulator scratch done; every slot in flight for its chunk; the thread's
    debt unchanged, its recorded waits beyond the launch's all at the kernel's own index. -/
def inv1 (O : CellTallies nD τ sig (HIx 1)) (W : Waits sig (HIx 1)) (sIc : Buf (Elt F) ((V d (cV L) (jV L)).loc cc0_scratch0)) (hl : ListsOK (F := F) d L sIc)
    (t : ℕ) (_ : PUnit) : sProp 𝕄 :=
  iprop(levAts (K (F := F)).L (K (F := F)).lev
    ∗ (∃ fa, ((sA).view.loc (V d (cV L) (jV L)) ↦{fullShare} fa) ∗ ⌜AccOK (F := F) m d L sIc hl t fa⌝)
    ∗ (bigSep Finset.univ fun b : Fin 8 => slotAtTrip (F := F) m d L sIc hl t b)
    ∗ ∃ W', ⌜∀ p ∈ W', p ∈ W ∨ p.2 = none⌝ ∗ owes (V d (cV L) (jV L)) O W')

set_option maxHeartbeats 16000000 in
/-- The task from its pieces to its pieces: the index block copied in, the eight gathers started, the 128 trips of the
    ring, the eight extra gathers drained, the accumulator scratch copied out as the task's rows of the bag. -/
theorem tile_core (hF : (K (F := F)).Facts) (hpre : PreOK m)
    (O : CellTallies nD τ sig (HIx 1)) (W : Waits sig (HIx 1)) (hO : ∀ g, O g none = 0)
    (fo : Buf (Elt F) (oLoc d)) (fs : Buf (Elt F) ((V d (cV L) (jV L)).loc cc0_scratch0))
    (fg : Buf (Elt F) ((V d (cV L) (jV L)).loc cc0_scratch1)) (fa : Buf (Elt F) ((V d (cV L) (jV L)).loc cc0_scratch2)) :
    (iprop(levAts (K (F := F)).L (K (F := F)).lev
        ∗ (iLoc d ↦[iBlkSet (wL L)]{fullShare} m (iLoc d))
        ∗ (xLoc d ↦{xq (wL L)} m (xLoc d))
        ∗ (oLoc d ↦[oBlkSet (wL L)]{fullShare} fo)
        ∗ ((V d (cV L) (jV L)).loc cc0_scratch0 ↦{fullShare} fs)
        ∗ ((V d (cV L) (jV L)).loc cc0_scratch1 ↦{fullShare} fg)
        ∗ ((V d (cV L) (jV L)).loc cc0_scratch2 ↦{fullShare} fa)
        ∗ semVal (cellA d L) 0 ∗ semVal (cellB d L) 0
        ∗ (bigSep Finset.univ fun b : Fin 8 => semVal (ringCell d L b) 0)
        ∗ owes (V d (cV L) (jV L)) O W) : sProp 𝕄)
      ⊢ wp frame (wpE (defs₀ (F := F)) 𝒱₀ (V d (cV L) (jV L)) none) Set.univ
          (cc0_body L iV (Memref.isWhole_whole _) xV (Memref.isWhole_whole _) oV (Memref.isWhole_whole _)
            sI (Memref.isWhole_whole _) sG (Memref.isWhole_whole _) sA (Memref.isWhole_whole _) cc0_scratch3 cc0_scoped0 cc0_scoped1)
          fun _ => iprop((iLoc d ↦[iBlkSet (wL L)]{fullShare} m (iLoc d)) ∗ (xLoc d ↦{xq (wL L)} m (xLoc d)) ∗ (oLoc d ↦[oBlkSet (wL L)]{fullShare} bagOf m d)
            ∗ (∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f)
            ∗ semVal (cellA d L) 0 ∗ semVal (cellB d L) 0 ∗ (bigSep Finset.univ fun b : Fin 8 => semVal (ringCell d L b) 0)
            ∗ ∃ W', ⌜∀ p ∈ W', p ∈ W ∨ p.2 = none⌝ ∗ owes (V d (cV L) (jV L)) O W') := by
  have hl0 : ∀ fs, ListsOK (F := F) d L (sIcOf (F := F) m d L fs) := fun fs => listsOK_of_pre (F := F) m d L hpre fs
  have hstep : ∀ (sIc) (hl : ListsOK (F := F) d L sIc) (t : Fin k0_t1_loop.trips) (fa) (h : AccOK (F := F) m d L sIc hl t.val fa) (pay)
      (hpay : pay = chunkPay (F := F) m d L sIc hl ![t.val, 0] (listInb t.val (lt_of_lt_of_le t.isLt k0_t1_abs.2.1))),
      AccOK (F := F) m d L sIc hl (t.val + 1) (accAfter (F := F) d L t fa pay) :=
    fun sIc hl t fa h pay hpay => accOK_step (F := F) m d L sIc hl t fa h pay hpay
  simp only [cc0_body_eq_skeleton]; unfold cc0_body_skel
  rw [bigSep_fin8]
  iintro ⟨#Hlv, Hi, Hx, Ho, Hs, Hg, Ha, HsemA, HsemB, ⟨Hc0, Hc1, Hc2, Hc3, Hc4, Hc5, Hc6, Hc7⟩, HO⟩
  ihave Hmw := (show (levAts (K (F := F)).L (K (F := F)).lev : sProp 𝕄) ⊢ Transfers.MayWaits (V d (cV L) (jV L)) (default : HIx 1) O from
    (K (F := F)).mayWaits_none (thr := V d (cV L) (jV L)) hO) $$ Hlv
  ihave Hi' := (Entails.of_eq (pts_iBlkK (F := F) d L _).symm) $$ Hi
  ihave Ho' := (Entails.of_eq (pts_oBlkK (F := F) d L _).symm) $$ Ho
  ihave Hx' := (Entails.of_eq (pts_xV (F := F) d L _ _).symm) $$ Hx
  ihave Hs' := (Entails.of_eq (show ((sI).view.loc (V d (cV L) (jV L)) ↦{fullShare} fs : sProp 𝕄) = (V d (cV L) (jV L)).loc cc0_scratch0 ↦{fullShare} fs from rfl).symm) $$ Hs
  ihave Ha' := (Entails.of_eq (show ((sA).view.loc (V d (cV L) (jV L)) ↦{fullShare} fa : sProp 𝕄) = (V d (cV L) (jV L)).loc cc0_scratch2 ↦{fullShare} fa from rfl).symm) $$ Ha
  -- the index block in
  sl_exec
  have hl : ListsOK (F := F) d L (sIcOf (F := F) m d L fs) := hl0 fs
  have hin : ∀ (off : Fin 2 → ℕ) (h : ∀ a, off a + S1x50.size a ≤ S128x50.size a) (x : S50.Idx),
      ((listAt off h).view.read (Elt F) (View.write (Elt F) (sI).view fs (tile_core.sl.dma0 m d L) Finset.univ) x).toNat < 100000 := hl
  -- eight read shares of the table, eight of the index scratch, the eight slots
  ihave Hxs := (Transfers.pointsTo_toks_split (xq (wL L)) 7) $$ Hx'
  icases Hxs with ⟨Hx7, Hxs⟩
  ihave Hxs' := (Entails.of_eq (bigSep_fin7 _)) $$ Hxs
  icases Hxs' with ⟨Hx0, Hx1, Hx2, Hx3, Hx4, Hx5, Hx6⟩
  ihave Hss := (Transfers.pointsTo_toks_split fullShare 7) $$ Hs'
  icases Hss with ⟨Hs7, Hss⟩
  ihave Hss' := (Entails.of_eq (bigSep_fin7 _)) $$ Hss
  icases Hss' with ⟨Hs0, Hs1, Hs2, Hs3, Hs4, Hs5, Hs6⟩
  ihave Hgs := (slots_split (F := F) d L fg) $$ Hg
  ihave Hgs' := (Entails.of_eq (bigSep_fin8 _)) $$ Hgs
  icases Hgs' with ⟨Hg0, Hg1, Hg2, Hg3, Hg4, Hg5, Hg6, Hg7⟩
  sl_exec
  sl_for (inv1 (F := F) m d L O (insert (SemLoc.dma cc0_scoped0.sem, (default : HIx 1)) W) (sIcOf (F := F) m d L fs) hl) $$ [Ha' HO Hc0 Hc1 Hc2 Hc3 Hc4 Hc5 Hc6 Hc7 Hs7 Hs0 Hs1 Hs2 Hs3 Hs4 Hs5 Hs6]
  case region =>
    intro k _
    have hk : k.val < 128 := lt_of_lt_of_le k.isLt k0_t1_abs.2.1
    unfold inv1
    iintro ⟨#Hlv, ⟨%fa1, Ha, %hacc⟩, Hslots, %W', %hW', HO⟩
    -- slot k mod 8 apart from the other seven
    ihave Hsl := (Entails.of_eq (SparseCore.bigSep_erase' (Finset.mem_univ (⟨k.val % 8, Nat.mod_lt _ (by decide)⟩ : Fin 8)))) $$ Hslots
    icases Hsl with ⟨Hb, Hrest⟩
    ihave Hb1 := (Entails.of_eq (slotOf_eq (F := F) m d L _ hl _ _ _)) $$ Hb
    icases Hb1 with ⟨%f0, %pay, %Lold, %hpay, Hb2⟩
    -- spelt through the trip's own offsets
    ihave Hb3 := (Entails.of_eq (slotFl_congr (F := F) m d L _ (k0_off2_eq k).symm (k0_off3_eq k).symm rfl _ _ f0 pay Lold)) $$ Hb2
    iapply (wp_wand_r frame _ _)
    isplitl [Hb3 Ha HO]
    · iapply (trip (F := F) m d L k O W' hO _ hl ![chunkOf k.val ⟨k.val % 8, Nat.mod_lt _ (by decide)⟩, 0] (listInb _ (chunkOf_lt _ _)) _ _ f0 pay Lold fa1)
      isplitr; · iexact Hlv
      isplitl [Hb3]; · iexact Hb3
      isplitl [Ha]; · iexact Ha
      iexact HO
    iintro %_ ⟨⟨%pay', %hpay', Hb'⟩, Ha, HO⟩
    isplitr; · iexact Hlv
    isplitl [Ha]
    · iexists _; isplitl [Ha]; · iexact Ha
      ipureintro
      exact hstep _ hl k fa1 hacc pay (hpay.trans (chunkPay_congr (F := F) m d L _ hl (by rw [chunkOf_here k.val hk])))
    isplitl [Hb' Hrest]
    · rw [SparseCore.bigSep_erase' (Finset.mem_univ (⟨k.val % 8, Nat.mod_lt _ (by decide)⟩ : Fin 8))]
      isplitl [Hb']
      · -- the slot, now in flight for chunk (k + 8) mod 128
        iapply (Entails.of_eq (slotOf_congr (F := F) m d L _ hl _ (chunkOf_next k.val)).symm)
        iapply (Entails.of_eq (slotOf_eq (F := F) m d L _ hl _ _ (Nat.mod_lt _ (by decide))).symm)
        iexists _, pay', _
        isplitr
        swap
        · iapply (Entails.of_eq (slotFl_congr (F := F) m d L _ (k0_off2_eq k) (k0_off3_eq k) (k0_off20_eq k) _ _ _ pay' _))
          iexact Hb'
        · ipureintro; exact hpay'.trans (chunkPay_congr (F := F) m d L _ hl (k0_off20_eq k))
      · -- the other seven hold the chunks they held
        iapply (Entails.of_eq (bigSep_congr fun b hb =>
          slotOf_congr (F := F) m d L _ hl b (chunkOf_other k.val b (fun e => (Finset.mem_erase.mp hb).1 (Fin.ext e))).symm))
        iexact Hrest
    · iexists (insert (SemLoc.dma (ringSemAt (k0_off3 k) (k0_off3_inb k)), (default : HIx 1)) W'); isplitr
      · ipureintro; intro p hp; rcases Finset.mem_insert.mp hp with hp | hp
        · exact .inr (by subst hp; rfl)
        · exact hW' p hp
      · iexact HO
  · unfold inv1
    isplitr; · iexact Hlv
    isplitl [Ha']
    · iexists _; isplitl [Ha']; · iexact Ha'
      ipureintro; intro r e hr; exact absurd hr (Nat.not_lt_zero _)
    isplitr [HO]
    · rw [bigSep_fin8]
      isplitl [Hc0 Hs7]
      · iapply (Entails.of_eq (slotOf_eq (F := F) m d L _ hl _ _ _).symm)
        iexists _, _, _
        isplitr
        swap
        · iapply (Entails.of_eq (slotFl_eq (F := F) m d L _ _ _ _ _ _ _ _ _ _ _ _).symm)
          isplitl [Hc0]; · iexact Hc0
          iexact Hs7
        · ipureintro; rfl
      isplitl [Hc1 Hs0]
      · iapply (Entails.of_eq (slotOf_eq (F := F) m d L _ hl _ _ _).symm)
        iexists _, _, _
        isplitr
        swap
        · iapply (Entails.of_eq (slotFl_eq (F := F) m d L _ _ _ _ _ _ _ _ _ _ _ _).symm)
          isplitl [Hc1]; · iexact Hc1
          iexact Hs0
        · ipureintro; rfl
      isplitl [Hc2 Hs1]
      · iapply (Entails.of_eq (slotOf_eq (F := F) m d L _ hl _ _ _).symm)
        iexists _, _, _
        isplitr
        swap
        · iapply (Entails.of_eq (slotFl_eq (F := F) m d L _ _ _ _ _ _ _ _ _ _ _ _).symm)
          isplitl [Hc2]; · iexact Hc2
          iexact Hs1
        · ipureintro; rfl
      isplitl [Hc3 Hs2]
      · iapply (Entails.of_eq (slotOf_eq (F := F) m d L _ hl _ _ _).symm)
        iexists _, _, _
        isplitr
        swap
        · iapply (Entails.of_eq (slotFl_eq (F := F) m d L _ _ _ _ _ _ _ _ _ _ _ _).symm)
          isplitl [Hc3]; · iexact Hc3
          iexact Hs2
        · ipureintro; rfl
      isplitl [Hc4 Hs3]
      · iapply (Entails.of_eq (slotOf_eq (F := F) m d L _ hl _ _ _).symm)
        iexists _, _, _
        isplitr
        swap
        · iapply (Entails.of_eq (slotFl_eq (F := F) m d L _ _ _ _ _ _ _ _ _ _ _ _).symm)
          isplitl [Hc4]; · iexact Hc4
          iexact Hs3
        · ipureintro; rfl
      isplitl [Hc5 Hs4]
      · iapply (Entails.of_eq (slotOf_eq (F := F) m d L _ hl _ _ _).symm)
        iexists _, _, _
        isplitr
        swap
        · iapply (Entails.of_eq (slotFl_eq (F := F) m d L _ _ _ _ _ _ _ _ _ _ _ _).symm)
          isplitl [Hc5]; · iexact Hc5
          iexact Hs4
        · ipureintro; rfl
      isplitl [Hc6 Hs5]
      · iapply (Entails.of_eq (slotOf_eq (F := F) m d L _ hl _ _ _).symm)
        iexists _, _, _
        isplitr
        swap
        · iapply (Entails.of_eq (slotFl_eq (F := F) m d L _ _ _ _ _ _ _ _ _ _ _ _).symm)
          isplitl [Hc6]; · iexact Hc6
          iexact Hs5
        · ipureintro; rfl
      · iapply (Entails.of_eq (slotOf_eq (F := F) m d L _ hl _ _ _).symm)
        iexists _, _, _
        isplitr
        swap
        · iapply (Entails.of_eq (slotFl_eq (F := F) m d L _ _ _ _ _ _ _ _ _ _ _ _).symm)
          isplitl [Hc7]; · iexact Hc7
          iexact Hs6
        · ipureintro; rfl
    · iexists _; isplitr
      · ipureintro; intro p hp; exact .inl hp
      · iexact HO
  iintro %_ HI
  unfold inv1
  icases HI with ⟨-, ⟨%fa2, Ha, %hacc⟩, Hslots, %W', %hW', HO⟩
  ihave Hs8 := (Entails.of_eq (bigSep_fin8 _)) $$ Hslots
  icases Hs8 with ⟨S0, S1, S2, S3, S4, S5, S6, S7⟩
  ihave T0 := (Entails.of_eq (slotOf_eq (F := F) m d L _ hl _ _ _)) $$ S0
  icases T0 with ⟨%f0_0, %p_0, %L_0, %hp_0, U0⟩
  ihave V0 := (Entails.of_eq ((slotFl_congr (F := F) m d L _ (h2' := slotInb 0 (by decide)) (hc' := listInb _ (chunkOf_lt _ _)) (h3' := ringInb 0 (by decide))
    (show (![(0 : Fin 8).val, 0, 0] : Fin 3 → ℕ) = ![0, 0, 0] from rfl) (show (![(0 : Fin 8).val] : Fin 1 → ℕ) = ![0] from rfl) rfl _ _ _ _ _).trans
    (slotFl_eq (F := F) m d L _ _ _ _ _ _ _ _ _ _ _ _))) $$ U0
  icases V0 with ⟨Hc0, Hl0⟩
  ihave T1 := (Entails.of_eq (slotOf_eq (F := F) m d L _ hl _ _ _)) $$ S1
  icases T1 with ⟨%f0_1, %p_1, %L_1, %hp_1, U1⟩
  ihave V1 := (Entails.of_eq ((slotFl_congr (F := F) m d L _ (h2' := slotInb 1 (by decide)) (hc' := listInb _ (chunkOf_lt _ _)) (h3' := ringInb 1 (by decide))
    (show (![(1 : Fin 8).val, 0, 0] : Fin 3 → ℕ) = ![1, 0, 0] from rfl) (show (![(1 : Fin 8).val] : Fin 1 → ℕ) = ![1] from rfl) rfl _ _ _ _ _).trans
    (slotFl_eq (F := F) m d L _ _ _ _ _ _ _ _ _ _ _ _))) $$ U1
  icases V1 with ⟨Hc1, Hl1⟩
  ihave T2 := (Entails.of_eq (slotOf_eq (F := F) m d L _ hl _ _ _)) $$ S2
  icases T2 with ⟨%f0_2, %p_2, %L_2, %hp_2, U2⟩
  ihave V2 := (Entails.of_eq ((slotFl_congr (F := F) m d L _ (h2' := slotInb 2 (by decide)) (hc' := listInb _ (chunkOf_lt _ _)) (h3' := ringInb 2 (by decide))
    (show (![(2 : Fin 8).val, 0, 0] : Fin 3 → ℕ) = ![2, 0, 0] from rfl) (show (![(2 : Fin 8).val] : Fin 1 → ℕ) = ![2] from rfl) rfl _ _ _ _ _).trans
    (slotFl_eq (F := F) m d L _ _ _ _ _ _ _ _ _ _ _ _))) $$ U2
  icases V2 with ⟨Hc2, Hl2⟩
  ihave T3 := (Entails.of_eq (slotOf_eq (F := F) m d L _ hl _ _ _)) $$ S3
  icases T3 with ⟨%f0_3, %p_3, %L_3, %hp_3, U3⟩
  ihave V3 := (Entails.of_eq ((slotFl_congr (F := F) m d L _ (h2' := slotInb 3 (by decide)) (hc' := listInb _ (chunkOf_lt _ _)) (h3' := ringInb 3 (by decide))
    (show (![(3 : Fin 8).val, 0, 0] : Fin 3 → ℕ) = ![3, 0, 0] from rfl) (show (![(3 : Fin 8).val] : Fin 1 → ℕ) = ![3] from rfl) rfl _ _ _ _ _).trans
    (slotFl_eq (F := F) m d L _ _ _ _ _ _ _ _ _ _ _ _))) $$ U3
  icases V3 with ⟨Hc3, Hl3⟩
  ihave T4 := (Entails.of_eq (slotOf_eq (F := F) m d L _ hl _ _ _)) $$ S4
  icases T4 with ⟨%f0_4, %p_4, %L_4, %hp_4, U4⟩
  ihave V4 := (Entails.of_eq ((slotFl_congr (F := F) m d L _ (h2' := slotInb 4 (by decide)) (hc' := listInb _ (chunkOf_lt _ _)) (h3' := ringInb 4 (by decide))
    (show (![(4 : Fin 8).val, 0, 0] : Fin 3 → ℕ) = ![4, 0, 0] from rfl) (show (![(4 : Fin 8).val] : Fin 1 → ℕ) = ![4] from rfl) rfl _ _ _ _ _).trans
    (slotFl_eq (F := F) m d L _ _ _ _ _ _ _ _ _ _ _ _))) $$ U4
  icases V4 with ⟨Hc4, Hl4⟩
  ihave T5 := (Entails.of_eq (slotOf_eq (F := F) m d L _ hl _ _ _)) $$ S5
  icases T5 with ⟨%f0_5, %p_5, %L_5, %hp_5, U5⟩
  ihave V5 := (Entails.of_eq ((slotFl_congr (F := F) m d L _ (h2' := slotInb 5 (by decide)) (hc' := listInb _ (chunkOf_lt _ _)) (h3' := ringInb 5 (by decide))
    (show (![(5 : Fin 8).val, 0, 0] : Fin 3 → ℕ) = ![5, 0, 0] from rfl) (show (![(5 : Fin 8).val] : Fin 1 → ℕ) = ![5] from rfl) rfl _ _ _ _ _).trans
    (slotFl_eq (F := F) m d L _ _ _ _ _ _ _ _ _ _ _ _))) $$ U5
  icases V5 with ⟨Hc5, Hl5⟩
  ihave T6 := (Entails.of_eq (slotOf_eq (F := F) m d L _ hl _ _ _)) $$ S6
  icases T6 with ⟨%f0_6, %p_6, %L_6, %hp_6, U6⟩
  ihave V6 := (Entails.of_eq ((slotFl_congr (F := F) m d L _ (h2' := slotInb 6 (by decide)) (hc' := listInb _ (chunkOf_lt _ _)) (h3' := ringInb 6 (by decide))
    (show (![(6 : Fin 8).val, 0, 0] : Fin 3 → ℕ) = ![6, 0, 0] from rfl) (show (![(6 : Fin 8).val] : Fin 1 → ℕ) = ![6] from rfl) rfl _ _ _ _ _).trans
    (slotFl_eq (F := F) m d L _ _ _ _ _ _ _ _ _ _ _ _))) $$ U6
  icases V6 with ⟨Hc6, Hl6⟩
  ihave T7 := (Entails.of_eq (slotOf_eq (F := F) m d L _ hl _ _ _)) $$ S7
  icases T7 with ⟨%f0_7, %p_7, %L_7, %hp_7, U7⟩
  ihave V7 := (Entails.of_eq ((slotFl_congr (F := F) m d L _ (h2' := slotInb 7 (by decide)) (hc' := listInb _ (chunkOf_lt _ _)) (h3' := ringInb 7 (by decide))
    (show (![(7 : Fin 8).val, 0, 0] : Fin 3 → ℕ) = ![7, 0, 0] from rfl) (show (![(7 : Fin 8).val] : Fin 1 → ℕ) = ![7] from rfl) rfl _ _ _ _ _).trans
    (slotFl_eq (F := F) m d L _ _ _ _ _ _ _ _ _ _ _ _))) $$ U7
  icases V7 with ⟨Hc7, Hl7⟩
  -- the eight extra gathers drained, the accumulator scratch out to the bag
  sl_exec
  sl_step
  -- the leftovers on empty sets are of no use
  icases Hx0 with -
  icases Hg0 with -
  icases Hx1 with -
  icases Hg1 with -
  icases Hx2 with -
  icases Hg2 with -
  icases Hx3 with -
  icases Hg3 with -
  icases Hx4 with -
  icases Hg4 with -
  icases Hx5 with -
  icases Hg5 with -
  icases Hx6 with -
  icases Hg6 with -
  icases Hx7 with -
  icases Hg7 with -
  -- each slot gives back its scratch piece and its list's row
  icases Hc0_dst with ⟨Hd0, Hr0⟩
  icases Hc1_dst with ⟨Hd1, Hr1⟩
  icases Hc2_dst with ⟨Hd2, Hr2⟩
  icases Hc3_dst with ⟨Hd3, Hr3⟩
  icases Hc4_dst with ⟨Hd4, Hr4⟩
  icases Hc5_dst with ⟨Hd5, Hr5⟩
  icases Hc6_dst with ⟨Hd6, Hr6⟩
  icases Hc7_dst with ⟨Hd7, Hr7⟩
  -- each slot's share of the index scratch, whole again
  ihave Hq0 := (list_rejoin (F := F) d L _ _ _ _) $$ [Hr0 Hl0]
  · isplitl [Hr0] <;> iassumption
  ihave Hq1 := (list_rejoin (F := F) d L _ _ _ _) $$ [Hr1 Hl1]
  · isplitl [Hr1] <;> iassumption
  ihave Hq2 := (list_rejoin (F := F) d L _ _ _ _) $$ [Hr2 Hl2]
  · isplitl [Hr2] <;> iassumption
  ihave Hq3 := (list_rejoin (F := F) d L _ _ _ _) $$ [Hr3 Hl3]
  · isplitl [Hr3] <;> iassumption
  ihave Hq4 := (list_rejoin (F := F) d L _ _ _ _) $$ [Hr4 Hl4]
  · isplitl [Hr4] <;> iassumption
  ihave Hq5 := (list_rejoin (F := F) d L _ _ _ _) $$ [Hr5 Hl5]
  · isplitl [Hr5] <;> iassumption
  ihave Hq6 := (list_rejoin (F := F) d L _ _ _ _) $$ [Hr6 Hl6]
  · isplitl [Hr6] <;> iassumption
  ihave Hq7 := (list_rejoin (F := F) d L _ _ _ _) $$ [Hr7 Hl7]
  · isplitl [Hr7] <;> iassumption
  -- each slot's share of the table, on every index again
  ihave Hy0 := (Entails.of_eq (xall_whole (F := F) d L _ _)) $$ Hc0_src
  ihave Hy1 := (Entails.of_eq (xall_whole (F := F) d L _ _)) $$ Hc1_src
  ihave Hy2 := (Entails.of_eq (xall_whole (F := F) d L _ _)) $$ Hc2_src
  ihave Hy3 := (Entails.of_eq (xall_whole (F := F) d L _ _)) $$ Hc3_src
  ihave Hy4 := (Entails.of_eq (xall_whole (F := F) d L _ _)) $$ Hc4_src
  ihave Hy5 := (Entails.of_eq (xall_whole (F := F) d L _ _)) $$ Hc5_src
  ihave Hy6 := (Entails.of_eq (xall_whole (F := F) d L _ _)) $$ Hc6_src
  ihave Hy7 := (Entails.of_eq (xall_whole (F := F) d L _ _)) $$ Hc7_src
  have h128 : Scf.trips k0_t1_loop.lb k0_t1_loop.ub k0_t1_loop.st = 128 := by decide
  isplitl [Hi']; · iapply (Entails.of_eq (pts_iBlkK (F := F) d L _)); iexact Hi'
  isplitl [Hy0 Hy1 Hy2 Hy3 Hy4 Hy5 Hy6 Hy7]
  · iapply (x_join (F := F) d L _)
    rw [bigSep_fin8]
    isplitl [Hy0]; · iexact Hy0
    isplitl [Hy1]; · iexact Hy1
    isplitl [Hy2]; · iexact Hy2
    isplitl [Hy3]; · iexact Hy3
    isplitl [Hy4]; · iexact Hy4
    isplitl [Hy5]; · iexact Hy5
    isplitl [Hy6]; · iexact Hy6
    iexact Hy7
  isplitl [Ho']
  · iapply (Entails.of_eq (pts_oBlkK (F := F) d L _))
    iapply (Entails.of_eq (pointsTo_congr (out_block_of_acc (F := F) m d L fo fs hl fa2 (h128 ▸ hacc))))
    iexact Ho'
  isplitl [Hq0 Hq1 Hq2 Hq3 Hq4 Hq5 Hq6 Hq7]
  · iexists _
    iapply (sI_join (F := F) d L _)
    rw [bigSep_fin8]
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    iexact Hq7
  isplitl [Hd0 Hd1 Hd2 Hd3 Hd4 Hd5 Hd6 Hd7]
  · iapply (slots_join (F := F) d L)
    rw [bigSep_fin8]
    isplitl [Hd0]; · (iexists _; iexact Hd0)
    isplitl [Hd1]; · (iexists _; iexact Hd1)
    isplitl [Hd2]; · (iexists _; iexact Hd2)
    isplitl [Hd3]; · (iexists _; iexact Hd3)
    isplitl [Hd4]; · (iexists _; iexact Hd4)
    isplitl [Hd5]; · (iexists _; iexact Hd5)
    isplitl [Hd6]; · (iexists _; iexact Hd6)
    (iexists _; iexact Hd7)
  isplitl [Ha]; · iexists _; iexact Ha
  isplitl [HsemA]; · iexact HsemA
  isplitl [HsemB]; · iexact HsemB
  isplitl [Hc0 Hc1 Hc2 Hc3 Hc4 Hc5 Hc6 Hc7]
  · first | rw [bigSep_fin8] | skip
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    iexact Hc7
  iexists _; isplitr
  swap; · iexact HO
  ipureintro; intro p hp
  rcases Finset.mem_insert.mp hp with hp | hp; · exact .inr (by subst hp; rfl)
  rcases Finset.mem_insert.mp hp with hp | hp; · exact .inr (by subst hp; rfl)
  rcases Finset.mem_insert.mp hp with hp | hp; · exact .inr (by subst hp; rfl)
  rcases Finset.mem_insert.mp hp with hp | hp; · exact .inr (by subst hp; rfl)
  rcases Finset.mem_insert.mp hp with hp | hp; · exact .inr (by subst hp; rfl)
  rcases Finset.mem_insert.mp hp with hp | hp; · exact .inr (by subst hp; rfl)
  rcases Finset.mem_insert.mp hp with hp | hp; · exact .inr (by subst hp; rfl)
  rcases Finset.mem_insert.mp hp with hp | hp; · exact .inr (by subst hp; rfl)
  rcases Finset.mem_insert.mp hp with hp | hp; · exact .inr (by subst hp; rfl)
  rcases hW' p hp with h | h
  · rcases Finset.mem_insert.mp h with h | h
    · exact .inr (by subst h; rfl)
    · exact .inl h
  · exact .inr h

end Tile

end Cert.KernelIdeal.Hand

end
-- ==== Proof.KernelIdeal.Body.lean ====
/-
  From the task's run to the launch theorem's obligation for a tile.

  The launch theorem hands a tile what the call's handshake carries (its rows of the index array,
  its token of the table, its rows of the bag), its scoped buffers at some contents and its scoped
  semaphores at zero. The tile's scoped buffers are its three scratch buffers and the rest; its
  scoped semaphores the two block copies' cells, the ring's eight and the rest. The task's run uses
  the three scratch buffers and the ten cells and leaves the rest untouched: framed around the run,
  the rest goes back as it came, and the scratch buffers and cells go back at some contents and at
  zero.
-/
import proofs.«205252_g82703890252310_cont_sun_m_328_31_alg».proof.Proof.KernelIdeal.Cells
import proofs.«205252_g82703890252310_cont_sun_m_328_31_alg».proof.Proof.KernelIdeal.Core

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F] [Facts]

section Tile

variable (d : Dev nD) (L : grid0.Coords)

/-- The tile's obligation at a task, from the task's run: the leftover scoped buffers and semaphores framed. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ goRes m d (wL L) ∗ scopedBufs (V d (cV L) (jV L)) ∗ scopedSems0 (V d (cV L) (jV L)) ∗ owes (V d (cV L) (jV L)) O W : sProp 𝕄)
      ⊢ wp frame (wpE (defs₀ (F := F)) 𝒱₀ (V d (cV L) (jV L)) none) Set.univ
          (cc0_body L iV (Memref.isWhole_whole _) xV (Memref.isWhole_whole _) oV (Memref.isWhole_whole _) sI (Memref.isWhole_whole _) sG (Memref.isWhole_whole _) sA (Memref.isWhole_whole _) cc0_scratch3 cc0_scoped0 cc0_scoped1)
          fun _ => iprop(tdRes m d (wL L) ∗ scopedBufs (V d (cV L) (jV L)) ∗ scopedSems0 (V d (cV L) (jV L)) ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold goRes tdRes
  iintro ⟨Hlv, -, ⟨Hi, Hx, Ho⟩, ⟨⟨%fs, Hs⟩, ⟨%fg, Hg⟩, ⟨%fa, Ha⟩, Hbufs⟩, ⟨HsA, HsB, Hring, Hsems⟩, HO⟩
  ihave Hwp := (tile_core m d L hF hpre O W hO (m (oLoc d)) fs fg fa) $$ [Hlv Hi Hx Ho Hs Hg Ha HsA HsB Hring HO]
  · isplitl [Hlv]; · iexact Hlv
    isplitl [Hi]; · iexact Hi
    isplitl [Hx]; · iexact Hx
    isplitl [Ho]; · iexact Ho
    isplitl [Hs]; · iexact Hs
    isplitl [Hg]; · iexact Hg
    isplitl [Ha]; · iexact Ha
    isplitl [HsA]; · iexact HsA
    isplitl [HsB]; · iexact HsB
    isplitl [Hring]; · iexact Hring
    iexact HO
  iapply (wp_wand_r frame _ _)
  isplitl [Hwp]; · iexact Hwp
  iintro %_ ⟨Hi, Hx, Ho, Hs, Hg, Ha, HsA, HsB, Hring, HW⟩
  isplitl [Hi Hx Ho]
  · isplitl [Hi]; · iexact Hi
    isplitl [Hx]; · iexact Hx
    iexact Ho
  isplitl [Hs Hg Ha Hbufs]
  · isplitl [Hs]; · iexact Hs
    isplitl [Hg]; · iexact Hg
    isplitl [Ha]; · iexact Ha
    iexact Hbufs
  isplitl [HsA HsB Hring Hsems]
  · isplitl [HsA]; · iexact HsA
    isplitl [HsB]; · iexact HsB
    isplitl [Hring]; · iexact Hring
    iexact Hsems
  iexact HW

end Tile

/-! ## The launch theorem's obligation for the tiles -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_body (coordsV c s)
          iV (Memref.isWhole_whole _) xV (Memref.isWhole_whole _) oV (Memref.isWhole_whole _)
          sI (Memref.isWhole_whole _) sG (Memref.isWhole_whole _) sA (Memref.isWhole_whole _) cc0_scratch3 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

end Cert.KernelIdeal.Hand

end
-- ==== Proof.KernelIdeal.TcBody.lean ====
/-
  The TensorCore kernel's body, once: on whole staging buffers holding the seven operands, the three-layer
  perceptron's body loads each operand whole, and stores, whole, the one pure term of those loads that the
  generated skeleton names; the operands' buffers are left as they were.
-/
import proofs.«205252_g82703890252310_cont_sun_m_328_31_alg».proof.Proof.Gen.KernelIdeal.Launch
import proofs.«205252_g82703890252310_cont_sun_m_328_31_alg».proof.Proof.Gen.KernelIdeal.Skeleton
import proofs.«205252_g82703890252310_cont_sun_m_328_31_alg».proof.Proof.Gen.KernelIdeal.Points
import Idealize.ShloMosaic.Lib.SparseCore.Launch
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {UU : Type} [URA UU]

local notation "𝕄" => MT nD τ sig (HIx 1) (Elt F) ℕ UU ℕ

/-! ## The body's accesses: every one the whole buffer -/

abbrev rA : Rect S4096x128 := Rect.unit (s := S4096x128) ![0, 0] S4096x128.size inb_S4096x128_S4096x128_0_0
abbrev rW1 : Rect S128x512 := Rect.unit (s := S128x512) ![0, 0] S128x512.size inb_S128x512_S128x512_0_0
abbrev rB : Rect S1x512 := Rect.unit (s := S1x512) ![0, 0] S1x512.size inb_S1x512_S1x512_0_0
abbrev rW2 : Rect S512x512 := Rect.unit (s := S512x512) ![0, 0] S512x512.size inb_S512x512_S512x512_0_0
abbrev rW3 : Rect S512x128 := Rect.unit (s := S512x128) ![0, 0] S512x128.size inb_S512x128_S512x128_0_0
abbrev rB3 : Rect S1x128 := Rect.unit (s := S1x128) ![0, 0] S1x128.size inb_S1x128_S1x128_0_0

/-- What the body leaves in the output's buffer: its one store, of the payload of the seven loads. -/
def outTc [∀ e, Nonempty (Elt F e)] (x0 : Vec F S4096x128 .f32) (x1 : Vec F S128x512 .bf16) (x2 : Vec F S1x512 .f32) (x3 : Vec F S512x512 .bf16)
    (x4 : Vec F S1x512 .f32) (x5 : Vec F S512x128 .bf16) (x6 : Vec F S1x128 .f32) : Vec F S4096x128 .f32 :=
  View.canon [⟨rA, k1_pay1 (View.ld x0 rA) (View.ld x1 rW1) (View.ld x2 rB) (View.ld x3 rW2) (View.ld x4 rB) (View.ld x5 rW3) (View.ld x6 rB3)⟩]

/-- Every access being of the whole buffer, that is the payload of the buffers' contents. -/
theorem outTc_eq [∀ e, Nonempty (Elt F e)] (x0 : Vec F S4096x128 .f32) (x1 : Vec F S128x512 .bf16) (x2 : Vec F S1x512 .f32) (x3 : Vec F S512x512 .bf16)
    (x4 : Vec F S1x512 .f32) (x5 : Vec F S512x128 .bf16) (x6 : Vec F S1x128 .f32) :
    outTc x0 x1 x2 x3 x4 x5 x6 = k1_pay1 x0 x1 x2 x3 x4 x5 x6 := by
  have z2 : (![0, 0] : Fin 2 → Nat) = fun _ => 0 := by funext a; fin_cases a <;> rfl
  unfold outTc
  rw [View.canon_unit_zero z2, View.ld_unit_zero z2, View.ld_unit_zero z2, View.ld_unit_zero z2, View.ld_unit_zero z2,
    View.ld_unit_zero z2, View.ld_unit_zero z2, View.ld_unit_zero z2]

/-- The store covers the buffer. -/
theorem coverTc (p0 : Vec F S4096x128 .f32) (y : S4096x128.Idx) :
    ∃ pc ∈ ([⟨rA, p0⟩] : List (View.Piece (Elt F) S4096x128 .f32)), y ∈ pc.1.set :=
  ⟨_, List.mem_singleton_self _, View.mem_set_unit_zero (by funext a; fin_cases a <;> rfl) inb_S4096x128_S4096x128_0_0 y⟩

/-! ## The body's triple -/

set_option maxHeartbeats 1000000 in
/-- The body on whole staging memrefs, the seven operands' at contents `x0 … x6` and the output's at anything, runs to
    the continuation holding the operands' as they were and the output's at `outTc` of them. -/
theorem sound_kernel [∀ e, Nonempty (Elt F e)] (c : Dev nD) (E : Set ℕ) (i : grid1.Coords)
    (arg1 : Memref sig .tc .vmem S4096x128 .f32) (harg1 : arg1.IsWhole) (arg2 : Memref sig .tc .vmem S128x512 .bf16) (harg2 : arg2.IsWhole)
    (arg3 : Memref sig .tc .vmem S1x512 .f32) (harg3 : arg3.IsWhole) (arg4 : Memref sig .tc .vmem S512x512 .bf16) (harg4 : arg4.IsWhole)
    (arg5 : Memref sig .tc .vmem S1x512 .f32) (harg5 : arg5.IsWhole) (arg6 : Memref sig .tc .vmem S512x128 .bf16) (harg6 : arg6.IsWhole)
    (arg7 : Memref sig .tc .vmem S1x128 .f32) (harg7 : arg7.IsWhole) (arg8 : Memref sig .tc .vmem S4096x128 .f32) (harg8 : arg8.IsWhole)
    (x0 : Vec F S4096x128 .f32) (x1 : Vec F S128x512 .bf16) (x2 : Vec F S1x512 .f32) (x3 : Vec F S512x512 .bf16)
    (x4 : Vec F S1x512 .f32) (x5 : Vec F S512x128 .bf16) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (outTc x0 x1 x2 x3 x4 x5 x6)) -∗ K ⟨⟩))
      ⊢ wp frame (wpE (defs₀ (F := F)) Variants.none c none) E
          (cc1__mlp_body i arg1 harg1 arg2 harg2 arg3 harg3 arg4 harg4 arg5 harg5 arg6 harg6 arg7 harg7 arg8 harg8) K := by
  simp only [cc1__mlp_body_eq_skeleton]; unfold cc1__mlp_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (coverTc _)

end Cert.KernelIdeal.Hand

end
-- ==== Proof.KernelIdeal.TcTail.lean ====
/-
  The TensorCore's part of @main after the SparseCore call: six host operations convert the multilayer perceptron's
  weights to bf16 and give its biases a leading unit axis; then ONE TensorCore kernel region, a pipeline of a single
  grid point whose eight windows are each one whole-array block, runs the perceptron's body on the bag and the
  converted operands and writes its result back. From the sixteen unscoped arrays held whole, the region boundary, the
  pipeline's launch ghost state and what the TensorCore holds of the handshakes after call 0, the tail runs to the
  arrays held whole again: the eight arguments as they were, the result at the perceptron of the bag and the arguments.
-/
import proofs.«205252_g82703890252310_cont_sun_m_328_31_alg».proof.Proof.KernelIdeal.Setup
import proofs.«205252_g82703890252310_cont_sun_m_328_31_alg».proof.Proof.KernelIdeal.TcBody
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Pipeline.Value
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (held held_split held_sdiff_result wp_hlo_within)

variable {F : FTy → Type} [FloatOps F] [∀ e, Nonempty (Elt F e)]
variable {U₁ : Type} [URA U₁]

local notation "𝕄₁" => MT nD τ sig (HIx 1) (Elt F) ℕ U₁ ℕ

/-! ## @main after the SparseCore call -/

/-- The six host operations, in order. -/
abbrev hostOps : List (HloOp τ sig (Elt F)) :=
  [ StableHlo.unary main_arg2 main_v1 ((truncf .bf16 · bitsLt_bf16_f32) : (⟨S128x512, .f32⟩ : BufTy).Contents (Elt F) → (⟨S128x512, .bf16⟩ : BufTy).Contents (Elt F)),
    StableHlo.reshape main_arg3 main_v2 rfl shapeCasts_S512_S1x512,
    StableHlo.unary main_arg4 main_v3 ((truncf .bf16 · bitsLt_bf16_f32) : (⟨S512x512, .f32⟩ : BufTy).Contents (Elt F) → (⟨S512x512, .bf16⟩ : BufTy).Contents (Elt F)),
    StableHlo.reshape main_arg5 main_v4 rfl shapeCasts_S512_S1x512,
    StableHlo.unary main_arg6 main_v5 ((truncf .bf16 · bitsLt_bf16_f32) : (⟨S512x128, .f32⟩ : BufTy).Contents (Elt F) → (⟨S512x128, .bf16⟩ : BufTy).Contents (Elt F)),
    StableHlo.reshape main_arg7 main_v6 rfl shapeCasts_S128_S1x128 ]

/-- The kernel region as a program of the pipelines' signature: the call, then the return. -/
abbrev regionProg : Prog (TpuEff nD τ sig (Elt F) (ΛP (F := F)) .tc) PUnit :=
  .op (.customCall (Pipeline.entry 0) ()) fun _ => .ret ⟨⟩

/-- @main's lines after the SparseCore call: the host operations, the region, the return. -/
def tail (d : Dev nD) : Prog (TpuEff nD τ sig (Elt F) (SparseCore.Sig (ΛP (F := F)) 1) .tc) PUnit :=
  StableHlo.seq hostOps >>= fun _ => SparseCore.liftProg regionProg

/-- @main is the SparseCore call and then the tail. -/
theorem main_eq_tail (d : Dev nD) : main (F := F) d = ((K (F := F)).run d 0 >>= fun _ => tail d) := rfl

/-! ## The TensorCore's arrays -/

/-- The TensorCore's unscoped references, as device buffers: the sixteen arrays of @main. -/
def TCBUFS : Finset (DevRef τ sig) := (StableHlo.tcRefs τ sig).filter fun b => ¬ b.isScoped

/-- The sixteen, listed. -/
theorem TCBUFS_eq : (TCBUFS : Finset (DevRef τ sig)) = {Proc.devRef .tc main_arg0, Proc.devRef .tc main_arg1, Proc.devRef .tc main_arg2, Proc.devRef .tc main_arg3,
    Proc.devRef .tc main_arg4, Proc.devRef .tc main_arg5, Proc.devRef .tc main_arg6, Proc.devRef .tc main_arg7, Proc.devRef .tc main_v0, Proc.devRef .tc main_v1,
    Proc.devRef .tc main_v2, Proc.devRef .tc main_v3, Proc.devRef .tc main_v4, Proc.devRef .tc main_v5, Proc.devRef .tc main_v6, Proc.devRef .tc main_v7} := by decide

omit [FloatOps F] [∀ e, Nonempty (Elt F e)] in
/-- A core's unscoped buffers at a valuation are that set held at it. -/
theorem unscopedBufs_held (d : Dev nD) (W : Valuation τ sig (Elt F)) :
    (unscopedBufs d (fun b => W b) : sProp 𝕄₁) = held (T d) TCBUFS W := by
  unfold unscopedBufs StableHlo.held TCBUFS StableHlo.tcRefs
  rw [Finset.filter_map, bigSep_map]
  rfl

omit [∀ e, Nonempty (Elt F e)] in
/-- A host operation names unscoped arrays only. -/
theorem sub_TCBUFS (op : HloOp τ sig (Elt F)) (h : op.bufs ⊆ StableHlo.tcRefs τ sig) : op.bufs ⊆ TCBUFS := fun b hb =>
  Finset.mem_filter.mpr ⟨h hb, fun h' => Bool.false_ne_true ((op.no_scoped b hb).symm.trans h')⟩

omit [∀ e, Nonempty (Elt F e)] in
theorem hostOps_sub : ∀ op ∈ (hostOps (F := F)), op.bufs ⊆ TCBUFS := by
  intro op hop
  simp only [List.mem_cons, List.mem_nil_iff, or_false] at hop
  rcases hop with rfl | rfl | rfl | rfl | rfl | rfl
  · exact sub_TCBUFS _ (StableHlo.unary_bufs_sub ..)
  · exact sub_TCBUFS _ (StableHlo.reshape_bufs_sub ..)
  · exact sub_TCBUFS _ (StableHlo.unary_bufs_sub ..)
  · exact sub_TCBUFS _ (StableHlo.reshape_bufs_sub ..)
  · exact sub_TCBUFS _ (StableHlo.unary_bufs_sub ..)
  · exact sub_TCBUFS _ (StableHlo.reshape_bufs_sub ..)

omit [∀ e, Nonempty (Elt F e)] in
theorem hostOps_fresh : ∀ op ∈ (hostOps (F := F)), op.fresh = ∅ := by
  intro _ h; (repeat (cases h with | head => rfl | tail _ h => ?_)); exact nomatch h

/-! ## The arrays when the region is entered -/

section Host

variable (V : Valuation τ sig (Elt F))

/-- The arrays after the six host operations. -/
abbrev W6 : Valuation τ sig (Elt F) := StableHlo.after hostOps V

omit [∀ e, Nonempty (Elt F e)] in
theorem W6_v1 : W6 V (Proc.devRef .tc main_v1) = truncf .bf16 (V (Proc.devRef .tc main_arg2)) bitsLt_bf16_f32 := by after_results
omit [∀ e, Nonempty (Elt F e)] in
theorem W6_v3 : W6 V (Proc.devRef .tc main_v3) = truncf .bf16 (V (Proc.devRef .tc main_arg4)) bitsLt_bf16_f32 := by after_results
omit [∀ e, Nonempty (Elt F e)] in
theorem W6_v5 : W6 V (Proc.devRef .tc main_v5) = truncf .bf16 (V (Proc.devRef .tc main_arg6)) bitsLt_bf16_f32 := by after_results
omit [∀ e, Nonempty (Elt F e)] in
theorem W6_v2 : W6 V (Proc.devRef .tc main_v2) = shapeCast S1x512 (V (Proc.devRef .tc main_arg3)) shapeCasts_S512_S1x512 := by after_results; rfl
omit [∀ e, Nonempty (Elt F e)] in
theorem W6_v4 : W6 V (Proc.devRef .tc main_v4) = shapeCast S1x512 (V (Proc.devRef .tc main_arg5)) shapeCasts_S512_S1x512 := by after_results; rfl
omit [∀ e, Nonempty (Elt F e)] in
theorem W6_v6 : W6 V (Proc.devRef .tc main_v6) = shapeCast S1x128 (V (Proc.devRef .tc main_arg7)) shapeCasts_S128_S1x128 := by after_results; rfl
omit [∀ e, Nonempty (Elt F e)] in
theorem W6_v0 : W6 V (Proc.devRef .tc main_v0) = V (Proc.devRef .tc main_v0) := by after_results
omit [∀ e, Nonempty (Elt F e)] in
theorem W6_arg0 : W6 V (Proc.devRef .tc main_arg0) = V (Proc.devRef .tc main_arg0) := by after_results
omit [∀ e, Nonempty (Elt F e)] in
theorem W6_arg1 : W6 V (Proc.devRef .tc main_arg1) = V (Proc.devRef .tc main_arg1) := by after_results
omit [∀ e, Nonempty (Elt F e)] in
theorem W6_arg2 : W6 V (Proc.devRef .tc main_arg2) = V (Proc.devRef .tc main_arg2) := by after_results
omit [∀ e, Nonempty (Elt F e)] in
theorem W6_arg3 : W6 V (Proc.devRef .tc main_arg3) = V (Proc.devRef .tc main_arg3) := by after_results
omit [∀ e, Nonempty (Elt F e)] in
theorem W6_arg4 : W6 V (Proc.devRef .tc main_arg4) = V (Proc.devRef .tc main_arg4) := by after_results
omit [∀ e, Nonempty (Elt F e)] in
theorem W6_arg5 : W6 V (Proc.devRef .tc main_arg5) = V (Proc.devRef .tc main_arg5) := by after_results
omit [∀ e, Nonempty (Elt F e)] in
theorem W6_arg6 : W6 V (Proc.devRef .tc main_arg6) = V (Proc.devRef .tc main_arg6) := by after_results
omit [∀ e, Nonempty (Elt F e)] in
theorem W6_arg7 : W6 V (Proc.devRef .tc main_arg7) = V (Proc.devRef .tc main_arg7) := by after_results

end Host

/-! ## The pipeline's launch ghost state -/

/-- The prefetched tables' admissible contents: no table. -/
abbrev adm : (p : Fin 1) → (pcfgs (F := F) p).Adm := fun p => (cfgs p).toPCfg_adm

/-- What the launch deals core `d` for the one pipeline's staging cells: their launch ghost state and the duty tokens of
    the transfers its loop issues. -/
def G1 (Ep : Emb (URounds (GSem nD τ sig) Unit) 𝕄₁) (d : Dev nD) : sProp 𝕄₁ :=
  iprop(Pipeline.cellsGhost cfgs Ep 0 d ∗ Pipeline.toksInit cfgs Ep 0 d)

omit [FloatOps F] [∀ e, Nonempty (Elt F e)] in
/-- The rounds library's launch element at the staging cells and the loop's transfers funds it on every core. -/
theorem fund (Ep : Emb (URounds (GSem nD τ sig) Unit) 𝕄₁) :
    BI.own (Ep (initOf (Pipeline.cells cfgs cellOf_inj) (Pipeline.launchToks cfgs cellOf_inj)))
      ⊢ iprop(|==> bigSep Finset.univ fun d : Dev nD => G1 Ep d) := by
  refine (Pipeline.fund_ghost cfgs Ep cellOf_inj).trans (BI.bupd_mono ?_)
  unfold G1
  rw [bigSep_sep']
  refine BI.sep_mono (Entails.of_eq (bigSep_congr fun d _ => ?_)) (Entails.of_eq (bigSep_congr fun d _ => ?_))
  · rw [show (Finset.univ : Finset (Fin 1)) = {0} from rfl, bigSep_singleton]
  · rw [show (Finset.univ : Finset (Fin 1)) = {0} from rfl, bigSep_singleton]

/-! ## The region's proof data -/

section Region

variable (W : Valuation τ sig (Elt F))

/-- Core `c`'s TensorCore buffers when the region is entered. -/
abbrev VR (c : Dev nD) (b : Ref sig .tc) : Buf (Elt F) ((c : Thread nD τ).loc b) := W b

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (VR W c (Pipeline.arrRef spec1 w))

/-- The pairs a TensorCore's waits may have recorded: those at most at the level every handshake of call 0 sits at or below. -/
def recB (c : Dev nD) : Set (SemLoc sig × HIx 1) := {p | (K (F := F)).lev ((T c), p.1) p.2 ≤ 8}

/-- The proof data of the one pipeline on core `c`: the arrays as the region finds them; after the body each input's
    buffer at its block and the output's at the body's result of the input blocks; the invariant the scoped rest,
    untouched; nothing owed; full shares. -/
def dats (_ : Fin 1) (c : Dev nD) : Dat τ (Elt F) (HIx 1) ℕ U₁ ℕ cfg1 c where
  A w := VR W c (Pipeline.arrRef spec1 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => outTc (iblk W c 0 t) (iblk W c 1 t) (iblk W c 2 t) (iblk W c 3 t) (iblk W c 4 t) (iblk W c 5 t) (iblk W c 6 t)
  Φ _ := Pipeline.scopedRest (Ix := HIx 1) (Name := ℕ) (U := U₁) (Lvl := ℕ) (Val := Elt F) spec1 c
  q _ := fullShare
  owed _ := 0
  recorded _ := recB (F := F) c

theorem A_eq (c : Dev nD) (w : Fin cfg1.W) : (dats (U₁ := U₁) W 0 c).A w = VR W c (Pipeline.arrRef spec1 w) := by
  dsimp only [dats]

theorem after1_0 (c : Dev nD) (t : Fin cfg1.N) : (dats (U₁ := U₁) W 0 c).after 0 t = iblk W c 0 t := by dsimp only [dats]
theorem after1_1 (c : Dev nD) (t : Fin cfg1.N) : (dats (U₁ := U₁) W 0 c).after 1 t = iblk W c 1 t := by dsimp only [dats]
theorem after1_2 (c : Dev nD) (t : Fin cfg1.N) : (dats (U₁ := U₁) W 0 c).after 2 t = iblk W c 2 t := by dsimp only [dats]
theorem after1_3 (c : Dev nD) (t : Fin cfg1.N) : (dats (U₁ := U₁) W 0 c).after 3 t = iblk W c 3 t := by dsimp only [dats]
theorem after1_4 (c : Dev nD) (t : Fin cfg1.N) : (dats (U₁ := U₁) W 0 c).after 4 t = iblk W c 4 t := by dsimp only [dats]
theorem after1_5 (c : Dev nD) (t : Fin cfg1.N) : (dats (U₁ := U₁) W 0 c).after 5 t = iblk W c 5 t := by dsimp only [dats]
theorem after1_6 (c : Dev nD) (t : Fin cfg1.N) : (dats (U₁ := U₁) W 0 c).after 6 t = iblk W c 6 t := by dsimp only [dats]
theorem after1_7 (c : Dev nD) (t : Fin cfg1.N) : (dats (U₁ := U₁) W 0 c).after 7 t
    = outTc (iblk W c 0 t) (iblk W c 1 t) (iblk W c 2 t) (iblk W c 3 t) (iblk W c 4 t) (iblk W c 5 t) (iblk W c 6 t) := by dsimp only [dats]

/-- Each input's staging buffer, fetched at the point, holds its block when the body runs. -/
theorem before1_0 (c : Dev nD) (t : Fin cfg1.N) (d) : (dats (U₁ := U₁) W 0 c).before 0 t d = iblk W c 0 t := by
  unfold Dat.before; rw [if_pos (fetch1_0 t)]; rfl
theorem before1_1 (c : Dev nD) (t : Fin cfg1.N) (d) : (dats (U₁ := U₁) W 0 c).before 1 t d = iblk W c 1 t := by
  unfold Dat.before; rw [if_pos (fetch1_1 t)]; rfl
theorem before1_2 (c : Dev nD) (t : Fin cfg1.N) (d) : (dats (U₁ := U₁) W 0 c).before 2 t d = iblk W c 2 t := by
  unfold Dat.before; rw [if_pos (fetch1_2 t)]; rfl
theorem before1_3 (c : Dev nD) (t : Fin cfg1.N) (d) : (dats (U₁ := U₁) W 0 c).before 3 t d = iblk W c 3 t := by
  unfold Dat.before; rw [if_pos (fetch1_3 t)]; rfl
theorem before1_4 (c : Dev nD) (t : Fin cfg1.N) (d) : (dats (U₁ := U₁) W 0 c).before 4 t d = iblk W c 4 t := by
  unfold Dat.before; rw [if_pos (fetch1_4 t)]; rfl
theorem before1_5 (c : Dev nD) (t : Fin cfg1.N) (d) : (dats (U₁ := U₁) W 0 c).before 5 t d = iblk W c 5 t := by
  unfold Dat.before; rw [if_pos (fetch1_5 t)]; rfl
theorem before1_6 (c : Dev nD) (t : Fin cfg1.N) (d) : (dats (U₁ := U₁) W 0 c).before 6 t d = iblk W c 6 t := by
  unfold Dat.before; rw [if_pos (fetch1_6 t)]; rfl

/-! ## The body obligation -/

/-- What the body is called with at point `t`, the windows one by one, -/
def bodyPre (c : Dev nD) (t : Fin cfg1.N) : sProp 𝕄₁ :=
  iprop((dats (U₁ := U₁) W 0 c).Φ t.castSucc ∗ (dats (U₁ := U₁) W 0 c).owesAt none t.castSucc
    ∗ (∃ d, owns (c : Thread nD τ) (st1_0 t) fullShare ((dats (U₁ := U₁) W 0 c).before 0 t d))
    ∗ (∃ d, owns (c : Thread nD τ) (st1_1 t) fullShare ((dats (U₁ := U₁) W 0 c).before 1 t d))
    ∗ (∃ d, owns (c : Thread nD τ) (st1_2 t) fullShare ((dats (U₁ := U₁) W 0 c).before 2 t d))
    ∗ (∃ d, owns (c : Thread nD τ) (st1_3 t) fullShare ((dats (U₁ := U₁) W 0 c).before 3 t d))
    ∗ (∃ d, owns (c : Thread nD τ) (st1_4 t) fullShare ((dats (U₁ := U₁) W 0 c).before 4 t d))
    ∗ (∃ d, owns (c : Thread nD τ) (st1_5 t) fullShare ((dats (U₁ := U₁) W 0 c).before 5 t d))
    ∗ (∃ d, owns (c : Thread nD τ) (st1_6 t) fullShare ((dats (U₁ := U₁) W 0 c).before 6 t d))
    ∗ (∃ d, owns (c : Thread nD τ) (st1_7 t) fullShare ((dats (U₁ := U₁) W 0 c).before 7 t d)))

/-- and what it returns. -/
def bodyPost (c : Dev nD) (t : Fin cfg1.N) : sProp 𝕄₁ :=
  iprop((dats (U₁ := U₁) W 0 c).Φ t.succ ∗ (dats (U₁ := U₁) W 0 c).owesAt none t.succ
    ∗ owns (c : Thread nD τ) (st1_0 t) fullShare ((dats (U₁ := U₁) W 0 c).after 0 t)
    ∗ owns (c : Thread nD τ) (st1_1 t) fullShare ((dats (U₁ := U₁) W 0 c).after 1 t)
    ∗ owns (c : Thread nD τ) (st1_2 t) fullShare ((dats (U₁ := U₁) W 0 c).after 2 t)
    ∗ owns (c : Thread nD τ) (st1_3 t) fullShare ((dats (U₁ := U₁) W 0 c).after 3 t)
    ∗ owns (c : Thread nD τ) (st1_4 t) fullShare ((dats (U₁ := U₁) W 0 c).after 4 t)
    ∗ owns (c : Thread nD τ) (st1_5 t) fullShare ((dats (U₁ := U₁) W 0 c).after 5 t)
    ∗ owns (c : Thread nD τ) (st1_6 t) fullShare ((dats (U₁ := U₁) W 0 c).after 6 t)
    ∗ owns (c : Thread nD τ) (st1_7 t) fullShare ((dats (U₁ := U₁) W 0 c).after 7 t))

/-- The body at any point: the inputs' buffers hold their blocks, so the body's triple applies; the invariant and the
    core's debts pass through unread. -/
theorem sound_body (c : Dev nD) (t : Fin cfg1.N) :
    bodyPre (U₁ := U₁) W c t ⊢ wp frame (wpE (defs₀ (F := F)) Variants.none c none) Set.univ (bodyAt1 t) (fun _ => bodyPost (U₁ := U₁) W c t) := by
  unfold bodyPre bodyPost bodyAt1
  simp only [before1_0, before1_1, before1_2, before1_3, before1_4, before1_5, before1_6]
  rw [show (dats (U₁ := U₁) W 0 c).Φ t.succ = (dats (U₁ := U₁) W 0 c).Φ t.castSucc from rfl,
    show (dats (U₁ := U₁) W 0 c).owesAt none t.succ = (dats (U₁ := U₁) W 0 c).owesAt none t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk W c 0 t) (iblk W c 1 t) (iblk W c 2 t) (iblk W c 3 t) (iblk W c 4 t) (iblk W c 5 t) (iblk W c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (U₁ := U₁) W 0 c) (defs₀ (F := F)) Variants.none (none : HIx 1) Set.univ := fun t => by
  rw [bigSep_W1, bigSep_W1]
  exact sound_body W c t

end Region

/-! ## What the region leaves: the output array as one function of the arrays it found -/

section Value

variable (W : Valuation τ sig (Elt F))

/-- The one grid point's block index is zero, on every window. -/
theorem idx1 : ∀ t : Fin cfg1.N, win1_0.index t = ![0, 0] ∧ win1_1.index t = ![0, 0] ∧ win1_2.index t = ![0, 0] ∧ win1_3.index t = ![0, 0]
    ∧ win1_4.index t = ![0, 0] ∧ win1_5.index t = ![0, 0] ∧ win1_6.index t = ![0, 0] ∧ win1_7.index t = ![0, 0] :=
  (by decide +kernel : ∀ t : Fin grid1.N, win1_0.index t = ![0, 0] ∧ win1_1.index t = ![0, 0] ∧ win1_2.index t = ![0, 0] ∧ win1_3.index t = ![0, 0]
    ∧ win1_4.index t = ![0, 0] ∧ win1_5.index t = ![0, 0] ∧ win1_6.index t = ![0, 0] ∧ win1_7.index t = ![0, 0])

/-- A block at block index zero that is the whole array reads the array. -/
theorem iblk1_0 (c : Dev nD) (t : Fin cfg1.N) : iblk W c 0 t = VR W c main_v0 := by
  funext j
  show VR W c main_v0 (((cfg1.win 0).blk t).view.emb j) = VR W c main_v0 j
  refine congrArg _ ?_
  have h := (idx1 t).1
  funext a; apply Fin.ext
  match a with
  | ⟨0, _⟩ => show win1_0.index t (0 : Fin 2) * 4096 + 1 * (j 0).val = (j 0).val; rw [h]; show 0 * 4096 + 1 * (j 0).val = (j 0).val; omega
  | ⟨1, _⟩ => show win1_0.index t (1 : Fin 2) * 128 + 1 * (j 1).val = (j 1).val; rw [h]; show 0 * 128 + 1 * (j 1).val = (j 1).val; omega
theorem iblk1_1 (c : Dev nD) (t : Fin cfg1.N) : iblk W c 1 t = VR W c main_v1 := by
  funext j
  show VR W c main_v1 (((cfg1.win 1).blk t).view.emb j) = VR W c main_v1 j
  refine congrArg _ ?_
  have h := (idx1 t).2.1
  funext a; apply Fin.ext
  match a with
  | ⟨0, _⟩ => show win1_1.index t (0 : Fin 2) * 128 + 1 * (j 0).val = (j 0).val; rw [h]; show 0 * 128 + 1 * (j 0).val = (j 0).val; omega
  | ⟨1, _⟩ => show win1_1.index t (1 : Fin 2) * 512 + 1 * (j 1).val = (j 1).val; rw [h]; show 0 * 512 + 1 * (j 1).val = (j 1).val; omega
theorem iblk1_2 (c : Dev nD) (t : Fin cfg1.N) : iblk W c 2 t = VR W c main_v2 := by
  funext j
  show VR W c main_v2 (((cfg1.win 2).blk t).view.emb j) = VR W c main_v2 j
  refine congrArg _ ?_
  have h := (idx1 t).2.2.1
  funext a; apply Fin.ext
  match a with
  | ⟨0, _⟩ => show win1_2.index t (0 : Fin 2) * 1 + 1 * (j 0).val = (j 0).val; rw [h]; show 0 * 1 + 1 * (j 0).val = (j 0).val; omega
  | ⟨1, _⟩ => show win1_2.index t (1 : Fin 2) * 512 + 1 * (j 1).val = (j 1).val; rw [h]; show 0 * 512 + 1 * (j 1).val = (j 1).val; omega
theorem iblk1_3 (c : Dev nD) (t : Fin cfg1.N) : iblk W c 3 t = VR W c main_v3 := by
  funext j
  show VR W c main_v3 (((cfg1.win 3).blk t).view.emb j) = VR W c main_v3 j
  refine congrArg _ ?_
  have h := (idx1 t).2.2.2.1
  funext a; apply Fin.ext
  match a with
  | ⟨0, _⟩ => show win1_3.index t (0 : Fin 2) * 512 + 1 * (j 0).val = (j 0).val; rw [h]; show 0 * 512 + 1 * (j 0).val = (j 0).val; omega
  | ⟨1, _⟩ => show win1_3.index t (1 : Fin 2) * 512 + 1 * (j 1).val = (j 1).val; rw [h]; show 0 * 512 + 1 * (j 1).val = (j 1).val; omega
theorem iblk1_4 (c : Dev nD) (t : Fin cfg1.N) : iblk W c 4 t = VR W c main_v4 := by
  funext j
  show VR W c main_v4 (((cfg1.win 4).blk t).view.emb j) = VR W c main_v4 j
  refine congrArg _ ?_
  have h := (idx1 t).2.2.2.2.1
  funext a; apply Fin.ext
  match a with
  | ⟨0, _⟩ => show win1_4.index t (0 : Fin 2) * 1 + 1 * (j 0).val = (j 0).val; rw [h]; show 0 * 1 + 1 * (j 0).val = (j 0).val; omega
  | ⟨1, _⟩ => show win1_4.index t (1 : Fin 2) * 512 + 1 * (j 1).val = (j 1).val; rw [h]; show 0 * 512 + 1 * (j 1).val = (j 1).val; omega
theorem iblk1_5 (c : Dev nD) (t : Fin cfg1.N) : iblk W c 5 t = VR W c main_v5 := by
  funext j
  show VR W c main_v5 (((cfg1.win 5).blk t).view.emb j) = VR W c main_v5 j
  refine congrArg _ ?_
  have h := (idx1 t).2.2.2.2.2.1
  funext a; apply Fin.ext
  match a with
  | ⟨0, _⟩ => show win1_5.index t (0 : Fin 2) * 512 + 1 * (j 0).val = (j 0).val; rw [h]; show 0 * 512 + 1 * (j 0).val = (j 0).val; omega
  | ⟨1, _⟩ => show win1_5.index t (1 : Fin 2) * 128 + 1 * (j 1).val = (j 1).val; rw [h]; show 0 * 128 + 1 * (j 1).val = (j 1).val; omega
theorem iblk1_6 (c : Dev nD) (t : Fin cfg1.N) : iblk W c 6 t = VR W c main_v6 := by
  funext j
  show VR W c main_v6 (((cfg1.win 6).blk t).view.emb j) = VR W c main_v6 j
  refine congrArg _ ?_
  have h := (idx1 t).2.2.2.2.2.2.1
  funext a; apply Fin.ext
  match a with
  | ⟨0, _⟩ => show win1_6.index t (0 : Fin 2) * 1 + 1 * (j 0).val = (j 0).val; rw [h]; show 0 * 1 + 1 * (j 0).val = (j 0).val; omega
  | ⟨1, _⟩ => show win1_6.index t (1 : Fin 2) * 128 + 1 * (j 1).val = (j 1).val; rw [h]; show 0 * 128 + 1 * (j 1).val = (j 1).val; omega

/-- The perceptron's body on the arrays the region finds: what the output array ends holding. -/
def G7 (c : Dev nD) : Buf (Elt F) ((c : Thread nD τ).loc main_v7) :=
  k1_pay1 (VR W c main_v0) (VR W c main_v1) (VR W c main_v2) (VR W c main_v3) (VR W c main_v4) (VR W c main_v5) (VR W c main_v6)

/-- What the point writes back is the output array's one block of that. -/
theorem flushed1_7 (c : Dev nD) (t : Fin cfg1.N) :
    (dats (U₁ := U₁) W 0 c).flushed 7 t = ((cfg1.win 7).blk t).view.read (Elt F) (G7 W c) := by
  show (cfg1.win 7).cut (grid1.coords t) ((dats (U₁ := U₁) W 0 c).after 7 t) = _
  rw [after1_7, outTc_eq, iblk1_0, iblk1_1, iblk1_2, iblk1_3, iblk1_4, iblk1_5, iblk1_6]
  funext j
  show G7 W c j = G7 W c (((cfg1.win 7).blk t).view.emb j)
  refine congrArg _ ?_
  have h := (idx1 t).2.2.2.2.2.2.2
  funext a; apply Fin.ext
  match a with
  | ⟨0, _⟩ => show (j 0).val = win1_7.index t (0 : Fin 2) * 4096 + 1 * (j 0).val; rw [h]; show (j 0).val = 0 * 4096 + 1 * (j 0).val; omega
  | ⟨1, _⟩ => show (j 1).val = win1_7.index t (1 : Fin 2) * 128 + 1 * (j 1).val; rw [h]; show (j 1).val = 0 * 128 + 1 * (j 1).val; omega

/-- Every index of the output array is in the one point's block. -/
theorem cover1_7 (i : S4096x128.Idx) : ∃ t : Fin cfg1.N, (cfg1.win 7).flush t = true ∧ i ∈ ((cfg1.win 7).blk t).view.set := by
  refine ⟨t1_0, flush1_7 t1_0, ?_⟩
  show i ∈ ((View.whole main_v7).slice (win1_7.rect t1_0)).set
  rw [View.set_slice_whole, Rect.mem_set_unit]
  have h := (idx1 t1_0).2.2.2.2.2.2.2
  intro a
  match a with
  | ⟨0, _⟩ => show win1_7.index t1_0 (0 : Fin 2) * 4096 ≤ (i 0).val ∧ (i 0).val < win1_7.index t1_0 (0 : Fin 2) * 4096 + 4096; rw [h]; have hi : (i 0).val < 4096 := (i 0).isLt; show 0 * 4096 ≤ (i 0).val ∧ (i 0).val < 0 * 4096 + 4096; omega
  | ⟨1, _⟩ => show win1_7.index t1_0 (1 : Fin 2) * 128 ≤ (i 1).val ∧ (i 1).val < win1_7.index t1_0 (1 : Fin 2) * 128 + 128; rw [h]; have hi : (i 1).val < 128 := (i 1).isLt; show 0 * 128 ≤ (i 1).val ∧ (i 1).val < 0 * 128 + 128; omega

/-- THE OUTPUT ARRAY after the region. -/
theorem final1_7 (c : Dev nD) : (dats (U₁ := U₁) W 0 c).arrAt 7 cfg1.N = G7 W c :=
  (dats (U₁ := U₁) W 0 c).arrAt_eq_of_cover 7 _ (fun t _ => flushed1_7 W c t) (fun i => cover1_7 i)

end Value

/-! ## The region as the library's record -/

section Seg

variable (W : Valuation τ sig (Elt F))

/-- The perceptron's body on the arrays of a valuation. -/
def Gout : (Proc.devRef (τ := τ) .tc main_v7).ty.Contents (Elt F) :=
  k1_pay1 (W (Proc.devRef .tc main_v0)) (W (Proc.devRef .tc main_v1)) (W (Proc.devRef .tc main_v2)) (W (Proc.devRef .tc main_v3))
    (W (Proc.devRef .tc main_v4)) (W (Proc.devRef .tc main_v5)) (W (Proc.devRef .tc main_v6))

/-- The arrays after the region: the output array at the perceptron's body of the arrays the region found, the rest as
    they were. -/
def Wout : Valuation τ sig (Elt F) := Function.update W (Proc.devRef .tc main_v7) (Gout W)

omit [∀ e, Nonempty (Elt F e)] in
theorem Wout_v7 : Wout W (Proc.devRef .tc main_v7) = Gout W := Function.update_self _ _ _
omit [∀ e, Nonempty (Elt F e)] in
theorem Wout_ne {b : Ref sig .tc} (h : b ≠ main_v7) : Wout W (Proc.devRef .tc b) = W (Proc.devRef .tc b) :=
  Function.update_of_ne (StableHlo.devRef_ne_of_ne h) _ _

/-- What rides beside the arrays through the region: the core owing nothing, its recorded pairs at most at level 8. -/
abbrev Rw (c : Dev nD) : sProp 𝕄₁ :=
  iprop(∃ Wt, ⌜(K (F := F)).WBelow (T c) Wt 8⌝ ∗ owes (T c) (0 : CellTallies nD τ sig (HIx 1)) Wt)

/-- Each window's array after the region, as the library computes it, is the valuation after the region at it. -/
theorem arrAt_eq (c : Dev nD) (w : Fin cfg1.W) :
    (dats (U₁ := U₁) W 0 c).arrAt w cfg1.N = VR (Wout W) c (Pipeline.arrRef spec1 w) := by
  match w with
  | ⟨0, _⟩ => exact ((dats (U₁ := U₁) W 0 c).arrAt_in 0 rfl _).trans ((A_eq W c 0).trans (Wout_ne W (b := main_v0) (by decide)).symm)
  | ⟨1, _⟩ => exact ((dats (U₁ := U₁) W 0 c).arrAt_in 1 rfl _).trans ((A_eq W c 1).trans (Wout_ne W (b := main_v1) (by decide)).symm)
  | ⟨2, _⟩ => exact ((dats (U₁ := U₁) W 0 c).arrAt_in 2 rfl _).trans ((A_eq W c 2).trans (Wout_ne W (b := main_v2) (by decide)).symm)
  | ⟨3, _⟩ => exact ((dats (U₁ := U₁) W 0 c).arrAt_in 3 rfl _).trans ((A_eq W c 3).trans (Wout_ne W (b := main_v3) (by decide)).symm)
  | ⟨4, _⟩ => exact ((dats (U₁ := U₁) W 0 c).arrAt_in 4 rfl _).trans ((A_eq W c 4).trans (Wout_ne W (b := main_v4) (by decide)).symm)
  | ⟨5, _⟩ => exact ((dats (U₁ := U₁) W 0 c).arrAt_in 5 rfl _).trans ((A_eq W c 5).trans (Wout_ne W (b := main_v5) (by decide)).symm)
  | ⟨6, _⟩ => exact ((dats (U₁ := U₁) W 0 c).arrAt_in 6 rfl _).trans ((A_eq W c 6).trans (Wout_ne W (b := main_v6) (by decide)).symm)
  | ⟨7, _⟩ => exact (final1_7 W c).trans (Wout_v7 W).symm

omit [∀ e, Nonempty (Elt F e)] in
/-- The arrays no window stages are the same before and after. -/
theorem unscopedRest_out (c : Dev nD) :
    (Pipeline.unscopedRest (Ix := HIx 1) (Name := ℕ) (U := U₁) (Lvl := ℕ) spec1 c (VR W c) : sProp 𝕄₁)
      = Pipeline.unscopedRest (Ix := HIx 1) (Name := ℕ) (U := U₁) (Lvl := ℕ) spec1 c (VR (Wout W) c) := by
  unfold Pipeline.unscopedRest
  refine bigSep_congr fun b hb => ?_
  have hne : b ≠ main_v7 := fun e => (Finset.mem_sdiff.mp hb).2 (e ▸ Finset.mem_image_of_mem (Pipeline.arrRef spec1) (Finset.mem_univ (7 : Fin 8)))
  rw [show VR (Wout W) c b = VR W c b from Wout_ne W hne]

set_option backward.isDefEq.respectTransparency.types false in
/-- THE REGION: the library's launch layout, no semaphore of the kernel's own, the body obligation; entered from the unscoped
    arrays held whole — the windows' eight into the pipeline, the eight arguments bypassing —, left with them held whole
    again, the output array at the body's result. -/
def reg1 : Pipeline.RegionSeg (pcfgs (F := F)) adm (dats (U₁ := U₁) W) (none : HIx 1) defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := (body_obligation W c).loose
  hwaits := Pipeline.hwaits_of_owed_zero _ _ _ _ (K (F := F)).L (K (F := F)).lev 0 fun _ _ => rfl
  pre c := iprop(unscopedBufs c (VR W c) ∗ Rw c)
  post c := iprop(unscopedBufs c (VR (Wout W) c) ∗ Rw c)
  X _ := iprop(emp)
  Y _ := iprop(emp)
  Z c := Pipeline.unscopedRest (Ix := HIx 1) (Name := ℕ) (U := U₁) (Lvl := ℕ) spec1 c (VR W c)
  hentry c := by
    have hsplit := Pipeline.arrays_of_unscopedBufs (pcfgs (F := F)) adm (dats (U₁ := U₁) W) launch1.win launch1.arr_whole c
      ((dats (U₁ := U₁) W 0 c).share_full fun _ => rfl) (VR W c) fun _ => rfl
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wt, %hW, HO⟩; iexists Wt; isplitr; · ipureintro; exact fun p hp => Or.inl (hW p hp)
      iexact HO
    isplitr; · iempintro
    iexact Hr
  hin c := by
    show iprop(_ ∗ _ ∗ Pipeline.scopedRest (Ix := HIx 1) (Name := ℕ) (U := U₁) (Lvl := ℕ) (Val := Elt F) spec1 c)
      ⊢ Pipeline.scopedRest (Ix := HIx 1) (Name := ℕ) (U := U₁) (Lvl := ℕ) (Val := Elt F) spec1 c
    iintro ⟨-, -, Hr⟩; iexact Hr
  hout c := by
    rw [Pipeline.ownSems0_none]
    show Pipeline.scopedRest (Ix := HIx 1) (Name := ℕ) (U := U₁) (Lvl := ℕ) (Val := Elt F) spec1 c
      ⊢ iprop(emp ∗ emp ∗ Pipeline.scopedRest (Ix := HIx 1) (Name := ℕ) (U := U₁) (Lvl := ℕ) (Val := Elt F) spec1 c)
    iintro Hr
    isplitr; · iempintro
    isplitr; · iempintro
    iexact Hr
  hexit c := by
    have hA : ((dats (U₁ := U₁) W 0 c).arrays ((dats (U₁ := U₁) W 0 c).arrAt · cfg1.N) : sProp 𝕄₁)
        = bigSep Finset.univ fun w : Fin cfg1.W => (((c : Thread nD τ).loc (Pipeline.arrRef spec1 w)) ↦{fullShare} VR (Wout W) c (Pipeline.arrRef spec1 w) : sProp 𝕄₁) := by
      rw [Pipeline.arrays_eq (Pipeline.pin (pcfgs (F := F)) adm) (dats (U₁ := U₁) W) 0 c launch1.arr_whole ((dats (U₁ := U₁) W 0 c).share_full fun _ => rfl)]
      exact bigSep_congr fun w _ => by rw [arrAt_eq W c w]
    rw [Pipeline.unscopedBufs_split (Pipeline.pin (pcfgs (F := F)) adm) 0 launch1.win.arr_unscoped launch1.win.arr_inj c (VR (Wout W) c),
      ← unscopedRest_out W c]
    iintro ⟨Ha, HO, -, HZ⟩
    ihave Ha' := (Entails.of_eq hA) $$ Ha
    imodintro
    isplitr [HO]
    · isplitl [Ha']
      · iexact Ha'
      · iexact HZ
    · unfold Pipeline.Dat.owesAt Pipeline.owesWithin
      icases HO with ⟨%Wt, %hW, HO⟩; iexists Wt; isplitr
      · ipureintro; intro p hp
        rcases hW hp with h | ⟨w, s, rfl⟩
        · exact h
        · show (K (F := F)).lev _ none ≤ 8; rw [(K (F := F)).lev_none]; exact Nat.zero_le _
      iexact HO

theorem reg1_pre (c : Dev nD) : (reg1 (U₁ := U₁) W).pre c = iprop(unscopedBufs c (VR W c) ∗ Rw c) := rfl
theorem reg1_post (c : Dev nD) : (reg1 (U₁ := U₁) W).post c = iprop(unscopedBufs c (VR (Wout W) c) ∗ Rw c) := rfl

end Seg

/-! ## The tail -/

/-- The arrays after the tail: after the six host operations and then the region. -/
def Vfin (V : Valuation τ sig (Elt F)) : Valuation τ sig (Elt F) := Wout (W6 V)

section Fin

variable (V : Valuation τ sig (Elt F))

omit [∀ e, Nonempty (Elt F e)] in
/-- The result: the perceptron of the bag and the float arguments. -/
theorem Vfin_v7 : Vfin V (Proc.devRef .tc main_v7)
    = mlpK (V (Proc.devRef .tc main_v0)) (V (Proc.devRef .tc main_arg2)) (V (Proc.devRef .tc main_arg3)) (V (Proc.devRef .tc main_arg4))
        (V (Proc.devRef .tc main_arg5)) (V (Proc.devRef .tc main_arg6)) (V (Proc.devRef .tc main_arg7)) := by
  unfold Vfin; rw [Wout_v7]; unfold Gout mlpK
  rw [W6_v0, W6_v1, W6_v2, W6_v3, W6_v4, W6_v5, W6_v6]

omit [∀ e, Nonempty (Elt F e)] in
theorem Vfin_v0 : Vfin V (Proc.devRef .tc main_v0) = V (Proc.devRef .tc main_v0) := (Wout_ne _ (by decide)).trans (W6_v0 V)
omit [∀ e, Nonempty (Elt F e)] in
theorem Vfin_arg0 : Vfin V (Proc.devRef .tc main_arg0) = V (Proc.devRef .tc main_arg0) := (Wout_ne _ (by decide)).trans (W6_arg0 V)
omit [∀ e, Nonempty (Elt F e)] in
theorem Vfin_arg1 : Vfin V (Proc.devRef .tc main_arg1) = V (Proc.devRef .tc main_arg1) := (Wout_ne _ (by decide)).trans (W6_arg1 V)
omit [∀ e, Nonempty (Elt F e)] in
theorem Vfin_arg2 : Vfin V (Proc.devRef .tc main_arg2) = V (Proc.devRef .tc main_arg2) := (Wout_ne _ (by decide)).trans (W6_arg2 V)
omit [∀ e, Nonempty (Elt F e)] in
theorem Vfin_arg3 : Vfin V (Proc.devRef .tc main_arg3) = V (Proc.devRef .tc main_arg3) := (Wout_ne _ (by decide)).trans (W6_arg3 V)
omit [∀ e, Nonempty (Elt F e)] in
theorem Vfin_arg4 : Vfin V (Proc.devRef .tc main_arg4) = V (Proc.devRef .tc main_arg4) := (Wout_ne _ (by decide)).trans (W6_arg4 V)
omit [∀ e, Nonempty (Elt F e)] in
theorem Vfin_arg5 : Vfin V (Proc.devRef .tc main_arg5) = V (Proc.devRef .tc main_arg5) := (Wout_ne _ (by decide)).trans (W6_arg5 V)
omit [∀ e, Nonempty (Elt F e)] in
theorem Vfin_arg6 : Vfin V (Proc.devRef .tc main_arg6) = V (Proc.devRef .tc main_arg6) := (Wout_ne _ (by decide)).trans (W6_arg6 V)
omit [∀ e, Nonempty (Elt F e)] in
theorem Vfin_arg7 : Vfin V (Proc.devRef .tc main_arg7) = V (Proc.devRef .tc main_arg7) := (Wout_ne _ (by decide)).trans (W6_arg7 V)

end Fin

omit [∀ e, Nonempty (Elt F e)] in
/-- After call 0 the TensorCore owes nothing: what it holds of the handshakes is that beside the rest. -/
theorem tcSt_one (Eh : Emb (URounds (GSem nD τ sig) ℕ) 𝕄₁) (d : Dev nD) :
    ∃ Rst : sProp 𝕄₁, (K (F := F)).tcSt Eh d 1 = iprop(Rw d ∗ Rst) :=
  ⟨_, by unfold SparseCore.Cfg.tcSt; rw [(K (F := F)).Otc_end d (le_refl 1)]⟩

set_option backward.isDefEq.respectTransparency.types false in
/-- THE TAIL on device `d`'s TensorCore: the host operations over the sixteen arrays held whole, then the region entered
    from what they left, the staging cells' invariants allocated from the launch ghost state; the TensorCore owes nothing
    after call 0 and every wait of the region is at the index below every handshake, so what it holds of the
    handshakes comes back unchanged. -/
theorem tc_tail (Eh : Emb (URounds (GSem nD τ sig) ℕ) 𝕄₁) (Ep : Emb (URounds (GSem nD τ sig) Unit) 𝕄₁) [Ep.LandsIn (upEmb : UEmb _ 𝕄₁)]
    (P : (K (F := F)).Pay (nD := nD) (Val := Elt F) (Name := ℕ) (U := U₁)) (κ : GSem nD τ sig → ℕ) (d : Dev nD) (V : Valuation τ sig (Elt F)) :
    iprop((K (F := F)).ctx Eh P κ ∗ boundary (T d) ∗ held (T d) TCBUFS V ∗ (K (F := F)).tcSt Eh d 1 ∗ G1 Ep d)
      ⊢ wp frame (wpE ((K (F := F)).defs (D (F := F))) 𝒱 (SparseCore.T d) none) Set.univ (tail d)
          fun _ => iprop((K (F := F)).tcSt Eh d 1 ∗ held (T d) TCBUFS (Vfin V)) := by
  obtain ⟨Rst, hR⟩ := tcSt_one (F := F) Eh d
  rw [hR]
  unfold tail G1
  iintro ⟨#Hctx, Hb, Hheld, ⟨HO, Hrest⟩, Hg, Ht⟩
  ihave Hla := ((K (F := F)).ctx_levAts (EH := Eh) (P := P) κ) $$ Hctx
  iapply (StableHlo.wp_seq 𝒱 none Set.univ d TCBUFS _ hostOps hostOps_sub hostOps_fresh V) $$ [Hb Hheld]
  · isplitl [Hb]; · iexact Hb
    iexact Hheld
  iintro ⟨Hb, Hheld⟩
  iapply ((K (F := F)).wp_liftProg (D (F := F)) 𝒱 (T d) Set.univ none regionProg _)
  iapply (Pipeline.RegionSeg.wp (pcfgs (F := F)) adm (dats (U₁ := U₁) (W6 V)) (none : HIx 1) cellOf_inj Ep defs₀ 𝒱₀ (K (F := F)).L (K (F := F)).lev
    (reg1 (U₁ := U₁) (W6 V)) d none (fun _ h => nomatch h) (fun _ => .ret ⟨⟩) _)
  rw [reg1_pre, reg1_post]
  isplitl [Hrest]
  · iintro ⟨Hb, Hub, HO⟩
    rw [wp_ret]; imodintro
    isplitl [HO Hrest]
    · isplitl [HO]; · iexact HO
      iexact Hrest
    · iapply (Entails.of_eq (unscopedBufs_held (F := F) (U₁ := U₁) d (Vfin V))); iexact Hub
  isplitl [Hb]; · iexact Hb
  isplitl [Hheld HO]
  · isplitl [Hheld]
    · iapply (Entails.of_eq (unscopedBufs_held (F := F) (U₁ := U₁) d (W6 V)).symm); iexact Hheld
    · iexact HO
  isplitr; · iexact Hla
  isplitl [Hg]; · iexact Hg
  iexact Ht

end Cert.KernelIdeal.Hand

end
-- ==== Proof.KernelIdeal.Launch.lean ====
/-
  The kernel program's run: the launch theorem applied.

  The launch element of the ghost state is a triple: the handshakes' rounds, the rounds of the one
  TensorCore region's staging cells, and the unit of the tiles' transfer counters. Owning the triple is
  owning each of the first two through its embedding; the second funds the region's cells; the calls'
  own payloads are empty.

  @main on the TensorCore holds its sixteen arrays. For the SparseCore call it takes out the index
  array, the table and the bag's array, hands every SparseCore its tasks' blocks and tokens (a remainder
  of the table's share stays behind), and gets them back with the bag's array holding the bag; with the
  remainder they are the three arrays whole again. The sixteen arrays, the bag's now at the bag, go
  through the rest of @main, which leaves the result array at the three layers of the bag and every
  argument as it was. The final memory agrees with what is held, array by array: the result is the
  kernel's function of the eight arguments, and the arguments are the launch memory's.
-/
import proofs.«205252_g82703890252310_cont_sun_m_328_31_alg».proof.Proof.KernelIdeal.Split
import proofs.«205252_g82703890252310_cont_sun_m_328_31_alg».proof.Proof.KernelIdeal.Body
import proofs.«205252_g82703890252310_cont_sun_m_328_31_alg».proof.Proof.KernelIdeal.TcTail
import proofs.«205252_g82703890252310_cont_sun_m_328_31_alg».proof.Proof.PreRange

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F] [Facts] [∀ e, Nonempty (Elt F e)]

/-! ## The launch element -/

def u₀ : UU :=
  (initOf (K (F := F)).hsCells (K (F := F)).hsToks,
    (initOf (Pipeline.cells cfgs Gen.cellOf_inj) (Pipeline.launchToks cfgs Gen.cellOf_inj), 1))

/-- Owning the triple is owning the handshakes' rounds and the region's cells' rounds, each through its embedding. -/
theorem ownU_split (a : UH) (b : UP) (c : Counters) : (ownU (a, (b, c)) : sProp 𝕄) ⊢ iprop(BI.own (EH a) ∗ BI.own (EP b)) := by
  iintro H
  ihave H := (ownU_pair a (b, c)) $$ H
  icases H with ⟨Ha, Hbc⟩
  ihave Hbc := (own_pair_emb (embR : Emb (UP × Counters) 𝕄) b c) $$ Hbc
  icases Hbc with ⟨Hb, -⟩
  isplitl [Ha]; · iexact Ha
  iexact Hb

theorem bigSep_emp' {I : Type} (s : Finset I) : (bigSep s fun _ => iprop(emp)) = (iprop(emp) : sProp 𝕄) := bigSep_emp_const s

/-- The launch element: the handshakes' rounds, the region's cells funded for every device, nothing for the calls. -/
theorem hu₀ : (ownU (u₀ (F := F)) : sProp 𝕄)
    ⊢ |={Set.univ}=> iprop(BI.own (EH (initOf (K (F := F)).hsCells (K (F := F)).hsToks)) ∗ (bigSep Finset.univ fun d : Dev nD => G1 EP d)
        ∗ bigSep Finset.univ fun thr : Thread nD τ => bigSep Finset.univ fun q : Fin 1 => (P m).x q thr) := by
  unfold u₀
  iintro Hu
  ihave H := (ownU_split _ _ _) $$ Hu
  icases H with ⟨HH, HP⟩
  imod (fund EP) $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The TensorCore's arrays around the call -/

abbrev aLoc (d : Dev nD) (b : Ref sig .tc) : Loc nD τ sig := (SparseCore.T d).loc b

abbrev i' : DevRef τ sig := Proc.devRef .tc (main_arg0 : Ref sig .tc)
abbrev x' : DevRef τ sig := Proc.devRef .tc (main_arg1 : Ref sig .tc)
abbrev o' : DevRef τ sig := Proc.devRef .tc (main_v0 : Ref sig .tc)
/-- The three arrays the SparseCore call works on. -/
abbrev T3 : Finset (DevRef τ sig) := {i', x', o'}

theorem held_T3 (d : Dev nD) (W : Valuation τ sig (Elt F)) :
    (held (T d) T3 W : sProp 𝕄) = iprop((iLoc d ↦{fullShare} W i') ∗ (xLoc d ↦{fullShare} W x') ∗ oLoc d ↦{fullShare} W o') := by
  unfold held T3
  rw [SparseCore.bigSep_insert' (by decide), SparseCore.bigSep_insert' (by decide), bigSep_singleton]

theorem T3_sub : T3 ⊆ TCBUFS := by decide

/-- The launch valuation; after the call, the bag's array at the bag. -/
def V0 (d : Dev nD) : Valuation τ sig (Elt F) := fun b => m (d, b)
def V1 (d : Dev nD) : Valuation τ sig (Elt F) := Function.update (V0 m d) o' (bagOf m d)

theorem unscoped_held (d : Dev nD) : (unscopedBufs d (fun b => m ((SparseCore.T d).loc b)) : sProp 𝕄) = held (T d) TCBUFS (V0 m d) :=
  unscopedBufs_held d (V0 m d)

theorem V1_o (d : Dev nD) : V1 m d o' = bagOf m d := Function.update_self _ _ _
theorem V1_ne (d : Dev nD) (b : DevRef τ sig) (h : b ≠ o') : V1 m d b = m (d, b) := Function.update_of_ne h _ _

theorem held_rest (d : Dev nD) : (held (T d) (TCBUFS \ T3) (V1 m d) : sProp 𝕄) = held (T d) (TCBUFS \ T3) (V0 m d) :=
  held_congr (T d) fun b hb => V1_ne m d b fun e => (Finset.mem_sdiff.mp hb).2 (e ▸ (by decide : o' ∈ T3))

/-! ## @main on the TensorCore -/

/-- What @main leaves: its sixteen arrays at what the rest of @main makes of the arrays after the call. -/
def FIN (d : Dev nD) : sProp 𝕄 := held (T d) TCBUFS (Vfin (V1 m d))

theorem hmain (κ : GSem nD τ sig → ℕ) (d : Dev nD) :
    iprop((K (F := F)).ctx EH (P m) κ ∗ (K (F := F)).tcSt EH d 0 ∗ (K (F := F)).tcRes m ρ d ∗ G1 EP d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, held_sub_split (T d) (T3_sub) (V0 m d), held_T3, main_eq_tail, wp_bind]
  iintro ⟨#Hctx, Hst, ⟨Hb, ⟨⟨Hi, Hx, Ho⟩, Hrest⟩, -, -⟩, HG⟩
  -- the call: every SparseCore its tasks' blocks and tokens; a remainder of the table's share stays here
  ihave Hs := (st_all m d) $$ [Hi Hx Ho]
  · isplitl [Hi]; · iexact Hi
    isplitl [Hx]; · iexact Hx
    iexact Ho
  icases Hs with ⟨Hxr, Hs⟩
  iapply ((K (F := F)).wp_run (D (F := F)) 𝒱 (EH := EH) (P := P m) κ d 0) $$ [Hst Hs Hxr Hb Hrest HG]
  isplitr; · iexact Hctx
  isplitl [Hst]; · iexact Hst
  isplitl [Hs]; · iexact Hs
  iintro ⟨Hst, Hdn⟩
  ihave Hd := (dn_all m d) $$ [Hxr Hdn]
  · isplitl [Hxr]; · iexact Hxr
    iexact Hdn
  icases Hd with ⟨Hi, Hx, Ho⟩
  -- the rest of @main, from the sixteen arrays with the bag's at the bag
  unfold FIN
  iapply (tc_tail EH EP (P m) κ d (V1 m d))
  isplitr; · iexact Hctx
  isplitl [Hb]; · iexact Hb
  isplitl [Hi Hx Ho Hrest]
  · rw [held_sub_split (T d) (T3_sub) (V1 m d), held_T3, held_rest, V1_o, V1_ne m d i' (by decide), V1_ne m d x' (by decide)]
    isplitr [Hrest]
    · isplitl [Hi]; · iexact Hi
      isplitl [Hx]; · iexact Hx
      iexact Ho
    · iexact Hrest
  isplitl [Hst]; · iexact Hst
  iexact HG

/-! ## What the final memory says -/

/-- An array held whole is what the memory holds there. -/
theorem pts_agree (ℓ : Loc nD τ sig) (f : Buf (Elt F) ℓ) (s' : Phys nD τ sig (Elt F)) :
    iprop((ℓ ↦{fullShare} f) ∗ SI s') ⊢ (⌜s'.mem.mem ℓ = f⌝ : sProp 𝕄) := by
  iintro ⟨Hb, HSI⟩
  ihave H := (SI_pointsTo_agree (st := s') (ℓ := ℓ) (I := Finset.univ) (q := fullShare) (f := f)) $$ [HSI Hb]
  · isplitl [HSI] <;> iassumption
  icases H with %h
  ipureintro; exact funext fun i => h i (Finset.mem_univ i)

/-- So is each array of a set that is held. -/
theorem held_agree (d : Dev nD) (Sx : Finset (DevRef τ sig)) (W : Valuation τ sig (Elt F)) (s' : Phys nD τ sig (Elt F))
    (b : DevRef τ sig) (hb : b ∈ Sx) : iprop(held (T d) Sx W ∗ SI s') ⊢ (⌜s'.mem.mem (d, b) = W b⌝ : sProp 𝕄) :=
  (BI.sep_mono_l (bigSep_elim (Φ := fun b : DevRef τ sig => (((d, b) : Loc nD τ sig) ↦{fullShare} W b : sProp 𝕄)) hb)).trans
    (pts_agree (d, b) (W b) s')

/-- The claim of one device's final memory: the result is the kernel's function of the arguments, the arguments are the launch memory's. -/
def fq (d : Dev nD) (s' : Phys nD τ sig (Elt F)) : Prop :=
  s'.mem.mem (aLoc d main_v7) = outK (F := F) (m (aLoc d main_arg0)) (m (aLoc d main_arg1)) (m (aLoc d main_arg2)) (m (aLoc d main_arg3))
      (m (aLoc d main_arg4)) (m (aLoc d main_arg5)) (m (aLoc d main_arg6)) (m (aLoc d main_arg7))
    ∧ s'.mem.mem (aLoc d main_arg0) = m (aLoc d main_arg0) ∧ s'.mem.mem (aLoc d main_arg1) = m (aLoc d main_arg1)
    ∧ s'.mem.mem (aLoc d main_arg2) = m (aLoc d main_arg2) ∧ s'.mem.mem (aLoc d main_arg3) = m (aLoc d main_arg3)
    ∧ s'.mem.mem (aLoc d main_arg4) = m (aLoc d main_arg4) ∧ s'.mem.mem (aLoc d main_arg5) = m (aLoc d main_arg5)
    ∧ s'.mem.mem (aLoc d main_arg6) = m (aLoc d main_arg6) ∧ s'.mem.mem (aLoc d main_arg7) = m (aLoc d main_arg7)

/-- The result array after the rest of @main: the three layers of the bag, that is the kernel's function. -/
theorem val_v7 (d : Dev nD) : Vfin (V1 m d) (Proc.devRef .tc (main_v7 : Ref sig .tc))
    = outK (F := F) (m (aLoc d main_arg0)) (m (aLoc d main_arg1)) (m (aLoc d main_arg2)) (m (aLoc d main_arg3))
      (m (aLoc d main_arg4)) (m (aLoc d main_arg5)) (m (aLoc d main_arg6)) (m (aLoc d main_arg7)) := by
  rw [Vfin_v7, V1_o, V1_ne m d _ (by decide), V1_ne m d _ (by decide), V1_ne m d _ (by decide), V1_ne m d _ (by decide),
    V1_ne m d _ (by decide), V1_ne m d _ (by decide)]
  rfl

theorem hfin (d : Dev nD) (s' : Phys nD τ sig (Elt F)) : iprop(FIN m d ∗ SI s') ⊢ (⌜fq m d s'⌝ : sProp 𝕄) := by
  unfold FIN
  have hm : ∀ b ∈ TCBUFS, iprop(held (T d) TCBUFS (Vfin (V1 m d)) ∗ SI s') ⊢ (⌜s'.mem.mem (d, b) = Vfin (V1 m d) b⌝ : sProp 𝕄) :=
    fun b hb => held_agree d TCBUFS (Vfin (V1 m d)) s' b hb
  have mem : ∀ b ∈ ({Proc.devRef .tc (main_arg0 : Ref sig .tc), Proc.devRef .tc (main_arg1 : Ref sig .tc), Proc.devRef .tc (main_arg2 : Ref sig .tc),
      Proc.devRef .tc (main_arg3 : Ref sig .tc), Proc.devRef .tc (main_arg4 : Ref sig .tc), Proc.devRef .tc (main_arg5 : Ref sig .tc),
      Proc.devRef .tc (main_arg6 : Ref sig .tc), Proc.devRef .tc (main_arg7 : Ref sig .tc), Proc.devRef .tc (main_v7 : Ref sig .tc)} : Finset (DevRef τ sig)),
      b ∈ TCBUFS := by decide
  iintro H
  ihave H := (persistent_entails_right (hm _ (mem (Proc.devRef .tc (main_v7 : Ref sig .tc)) (by decide)))) $$ H
  icases H with ⟨%h7, H⟩
  ihave H := (persistent_entails_right (hm _ (mem (Proc.devRef .tc (main_arg0 : Ref sig .tc)) (by decide)))) $$ H
  icases H with ⟨%a0, H⟩
  ihave H := (persistent_entails_right (hm _ (mem (Proc.devRef .tc (main_arg1 : Ref sig .tc)) (by decide)))) $$ H
  icases H with ⟨%a1, H⟩
  ihave H := (persistent_entails_right (hm _ (mem (Proc.devRef .tc (main_arg2 : Ref sig .tc)) (by decide)))) $$ H
  icases H with ⟨%a2, H⟩
  ihave H := (persistent_entails_right (hm _ (mem (Proc.devRef .tc (main_arg3 : Ref sig .tc)) (by decide)))) $$ H
  icases H with ⟨%a3, H⟩
  ihave H := (persistent_entails_right (hm _ (mem (Proc.devRef .tc (main_arg4 : Ref sig .tc)) (by decide)))) $$ H
  icases H with ⟨%a4, H⟩
  ihave H := (persistent_entails_right (hm _ (mem (Proc.devRef .tc (main_arg5 : Ref sig .tc)) (by decide)))) $$ H
  icases H with ⟨%a5, H⟩
  ihave H := (persistent_entails_right (hm _ (mem (Proc.devRef .tc (main_arg6 : Ref sig .tc)) (by decide)))) $$ H
  icases H with ⟨%a6, H⟩
  ihave H := (persistent_entails_right (hm _ (mem (Proc.devRef .tc (main_arg7 : Ref sig .tc)) (by decide)))) $$ H
  icases H with ⟨%a7, -⟩
  ipureintro
  exact ⟨h7.trans (val_v7 m d),
    a0.trans ((Vfin_arg0 _).trans (V1_ne m d _ (by decide))), a1.trans ((Vfin_arg1 _).trans (V1_ne m d _ (by decide))),
    a2.trans ((Vfin_arg2 _).trans (V1_ne m d _ (by decide))), a3.trans ((Vfin_arg3 _).trans (V1_ne m d _ (by decide))),
    a4.trans ((Vfin_arg4 _).trans (V1_ne m d _ (by decide))), a5.trans ((Vfin_arg5 _).trans (V1_ne m d _ (by decide))),
    a6.trans ((Vfin_arg6 _).trans (V1_ne m d _ (by decide))), a7.trans ((Vfin_arg7 _).trans (V1_ne m d _ (by decide)))⟩

/-! ## The program's run -/

/-- On every device the result array ends at the kernel's function of the launch memory's arguments, and the arguments as launched. -/
def QC : PUnit × MemSt nD τ sig (Elt F) → Prop := fun r => ∀ c : Dev nD,
  r.2.mem (aLoc c main_v7) = outK (F := F) (m (aLoc c main_arg0)) (m (aLoc c main_arg1)) (m (aLoc c main_arg2)) (m (aLoc c main_arg3))
      (m (aLoc c main_arg4)) (m (aLoc c main_arg5)) (m (aLoc c main_arg6)) (m (aLoc c main_arg7))
    ∧ r.2.mem (aLoc c main_arg0) = m (aLoc c main_arg0) ∧ r.2.mem (aLoc c main_arg1) = m (aLoc c main_arg1)
    ∧ r.2.mem (aLoc c main_arg2) = m (aLoc c main_arg2) ∧ r.2.mem (aLoc c main_arg3) = m (aLoc c main_arg3)
    ∧ r.2.mem (aLoc c main_arg4) = m (aLoc c main_arg4) ∧ r.2.mem (aLoc c main_arg5) = m (aLoc c main_arg5)
    ∧ r.2.mem (aLoc c main_arg6) = m (aLoc c main_arg6) ∧ r.2.mem (aLoc c main_arg7) = m (aLoc c main_arg7)

theorem run_main (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (G1 EP) (FIN m) (u₀ (F := F)) (sep_elim_left.trans (hu₀ m)) (hmain m ρ) (fq m) (hfin m) (QC m) (fun _ h => h)

/-- The precondition, all ones on every device, gives what the proof asks of the launch memory: every index word names a row of the table. -/
theorem ok_of_pre [Cert.Pre_input_domain.Facts]
    (h : ∀ c : Dev nD, Cert.Pre_input_domain.fn (F := F) (m (aLoc c main_arg0)) (m (aLoc c main_arg1)) (m (aLoc c main_arg2)) (m (aLoc c main_arg3))
      (m (aLoc c main_arg4)) (m (aLoc c main_arg5)) (m (aLoc c main_arg6)) (m (aLoc c main_arg7)) = fun _ => 1#1) : PreOK m :=
  fun d j => Cert.Bridge.toNat_lt_of_pre (F := F) _ _ _ _ _ _ _ _ (h d) j

end Cert.KernelIdeal.Hand

end
-- ==== Proof.RefSpec.lean ====
/-
  The reference program's value, as a pure function of its arguments: the operations of
  @_take, @_where and @main composed in the printed order, nothing simplified.
-/
import proofs.«205252_g82703890252310_cont_sun_m_328_31_alg».proof.ReferenceIdeal

noncomputable section

namespace Cert.ReferenceIdeal.Hand

open Idealize.ShloMosaic Idealize.SL.Sem
open Cert.ReferenceIdeal Cert.ReferenceIdeal.Facts₀ Cert.ReferenceIdeal.Facts

variable [Cert.ReferenceIdeal.Facts]

/-- @_where's select inside @_take: an index below zero has 100000 added, any other index is kept
    (%1 = idx < 0, %3 = idx + 100000, %4 = select %1 %3 idx). -/
def wrapR (idx : IVec S4096x50 32) : IVec S4096x50 32 :=
  select
    (cmpi .slt idx (broadcastInDim S4096x50 ![] bcast_S_S4096x50 (constantI S_ 32 0#32)))
    (addi idx (broadcastInDim S4096x50 ![] bcast_S_S4096x50 (constantI S_ 32 100000#32)))
    idx

/-- %5: the wrapped indices with a trailing axis of size one, the gather's start indices. -/
def startR (idx : IVec S4096x50 32) : IVec S4096x50x1 32 :=
  broadcastInDim S4096x50x1 ![0, 1] bcast_S4096x50_S4096x50x1_0_1 (wrapR idx)

/-- %12: per position, whether the wrapped index lies in [0, 99999]: the conjunction (%11) of
    %7 = (0 ≤ start) and %10 = (start ≤ 99999), reduced by "and" from true over the size-one axis. -/
def okR (idx : IVec S4096x50 32) : IVec S4096x50 1 :=
  Host.reduce IntOp.andi
    (andi
      (cmpi .sge (startR idx) (broadcastInDim S4096x50x1 ![] bcast_S_S4096x50x1 (constantI S_ 32 0#32)))
      (cmpi .sle (startR idx)
        (broadcastInDim S4096x50x1 ![0, 1, 2] bcast_S1x1x1_S4096x50x1_0_1_2
          (broadcastInDim S1x1x1 ![2] bcast_S1_S1x1x1_2 (constantI S1 32 99999#32)))))
    (constantI S_ 1 1#1) reducesTo_S4096x50x1_S4096x50_d2 h_S_

/-- %16, @_take's result: the gathered rows (%13) where the index is in range (%14 = %12 broadcast
    along the row), the not-a-number literal (%15) elsewhere. -/
def takeR {F : FTy → Type} [FloatOps F] (idx : IVec S4096x50 32) (tbl : FVec F S100000x128 .f32) :
    FVec F S4096x50x128 .f32 :=
  select
    (broadcastInDim S4096x50x128 ![0, 1] bcast_S4096x50_S4096x50x128_0_1 (okR idx))
    (Host.gather gather_S100000x128_S4096x50x1_S4096x50x128_2_0_n_n_0_2_1128 tbl (startR idx))
    (broadcastInDim S4096x50x128 ![] bcast_S_S4096x50x128 (constant (F := F) S_ .f32 0x7FC00000#32))

/-- the bag: rows of the table at the indices, summed over the 50 positions, exactly as @_take,
    @_where and the reduce compose (%1 of @main: the float sum over axis 1 from the constant zero). -/
def bagR {F : FTy → Type} [FloatOps F] (idx : IVec S4096x50 32) (tbl : FVec F S100000x128 .f32) :
    FVec F S4096x128 .f32 :=
  Host.reduceAdd (takeR idx tbl) (constant (F := F) S_ .f32 0x00000000#32)
    reducesTo_S4096x50x128_S4096x128_d1 h_S_

/-- the three layers exactly as @main's operations %2 … %15 compose: a contraction with the weight,
    the bias broadcast over the rows and added, tanh after the first two layers. -/
def mlpR {F : FTy → Type} [FloatOps F] (x : FVec F S4096x128 .f32) (W1 : FVec F S128x512 .f32)
    (b1 : FVec F S512 .f32) (W2 : FVec F S512x512 .f32) (b2 : FVec F S512 .f32)
    (W3 : FVec F S512x128 .f32) (b3 : FVec F S128 .f32) : FVec F S4096x128 .f32 :=
  addf
    (Host.dotGeneral dot_S4096x512_S512x128_S4096x128_1_0_0_1_n_n none
      (Host.tanh
        (addf
          (Host.dotGeneral dot_S4096x512_S512x512_S4096x512_1_0_0_1_n_n none
            (Host.tanh
              (addf
                (Host.dotGeneral dot_S4096x128_S128x512_S4096x512_1_0_0_1_n_n none x W1)
                (broadcastInDim S4096x512 ![0, 1] bcast_S1x512_S4096x512_0_1
                  (broadcastInDim S1x512 ![1] bcast_S512_S1x512_1 b1))))
            W2)
          (broadcastInDim S4096x512 ![0, 1] bcast_S1x512_S4096x512_0_1
            (broadcastInDim S1x512 ![1] bcast_S512_S1x512_1 b2))))
      W3)
    (broadcastInDim S4096x128 ![0, 1] bcast_S1x128_S4096x128_0_1
      (broadcastInDim S1x128 ![1] bcast_S128_S1x128_1 b3))

end Cert.ReferenceIdeal.Hand

end
-- ==== Proof.RefRun.lean ====
/-
  The reference program's run, written by hand: @main as the straight line of its forty host
  operations (the outlined functions @_take and @_where unfolded at their calls, over the call's own
  buffers), and what every weakly fair execution leaves in the result and argument buffers.
-/
import proofs.«205252_g82703890252310_cont_sun_m_328_31_alg».proof.Proof.RefSpec
import Idealize.ShloMosaic.Lib.StableHlo.Run

noncomputable section

namespace Cert.ReferenceIdeal.Hand

open Cert.ReferenceIdeal Cert.ReferenceIdeal.Facts₀ Cert.ReferenceIdeal.Facts
open Idealize.ShloMosaic Idealize.ShloMosaic.TcCoe Idealize.SL.Sem Idealize.ShloMosaic.StableHlo

variable [Cert.ReferenceIdeal.Facts]
variable {F : FTy → Type} [FloatOps F]

/-- @main's operations in order, the calls unfolded: @_take's twenty-three into the call's buffers
    (the comparison with zero, the index plus 100000, @_where's select; the start indices, the two range
    tests, their conjunction and its reduction over the unit axis; the gather, the mask broadcast along
    the row, the not-a-number literal and the masking select), then @main's own seventeen (the zero, the
    sum over the fifty positions, and three times: contraction, bias broadcast twice, sum, and tanh
    after the first two). -/
abbrev ops : List (HloOp τ sig (Elt F)) :=
  [ TRef.nullary main_call0.c (constantI S_ 32 0#32),
    TRef.unary main_call0.c main_call0.v0 (broadcastInDim S4096x50 ![] bcast_S_S4096x50),
    TRef.binary (.of main_arg0 : TRef sig ⟨S4096x50, .i32⟩) main_call0.v0 main_call0.v1 (cmpi .slt),
    TRef.nullary main_call0.c_0 (constantI S_ 32 100000#32),
    TRef.unary main_call0.c_0 main_call0.v2 (broadcastInDim S4096x50 ![] bcast_S_S4096x50),
    TRef.binary (.of main_arg0 : TRef sig ⟨S4096x50, .i32⟩) main_call0.v2 main_call0.v3 addi,
    TRef.ternary main_call0.v1 main_call0.v3 (.of main_arg0 : TRef sig ⟨S4096x50, .i32⟩) main_call0.call0.v0 select,
    TRef.unary main_call0.call0.v0 main_call0.v5 (broadcastInDim S4096x50x1 ![0, 1] bcast_S4096x50_S4096x50x1_0_1),
    TRef.nullary main_call0.c_1 (constantI S1 32 99999#32),
    TRef.nullary main_call0.c_2 (constantI S_ 32 0#32),
    TRef.unary main_call0.c_2 main_call0.v6 (broadcastInDim S4096x50x1 ![] bcast_S_S4096x50x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x50x1 ![0, 1, 2] bcast_S1x1x1_S4096x50x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x50x1_S4096x50_d2 h_S_),
    TRef.binary (.of main_arg1 : TRef sig ⟨S100000x128, .f32⟩) main_call0.v5 main_call0.v13 (fun x i => Host.gather gather_S100000x128_S4096x50x1_S4096x50x128_2_0_n_n_0_2_1128 x i),
    TRef.unary main_call0.v12 main_call0.v14 (broadcastInDim S4096x50x128 ![0, 1] bcast_S4096x50_S4096x50x128_0_1),
    TRef.nullary main_call0.cst (constant S_ .f32 0x7FC00000#32),
    TRef.unary main_call0.cst main_call0.v15 (broadcastInDim S4096x50x128 ![] bcast_S_S4096x50x128),
    TRef.ternary main_call0.v14 main_call0.v13 main_call0.v15 main_call0.v16 select,
    nullary main_cst (constant S_ .f32 0x00000000#32),
    binary main_v0 main_cst main_v1 ((fun x v => Host.reduceAdd x v reducesTo_S4096x50x128_S4096x128_d1 h_S_) : (⟨S4096x50x128, .f32⟩ : BufTy).Contents (Elt F) → (⟨S_, .f32⟩ : BufTy).Contents (Elt F) → (⟨S4096x128, .f32⟩ : BufTy).Contents (Elt F)),
    binary main_v1 main_arg2 main_v2 ((fun l r => Host.dotGeneral dot_S4096x128_S128x512_S4096x512_1_0_0_1_n_n none l r) : (⟨S4096x128, .f32⟩ : BufTy).Contents (Elt F) → (⟨S128x512, .f32⟩ : BufTy).Contents (Elt F) → (⟨S4096x512, .f32⟩ : BufTy).Contents (Elt F)),
    unary main_arg3 main_v3 (broadcastInDim S1x512 ![1] bcast_S512_S1x512_1 : (⟨S512, .f32⟩ : BufTy).Contents (Elt F) → (⟨S1x512, .f32⟩ : BufTy).Contents (Elt F)),
    unary main_v3 main_v4 (broadcastInDim S4096x512 ![0, 1] bcast_S1x512_S4096x512_0_1 : (⟨S1x512, .f32⟩ : BufTy).Contents (Elt F) → (⟨S4096x512, .f32⟩ : BufTy).Contents (Elt F)),
    binary main_v2 main_v4 main_v5 (addf : (⟨S4096x512, .f32⟩ : BufTy).Contents (Elt F) → (⟨S4096x512, .f32⟩ : BufTy).Contents (Elt F) → (⟨S4096x512, .f32⟩ : BufTy).Contents (Elt F)),
    unary main_v5 main_v6 (Host.tanh : (⟨S4096x512, .f32⟩ : BufTy).Contents (Elt F) → (⟨S4096x512, .f32⟩ : BufTy).Contents (Elt F)),
    binary main_v6 main_arg4 main_v7 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    unary main_arg5 main_v8 (broadcastInDim S1x512 ![1] bcast_S512_S1x512_1 : (⟨S512, .f32⟩ : BufTy).Contents (Elt F) → (⟨S1x512, .f32⟩ : BufTy).Contents (Elt F)),
    unary main_v8 main_v9 (broadcastInDim S4096x512 ![0, 1] bcast_S1x512_S4096x512_0_1 : (⟨S1x512, .f32⟩ : BufTy).Contents (Elt F) → (⟨S4096x512, .f32⟩ : BufTy).Contents (Elt F)),
    binary main_v7 main_v9 main_v10 (addf : (⟨S4096x512, .f32⟩ : BufTy).Contents (Elt F) → (⟨S4096x512, .f32⟩ : BufTy).Contents (Elt F) → (⟨S4096x512, .f32⟩ : BufTy).Contents (Elt F)),
    unary main_v10 main_v11 (Host.tanh : (⟨S4096x512, .f32⟩ : BufTy).Contents (Elt F) → (⟨S4096x512, .f32⟩ : BufTy).Contents (Elt F)),
    binary main_v11 main_arg6 main_v12 ((fun l r => Host.dotGeneral dot_S4096x512_S512x128_S4096x128_1_0_0_1_n_n none l r) : (⟨S4096x512, .f32⟩ : BufTy).Contents (Elt F) → (⟨S512x128, .f32⟩ : BufTy).Contents (Elt F) → (⟨S4096x128, .f32⟩ : BufTy).Contents (Elt F)),
    unary main_arg7 main_v13 (broadcastInDim S1x128 ![1] bcast_S128_S1x128_1 : (⟨S128, .f32⟩ : BufTy).Contents (Elt F) → (⟨S1x128, .f32⟩ : BufTy).Contents (Elt F)),
    unary main_v13 main_v14 (broadcastInDim S4096x128 ![0, 1] bcast_S1x128_S4096x128_0_1 : (⟨S1x128, .f32⟩ : BufTy).Contents (Elt F) → (⟨S4096x128, .f32⟩ : BufTy).Contents (Elt F)),
    binary main_v12 main_v14 main_v15 (addf : (⟨S4096x128, .f32⟩ : BufTy).Contents (Elt F) → (⟨S4096x128, .f32⟩ : BufTy).Contents (Elt F) → (⟨S4096x128, .f32⟩ : BufTy).Contents (Elt F)) ]

-- sequencing is associative: the forty steps, however the two functions' bodies nest them, are one chain
set_option maxRecDepth 2048 in
/-- @main is that straight line: the two functions' definitions unfolded at their calls and the record at
    its fields, both sides are one chain of host steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., binary_bufs_sub .., binary_bufs_sub .., unary_bufs_sub .., unary_bufs_sub .., binary_bufs_sub ..,
    unary_bufs_sub .., binary_bufs_sub .., unary_bufs_sub .., unary_bufs_sub .., binary_bufs_sub .., unary_bufs_sub ..,
    binary_bufs_sub .., unary_bufs_sub .., unary_bufs_sub .., binary_bufs_sub ..⟩

/-- At the compiled mesh, from any memory with zero counters: every weakly fair execution of @main on the
    TensorCores terminates, and every final state has each TensorCore buffer at the operations' fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The fold at the result buffer is the reference's value: each operation's result at its own buffer is
    its function of its operands' contents, and at any other buffer what was there; the typed references'
    transports are the identity at these literal references. The reductions, the gather and the contractions
    stay folded: the equation never looks inside them. -/
theorem out_eq (V : Valuation τ sig (Elt F)) :
    after ops V (main_v15 : DevRef τ sig)
      = mlpR (bagR (V (main_arg0 : DevRef τ sig)) (V (main_arg1 : DevRef τ sig))) (V (main_arg2 : DevRef τ sig))
          (V (main_arg3 : DevRef τ sig)) (V (main_arg4 : DevRef τ sig)) (V (main_arg5 : DevRef τ sig))
          (V (main_arg6 : DevRef τ sig)) (V (main_arg7 : DevRef τ sig)) := by
  after_results_simp
  simp only [TRef.toBuf, TRef.ofBuf, cast_eq]
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

/-- At the compiled mesh, for any float values, from any memory with zero counters: every weakly fair
    execution of @main terminates with the result at the three layers of the bag of the arguments' launch
    contents, and the arguments unchanged. -/
theorem run (m : (ℓ : Loc nD τ sig) → Buf (Elt F) ℓ) (ρ : Dev nD → PrngReg) :
    θ_run (Cert.ReferenceIdeal.defs (F := F)) (onTc (τ := Cert.ReferenceIdeal.τ) (Cert.ReferenceIdeal.main (F := F))) ⟨m, fun _ => 0, ρ⟩ (fun r => ∀ c : Dev nD,
      r.2.mem ((c.tc : Thread nD τ).loc main_v15) = mlpR (bagR (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c main_v15).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_main m ρ)

end Cert.ReferenceIdeal.Hand

end
-- ==== Proof.BridgeBag.lean ====
/-
  The kernel's bag at an index is the plain sum of the 50 gathered rows' entries.

  A lane group's accumulator starts from the zero vector and has, after t additions, at lane l the sum
  over the first t rows of the block of the entry at column 16k + l: by induction on t, since adding
  at an index adds the entries, the zero word denotes 0, and a 1×1×16 vector viewed as 16 lanes reads
  lane l at (0, 0, l). Row j of the block a row r of the indices gathers is row idx[r, j] of the table,
  and column e of the bag belongs to lane group e / 16, lane e mod 16, and 16 (e / 16) + e mod 16 = e.
  On the extended reals addition is commutative and associative with 0 neutral, so the 50 additions in
  order are the sum over the 50 positions; nothing about the values is used.
-/
import proofs.«205252_g82703890252310_cont_sun_m_328_31_alg».proof.Proof.KernelIdeal.Spec
import Idealize.ShloMosaic.Lib.Pipeline.Value
import Idealize.ShloMosaic.PureOps.Ideal.Laws

noncomputable section

namespace Cert.Bridge

open Idealize.ShloMosaic Idealize.ShloMosaic.ValueIdx
open Cert.KernelIdeal Cert.KernelIdeal.Hand

/-- An index word below 100000 names the table's row of that number. -/
theorem rowIx_of_lt (w : BitVec 32) (h : w.toNat < 100000) : rowIx w = ⟨w.toNat, h⟩ :=
  Fin.ext (Nat.mod_eq_of_lt h)

/-- A 1×1×16 vector viewed as 16 lanes reads lane l at (0, 0, l). -/
theorem shapeCast_1x1x16_apply {α : Type} (v : (⟨3, ![1, 1, 16]⟩ : Shape).Idx → α)
    (h : (⟨3, ![1, 1, 16]⟩ : Shape).ShapeCasts ⟨1, ![16]⟩) (l : Fin 16) :
    shapeCast ⟨1, ![16]⟩ v h (ix1 l) = v (ix3 (0 : Fin 1) (0 : Fin 1) l) :=
  shapeCast_apply v h _ _ (by
    rw [Shape.rowMajor_val_three, Shape.rowMajor_val_one]
    show (0 * 1 + 0) * 16 + l.val = l.val
    omega)

/-- Equal coordinates name equal entries of the table. -/
theorem tbl_congr {α : Type} (idx : IVec S4096x50 32) (tbl : S100000x128.Idx → α) {r r' : Fin 4096} {j j' : Fin 50}
    {c c' : Fin 128} (hr : r' = r) (hj : j' = j) (hc : c' = c) :
    tbl (ix2 (rowIx (idx (ix2 r' j'))) c') = tbl (ix2 (rowIx (idx (ix2 r j))) c) := by
  subst hr hj hc; rfl

section Bag

variable [Cert.KernelIdeal.Facts]

/-- Row j, column c of the block row r gathers is row idx[r, j], column c of the table. -/
theorem rowsOf_apply (idx : IVec S4096x50 32) (tbl : FVec Ideal S100000x128 .f32) (r : Fin 4096) (j : Fin 50) (c : Fin 128) :
    rowsOf (F := Ideal) idx tbl r (ix2 j c) = tbl (ix2 (rowIx (idx (ix2 r j))) c) :=
  tbl_congr idx tbl rfl (Fin.ext (Nat.mod_eq_of_lt j.isLt)) (Fin.ext (Nat.mod_eq_of_lt c.isLt))

/-- Lane l of lane group k's accumulator after t additions is the sum, over the first t rows of the
    block, of the entry at column 16k + l. -/
theorem accV_apply (g : FVec Ideal S50x128 .f32) (k : Fin 8) (l : Fin 16) (t : Nat) :
    accV (F := Ideal) g k t (ix1 l)
      = ∑ j ∈ Finset.range t, g (ix2 (⟨j % 50, Nat.mod_lt _ (by decide)⟩ : Fin 50)
          (⟨16 * k.val + l.val, by have := k.isLt; have := l.isLt; omega⟩ : Fin 128)) := by
  induction t with
  | zero =>
    rw [Finset.sum_range_zero]
    show Ideal.ofBits .f32 0x00000000#32 = 0
    exact Ideal.ofBits_zero_f32
  | succ t ih =>
    rw [Finset.sum_range_succ, ← ih]
    show accV (F := Ideal) g k t (ix1 l)
        + shapeCast S16 (lanes g (⟨t % 50, Nat.mod_lt _ (by decide)⟩ : Fin 50) k) _ (ix1 l) = _
    rw [shapeCast_1x1x16_apply]
    refine congrArg (accV (F := Ideal) g k t (ix1 l) + ·) ?_
    show g (ix2 _ (⟨16 * k.val + l.val % 16, _⟩ : Fin 128)) = _
    exact congrArg (fun c : Fin 128 => g (ix2 (⟨t % 50, Nat.mod_lt _ (by decide)⟩ : Fin 50) c))
      (Fin.ext (by show 16 * k.val + l.val % 16 = 16 * k.val + l.val; have := l.isLt; omega))

/-- The kernel's bag at (r, e): the sum over the 50 positions j of entry e of row idx[r, j] of the table. -/
theorem bagK_apply (idx : IVec S4096x50 32) (tbl : FVec Ideal S100000x128 .f32) (r : Fin 4096) (e : Fin 128) :
    bagK (F := Ideal) idx tbl (ix2 r e) = ∑ j : Fin 50, tbl (ix2 (rowIx (idx (ix2 r j))) e) := by
  show accV (F := Ideal) (rowsOf idx tbl (⟨r.val % 4096, Nat.mod_lt _ (by decide)⟩ : Fin 4096))
      (⟨e.val % 128 / 16, by have := Nat.mod_lt e.val (show 0 < 128 by decide); omega⟩ : Fin 8) 50
      (ix1 (⟨e.val % 16, Nat.mod_lt _ (by decide)⟩ : Fin 16)) = _
  rw [accV_apply]
  refine (Fin.sum_univ_eq_sum_range _ 50).symm.trans ?_
  refine Finset.sum_congr rfl fun j _ => ?_
  refine (rowsOf_apply idx tbl _ _ _).trans ?_
  exact tbl_congr idx tbl (Fin.ext (Nat.mod_eq_of_lt r.isLt)) (Fin.ext (Nat.mod_eq_of_lt j.isLt))
    (Fin.ext (by show 16 * (e.val % 128 / 16) + e.val % 16 = e.val; have := e.isLt; omega))

end Bag

end Cert.Bridge

end
-- ==== Proof.BridgeMlp.lean ====
/-
  The three layers agree, for every bag.

  At the exact instance a float is an extended real, a change of float format is the identity, and a
  shape cast to the same shape is the identity. So one layer of the kernel — the product of the
  (converted) input and the (converted) weight accumulated into the zero array, plus the bias row
  broadcast over the rows — is, entry by entry, the sum over k of a (i, k) · W (k, j) plus b (j);
  and so is one layer of the reference, the contraction of the input with the weight plus the bias
  broadcast twice. The two hyperbolic tangents are one function. The three layers composed are
  therefore equal, whatever the bag: no range and no finiteness is used.
-/
import proofs.«205252_g82703890252310_cont_sun_m_328_31_alg».proof.Proof.KernelIdeal.Spec
import proofs.«205252_g82703890252310_cont_sun_m_328_31_alg».proof.Proof.RefSpec
import Idealize.ShloMosaic.Lib.ValueLayout
import Idealize.ShloMosaic.Lib.Pipeline.Value
import Idealize.ShloMosaic.PureOps.Ideal.Laws

noncomputable section

namespace Cert.Bridge

open Idealize.ShloMosaic Idealize.ShloMosaic.ValueIdx

/-- The bias of a layer: a vector of N entries re-laid as one row and broadcast over M rows reads,
    at (p, c), entry c — and so does the vector broadcast to one row and then to M rows. -/
theorem bias_eq {α : Type} {M N : Nat} (b : (⟨1, ![N]⟩ : Shape).Idx → α)
    (hc1 : (⟨1, ![N]⟩ : Shape).ShapeCasts ⟨2, ![1, N]⟩) (hc2 : (⟨2, ![1, N]⟩ : Shape).ShapeCasts ⟨2, ![1, N]⟩)
    (hb : (⟨2, ![1, N]⟩ : Shape).Broadcasts ⟨2, ![M, N]⟩)
    (hd1 : (⟨1, ![N]⟩ : Shape).BroadcastsInDim ⟨2, ![1, N]⟩ (![1] : Fin 1 → Fin 2))
    (hd2 : (⟨2, ![1, N]⟩ : Shape).BroadcastsInDim ⟨2, ![M, N]⟩ (![0, 1] : Fin 2 → Fin 2)) :
    broadcastTo ⟨2, ![M, N]⟩ (shapeCast ⟨2, ![1, N]⟩ (shapeCast ⟨2, ![1, N]⟩ b hc1) hc2) hb
      = broadcastInDim ⟨2, ![M, N]⟩ ![0, 1] hd2 (broadcastInDim ⟨2, ![1, N]⟩ ![1] hd1 b) := by
  funext j
  obtain ⟨p, c, rfl⟩ : ∃ (p : Fin M) (c : Fin N), j = ix2 p c := ⟨j 0, j 1, eq_ix2 j⟩
  have hcN : c.val = if N = 1 then 0 else c.val := by
    split
    · have := c.isLt; omega
    · rfl
  rw [broadcastTo_1b_ab_apply, shapeCast_self, shapeCast_a_1a_apply]
  symm
  rw [broadcastInDim_apply ![0, 1] hd2 _ (ix2 p c) (ix2 (0 : Fin 1) c) (fun a => by
        match a with
        | ⟨0, _⟩ => rfl
        | ⟨1, _⟩ => exact hcN),
      broadcastInDim_apply ![1] hd1 b (ix2 (0 : Fin 1) c) (ix1 c) (fun a => by
        match a with
        | ⟨0, _⟩ => exact hcN)]

/-- The product of a layer: the kernel's, on the converted operands into the zero accumulator, is
    the reference's contraction; at every entry both are the sum of the products over the
    contracted axis. -/
theorem prod_eq {sl sr so : Shape} (d : DotDims sl sr so) (a : FVec Ideal sl .f32) (W : FVec Ideal sr .f32)
    (h1 h2 : FTy.bits .bf16 < FTy.bits .f32) (hc : sr.ShapeCasts sr) :
    matmul d none (truncf .bf16 a h1) (shapeCast sr (truncf .bf16 W h2) hc) (constant so .f32 0x00000000#32)
      = Host.dotGeneral d none a W := by
  funext j
  rw [shapeCast_self]
  refine (Ideal.matmul_constant_zero_apply d none _ _ j).trans ?_
  exact (Ideal.dotGeneral_apply d none .single a W j).symm

/-- One layer: product plus bias, the kernel's and the reference's. -/
theorem layer_eq {M K N : Nat} (d d' : DotDims ⟨2, ![M, K]⟩ ⟨2, ![K, N]⟩ ⟨2, ![M, N]⟩) (hd : d = d')
    (a : FVec Ideal ⟨2, ![M, K]⟩ .f32) (W : FVec Ideal ⟨2, ![K, N]⟩ .f32) (b : FVec Ideal ⟨1, ![N]⟩ .f32)
    (h1 h2 : FTy.bits .bf16 < FTy.bits .f32) (hc : (⟨2, ![K, N]⟩ : Shape).ShapeCasts ⟨2, ![K, N]⟩)
    (hc1 : (⟨1, ![N]⟩ : Shape).ShapeCasts ⟨2, ![1, N]⟩) (hc2 : (⟨2, ![1, N]⟩ : Shape).ShapeCasts ⟨2, ![1, N]⟩)
    (hb : (⟨2, ![1, N]⟩ : Shape).Broadcasts ⟨2, ![M, N]⟩)
    (hd1 : (⟨1, ![N]⟩ : Shape).BroadcastsInDim ⟨2, ![1, N]⟩ (![1] : Fin 1 → Fin 2))
    (hd2 : (⟨2, ![1, N]⟩ : Shape).BroadcastsInDim ⟨2, ![M, N]⟩ (![0, 1] : Fin 2 → Fin 2)) :
    addf (matmul d none (truncf .bf16 a h1) (shapeCast ⟨2, ![K, N]⟩ (truncf .bf16 W h2) hc) (constant ⟨2, ![M, N]⟩ .f32 0x00000000#32))
        (broadcastTo ⟨2, ![M, N]⟩ (shapeCast ⟨2, ![1, N]⟩ (shapeCast ⟨2, ![1, N]⟩ b hc1) hc2) hb)
      = addf (Host.dotGeneral d' none a W)
        (broadcastInDim ⟨2, ![M, N]⟩ ![0, 1] hd2 (broadcastInDim ⟨2, ![1, N]⟩ ![1] hd1 b)) := by
  subst hd
  rw [prod_eq, bias_eq b hc1 hc2 hb hd1 hd2]

/-- The hyperbolic tangent of the kernel's body and of the reference are one function. -/
theorem tanh_eq {s : Shape} (x : FVec Ideal s .f32) : tanh x = Host.tanh x := rfl

section Layers

variable [Cert.KernelIdeal.Facts] [Cert.ReferenceIdeal.Facts]

/-- The three layers of the reference and of the kernel are one function of the bag, the weights and
    the biases. -/
theorem mlp_eq (x : FVec Ideal Cert.KernelIdeal.S4096x128 .f32) (W1 : FVec Ideal Cert.KernelIdeal.S128x512 .f32)
    (b1 : FVec Ideal Cert.KernelIdeal.S512 .f32) (W2 : FVec Ideal Cert.KernelIdeal.S512x512 .f32)
    (b2 : FVec Ideal Cert.KernelIdeal.S512 .f32) (W3 : FVec Ideal Cert.KernelIdeal.S512x128 .f32)
    (b3 : FVec Ideal Cert.KernelIdeal.S128 .f32) :
    Cert.ReferenceIdeal.Hand.mlpR (F := Ideal) x W1 b1 W2 b2 W3 b3
      = Cert.KernelIdeal.Hand.mlpK (F := Ideal) x W1 b1 W2 b2 W3 b3 := by
  unfold Cert.KernelIdeal.Hand.mlpK Cert.KernelIdeal.Gen.k1_pay1 Cert.ReferenceIdeal.Hand.mlpR
  dsimp only
  rw [layer_eq Cert.KernelIdeal.dot_S4096x512_S512x128_S4096x128_1_0_0_1_n_n
        Cert.ReferenceIdeal.dot_S4096x512_S512x128_S4096x128_1_0_0_1_n_n rfl
        (hd1 := Cert.ReferenceIdeal.Facts₀.bcast_S128_S1x128_1) (hd2 := Cert.ReferenceIdeal.Facts₀.bcast_S1x128_S4096x128_0_1),
      layer_eq Cert.KernelIdeal.dot_S4096x512_S512x512_S4096x512_1_0_0_1_n_n
        Cert.ReferenceIdeal.dot_S4096x512_S512x512_S4096x512_1_0_0_1_n_n rfl
        (hd1 := Cert.ReferenceIdeal.Facts₀.bcast_S512_S1x512_1) (hd2 := Cert.ReferenceIdeal.Facts₀.bcast_S1x512_S4096x512_0_1),
      layer_eq Cert.KernelIdeal.dot_S4096x128_S128x512_S4096x512_1_0_0_1_n_n
        Cert.ReferenceIdeal.dot_S4096x128_S128x512_S4096x512_1_0_0_1_n_n rfl
        (hd1 := Cert.ReferenceIdeal.Facts₀.bcast_S512_S1x512_1) (hd2 := Cert.ReferenceIdeal.Facts₀.bcast_S1x512_S4096x512_0_1),
      shapeCast_self, tanh_eq, tanh_eq]

end Layers

end Cert.Bridge

end
-- ==== Proof.BridgeOut.lean ====
/-
  The two results are one function of the arguments, under the range of the index words.

  Under the range every index word names the table's row of its own number, so the reference's bag
  (the sum over the 50 positions of the rows the words name) and the kernel's bag (the same sum, each
  word kept inside the table) agree at every index; the three layers agree for every bag. Hence the
  reference's result, the layers on its bag, is the kernel's result.
-/
import proofs.«205252_g82703890252310_cont_sun_m_328_31_alg».proof.Proof.BridgeBag
import proofs.«205252_g82703890252310_cont_sun_m_328_31_alg».proof.Proof.BridgeMlp

noncomputable section

namespace Cert.Bridge

open Idealize.ShloMosaic Idealize.ShloMosaic.ValueIdx

variable [Cert.KernelIdeal.Facts] [Cert.ReferenceIdeal.Facts]

/-- The two bags agree when every index word is below 100000 and the reference's bag at an index is
    the sum of the rows the words name. -/
theorem bag_eq (idx : IVec Cert.KernelIdeal.S4096x50 32) (tbl : FVec Ideal Cert.KernelIdeal.S100000x128 .f32)
    (hn : ∀ i, (idx i).toNat < 100000)
    (hbagR : ∀ (r : Fin 4096) (e : Fin 128), Cert.ReferenceIdeal.Hand.bagR (F := Ideal) idx tbl (ix2 r e)
      = ∑ j : Fin 50, tbl (ix2 (⟨(idx (ix2 r j)).toNat, hn (ix2 r j)⟩ : Fin 100000) e)) :
    Cert.ReferenceIdeal.Hand.bagR (F := Ideal) idx tbl = Cert.KernelIdeal.Hand.bagK (F := Ideal) idx tbl := by
  funext i
  obtain ⟨r, e, rfl⟩ : ∃ (r : Fin 4096) (e : Fin 128), i = ix2 r e := ⟨i 0, i 1, eq_ix2 i⟩
  rw [hbagR, bagK_apply]
  refine Finset.sum_congr rfl fun j _ => ?_
  rw [rowIx_of_lt _ (hn (ix2 r j))]

/-- The reference's result is the kernel's, given the reference's bag at an index. -/
theorem out_eq_of_bag (idx : IVec Cert.KernelIdeal.S4096x50 32) (tbl : FVec Ideal Cert.KernelIdeal.S100000x128 .f32)
    (W1 : FVec Ideal Cert.KernelIdeal.S128x512 .f32) (b1 : FVec Ideal Cert.KernelIdeal.S512 .f32)
    (W2 : FVec Ideal Cert.KernelIdeal.S512x512 .f32) (b2 : FVec Ideal Cert.KernelIdeal.S512 .f32)
    (W3 : FVec Ideal Cert.KernelIdeal.S512x128 .f32) (b3 : FVec Ideal Cert.KernelIdeal.S128 .f32)
    (hn : ∀ i, (idx i).toNat < 100000)
    (hbagR : ∀ (r : Fin 4096) (e : Fin 128), Cert.ReferenceIdeal.Hand.bagR (F := Ideal) idx tbl (ix2 r e)
      = ∑ j : Fin 50, tbl (ix2 (⟨(idx (ix2 r j)).toNat, hn (ix2 r j)⟩ : Fin 100000) e)) :
    Cert.ReferenceIdeal.Hand.mlpR (F := Ideal) (Cert.ReferenceIdeal.Hand.bagR (F := Ideal) idx tbl) W1 b1 W2 b2 W3 b3
      = Cert.KernelIdeal.Hand.outK (F := Ideal) idx tbl W1 b1 W2 b2 W3 b3 := by
  rw [bag_eq idx tbl hn hbagR]
  exact mlp_eq _ W1 b1 W2 b2 W3 b3

end Cert.Bridge

end
-- ==== Proof.RefValue.lean ====
/-
  The reference's bag read at an index: under the index range every start index is kept by the
  first select, every row is kept by the masking select, the gather reads the table's row at the
  index, and the float sum over the fifty positions is the exact sum.
-/
import proofs.«205252_g82703890252310_cont_sun_m_328_31_alg».proof.Proof.RefSpec
import Idealize.ShloMosaic.Lib.ValueIdx
import Idealize.ShloMosaic.Lib.IdealHost
import Idealize.ShloMosaic.Lib.ReduceAll
import Idealize.ShloMosaic.PureOps.Ideal.Laws

noncomputable section

namespace Cert.ReferenceIdeal.Hand

open Idealize.ShloMosaic Idealize.ShloMosaic.ValueIdx Idealize.SL.Sem
open Cert.ReferenceIdeal Cert.ReferenceIdeal.Facts₀ Cert.ReferenceIdeal.Facts
open scoped BigOperators

variable [Cert.ReferenceIdeal.Facts]

/-! ## Words in range -/

/-- A 32-bit word whose signed value lies in [0, 99999] has that value as its unsigned one. -/
theorem toNat_of_range (x : BitVec 32) (h0 : 0 ≤ x.toInt) (h1 : x.toInt ≤ 99999) :
    x.toInt.toNat = x.toNat ∧ x.toNat < 100000 := by
  have hlt := x.isLt
  rw [BitVec.toInt_eq_toNat_cond] at h0 h1 ⊢
  split at h0 <;> omega

/-- The range hypothesis in its other usual form: the unsigned value below 100000 (so the sign bit clear). -/
theorem range_of_toNat (x : BitVec 32) (h : x.toNat < 100000) : 0 ≤ x.toInt ∧ x.toInt ≤ 99999 := by
  rw [BitVec.toInt_eq_toNat_cond]
  split <;> omega

/-- An index in range, as a row number of the table. -/
theorem idx_lt (idx : IVec S4096x50 32) (hr : ∀ i, 0 ≤ (idx i).toInt ∧ (idx i).toInt ≤ 99999) (i : S4096x50.Idx) :
    (idx i).toNat < 100000 :=
  (toNat_of_range (idx i) (hr i).1 (hr i).2).2

/-- A left fold by "and" from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-! ## The stages at an index -/

/-- @_where's select keeps an index that is not negative: the comparison with zero is 0. -/
theorem wrapR_apply (idx : IVec S4096x50 32) (i : S4096x50.Idx) (h0 : 0 ≤ (idx i).toInt) : wrapR idx i = idx i := by
  show Scalar.select (IntOp.cmpi .slt (idx i) 0#32) (IntOp.addi (idx i) 100000#32) (idx i) = idx i
  have hc : IntOp.cmpi .slt (idx i) 0#32 = 0#1 := eq_zero_of_ne_one fun h => by
    have := IntOp.cmpi_slt.1 h
    rw [show (0#32 : BitVec 32).toInt = 0 from by decide] at this
    omega
  rw [hc, select_zero]

/-- A start index is a wrapped index: the broadcast only adds the unit axis. -/
theorem startR_apply (idx : IVec S4096x50 32) (r : Fin 4096) (k : Fin 50) (z : Fin 1) :
    startR idx (ix3 r k z) = wrapR idx (ix2 r k) := by
  unfold startR broadcastInDim
  refine congrArg (wrapR idx) (funext fun a => Fin.ext ?_)
  match a with
  | ⟨0, _⟩ => rfl
  | ⟨1, _⟩ => rfl

/-- Under the index range every position passes both range tests, so their conjunction reduced over the
    unit axis is 1 everywhere. -/
theorem okR_eq_one (idx : IVec S4096x50 32) (hr : ∀ i, 0 ≤ (idx i).toInt ∧ (idx i).toInt ≤ 99999) (j : S4096x50.Idx) :
    okR idx j = 1#1 := by
  unfold okR
  rw [Host.reduce_eq_foldl]
  generalize List.filter _ _ = l
  refine foldl_andi_one _ (fun i => ?_) l
  obtain ⟨a, b, c, rfl⟩ : ∃ a b c, i = ix3 a b c := ⟨i 0, i 1, i 2, eq_ix3 i⟩
  show IntOp.andi (IntOp.cmpi .sge (startR idx (ix3 a b c)) 0#32) (IntOp.cmpi .sle (startR idx (ix3 a b c)) 99999#32) = 1#1
  rw [startR_apply, wrapR_apply idx _ (hr _).1]
  refine IntOp.andi_eq_one.2 ⟨IntOp.cmpi_sge.2 ?_, IntOp.cmpi_sle.2 ?_⟩
  · rw [show (0#32 : BitVec 32).toInt = 0 from by decide]; exact (hr _).1
  · rw [show (99999#32 : BitVec 32).toInt = 99999 from by decide]; exact (hr _).2

/-- THE GATHER READ AT (r, k, e): the table's row at the start index read signed and clamped into
    [0, 99999], column e. Axis 0 of the table is collapsed and named by the start index map, so its
    coordinate is the clamped start alone; axis 1 is the offset axis, so its coordinate is e alone. -/
theorem gather_apply {α : Type} (tbl : S100000x128.Idx → α) (st : IVec S4096x50x1 32) (r : Fin 4096) (k : Fin 50)
    (e : Fin 128) :
    Host.gather gather_S100000x128_S4096x50x1_S4096x50x128_2_0_n_n_0_2_1128 tbl st (ix3 r k e)
      = tbl (ix2 (⟨min (st (ix3 r k (0 : Fin 1))).toInt.toNat 99999, by omega⟩ : Fin 100000) e) := by
  unfold Host.gather
  refine congrArg tbl (funext fun a => Fin.ext ?_)
  match a with
  | ⟨0, _⟩ =>
    show GatherDims.start _ (ix3 r k e) st 0 + GatherDims.batchCoord _ (ix3 r k e) 0 + GatherDims.offCoord _ (ix3 r k e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x128_S4096x50x1_S4096x50x128_2_0_n_n_0_2_1128.startIndexMap
      from List.mem_singleton.mpr rfl)]
    have hsi : gather_S100000x128_S4096x50x1_S4096x50x128_2_0_n_n_0_2_1128.siIdx (ix3 r k e)
        ⟨List.idxOf (0 : Fin 2) gather_S100000x128_S4096x50x1_S4096x50x128_2_0_n_n_0_2_1128.startIndexMap,
          List.idxOf_lt_length_iff.2 (List.mem_singleton.mpr rfl)⟩ = ix3 r k (0 : Fin 1) := by
      funext b; refine Fin.ext ?_
      match b with
      | ⟨0, _⟩ => rfl
      | ⟨1, _⟩ => rfl
      | ⟨2, _⟩ => rfl
    rw [hsi]
    rfl
  | ⟨1, _⟩ =>
    show GatherDims.start _ (ix3 r k e) st 1 + GatherDims.batchCoord _ (ix3 r k e) 1 + GatherDims.offCoord _ (ix3 r k e) 1 = _
    rw [GatherDims.batchCoord_eq_zero _ _ _ List.not_mem_nil]
    unfold GatherDims.start
    rw [dif_neg (show (1 : Fin 2) ∉ gather_S100000x128_S4096x50x1_S4096x50x128_2_0_n_n_0_2_1128.startIndexMap
      from fun h => absurd (List.mem_singleton.mp h) (by decide))]
    unfold GatherDims.offCoord
    rw [dif_pos (show (1 : Fin 2) ∈ gather_S100000x128_S4096x50x1_S4096x50x128_2_0_n_n_0_2_1128.sKept
      from (GatherDims.mem_sKept _ _).mpr
        ⟨fun h => absurd (List.mem_singleton.mp h) (by decide), List.not_mem_nil⟩)]
    rw [Nat.add_zero, Nat.zero_add]
    rfl

/-- @_take's result at (r, k, e) under the index range: the mask is 1, so the masking select keeps the
    gathered element; the start index is the index itself, its signed value its unsigned one and already
    inside [0, 99999], so the clamp keeps it. -/
theorem takeR_apply (idx : IVec S4096x50 32) (tbl : FVec Ideal S100000x128 .f32)
    (hr : ∀ i, 0 ≤ (idx i).toInt ∧ (idx i).toInt ≤ 99999) (r : Fin 4096) (k : Fin 50) (e : Fin 128) :
    takeR (F := Ideal) idx tbl (ix3 r k e)
      = tbl (ix2 (⟨(idx (ix2 r k)).toNat, idx_lt idx hr (ix2 r k)⟩ : Fin 100000) e) := by
  unfold takeR
  rw [select_apply]
  have hm : broadcastInDim S4096x50x128 ![0, 1] bcast_S4096x50_S4096x50x128_0_1 (okR idx) (ix3 r k e) = 1#1 :=
    okR_eq_one idx hr _
  rw [hm, select_one, gather_apply]
  refine congrArg (fun n : Fin 100000 => tbl (ix2 n e)) (Fin.ext ?_)
  show min (startR idx (ix3 r k (0 : Fin 1))).toInt.toNat 99999 = (idx (ix2 r k)).toNat
  rw [startR_apply, wrapR_apply idx _ (hr _).1]
  have h := toNat_of_range (idx (ix2 r k)) (hr _).1 (hr _).2
  omega

/-- THE BAG READ AT (r, e): the sum over the fifty positions j of the table's row at index (r, j),
    column e. The host's float sum at the ideal values is the initial value, zero, plus the exact sum over
    the reduced axis's coordinates. -/
theorem bagR_apply (idx : IVec S4096x50 32) (tbl : FVec Ideal S100000x128 .f32)
    (hr : ∀ i, 0 ≤ (idx i).toInt ∧ (idx i).toInt ≤ 99999) (r : Fin 4096) (e : Fin 128) :
    bagR (F := Ideal) idx tbl (ix2 r e)
      = ∑ j : Fin 50, tbl (ix2 (⟨(idx (ix2 r j)).toNat, idx_lt idx hr (ix2 r j)⟩ : Fin 100000) e) := by
  have h : S4096x50x128.Reduces [1] S4096x128 := by decide
  unfold bagR
  rw [hostReduceAdd_apply, Ideal.hostReduceAdd_single _ h,
    show (constant (F := Ideal) S_ .f32 0x00000000#32) (Shape.Idx.first h_S_) = 0 from Ideal.ofBits_zero_f32, zero_add]
  show ∑ k : Fin 50, takeR (F := Ideal) idx tbl (h.lift (ix2 r e) k) = _
  refine Finset.sum_congr rfl fun k _ => ?_
  rw [show h.lift (ix2 r e) k = ix3 r k e from funext fun a => Fin.ext (by
    match a with
    | ⟨0, _⟩ => rfl
    | ⟨1, _⟩ => rfl
    | ⟨2, _⟩ => rfl)]
  exact takeR_apply idx tbl hr r k e

/-- The same under the range stated on the unsigned values. -/
theorem bagR_apply_of_toNat (idx : IVec S4096x50 32) (tbl : FVec Ideal S100000x128 .f32)
    (hn : ∀ i, (idx i).toNat < 100000) (r : Fin 4096) (e : Fin 128) :
    bagR (F := Ideal) idx tbl (ix2 r e)
      = ∑ j : Fin 50, tbl (ix2 (⟨(idx (ix2 r j)).toNat, hn (ix2 r j)⟩ : Fin 100000) e) :=
  bagR_apply idx tbl (fun i => range_of_toNat (idx i) (hn i)) r e

end Cert.ReferenceIdeal.Hand

end
-- ==== Proof.BridgeOutRef.lean ====
/-
  The closed form: under the range of the index words, stated on their signed values, the
  reference's result is the kernel's. The reference's bag at an index is the sum of the rows the
  words name; a word whose signed value lies in [0, 99999] is below 100000 unsigned.
-/
import proofs.«205252_g82703890252310_cont_sun_m_328_31_alg».proof.Proof.BridgeOut
import proofs.«205252_g82703890252310_cont_sun_m_328_31_alg».proof.Proof.RefValue
import proofs.«205252_g82703890252310_cont_sun_m_328_31_alg».proof.Proof.PreRange

noncomputable section

namespace Cert.Bridge

open Idealize.ShloMosaic Idealize.ShloMosaic.ValueIdx

variable [Cert.KernelIdeal.Facts] [Cert.ReferenceIdeal.Facts]

/-- Under the range, the layers on the reference's bag are the kernel's result. -/
theorem out_eq (idx : IVec Cert.KernelIdeal.S4096x50 32) (tbl : FVec Ideal Cert.KernelIdeal.S100000x128 .f32)
    (W1 : FVec Ideal Cert.KernelIdeal.S128x512 .f32) (b1 : FVec Ideal Cert.KernelIdeal.S512 .f32)
    (W2 : FVec Ideal Cert.KernelIdeal.S512x512 .f32) (b2 : FVec Ideal Cert.KernelIdeal.S512 .f32)
    (W3 : FVec Ideal Cert.KernelIdeal.S512x128 .f32) (b3 : FVec Ideal Cert.KernelIdeal.S128 .f32)
    (hr : ∀ i, 0 ≤ (idx i).toInt ∧ (idx i).toInt ≤ 99999) :
    Cert.ReferenceIdeal.Hand.mlpR (F := Ideal) (Cert.ReferenceIdeal.Hand.bagR (F := Ideal) idx tbl) W1 b1 W2 b2 W3 b3
      = Cert.KernelIdeal.Hand.outK (F := Ideal) idx tbl W1 b1 W2 b2 W3 b3 :=
  out_eq_of_bag idx tbl W1 b1 W2 b2 W3 b3 (fun i => toNat_lt_of_range _ (hr i))
    (fun r e => Cert.ReferenceIdeal.Hand.bagR_apply idx tbl hr r e)

end Cert.Bridge

end
-- ==== Proof.lean ====
/-
  The five claims.

  The kernel program is two stages on one device. The first runs on the 32 vector subcores of the two
  SparseCores: each takes 128 rows of the index array and, row by row, gathers the 50 table rows the
  row's words name and adds them up, eight groups of sixteen lanes at a time, into its rows of the bag.
  The second runs on the TensorCore: three layers (a product with a weight matrix converted to the
  narrower float format, a bias added, and after the first two a hyperbolic tangent) applied to the bag.
  Under the precondition every index word lies in [0, 99999], so every gather names a row of the table.

  The run of the kernel program, proved once for any float instance, ends with every argument array as
  launched and the result array at one pure function of the eight arguments, the layers of the bag.
  Read at the word-level instance with the value dropped it is the kernel's frame; read at the ideal
  instance with the value dropped it is the idealized kernel's frame. The idealization rewrote nothing,
  so there is nothing to preserve. The reference's run ends with the arguments as launched and the result
  at the reference's own layers of the reference's own bag (a masked gather summed over the 50
  positions); with the value dropped it is the reference's frame. At the ideal instance, from memories
  that agree on the arguments, the two results are equal: under the range of the index words the mask
  is all true and each word names the row of its own number, so the two bags are the same sums in the
  same order, and the layers are the same arithmetic on them.
-/
import proofs.«205252_g82703890252310_cont_sun_m_328_31_alg».proof.Defs
import proofs.«205252_g82703890252310_cont_sun_m_328_31_alg».proof.Proof.Gen.Kernel
import proofs.«205252_g82703890252310_cont_sun_m_328_31_alg».proof.Proof.Gen.Kernel.Skeleton
import proofs.«205252_g82703890252310_cont_sun_m_328_31_alg».proof.Proof.Gen.Kernel.Launch
import proofs.«205252_g82703890252310_cont_sun_m_328_31_alg».proof.Proof.Gen.Kernel.Points
import proofs.«205252_g82703890252310_cont_sun_m_328_31_alg».proof.Proof.Gen.KernelIdeal
import proofs.«205252_g82703890252310_cont_sun_m_328_31_alg».proof.Proof.Gen.KernelIdeal.Skeleton
import proofs.«205252_g82703890252310_cont_sun_m_328_31_alg».proof.Proof.Gen.KernelIdeal.Launch
import proofs.«205252_g82703890252310_cont_sun_m_328_31_alg».proof.Proof.Gen.KernelIdeal.Points
import proofs.«205252_g82703890252310_cont_sun_m_328_31_alg».proof.Proof.Gen.ReferenceIdeal
import proofs.«205252_g82703890252310_cont_sun_m_328_31_alg».proof.Proof.Gen.Pre_input_domain
import proofs.«205252_g82703890252310_cont_sun_m_328_31_alg».proof.Proof.Kernel.Launch
import proofs.«205252_g82703890252310_cont_sun_m_328_31_alg».proof.Proof.KernelIdeal.Launch
import proofs.«205252_g82703890252310_cont_sun_m_328_31_alg».proof.Proof.RefRun
import proofs.«205252_g82703890252310_cont_sun_m_328_31_alg».proof.Proof.BridgeOutRef
import Idealize.ShloMosaic.Adequacy
import Idealize.ShloMosaic.Init

noncomputable section

namespace Cert.Proof

open Idealize.ShloMosaic Idealize.SL.Sem

/-- The kernel's frame: its run at the word-level instance, the value dropped. -/
theorem frame_k : @Cert.frame_Kernel Cert.Kernel.Gen.facts Cert.Pre_input_domain.Gen.facts := by
  letI := Cert.Kernel.Gen.facts
  letI := Cert.Pre_input_domain.Gen.facts
  intro m ρ hpre
  exact (θ_run Cert.Kernel.defs _ _).mono (fun _ h c => (h c).2)
    (Cert.Kernel.Hand.run_main (F := Bits) m ρ (Cert.Kernel.Hand.ok_of_pre (F := Bits) m hpre))

/-- The idealized kernel's frame: the same run at the ideal instance, the value dropped. -/
theorem frame_ki : @Cert.frame_KernelIdeal Cert.KernelIdeal.Gen.facts Cert.Pre_input_domain.Gen.facts := by
  letI := Cert.KernelIdeal.Gen.facts
  letI := Cert.Pre_input_domain.Gen.facts
  intro m ρ hpre
  exact (θ_run Cert.KernelIdeal.defs _ _).mono (fun _ h c => (h c).2)
    (Cert.KernelIdeal.Hand.run_main (F := Ideal) m ρ (Cert.KernelIdeal.Hand.ok_of_pre (F := Ideal) m hpre))

/-- The reference's frame: its run, the value dropped. -/
theorem frame_ri : @Cert.frame_ReferenceIdeal Cert.ReferenceIdeal.Gen.facts Cert.Pre_input_domain.Gen.facts := by
  letI := Cert.ReferenceIdeal.Gen.facts
  letI := Cert.Pre_input_domain.Gen.facts
  intro m ρ _
  exact (θ_run Cert.ReferenceIdeal.defs _ _).mono (fun _ h c => (h c).2) (Cert.ReferenceIdeal.Hand.run (F := Ideal) m ρ)

/-- At the ideal instance the idealized kernel's result array ends at the kernel's function of the arguments and the
    reference's at the reference's layers of the reference's bag, of arguments that agree; under the range of the index
    words the two are one function. -/
theorem algebraic : @Cert.algebraic_KernelIdeal_ReferenceIdeal Cert.KernelIdeal.Gen.facts Cert.ReferenceIdeal.Gen.facts Cert.Pre_input_domain.Gen.facts := by
  letI := Cert.KernelIdeal.Gen.facts
  letI := Cert.ReferenceIdeal.Gen.facts
  letI := Cert.Pre_input_domain.Gen.facts
  intro m ρ m' ρ' hpre hagree
  refine ⟨_, Cert.KernelIdeal.Hand.run_main (F := Ideal) m ρ (Cert.KernelIdeal.Hand.ok_of_pre (F := Ideal) m hpre), ?_⟩
  refine (θ_run Cert.ReferenceIdeal.defs _ _).mono (fun _ h c => ⟨(h c).1.trans ?_, (h c).2⟩)
    (Cert.ReferenceIdeal.Hand.run (F := Ideal) m' ρ')
  obtain ⟨e0, e1, e2, e3, e4, e5, e6, e7⟩ := hagree c
  rw [e0, e1, e2, e3, e4, e5, e6, e7]
  exact Cert.Bridge.out_eq _ _ _ _ _ _ _ _ (Cert.Bridge.range_of_pre (F := Ideal) _ _ _ _ _ _ _ _ (hpre c))

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
